-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S2x2048 : Shape := ⟨2, ![2, 2048]⟩
abbrev S1024 : Shape := ⟨1, ![1024]⟩
abbrev S1024x1024 : Shape := ⟨2, ![1024, 1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_

variable [Facts]

def fn_part2 {F : FTy → Type} [FloatOps F] (main_arg8 : FVec F S1024x1024 .f32) (main_arg9 : FVec F S1024 .f32) (main_v33 : IVec S_ 1) : IVec S_ 1 :=
  let main_v34 : FVec F S1024x1024 .f32 := Host.absf main_arg8
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg9
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg5 : FVec F S1024 .f32) (main_arg6 : FVec F S1024x1024 .f32) (main_arg7 : FVec F S1024 .f32) (main_arg8 : FVec F S1024x1024 .f32) (main_arg9 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg5
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg6
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg7
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg8 main_arg9 main_v33

def fn {F : FTy → Type} [FloatOps F] (main_arg0 : FVec F S2x2048x1024 .f32) (main_arg1 : IVec S2x2048 32) (main_arg2 : FVec F S1024 .f32) (main_arg3 : FVec F S1024 .f32) (main_arg4 : FVec F S1024x1024 .f32) (main_arg5 : FVec F S1024 .f32) (main_arg6 : FVec F S1024x1024 .f32) (main_arg7 : FVec F S1024 .f32) (main_arg8 : FVec F S1024x1024 .f32) (main_arg9 : FVec F S1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1024 .f32 := Host.absf main_arg2
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg4
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg5 main_arg6 main_arg7 main_arg8 main_arg9 main_v13 main_v16
-- ==== Kernel.lean ====
abbrev S2x2048x1024 : Shape := ⟨3, ![2, 2048, 1024]⟩
abbrev S2x2048 : Shape := ⟨2, ![2, 2048]⟩
abbrev S1024 : Shape := ⟨1, ![1024]⟩
abbrev S1024x1024 : Shape := ⟨2, ![1024, 1024]⟩
abbrev S1x512x1024 : Shape := ⟨3, ![1, 512, 1024]⟩
abbrev S512x1024 : Shape := ⟨2, ![512, 1024]⟩
abbrev S512 : Shape := ⟨1, ![512]⟩
abbrev S512x1 : Shape := ⟨2, ![512, 1]⟩
abbrev S1x1024 : Shape := ⟨2, ![1, 1024]⟩
abbrev S_ : Shape := ⟨0, ![]⟩
abbrev S2x1x2048 : Shape := ⟨3, ![2, 1, 2048]⟩
abbrev S1x256x1024 : Shape := ⟨3, ![1, 256, 1024]⟩
abbrev S1x1x512 : Shape := ⟨3, ![1, 1, 512]⟩
abbrev S16x256x1 : Shape := ⟨3, ![16, 256, 1]⟩
abbrev S16x256x64 : Shape := ⟨3, ![16, 256, 64]⟩
abbrev S256x1024 : Shape := ⟨2, ![256, 1024]⟩
abbrev S256x16x64 : Shape := ⟨3, ![256, 16, 64]⟩
abbrev S512x16x64 : Shape := ⟨3, ![512, 16, 64]⟩
abbrev S16x512x64 : Shape := ⟨3, ![16, 512, 64]⟩
abbrev S16x256x512 : Shape := ⟨3, ![16, 256, 512]⟩
abbrev S1x512 : Shape := ⟨2, ![1, 512]⟩
abbrev S16x256 : Shape := ⟨2, ![16, 256]⟩

abbrev nBuf : Space → Nat
  | .hbm => 25
  | .vmem => 31
  | .smem => 0
  | _ => 0

abbrev bufTy : (tb : Table) → Fin (tcTables nBuf tb) → BufTy
  | .hbm, ⟨0, _⟩ => ⟨S2x2048x1024, .f32⟩
  | .hbm, ⟨1, _⟩ => ⟨S2x2048, .i32⟩
  | .hbm, ⟨2, _⟩ => ⟨S1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S1024x1024, .bf16⟩
  | .hbm, ⟨11, _⟩ => ⟨S1024x1024, .bf16⟩
  | .hbm, ⟨12, _⟩ => ⟨S1024x1024, .bf16⟩
  | .hbm, ⟨13, _⟩ => ⟨S2x2048x1024, .bf16⟩
  | .hbm, ⟨14, _⟩ => ⟨S2x2048x1024, .bf16⟩
  | .hbm, ⟨15, _⟩ => ⟨S2x2048x1024, .bf16⟩
  | .hbm, ⟨16, _⟩ => ⟨S2x2048, .f32⟩
  | .hbm, ⟨17, _⟩ => ⟨S_, .f32⟩
  | .hbm, ⟨18, _⟩ => ⟨S2x2048, .f32⟩
  | .hbm, ⟨19, _⟩ => ⟨S2x2048, .f32⟩
  | .hbm, ⟨20, _⟩ => ⟨S_, .f32⟩
  | .hbm, ⟨21, _⟩ => ⟨S2x2048, .f32⟩
  | .hbm, ⟨22, _⟩ => ⟨S2x2048, .f32⟩
  | .hbm, ⟨23, _⟩ => ⟨S2x1x2048, .f32⟩
  | .hbm, ⟨24, _⟩ => ⟨S2x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1024, .f32⟩
  | .local _ .vmem, ⟨3, _⟩ => ⟨S1024, .f32⟩
  | .local _ .vmem, ⟨4, _⟩ => ⟨S1024x1024, .bf16⟩
  | .local _ .vmem, ⟨5, _⟩ => ⟨S1024, .f32⟩
  | .local _ .vmem, ⟨6, _⟩ => ⟨S1024x1024, .bf16⟩
  | .local _ .vmem, ⟨7, _⟩ => ⟨S1024, .f32⟩
  | .local _ .vmem, ⟨8, _⟩ => ⟨S1024x1024, .bf16⟩
  | .local _ .vmem, ⟨9, _⟩ => ⟨S1024, .f32⟩
  | .local _ .vmem, ⟨10, _⟩ => ⟨S1x512x1024, .bf16⟩
  | .local _ .vmem, ⟨11, _⟩ => ⟨S1x512x1024, .bf16⟩
  | .local _ .vmem, ⟨12, _⟩ => ⟨S1x512x1024, .bf16⟩
  | .local _ .vmem, ⟨13, _⟩ => ⟨S1x512x1024, .bf16⟩
  | .local _ .vmem, ⟨14, _⟩ => ⟨S1x512x1024, .bf16⟩
  | .local _ .vmem, ⟨15, _⟩ => ⟨S1x512x1024, .bf16⟩
  | .local _ .vmem, ⟨16, _⟩ => ⟨S1x256x1024, .bf16⟩
  | .local _ .vmem, ⟨17, _⟩ => ⟨S1x256x1024, .bf16⟩
  | .local _ .vmem, ⟨18, _⟩ => ⟨S1x512x1024, .bf16⟩
  | .local _ .vmem, ⟨19, _⟩ => ⟨S1x512x1024, .bf16⟩
  | .local _ .vmem, ⟨20, _⟩ => ⟨S1x512x1024, .bf16⟩
  | .local _ .vmem, ⟨21, _⟩ => ⟨S1x512x1024, .bf16⟩
  | .local _ .vmem, ⟨22, _⟩ => ⟨S1x1x512, .f32⟩
  | .local _ .vmem, ⟨23, _⟩ => ⟨S1x1x512, .f32⟩
  | .local _ .vmem, ⟨24, _⟩ => ⟨S1x256x1024, .f32⟩
  | .local _ .vmem, ⟨25, _⟩ => ⟨S1x256x1024, .f32⟩
  | .local _ .vmem, ⟨26, _⟩ => ⟨S1x256x1024, .f32⟩
  | .local _ .vmem, ⟨27, _⟩ => ⟨S1x256x1024, .f32⟩
  | .local _ .vmem, ⟨28, _⟩ => ⟨S16x256x1, .f32⟩
  | .local _ .vmem, ⟨29, _⟩ => ⟨S16x256x1, .f32⟩
  | .local _ .vmem, ⟨30, _⟩ => ⟨S16x256x64, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3_0 : Ref sig .tc := ⟨.hbm, 13, rfl⟩
abbrev main_v3_1 : Ref sig .tc := ⟨.hbm, 14, rfl⟩
abbrev main_v3_2 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_v6 : Ref sig .tc := ⟨.hbm, 19, rfl⟩
abbrev main_cst_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_scratch0 : Ref sig .tc := ⟨.vmem, 28, rfl⟩
abbrev cc1_scratch1 : Ref sig .tc := ⟨.vmem, 29, rfl⟩
abbrev cc1_scratch2 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev grid1 : Pipeline.Grid := ⟨3, ![2, 8, 4], ![false, false, false]⟩

def k1_cond2 (i : grid1.Coords) : BitVec 1 :=
  let arg2 : BitVec 32 := BitVec.ofNat 32 (i 2).val
  let c3_i32 : BitVec 32 := 3#32
  let v54 : BitVec 1 := Scalar.cmpi .eq arg2 c3_i32
  let v55 : BitVec 32 := Scalar.extui v54
  let c0_i32_37 : BitVec 32 := 0#32
  let v56 : BitVec 1 := Scalar.cmpi .ne v55 c0_i32_37
  v56

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_5 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x1x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false, true]

abbrev stage1_4 : Fin 2 → Memref sig .tc .vmem S1x256x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

abbrev stage1_5 : Fin 2 → Memref sig .tc .vmem S1x256x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]

class Facts₀ : Prop where
  bitsLt_bf16_f32 : FTy.bits .bf16 < FTy.bits .f32
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  reduces_S512x1024_S512 : S512x1024.Reduces [1] S512
  shapeCasts_S512_S512x1 : S512.ShapeCasts S512x1
  broadcasts_S512x1_S512x1024 : S512x1.Broadcasts S512x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S512x1024_S1x512x1024 : S512x1024.ShapeCasts S1x512x1024
  packedbf16_S1x512x1024_S1x512x1024_0_0_0 : (Rect.unit (s := S1x512x1024) ![0, 0, 0] S1x512x1024.size inb_S1x512x1024_S1x512x1024_0_0_0).PackedRows (EltTy.packing .bf16)
  bcast_S_S2x2048 : S_.BroadcastsInDim S2x2048 (![] : Fin 0 → Fin S2x2048.rank)
  shapeCasts_S2x2048_S2x1x2048 : S2x2048.ShapeCasts S2x1x2048
  inb_S16x256x1_S16x256x1_0_0_0 : ∀ a, (![0, 0, 0] : Fin 3 → Nat) a + S16x256x1.size a ≤ S16x256x1.size a
  h_S16x256x1 : 0 < S16x256x1.numel
  shapeCasts_S16x256x1_S16x256x1 : S16x256x1.ShapeCasts S16x256x1
  inb_S16x256x64_S16x256x64_0_0_0 : ∀ a, (![0, 0, 0] : Fin 3 → Nat) a + S16x256x64.size a ≤ S16x256x64.size a
  h_S16x256x64 : 0 < S16x256x64.numel
  shapeCasts_S16x256x64_S16x256x64 : S16x256x64.ShapeCasts S16x256x64
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  shapeCasts_S256x1024_S256x16x64 : S256x1024.ShapeCasts S256x16x64
  transposes_S256x16x64_p1_0_2_S16x256x64 : S256x16x64.Transposes [1, 0, 2] S16x256x64
  shapeCasts_S512x1024_S512x16x64 : S512x1024.ShapeCasts S512x16x64
  transposes_S512x16x64_p1_0_2_S16x512x64 : S512x16x64.Transposes [1, 0, 2] S16x512x64
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  shapeCasts_S1x512_S1x1x512 : S1x512.ShapeCasts S1x1x512
  shapeCasts_S1x1x512_S1x1x512 : S1x1x512.ShapeCasts S1x1x512
  broadcasts_S1x1x512_S16x256x512 : S1x1x512.Broadcasts S16x256x512
  reduces_S16x256x512_S16x256 : S16x256x512.Reduces [2] S16x256
  shapeCasts_S16x256_S16x256x1 : S16x256.ShapeCasts S16x256x1
  broadcasts_S16x256x1_S16x256x512 : S16x256x1.Broadcasts S16x256x512
  broadcasts_S16x256x1_S16x256x64 : S16x256x1.Broadcasts S16x256x64
  transposes_S16x256x64_p1_0_2_S256x16x64 : S16x256x64.Transposes [1, 0, 2] S256x16x64
  shapeCasts_S256x16x64_S256x1024 : S256x16x64.ShapeCasts S256x1024
  shapeCasts_S256x1024_S1x256x1024 : S256x1024.ShapeCasts S1x256x1024
  dot_S512x1024_S1024x1024_S512x1024_1_0_0_1_n_n_wf : DotDims.WF S512x1024 S1024x1024 S512x1024 [1] [0] [0] [1] [] []
  dot_S16x256x64_S16x512x64_S16x256x512_2_2_1_1_0_0_wf : DotDims.WF S16x256x64 S16x512x64 S16x256x512 [2] [2] [1] [1] [0] [0]
  dot_S16x256x512_S16x512x64_S16x256x64_2_1_1_2_0_0_wf : DotDims.WF S16x256x512 S16x512x64 S16x256x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S2x2048x1024.size a
  hwx0_0 : ∀ i : grid0.Coords, EltTy.bits .f32 = 32 ∨ (Rect.block (s := S2x2048x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024.size a ≤ S1024.size a
  hwx0_1 : ∀ i : grid0.Coords, EltTy.bits .f32 = 32 ∨ (Rect.block (s := S1024) S1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S1024.size a
  hwx0_4 : ∀ i : grid0.Coords, EltTy.bits .f32 = 32 ∨ (Rect.block (s := S1024) S1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024.size a ≤ S1024.size a
  hwx0_6 : ∀ i : grid0.Coords, EltTy.bits .f32 = 32 ∨ (Rect.block (s := S1024) S1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S1024x1024.size a
  hwx0_7 : ∀ i : grid0.Coords, EltTy.bits .bf16 = 32 ∨ (Rect.block (s := S1024x1024) S1024x1024.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024.size a ≤ S1024.size a
  hwx0_8 : ∀ i : grid0.Coords, EltTy.bits .f32 = 32 ∨ (Rect.block (s := S1024) S1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x512x1024.size a ≤ S2x2048x1024.size a
  hwx0_9 : ∀ i : grid0.Coords, EltTy.bits .bf16 = 32 ∨ (Rect.block (s := S2x2048x1024) S1x512x1024.size (cc0_transform_9 i) (hinb0_9 i)).WholeWords (EltTy.packing .bf16)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x512x1024.size a ≤ S2x2048x1024.size a
  hwx0_10 : ∀ i : grid0.Coords, EltTy.bits .bf16 = 32 ∨ (Rect.block (s := S2x2048x1024) S1x512x1024.size (cc0_transform_10 i) (hinb0_10 i)).WholeWords (EltTy.packing .bf16)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x512x1024.size a ≤ S2x2048x1024.size a
  hwx0_11 : ∀ i : grid0.Coords, EltTy.bits .bf16 = 32 ∨ (Rect.block (s := S2x2048x1024) S1x512x1024.size (cc0_transform_11 i) (hinb0_11 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x1024.size a ≤ S2x2048x1024.size a
  hwx1_0 : ∀ i : grid1.Coords, EltTy.bits .bf16 = 32 ∨ (Rect.block (s := S2x2048x1024) S1x256x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x1024.size a ≤ S2x2048x1024.size a
  hwx1_1 : ∀ i : grid1.Coords, EltTy.bits .bf16 = 32 ∨ (Rect.block (s := S2x2048x1024) S1x512x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x1024.size a ≤ S2x2048x1024.size a
  hwx1_2 : ∀ i : grid1.Coords, EltTy.bits .bf16 = 32 ∨ (Rect.block (s := S2x2048x1024) S1x512x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x512.size a ≤ S2x1x2048.size a
  hwx1_3 : ∀ i : grid1.Coords, EltTy.bits .f32 = 32 ∨ (Rect.block (s := S2x1x2048) S1x1x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x256x1024.size a ≤ S2x2048x1024.size a
  hwx1_4 : ∀ i : grid1.Coords, EltTy.bits .f32 = 32 ∨ (Rect.block (s := S2x2048x1024) S1x256x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x256x1024.size a ≤ S2x2048x1024.size a
  hwx1_5 : ∀ i : grid1.Coords, EltTy.bits .f32 = 32 ∨ (Rect.block (s := S2x2048x1024) S1x256x1024.size (cc1_transform_5 i) (hinb1_5 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S16x256x64_S16x512x64_S16x256x512_2_2_1_1_0_0 : DotDims S16x256x64 S16x512x64 S16x256x512 where
  lhsContracting := [2]
  rhsContracting := [2]
  lhsNonContracting := [1]
  rhsNonContracting := [1]
  lhsBatch := [0]
  rhsBatch := [0]
  wf := dot_S16x256x64_S16x512x64_S16x256x512_2_2_1_1_0_0_wf
def dot_S16x256x512_S16x512x64_S16x256x64_2_1_1_2_0_0 : DotDims S16x256x512 S16x512x64 S16x256x64 where
  lhsContracting := [2]
  rhsContracting := [1]
  lhsNonContracting := [1]
  rhsNonContracting := [2]
  lhsBatch := [0]
  rhsBatch := [0]
  wf := dot_S16x256x512_S16x512x64_S16x256x64_2_1_1_2_0_0_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S1024x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v3_0) S1x512x1024.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v3_1) S1x512x1024.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v3_2) S1x512x1024.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v3_0) S1x256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3_1) S1x512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3_2) S1x512x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v9) S1x1x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg0) S1x256x1024.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v10) S1x256x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S2x2048x1024 : Shape := ⟨3, ![2, 2048, 1024]⟩
abbrev S2x2048 : Shape := ⟨2, ![2, 2048]⟩
abbrev S1024 : Shape := ⟨1, ![1024]⟩
abbrev S1024x1024 : Shape := ⟨2, ![1024, 1024]⟩
abbrev S_ : Shape := ⟨0, ![]⟩
abbrev S2x2048x1 : Shape := ⟨3, ![2, 2048, 1]⟩
abbrev S1x1x1024 : Shape := ⟨3, ![1, 1, 1024]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S2x1x1x2048 : Shape := ⟨4, ![2, 1, 1, 2048]⟩
abbrev S2x16x2048 : Shape := ⟨3, ![2, 16, 2048]⟩
abbrev S2x16x2048x1 : Shape := ⟨4, ![2, 16, 2048, 1]⟩

abbrev nBuf : Space → Nat
  | .hbm => 90
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048, .i32⟩
  | .hbm, ⟨2, _⟩ => ⟨S1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S_, .f32⟩
  | .hbm, ⟨11, _⟩ => ⟨S2x2048, .f32⟩
  | .hbm, ⟨12, _⟩ => ⟨S2x2048x1, .f32⟩
  | .hbm, ⟨13, _⟩ => ⟨S_, .f32⟩
  | .hbm, ⟨14, _⟩ => ⟨S2x2048x1, .f32⟩
  | .hbm, ⟨15, _⟩ => ⟨S2x2048x1, .f32⟩
  | .hbm, ⟨16, _⟩ => ⟨S2x2048x1024, .f32⟩
  | .hbm, ⟨17, _⟩ => ⟨S2x2048x1024, .f32⟩
  | .hbm, ⟨18, _⟩ => ⟨S2x2048x1024, .f32⟩
  | .hbm, ⟨19, _⟩ => ⟨S_, .f32⟩
  | .hbm, ⟨20, _⟩ => ⟨S2x2048, .f32⟩
  | .hbm, ⟨21, _⟩ => ⟨S2x2048x1, .f32⟩
  | .hbm, ⟨22, _⟩ => ⟨S_, .f32⟩
  | .hbm, ⟨23, _⟩ => ⟨S2x2048x1, .f32⟩
  | .hbm, ⟨24, _⟩ => ⟨S2x2048x1, .f32⟩
  | .hbm, ⟨25, _⟩ => ⟨S2x2048x1024, .f32⟩
  | .hbm, ⟨26, _⟩ => ⟨S2x2048x1024, .f32⟩
  | .hbm, ⟨27, _⟩ => ⟨S_, .f32⟩
  | .hbm, ⟨28, _⟩ => ⟨S2x2048x1, .f32⟩
  | .hbm, ⟨29, _⟩ => ⟨S2x2048x1, .f32⟩
  | .hbm, ⟨30, _⟩ => ⟨S2x2048x1, .f32⟩
  | .hbm, ⟨31, _⟩ => ⟨S2x2048x1024, .f32⟩
  | .hbm, ⟨32, _⟩ => ⟨S2x2048x1024, .f32⟩
  | .hbm, ⟨33, _⟩ => ⟨S1x1x1024, .f32⟩
  | .hbm, ⟨34, _⟩ => ⟨S2x2048x1024, .f32⟩
  | .hbm, ⟨35, _⟩ => ⟨S2x2048x1024, .f32⟩
  | .hbm, ⟨36, _⟩ => ⟨S1x1x1024, .f32⟩
  | .hbm, ⟨37, _⟩ => ⟨S2x2048x1024, .f32⟩
  | .hbm, ⟨38, _⟩ => ⟨S2x2048x1024, .f32⟩
  | .hbm, ⟨39, _⟩ => ⟨S2x2048x1024, .f32⟩
  | .hbm, ⟨40, _⟩ => ⟨S1x1x1024, .f32⟩
  | .hbm, ⟨41, _⟩ => ⟨S2x2048x1024, .f32⟩
  | .hbm, ⟨42, _⟩ => ⟨S2x2048x1024, .f32⟩
  | .hbm, ⟨43, _⟩ => ⟨S2x2048x16x64, .f32⟩
  | .hbm, ⟨44, _⟩ => ⟨S2x16x2048x64, .f32⟩
  | .hbm, ⟨45, _⟩ => ⟨S2x2048x1024, .f32⟩
  | .hbm, ⟨46, _⟩ => ⟨S1x1x1024, .f32⟩
  | .hbm, ⟨47, _⟩ => ⟨S2x2048x1024, .f32⟩
  | .hbm, ⟨48, _⟩ => ⟨S2x2048x1024, .f32⟩
  | .hbm, ⟨49, _⟩ => ⟨S2x2048x16x64, .f32⟩
  | .hbm, ⟨50, _⟩ => ⟨S2x16x2048x64, .f32⟩
  | .hbm, ⟨51, _⟩ => ⟨S2x2048x1024, .f32⟩
  | .hbm, ⟨52, _⟩ => ⟨S1x1x1024, .f32⟩
  | .hbm, ⟨53, _⟩ => ⟨S2x2048x1024, .f32⟩
  | .hbm, ⟨54, _⟩ => ⟨S2x2048x1024, .f32⟩
  | .hbm, ⟨55, _⟩ => ⟨S2x2048x16x64, .f32⟩
  | .hbm, ⟨56, _⟩ => ⟨S2x16x2048x64, .f32⟩
  | .hbm, ⟨57, _⟩ => ⟨S2x16x2048x2048, .f32⟩
  | .hbm, ⟨58, _⟩ => ⟨S_, .f32⟩
  | .hbm, ⟨59, _⟩ => ⟨S_, .f32⟩
  | .hbm, ⟨60, _⟩ => ⟨S2x16x2048x2048, .f32⟩
  | .hbm, ⟨61, _⟩ => ⟨S2x16x2048x2048, .f32⟩
  | .hbm, ⟨62, _⟩ => ⟨S2x1x1x2048, .i32⟩
  | .hbm, ⟨63, _⟩ => ⟨S2x1x1x2048, .f32⟩
  | .hbm, ⟨64, _⟩ => ⟨S_, .f32⟩
  | .hbm, ⟨65, _⟩ => ⟨S2x1x1x2048, .f32⟩
  | .hbm, ⟨66, _⟩ => ⟨S2x1x1x2048, .f32⟩
  | .hbm, ⟨67, _⟩ => ⟨S_, .f32⟩
  | .hbm, ⟨68, _⟩ => ⟨S2x1x1x2048, .f32⟩
  | .hbm, ⟨69, _⟩ => ⟨S2x1x1x2048, .f32⟩
  | .hbm, ⟨70, _⟩ => ⟨S2x16x2048x2048, .f32⟩
  | .hbm, ⟨71, _⟩ => ⟨S2x16x2048x2048, .f32⟩
  | .hbm, ⟨72, _⟩ => ⟨S_, .f32⟩
  | .hbm, ⟨73, _⟩ => ⟨S2x16x2048, .f32⟩
  | .hbm, ⟨74, _⟩ => ⟨S_, .f32⟩
  | .hbm, ⟨75, _⟩ => ⟨S2x16x2048, .f32⟩
  | .hbm, ⟨76, _⟩ => ⟨S2x16x2048, .f32⟩
  | .hbm, ⟨77, _⟩ => ⟨S2x16x2048x1, .f32⟩
  | .hbm, ⟨78, _⟩ => ⟨S2x16x2048x2048, .f32⟩
  | .hbm, ⟨79, _⟩ => ⟨S2x16x2048x2048, .f32⟩
  | .hbm, ⟨80, _⟩ => ⟨S2x16x2048x2048, .f32⟩
  | .hbm, ⟨81, _⟩ => ⟨S_, .f32⟩
  | .hbm, ⟨82, _⟩ => ⟨S2x16x2048, .f32⟩
  | .hbm, ⟨83, _⟩ => ⟨S2x16x2048x1, .f32⟩
  | .hbm, ⟨84, _⟩ => ⟨S2x16x2048x2048, .f32⟩
  | .hbm, ⟨85, _⟩ => ⟨S2x16x2048x2048, .f32⟩
  | .hbm, ⟨86, _⟩ => ⟨S2x16x2048x64, .f32⟩
  | .hbm, ⟨87, _⟩ => ⟨S2x2048x16x64, .f32⟩
  | .hbm, ⟨88, _⟩ => ⟨S2x2048x1024, .f32⟩
  | .hbm, ⟨89, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_4 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_5 : Ref sig .tc := ⟨.hbm, 64, rfl⟩
abbrev main_v48 : Ref sig .tc := ⟨.hbm, 65, rfl⟩
abbrev main_v49 : Ref sig .tc := ⟨.hbm, 66, rfl⟩
abbrev main_cst_6 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_7 : Ref sig .tc := ⟨.hbm, 72, rfl⟩
abbrev main_v54 : Ref sig .tc := ⟨.hbm, 73, rfl⟩
abbrev main_cst_8 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_9 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩

abbrev nD : Nat := 1
abbrev τ : Topo := Topo.v7x

variable {F : FTy → Type} [FloatOps F]

class Facts₀ : Prop where
  reducesTo_S2x2048x1024_S2x2048_d2 : S2x2048x1024.ReducesTo [2] S2x2048
  h_S_ : 0 < S_.numel
  bcast_S2x2048_S2x2048x1_0_1 : S2x2048.BroadcastsInDim S2x2048x1 (![0, 1] : Fin 2 → Fin S2x2048x1.rank)
  bcast_S_S2x2048x1 : S_.BroadcastsInDim S2x2048x1 (![] : Fin 0 → Fin S2x2048x1.rank)
  bcast_S2x2048x1_S2x2048x1024_0_1_2 : S2x2048x1.BroadcastsInDim S2x2048x1024 (![0, 1, 2] : Fin 3 → Fin S2x2048x1024.rank)
  bcast_S1024_S1x1x1024_2 : S1024.BroadcastsInDim S1x1x1024 (![2] : Fin 1 → Fin S1x1x1024.rank)
  bcast_S1x1x1024_S2x2048x1024_0_1_2 : S1x1x1024.BroadcastsInDim S2x2048x1024 (![0, 1, 2] : Fin 3 → Fin S2x2048x1024.rank)
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  bcast_S_S2x16x2048x2048 : S_.BroadcastsInDim S2x16x2048x2048 (![] : Fin 0 → Fin S2x16x2048x2048.rank)
  bcast_S2x2048_S2x1x1x2048_0_3 : S2x2048.BroadcastsInDim S2x1x1x2048 (![0, 3] : Fin 2 → Fin S2x1x1x2048.rank)
  bcast_S_S2x1x1x2048 : S_.BroadcastsInDim S2x1x1x2048 (![] : Fin 0 → Fin S2x1x1x2048.rank)
  bcast_S2x1x1x2048_S2x16x2048x2048_0_1_2_3 : S2x1x1x2048.BroadcastsInDim S2x16x2048x2048 (![0, 1, 2, 3] : Fin 4 → Fin S2x16x2048x2048.rank)
  reducesTo_S2x16x2048x2048_S2x16x2048_d3 : S2x16x2048x2048.ReducesTo [3] S2x16x2048
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  dot_S2x2048x1024_S1024x1024_S2x2048x1024_2_0_01_1_n_n_wf : DotDims.WF S2x2048x1024 S1024x1024 S2x2048x1024 [2] [0] [0, 1] [1] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x2048x1024_S1024x1024_S2x2048x1024_2_0_01_1_n_n : DotDims S2x2048x1024 S1024x1024 S2x2048x1024 where
  lhsContracting := [2]
  rhsContracting := [0]
  lhsNonContracting := [0, 1]
  rhsNonContracting := [1]
  lhsBatch := []
  rhsBatch := []
  wf := dot_S2x2048x1024_S1024x1024_S2x2048x1024_2_0_01_1_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.KI.Data.lean ====
/-
  The two kernel regions of the program as data, at a parameter `V` (what the TensorCore's buffers hold when a
  region is entered).  Region 0 normalises each row of a 512-row block of x (mean, variance, rsqrt, scale and shift)
  and multiplies the normalised block by three weight matrices, adding a bias: three result blocks per point, each a
  pure function of the point's input blocks.  Region 1 walks, for each block of 256 query rows, over four blocks of
  512 key rows and keeps three running quantities per head and query row: the running maximum of the scores, the sum
  of exponentials relative to it, and the exponential-weighted sum of the value rows.  After the fourth key block the
  quotient of the last two, plus the residual block of x, is the result block.  The running quantities after a point
  are stated here by recursion on the point (`st1`), each step a pure function (`step1`) of the quantities before it
  and of the point's blocks; at a first key block the quantities before it are the reset values (`init1`).
-/
import proofs.«110207_j12077448037095_2_alg».proof.Proof.Gen.KernelIdeal.Launch
import proofs.«110207_j12077448037095_2_alg».proof.Proof.Gen.KernelIdeal.Skeleton
import proofs.«110207_j12077448037095_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## Region 0 -/

/-- Window `w`'s block at point `t` of region 0, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The normalised rows of a block of x (scale `g`, shift `b`). -/
def lnOut (x : Vec F S1x512x1024 .f32) (g b : Vec F S1024 .f32) : FVec F S512x1024 .bf16 := k0_pay3 x g b
/-- The first projection of the normalised rows (weights `w`, bias `bias`): the query block. -/
def qOut (x : Vec F S1x512x1024 .f32) (g b : Vec F S1024 .f32) (w : Vec F S1024x1024 .bf16) (bias : Vec F S1024 .f32) : Vec F S1x512x1024 .bf16 :=
  k0_pay4 x g b w bias
/-- The second projection: the key block. -/
def kOut (x : Vec F S1x512x1024 .f32) (g b : Vec F S1024 .f32) (w : Vec F S1024x1024 .bf16) (bias : Vec F S1024 .f32) : Vec F S1x512x1024 .bf16 :=
  k0_pay1 (k0_pay3 x g b) w bias
/-- The third projection: the value block. -/
def vOut (x : Vec F S1x512x1024 .f32) (g b : Vec F S1024 .f32) (w : Vec F S1024x1024 .bf16) (bias : Vec F S1024 .f32) : Vec F S1x512x1024 .bf16 :=
  k0_pay2 (k0_pay3 x g b) w bias

/-- Region 0's proof data: the arrays as entered; after the body each input's buffer at its block, the three results'
    at the three projections of the point's blocks; the class invariant; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => qOut (iblk0 V c 0 t) (iblk0 V c 1 t) (iblk0 V c 2 t) (iblk0 V c 3 t) (iblk0 V c 4 t)
    | ⟨10, _⟩ => kOut (iblk0 V c 0 t) (iblk0 V c 1 t) (iblk0 V c 2 t) (iblk0 V c 5 t) (iblk0 V c 6 t)
    | ⟨11, _⟩ => vOut (iblk0 V c 0 t) (iblk0 V c 1 t) (iblk0 V c 2 t) (iblk0 V c 7 t) (iblk0 V c 8 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = qOut (iblk0 V c 0 t) (iblk0 V c 1 t) (iblk0 V c 2 t) (iblk0 V c 3 t) (iblk0 V c 4 t) := by dsimp only [dat0]
theorem after0_10 (c : Dev nD) (t : Fin cfg0.N) : (dat0 V c).after 10 t = kOut (iblk0 V c 0 t) (iblk0 V c 1 t) (iblk0 V c 2 t) (iblk0 V c 5 t) (iblk0 V c 6 t) := by dsimp only [dat0]
theorem after0_11 (c : Dev nD) (t : Fin cfg0.N) : (dat0 V c).after 11 t = vOut (iblk0 V c 0 t) (iblk0 V c 1 t) (iblk0 V c 2 t) (iblk0 V c 7 t) (iblk0 V c 8 t) := by dsimp only [dat0]

/-! ## Region 1 -/

/-- Window `w`'s block at point `t` of region 1, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The three running quantities per head and query row: maximum, sum of exponentials, weighted sum of value rows. -/
abbrev St1 (F : FTy → Type) [FloatOps F] : Type := Vec F S16x256x1 .f32 × Vec F S16x256x1 .f32 × Vec F S16x256x64 .f32

/-- The reset values: a large negative number, zero, zero. -/
def init1 : St1 F := (k1_pay6 (F := F), k1_pay7 (F := F), k1_pay8 (F := F))

/-- One key block: the new maximum, the sum and the weighted sum rescaled to it and extended by the block's terms. -/
def step1 (s : St1 F) (q : Vec F S1x256x1024 .bf16) (k v : Vec F S1x512x1024 .bf16) (msk : Vec F S1x1x512 .f32) : St1 F :=
  (k1_pay4 (k1_pay11 q k msk s.1),
   k1_pay2 (k1_pay12 q k msk s.1 s.1) (k1_pay13 q k msk s.1) s.2.1,
   k1_pay3 (k1_pay9 v) (k1_pay12 q k msk s.1 s.1) (k1_pay13 q k msk s.1) s.2.2)

/-- The running quantities after the body at position `n`: a step from the reset values at a first key block
    (`n % 4 = 0`), from what the position before left otherwise. -/
def st1 (c : Dev nD) : (n : ℕ) → n < cfg1.N → St1 F
  | 0, hn => step1 (init1 (F := F)) (iblk1 V c 0 ⟨0, hn⟩) (iblk1 V c 1 ⟨0, hn⟩) (iblk1 V c 2 ⟨0, hn⟩) (iblk1 V c 3 ⟨0, hn⟩)
  | n + 1, hn =>
    step1 (if (n + 1) % 4 = 0 then init1 (F := F) else st1 c n (Nat.lt_of_succ_lt hn))
      (iblk1 V c 0 ⟨n + 1, hn⟩) (iblk1 V c 1 ⟨n + 1, hn⟩) (iblk1 V c 2 ⟨n + 1, hn⟩) (iblk1 V c 3 ⟨n + 1, hn⟩)

/-- The result block a point would store: the weighted sum over the sum of exponentials, plus the residual block. -/
def oOut1 (c : Dev nD) (t : Fin cfg1.N) : Vec F S1x256x1024 .f32 :=
  k1_pay5 (st1 V c t.val t.isLt).2.2 (st1 V c t.val t.isLt).2.1 (iblk1 V c 4 t)

/-- The three scratch operands, whole scoped buffers of the kernel's own. -/
abbrev scM1_0 : Memref sig .tc .vmem S16x256x1 .f32 := Memref.whole cc1_scratch0
abbrev scM1_1 : Memref sig .tc .vmem S16x256x1 .f32 := Memref.whole cc1_scratch1
abbrev scM1_2 : Memref sig .tc .vmem S16x256x64 .f32 := Memref.whole cc1_scratch2

/-- The core's scoped buffers that are no staging buffer of region 1, the three scratch operands at `P0`, `P1`, `P2`
    and the others (region 0's staging buffers) each whole at some contents. -/
def scoped1 (c : Dev nD) (P0 P1 P2 : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ (∃ f : Buf (Elt F) ((c : Thread nD τ).loc cc0_stg10_0), ((c : Thread nD τ).loc cc0_stg10_0) ↦{fullShare} f) ∗ (∃ f : Buf (Elt F) ((c : Thread nD τ).loc cc0_stg10_1), ((c : Thread nD τ).loc cc0_stg10_1) ↦{fullShare} f) ∗ (∃ f : Buf (Elt F) ((c : Thread nD τ).loc cc0_stg11_0), ((c : Thread nD τ).loc cc0_stg11_0) ↦{fullShare} f) ∗ (∃ f : Buf (Elt F) ((c : Thread nD τ).loc cc0_stg11_1), ((c : Thread nD τ).loc cc0_stg11_1) ↦{fullShare} f) ∗ P0 ∗ P1 ∗ P2)

/-- The region invariant before position `n`: before the first point the class's; afterwards the scoped rest with the
    three scratch operands at what the position before left in them, and the generator register at some state. -/
def PhiS1 (c : Dev nD) : (n : ℕ) → n ≤ cfg1.N → sProp 𝕄
  | 0, _ => Pipeline.ΦA spec1 c
  | n + 1, hn => iprop(scoped1 c (owns (c : Thread nD τ) scM1_0 fullShare (st1 V c n hn).1) (owns (c : Thread nD τ) scM1_1 fullShare (st1 V c n hn).2.1) (owns (c : Thread nD τ) scM1_2 fullShare (st1 V c n hn).2.2) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(scoped1 c (owns (c : Thread nD τ) scM1_0 fullShare (st1 V c n hn).1) (owns (c : Thread nD τ) scM1_1 fullShare (st1 V c n hn).2.1) (owns (c : Thread nD τ) scM1_2 fullShare (st1 V c n hn).2.2) ∗ (∃ r, prngReg c r)) := rfl

theorem PhiS1_pos (c : Dev nD) (n : ℕ) (h : n ≤ cfg1.N) (hz : n ≠ 0) :
    PhiS1 V c n h = iprop(scoped1 c (owns (c : Thread nD τ) scM1_0 fullShare (st1 V c (n - 1) (by omega)).1) (owns (c : Thread nD τ) scM1_1 fullShare (st1 V c (n - 1) (by omega)).2.1) (owns (c : Thread nD τ) scM1_2 fullShare (st1 V c (n - 1) (by omega)).2.2) ∗ (∃ r, prngReg c r)) := by
  cases n with
  | zero => exact absurd rfl hz
  | succ n => rfl

/-- Region 1's proof data: the arrays as entered; after the body each input's buffer at its block and the result's at
    `oOut1`; the invariant `PhiS1`; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => oOut1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = oOut1 V c t := by dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

end Regions

end Cert.KernelIdeal.Hand

end
-- ==== Proof.KI.Run.lean ====
/-
  The run of the program from the launch to the return, over its four segments: the three conversions of the weight
  matrices, region 0 (normalisation and the three projections), the eight operations that make the additive mask, and
  region 1 (the walk over the key blocks).  The buffers' contents at each boundary are a fold from the launch memory:
  a stretch of operations rewrites the buffers it writes and leaves the rest; a region leaves each of its arrays at
  what its write-backs fold to and every other buffer as it found it.  Each argument array is read back through the
  fold to its launch contents, and the regions' results are read at the boundary where the next segment finds them.
  The regions' body obligations, and the passage between region 1's invariant and the class's at its first and last
  positions, are hypotheses of the run.
-/
import proofs.«110207_j12077448037095_2_alg».proof.Proof.Gen.KernelIdeal.Launch
import proofs.«110207_j12077448037095_2_alg».proof.Proof.Gen.KernelIdeal.Skeleton
import proofs.«110207_j12077448037095_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«110207_j12077448037095_2_alg».proof.Proof.KI.Data

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the two stretches of operations write -/

/-- The buffers the three conversions write: the three converted weight matrices. -/
abbrev wr0 : List (Ref sig .tc) := [main_v0, main_v1, main_v2]
/-- The buffers the eight mask operations write. -/
abbrev wr1 : List (Ref sig .tc) := [main_v4, main_cst, main_v5, main_v6, main_cst_0, main_v7, main_v8, main_v9]

theorem hostOps0_writes : (hostOps0 : List (HloOp τ sig (Elt F))).Forall fun op => op.writes ⊆ (wr0.map (Proc.devRef (τ := τ) .tc)).toFinset := by
  simp only [List.Forall]
  repeat' apply And.intro
  all_goals
    simp only [StableHlo.nullary_writes, StableHlo.unary_writes, StableHlo.binary_writes, StableHlo.reshape_writes, Finset.singleton_subset_iff, List.mem_toFinset]
    exact List.mem_map_of_mem (by decide)

theorem hostOps1_writes : (hostOps1 : List (HloOp τ sig (Elt F))).Forall fun op => op.writes ⊆ (wr1.map (Proc.devRef (τ := τ) .tc)).toFinset := by
  simp only [List.Forall]
  repeat' apply And.intro
  all_goals
    simp only [StableHlo.nullary_writes, StableHlo.unary_writes, StableHlo.binary_writes, StableHlo.reshape_writes, Finset.singleton_subset_iff, List.mem_toFinset]
    exact List.mem_map_of_mem (by decide)

/-- No operation of the first stretch allocates a buffer. -/
theorem hostOps0_fresh : (hostOps0 : List (HloOp τ sig (Elt F))).Forall fun op => op.fresh = ∅ := by
  simp only [List.Forall]; repeat' constructor
/-- No operation of the second stretch allocates a buffer. -/
theorem hostOps1_fresh : (hostOps1 : List (HloOp τ sig (Elt F))).Forall fun op => op.fresh = ∅ := by
  simp only [List.Forall]; repeat' constructor

/-! ## The buffer contents at each segment boundary: a fold through the program -/

/-- The core's buffers at launch. -/
abbrev W0 : Dev nD → Valuation τ sig (Elt F) := fun c b => (s₀ m ρ).mem ((c : Dev nD), b)
/-- After the three conversions (region 0's entry). -/
abbrev W1 : Dev nD → Valuation τ sig (Elt F) := fun c => StableHlo.after hostOps0 (W0 m ρ c)
/-- The same read at the core's references (what region 0's proof data take). -/
abbrev V1 : (c : Dev nD) → (b : Ref sig .tc) → Buf (Elt F) ((c : Thread nD τ).loc b) := fun c b => W1 m ρ c b
/-- At region 0's exit: its arrays at what the write-backs fold to (an input as entered), every other buffer as
    entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the core's references (region 0's exit contents). -/
abbrev V2 : (c : Dev nD) → (b : Ref sig .tc) → Buf (Elt F) ((c : Thread nD τ).loc b) := fun c b => W2 m ρ c b
/-- At region 0's exit each of its arrays holds what the region leaves and every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the eight mask operations (region 1's entry). -/
abbrev W3 : Dev nD → Valuation τ sig (Elt F) := fun c => StableHlo.after hostOps1 (W2 m ρ c)
/-- The same read at the core's references (what region 1's proof data take). -/
abbrev V3 : (c : Dev nD) → (b : Ref sig .tc) → Buf (Elt F) ((c : Thread nD τ).loc b) := fun c b => W3 m ρ c b
/-- At region 1's exit: its arrays at what the write-backs fold to, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the core's references (region 1's exit contents). -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## One step of the fold at a buffer the step does not change -/

/-- The launch contents are the launch memory's. -/
theorem W0_apply (c : Dev nD) (b : Ref sig .tc) : W0 m ρ c (Proc.devRef .tc b) = m ((c : Thread nD τ).loc b) := rfl
/-- A buffer the conversions do not write is after them as at launch. -/
theorem W1_of (c : Dev nD) (r : Ref sig .tc) (h : r ∉ wr0) : W1 m ρ c (Proc.devRef .tc r) = W0 m ρ c (Proc.devRef .tc r) :=
  StableHlo.after_of_writes_sub hostOps0 _ hostOps0_writes h
/-- A buffer the mask operations do not write is after them as at region 0's exit. -/
theorem W3_of (c : Dev nD) (r : Ref sig .tc) (h : r ∉ wr1) : W3 m ρ c (Proc.devRef .tc r) = W2 m ρ c (Proc.devRef .tc r) :=
  StableHlo.after_of_writes_sub hostOps1 _ hostOps1_writes h
/-- An input array of region 0 is at its exit as at its entry. -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hw _).trans (A_eq0 (V1 m ρ) c w))
/-- An input array of region 1 is at its exit as at its entry. -/
theorem W4_in (c : Dev nD) (w : Fin cfg1.W) (hw : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hw _).trans (A_eq1 (V3 m ρ) c w))

/-! ## The arguments end as launched

No operation writes an argument and no region writes one: a region reads it through an input window or passes it
by.  So the fold at an argument's buffer walks back to the launch memory. -/

/-- The block of x: input window 0 of region 0 and input window 4 of region 1. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_in m ρ c 4 rfl
    _ = W2 m ρ c (Proc.devRef .tc main_arg0) := W3_of m ρ c main_arg0 (by decide)
    _ = W1 m ρ c (Proc.devRef .tc main_arg0) := W2_in m ρ c 0 rfl
    _ = W0 m ρ c (Proc.devRef .tc main_arg0) := W1_of m ρ c main_arg0 (by decide)
    _ = m ((c : Thread nD τ).loc main_arg0) := rfl

/-- The integer mask: no window's array. -/
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := W3_of m ρ c main_arg1 (by decide)
    _ = W1 m ρ c (Proc.devRef .tc main_arg1) := W2_of_ne m ρ c main_arg1 (by decide)
    _ = W0 m ρ c (Proc.devRef .tc main_arg1) := W1_of m ρ c main_arg1 (by decide)
    _ = m ((c : Thread nD τ).loc main_arg1) := rfl

/-- The scale: input window 1 of region 0. -/
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_of m ρ c main_arg2 (by decide)
    _ = W1 m ρ c (Proc.devRef .tc main_arg2) := W2_in m ρ c 1 rfl
    _ = W0 m ρ c (Proc.devRef .tc main_arg2) := W1_of m ρ c main_arg2 (by decide)
    _ = m ((c : Thread nD τ).loc main_arg2) := rfl

/-- The shift: input window 2 of region 0. -/
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := W3_of m ρ c main_arg3 (by decide)
    _ = W1 m ρ c (Proc.devRef .tc main_arg3) := W2_in m ρ c 2 rfl
    _ = W0 m ρ c (Proc.devRef .tc main_arg3) := W1_of m ρ c main_arg3 (by decide)
    _ = m ((c : Thread nD τ).loc main_arg3) := rfl

/-- The first weight matrix before its conversion: no window's array. -/
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := W3_of m ρ c main_arg4 (by decide)
    _ = W1 m ρ c (Proc.devRef .tc main_arg4) := W2_of_ne m ρ c main_arg4 (by decide)
    _ = W0 m ρ c (Proc.devRef .tc main_arg4) := W1_of m ρ c main_arg4 (by decide)
    _ = m ((c : Thread nD τ).loc main_arg4) := rfl

/-- The first bias: input window 4 of region 0. -/
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := W3_of m ρ c main_arg5 (by decide)
    _ = W1 m ρ c (Proc.devRef .tc main_arg5) := W2_in m ρ c 4 rfl
    _ = W0 m ρ c (Proc.devRef .tc main_arg5) := W1_of m ρ c main_arg5 (by decide)
    _ = m ((c : Thread nD τ).loc main_arg5) := rfl

/-- The second weight matrix before its conversion: no window's array. -/
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := W3_of m ρ c main_arg6 (by decide)
    _ = W1 m ρ c (Proc.devRef .tc main_arg6) := W2_of_ne m ρ c main_arg6 (by decide)
    _ = W0 m ρ c (Proc.devRef .tc main_arg6) := W1_of m ρ c main_arg6 (by decide)
    _ = m ((c : Thread nD τ).loc main_arg6) := rfl

/-- The second bias: input window 6 of region 0. -/
theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := W3_of m ρ c main_arg7 (by decide)
    _ = W1 m ρ c (Proc.devRef .tc main_arg7) := W2_in m ρ c 6 rfl
    _ = W0 m ρ c (Proc.devRef .tc main_arg7) := W1_of m ρ c main_arg7 (by decide)
    _ = m ((c : Thread nD τ).loc main_arg7) := rfl

/-- The third weight matrix before its conversion: no window's array. -/
theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := W3_of m ρ c main_arg8 (by decide)
    _ = W1 m ρ c (Proc.devRef .tc main_arg8) := W2_of_ne m ρ c main_arg8 (by decide)
    _ = W0 m ρ c (Proc.devRef .tc main_arg8) := W1_of m ρ c main_arg8 (by decide)
    _ = m ((c : Thread nD τ).loc main_arg8) := rfl

/-- The third bias: input window 8 of region 0. -/
theorem W4_main_arg9 (c : Dev nD) : W4 m ρ c (Proc.devRef .tc main_arg9) = m ((c : Thread nD τ).loc main_arg9) :=
  calc W4 m ρ c (Proc.devRef .tc main_arg9)
    _ = W3 m ρ c (Proc.devRef .tc main_arg9) := W4_of_ne m ρ c main_arg9 (by decide)
    _ = W2 m ρ c (Proc.devRef .tc main_arg9) := W3_of m ρ c main_arg9 (by decide)
    _ = W1 m ρ c (Proc.devRef .tc main_arg9) := W2_in m ρ c 8 rfl
    _ = W0 m ρ c (Proc.devRef .tc main_arg9) := W1_of m ρ c main_arg9 (by decide)
    _ = m ((c : Thread nD τ).loc main_arg9) := rfl

/-! ## The regions' results and operands, read at the boundaries -/

/-- The program's result: what region 1's write-backs fold to in its output array (window 5). -/
theorem W4_out (c : Dev nD) : W4 m ρ c (Proc.devRef .tc main_v10) = (dat1 (V3 m ρ) c).arrAt 5 cfg1.N :=
  W4_arr m ρ c 5

/-- Region 1 finds the query array at what region 0's write-backs fold to in its window 9: the mask operations
    do not write it. -/
theorem V3_q (c : Dev nD) : V3 m ρ c main_v3_0 = (dat0 (V1 m ρ) c).arrAt 9 cfg0.N :=
  (W3_of m ρ c main_v3_0 (by decide)).trans (W2_arr m ρ c 9)
/-- The key array: region 0's window 10. -/
theorem V3_k (c : Dev nD) : V3 m ρ c main_v3_1 = (dat0 (V1 m ρ) c).arrAt 10 cfg0.N :=
  (W3_of m ρ c main_v3_1 (by decide)).trans (W2_arr m ρ c 10)
/-- The value array: region 0's window 11. -/
theorem V3_v (c : Dev nD) : V3 m ρ c main_v3_2 = (dat0 (V1 m ρ) c).arrAt 11 cfg0.N :=
  (W3_of m ρ c main_v3_2 (by decide)).trans (W2_arr m ρ c 11)
/-- Region 1 finds x as launched. -/
theorem V3_x (c : Dev nD) : V3 m ρ c main_arg0 = m ((c : Thread nD τ).loc main_arg0) :=
  calc V3 m ρ c main_arg0
    _ = W2 m ρ c (Proc.devRef .tc main_arg0) := W3_of m ρ c main_arg0 (by decide)
    _ = W1 m ρ c (Proc.devRef .tc main_arg0) := W2_in m ρ c 0 rfl
    _ = W0 m ρ c (Proc.devRef .tc main_arg0) := W1_of m ρ c main_arg0 (by decide)
    _ = m ((c : Thread nD τ).loc main_arg0) := rfl
/-- Region 1 finds the additive mask at what the eight operations make of region 0's exit contents, -/
theorem V3_mask (c : Dev nD) : V3 m ρ c main_v9 = StableHlo.after hostOps1 (W2 m ρ c) (Proc.devRef .tc main_v9) := rfl
/-- where the integer mask is still as launched. -/
theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := W1_of m ρ c main_arg1 (by decide)
    _ = m ((c : Thread nD τ).loc main_arg1) := rfl

/-- Region 0 finds each converted weight matrix at what the conversions make of the launch contents, -/
theorem V1_w0 (c : Dev nD) : V1 m ρ c main_v0 = StableHlo.after hostOps0 (W0 m ρ c) (Proc.devRef .tc main_v0) := rfl
theorem V1_w1 (c : Dev nD) : V1 m ρ c main_v1 = StableHlo.after hostOps0 (W0 m ρ c) (Proc.devRef .tc main_v1) := rfl
theorem V1_w2 (c : Dev nD) : V1 m ρ c main_v2 = StableHlo.after hostOps0 (W0 m ρ c) (Proc.devRef .tc main_v2) := rfl
/-- and x, the scale, the shift and the three biases as launched. -/
theorem V1_main_arg0 (c : Dev nD) : V1 m ρ c main_arg0 = m ((c : Thread nD τ).loc main_arg0) := W1_of m ρ c main_arg0 (by decide)
theorem V1_main_arg2 (c : Dev nD) : V1 m ρ c main_arg2 = m ((c : Thread nD τ).loc main_arg2) := W1_of m ρ c main_arg2 (by decide)
theorem V1_main_arg3 (c : Dev nD) : V1 m ρ c main_arg3 = m ((c : Thread nD τ).loc main_arg3) := W1_of m ρ c main_arg3 (by decide)
theorem V1_main_arg5 (c : Dev nD) : V1 m ρ c main_arg5 = m ((c : Thread nD τ).loc main_arg5) := W1_of m ρ c main_arg5 (by decide)
theorem V1_main_arg7 (c : Dev nD) : V1 m ρ c main_arg7 = m ((c : Thread nD τ).loc main_arg7) := W1_of m ρ c main_arg7 (by decide)
theorem V1_main_arg9 (c : Dev nD) : V1 m ρ c main_arg9 = m ((c : Thread nD τ).loc main_arg9) := W1_of m ρ c main_arg9 (by decide)

/-! ## The proof data family and the thread state -/

/-- The prefetched tables' admissible contents: no region has a table. -/
abbrev adm : (p : Fin 2) → (pcfgs (F := F) p).Adm := fun p => (cfgs p).toPCfg_adm
/-- Each region's proof data, at its entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state, and the core
    owing nothing. -/
abbrev R (c : Dev nD) : sProp 𝕄 := iprop((∃ r, prngReg c r) ∗ ∃ W, owes (c : Thread nD τ) (0 : CellTallies nD τ sig Unit) W)
/-- A stretch of operations as a segment over the unscoped buffers from the contents W, R riding along: it leaves
    them at what the operations make of W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owing: every unscoped buffer at the last boundary's contents, the generator
    register at some state. -/
abbrev Tₙ (c : Dev nD) : sProp 𝕄 := iprop(StableHlo.held (c : Thread nD τ) (Pipeline.ucRefs τ sig) (W4 m ρ c) ∗ ∃ r, prngReg c r)

/-! ## The regions as segments -/

section Run

variable (hb0 : ∀ c, BodyObligation (dat0 (F := F) (V1 m ρ) c) (defs₀ (F := F)) Variants.none () Set.univ)
  (hb1 : ∀ c, BodyObligation (dat1 (F := F) (V3 m ρ) c) (defs₀ (F := F)) Variants.none () Set.univ)
  (hin1 : ∀ c, Pipeline.ΦA spec1 c ⊢ (dat1 (F := F) (V3 m ρ) c).Φ 0)
  (hout1 : ∀ c, (dat1 (F := F) (V3 m ρ) c).Φ (Fin.last cfg1.N) ⊢ Pipeline.ΦA spec1 c)

set_option backward.isDefEq.respectTransparency.types false in
/-- Region 0 over the thread state: entered from every unscoped buffer at W1, left at W2.  Its arrays are split out of
    the unscoped buffers and put back at the exit contents; the generator register goes into the class invariant and
    comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (hb0 c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at W3, left at W4.  Its invariant carries the
    three running quantities, so the class invariant is taken to it at the first position and back from it at the
    last; otherwise as region 0. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (hb1 c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ (Pipeline.ΦA spec1 c : sProp 𝕄)).trans (hin1 c)
    unfold Pipeline.ΦA
    iintro ⟨Hp, -, Hr⟩
    isplitl [Hr]; · iexact Hr
    iexact Hp
  hout c := by
    refine (hout1 c).trans (?_ : (Pipeline.ΦA spec1 c : sProp 𝕄) ⊢ _)
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's four segments in order: a stretch of operations from its boundary's contents, a region, a
    stretch, a region. -/
abbrev segs : List (Pipeline.Seg (pcfgs (F := F)) adm (pdats m ρ) () defs₀ 𝒱₀ L lv) :=
  [ .host (hseg hostOps0 hostOps0_sub hostOps0_fresh (W0 m ρ)),
    .region (reg0 m ρ hb0),
    .host (hseg hostOps1 hostOps1_sub hostOps1_fresh (W2 m ρ)),
    .region (reg1 m ρ hb1 hin1 hout1) ]
/-- The program is the run of the segments. -/
theorem main_run (c : Dev nD) : main (F := F) c = Pipeline.Seg.run (segs m ρ hb0 hb1 hin1 hout1) := (main_chain c).trans (by chain_rfl)

include hb0 hb1 hin1 hout1

set_option backward.isDefEq.respectTransparency.types false in
/-- The run, at any property of the final memory that follows from every unscoped buffer of every core holding the
    last boundary's contents: from any memory with zero counters, every weakly fair execution of the program
    terminates, nothing faulting, in such a memory. -/
theorem run_post {Q : PUnit × MemSt nD τ sig (Elt F) → Prop}
    (hQ : ∀ s : MemSt nD τ sig (Elt F), (∀ c : Dev nD, ∀ b ∈ Pipeline.ucRefs τ sig, s.mem (((c : Thread nD τ)).1, b) = W4 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ hb0 hb1 hin1 hout1)
    (fun c Q => by rw [main_run m ρ hb0 hb1 hin1 hout1 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := hQ)

/-- The run with its post kept whole: in every final memory every unscoped buffer of every core holds the last
    boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W4 m ρ c b) :=
  run_post m ρ hb0 hb1 hin1 hout1 fun _ h => h

/-- The frame: every final memory has the ten argument arrays as launched, each read off the last boundary's contents
    and walked back through the fold. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  run_post m ρ hb0 hb1 hin1 hout1 fun s h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c),
     (h c _ (mem_uc main_arg9 (by decide))).trans (W4_main_arg9 m ρ c)⟩

end Run

end Cert.KernelIdeal.Hand

end
-- ==== Proof.KI.R0Body.lean ====
/-
  Region 0's body obligation.  At every point the body is handed its nine input windows' staging buffers, each
  holding the window's block there, and its three output windows' buffers at anything; it loads the nine blocks whole,
  computes the normalised rows and their three projections, and stores each projection whole.  So it leaves the inputs'
  buffers as they were and each output's buffer at the corresponding projection of the point's blocks, which is what
  region 0's proof data states.  The invariant and the core's debts pass through unread.
-/
import proofs.«110207_j12077448037095_2_alg».proof.Proof.Gen.KernelIdeal.Launch
import proofs.«110207_j12077448037095_2_alg».proof.Proof.Gen.KernelIdeal.Skeleton
import proofs.«110207_j12077448037095_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«110207_j12077448037095_2_alg».proof.Proof.KI.Data

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## The input windows' buffers hold their blocks -/

/-- Input window 0's current buffer holds its block at every point, fetched there or not (unfetched, the block index
    has not moved), for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current buffer holds its block at every point, fetched there or not (unfetched, the block index
    has not moved), for any proof data whose array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current buffer holds its block at every point, fetched there or not (unfetched, the block index
    has not moved), for any proof data whose array is `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current buffer holds its block at every point, fetched there or not (unfetched, the block index
    has not moved), for any proof data whose array is `V`'s and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current buffer holds its block at every point, fetched there or not (unfetched, the block index
    has not moved), for any proof data whose array is `V`'s and whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current buffer holds its block at every point, fetched there or not (unfetched, the block index
    has not moved), for any proof data whose array is `V`'s and whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current buffer holds its block at every point, fetched there or not (unfetched, the block index
    has not moved), for any proof data whose array is `V`'s and whose body leaves the block in place. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7's current buffer holds its block at every point, fetched there or not (unfetched, the block index
    has not moved), for any proof data whose array is `V`'s and whose body leaves the block in place. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- Input window 8's current buffer holds its block at every point, fetched there or not (unfetched, the block index
    has not moved), for any proof data whose array is `V`'s and whose body leaves the block in place. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each a whole buffer -/

abbrev r0_x : Rect S1x512x1024 := Rect.unit (s := S1x512x1024) ![0, 0, 0] S1x512x1024.size inb_S1x512x1024_S1x512x1024_0_0_0
abbrev r0_v : Rect S1024 := Rect.unit (s := S1024) ![0] S1024.size inb_S1024_S1024_0
abbrev r0_m : Rect S1024x1024 := Rect.unit (s := S1024x1024) ![0, 0] S1024x1024.size inb_S1024x1024_S1024x1024_0_0

theorem hz0_x : (![0, 0, 0] : Fin 3 → Nat) = fun _ => 0 := funext fun a => by fin_cases a <;> rfl
theorem hz0_v : (![0] : Fin 1 → Nat) = fun _ => 0 := funext fun a => by fin_cases a <;> rfl
theorem hz0_m : (![0, 0] : Fin 2 → Nat) = fun _ => 0 := funext fun a => by fin_cases a <;> rfl

/-- A load of a whole block reads the block. -/
theorem ld0_x {e : EltTy} (X : S1x512x1024.Idx → Elt F e) : View.ld X r0_x = X := View.ld_unit_zero (S := S1x512x1024) hz0_x _ X
theorem ld0_v {e : EltTy} (X : S1024.Idx → Elt F e) : View.ld X r0_v = X := View.ld_unit_zero (S := S1024) hz0_v _ X
theorem ld0_m {e : EltTy} (X : S1024x1024.Idx → Elt F e) : View.ld X r0_m = X := View.ld_unit_zero (S := S1024x1024) hz0_m _ X

/-- One store of a whole block covers the buffer. -/
theorem cover0_out (p0 : Vec F S1x512x1024 .bf16) (y : S1x512x1024.Idx) :
    ∃ pc ∈ ([⟨r0_x, p0⟩] : List (View.Piece (Elt F) S1x512x1024 .bf16)), y ∈ pc.1.set :=
  View.cover_of_tiled [⟨r0_x, p0⟩] S1x512x1024.size (by rfl) y

/-- and leaves its payload there. -/
theorem canon0_out (p0 : Vec F S1x512x1024 .bf16) :
    View.canon ([⟨r0_x, p0⟩] : List (View.Piece (Elt F) S1x512x1024 .bf16)) = p0 :=
  View.canon_unit_zero hz0_x _ p0

/-- So a load of a whole buffer reads its contents. -/
theorem rd0_x {e : EltTy} (v : View sig .tc .vmem S1x512x1024 e) (f : v.ty.Contents (Elt F)) :
    v.readAt (Elt F) r0_x.toLoadRect f = v.read (Elt F) f := ld0_x _
theorem rd0_v {e : EltTy} (v : View sig .tc .vmem S1024 e) (f : v.ty.Contents (Elt F)) :
    v.readAt (Elt F) r0_v.toLoadRect f = v.read (Elt F) f := ld0_v _
theorem rd0_m {e : EltTy} (v : View sig .tc .vmem S1024x1024 e) (f : v.ty.Contents (Elt F)) :
    v.readAt (Elt F) r0_m.toLoadRect f = v.read (Elt F) f := ld0_m _

/-! ## The body's triple -/

set_option maxHeartbeats 1000000 in
/-- The kernel body on whole memrefs, the inputs' at contents `xW` and the outputs' at anything, runs to the
    continuation holding the inputs' as they were and the outputs' at the three projections of the inputs. -/
theorem sound_kernel0 (c : Dev nD) (E : Set ℕ) (i : grid0.Coords) (arg0 : Memref sig .tc .vmem S1x512x1024 .f32) (harg0 : arg0.IsWhole) (arg1 : Memref sig .tc .vmem S1024 .f32) (harg1 : arg1.IsWhole) (arg2 : Memref sig .tc .vmem S1024 .f32) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1x512x1024 .bf16) (harg9 : arg9.IsWhole) (arg10 : Memref sig .tc .vmem S1x512x1024 .bf16) (harg10 : arg10.IsWhole) (arg11 : Memref sig .tc .vmem S1x512x1024 .bf16) (harg11 : arg11.IsWhole)
    (x0 : Vec F S1x512x1024 .f32) (x1 : Vec F S1024 .f32) (x2 : Vec F S1024 .f32) (x3 : Vec F S1024x1024 .bf16) (x4 : Vec F S1024 .f32) (x5 : Vec F S1024x1024 .bf16) (x6 : Vec F S1024 .f32) (x7 : Vec F S1024x1024 .bf16) (x8 : Vec F S1024 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (qOut x0 x1 x2 x3 x4) ∗ owns (c : Thread nD τ) arg10 fullShare (kOut x0 x1 x2 x5 x6) ∗ owns (c : Thread nD τ) arg11 fullShare (vOut x0 x1 x2 x7 x8)) -∗ K ⟨⟩))
      ⊢ wp frame (wpE (defs₀ (F := F)) Variants.none c none) E (cc0__ln_qkv_kernel i arg0 harg0 arg1 harg1 arg2 harg2 arg3 harg3 arg4 harg4 arg5 harg5 arg6 harg6 arg7 harg7 arg8 harg8 arg9 harg9 arg10 harg10 arg11 harg11) K := by
  simp only [cc0__ln_qkv_kernel_eq_skeleton]; unfold cc0__ln_qkv_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    refine (View.read_writes_eq_canon _ _ _ (cover0_out _)).trans ((canon0_out _).trans ?_)
    sl_unfold_run_names
    rw [rd0_x arg0.view, rd0_v arg1.view, rd0_v arg2.view, rd0_m arg3.view, rd0_v arg4.view]
    rfl
  isplitl [H10]
  · iexists _; isplitr
    swap; · iexact H10
    ipureintro
    refine (View.read_writes_eq_canon _ _ _ (cover0_out _)).trans ((canon0_out _).trans ?_)
    sl_unfold_run_names
    rw [rd0_x arg0.view, rd0_v arg1.view, rd0_v arg2.view, rd0_m arg5.view, rd0_v arg6.view]
    rfl
  iexists _; isplitr
  swap; · iexact H11
  ipureintro
  refine (View.read_writes_eq_canon _ _ _ (cover0_out _)).trans ((canon0_out _).trans ?_)
  sl_unfold_run_names
  rw [rd0_x arg0.view, rd0_v arg1.view, rd0_v arg2.view, rd0_m arg7.view, rd0_v arg8.view]
  rfl

/-! ## The body obligation, at a generic point -/

/-- Input window 0's current buffer holds its block at every point. -/
theorem before0_0 (c : Dev nD) (t : Fin cfg0.N) (d) : (dat0 V c).before 0 t d = iblk0 V c 0 t :=
  before0_0_of V (dat0 V c) (A_eq0 V c 0) (after0_0 V c) t d
/-- Input window 1's current buffer holds its block at every point. -/
theorem before0_1 (c : Dev nD) (t : Fin cfg0.N) (d) : (dat0 V c).before 1 t d = iblk0 V c 1 t :=
  before0_1_of V (dat0 V c) (A_eq0 V c 1) (after0_1 V c) t d
/-- Input window 2's current buffer holds its block at every point. -/
theorem before0_2 (c : Dev nD) (t : Fin cfg0.N) (d) : (dat0 V c).before 2 t d = iblk0 V c 2 t :=
  before0_2_of V (dat0 V c) (A_eq0 V c 2) (after0_2 V c) t d
/-- Input window 3's current buffer holds its block at every point. -/
theorem before0_3 (c : Dev nD) (t : Fin cfg0.N) (d) : (dat0 V c).before 3 t d = iblk0 V c 3 t :=
  before0_3_of V (dat0 V c) (A_eq0 V c 3) (after0_3 V c) t d
/-- Input window 4's current buffer holds its block at every point. -/
theorem before0_4 (c : Dev nD) (t : Fin cfg0.N) (d) : (dat0 V c).before 4 t d = iblk0 V c 4 t :=
  before0_4_of V (dat0 V c) (A_eq0 V c 4) (after0_4 V c) t d
/-- Input window 5's current buffer holds its block at every point. -/
theorem before0_5 (c : Dev nD) (t : Fin cfg0.N) (d) : (dat0 V c).before 5 t d = iblk0 V c 5 t :=
  before0_5_of V (dat0 V c) (A_eq0 V c 5) (after0_5 V c) t d
/-- Input window 6's current buffer holds its block at every point. -/
theorem before0_6 (c : Dev nD) (t : Fin cfg0.N) (d) : (dat0 V c).before 6 t d = iblk0 V c 6 t :=
  before0_6_of V (dat0 V c) (A_eq0 V c 6) (after0_6 V c) t d
/-- Input window 7's current buffer holds its block at every point. -/
theorem before0_7 (c : Dev nD) (t : Fin cfg0.N) (d) : (dat0 V c).before 7 t d = iblk0 V c 7 t :=
  before0_7_of V (dat0 V c) (A_eq0 V c 7) (after0_7 V c) t d
/-- Input window 8's current buffer holds its block at every point. -/
theorem before0_8 (c : Dev nD) (t : Fin cfg0.N) (d) : (dat0 V c).before 8 t d = iblk0 V c 8 t :=
  before0_8_of V (dat0 V c) (A_eq0 V c 8) (after0_8 V c) t d

/-- What the body is called with at point `t`: the invariant, the core's debts, and each window's current buffer at
    what the point finds in it, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d)))

/-- and what it returns: the same with each buffer at what the body leaves in it. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t))

/-- The body at any point: the inputs' buffers hold their blocks, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel0 c Set.univ (grid0.coords t) _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- Region 0's body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.KernelIdeal.Hand

end
-- ==== Proof.KI.R1Runs.lean ====
/-
  What the three control cases of the attention region's body share: the two conditions on the key-block coordinate
  (first key block: the running quantities are reset; last key block: the result block is stored), decided over the
  grid in closed form; where the result window is idle; the staging memrefs at a point; each input window's buffer
  holding its block at every point; the region invariant with the three running quantities' buffers named.
-/
import proofs.«110207_j12077448037095_2_alg».proof.Proof.KI.Data

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

namespace R1B

section Inputs
variable (V : (c : Dev nD) → (b : Ref sig .tc) → Buf (Elt F) ((c : Thread nD τ).loc b))

/-! ## The input windows' buffers hold their blocks at every point, fetched there or not -/

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)

end Inputs

end R1B

/-! ## The body's two conditions on the key-block coordinate -/

/-- First key block (coordinate 2 is zero): the running quantities are reset. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- Last key block (coordinate 2 is three): the result block is stored. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

namespace R1B

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- Away from a last key block the result window is idle and not written back. -/
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
/-- At a last key block it is live. -/
theorem liveAt1_5 : ∀ t : Fin cfg1.N, cond1_1 (grid1.coords t) → cfg1.idle 5 (grid1.coords t) = false := by decide +kernel

/-! ## The memrefs the body is called with -/

abbrev ms1_0 (t : Fin cfg1.N) : Memref sig .tc .vmem S1x256x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x256x1024 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x256x1024 .f32 := win1_5.stage (cfg1.slots t 5)
abbrev hs1_5 (t : Fin cfg1.N) : (ms1_5 t).IsWhole := hstage1_5 ((cfg1.slots t 5).cast nbuf1_5)

end R1B

/-! ## The region invariant as the launch hands it over -/

/-- The class's invariant with the three running quantities' buffers as memrefs owned at some contents. -/
theorem PhiA1_eq (c : Dev nD) :
    (Pipeline.ΦA spec1 c : sProp 𝕄)
      = iprop(scoped1 c iprop(∃ d, owns (c : Thread nD τ) scM1_0 fullShare d) iprop(∃ d, owns (c : Thread nD τ) scM1_1 fullShare d) iprop(∃ d, owns (c : Thread nD τ) scM1_2 fullShare d) ∗ (∃ r, prngReg c r)) := by
  unfold Pipeline.ΦA scoped1; rw [scopedRest1_eq]; simp only [scM1_0, scM1_1, scM1_2, owns_whole]; try rfl

end Cert.KernelIdeal.Hand

end
-- ==== Proof.KI.R1RunA.lean ====
/-
  The attention region's body at a first key block: the three running quantities are reset to their starting values
  and then advanced by one key block; the result window is left as it was found.
-/
import proofs.«110207_j12077448037095_2_alg».proof.Proof.KI.R1Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body's triple at a first key block: on whole memrefs — the five inputs at their blocks, the result window's
    buffer at contents handed back untouched, the three running quantities' buffers at anything — the body runs to
    the continuation holding the inputs as they were and each running quantity's buffer with the listed stores
    written (last first). The lists are the witness the run finds. -/
noncomputable def kernelRun1_A (c : Dev nD) (i : grid1.Coords) (arg3 : Memref sig .tc .vmem S1x256x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1x512 .f32) (harg6 : arg6.IsWhole) (arg7 : Memref sig .tc .vmem S1x256x1024 .f32) (harg7 : arg7.IsWhole) (arg8 : Memref sig .tc .vmem S1x256x1024 .f32) (harg8 : arg8.IsWhole) (arg9 : Memref sig .tc .vmem S16x256x1 .f32) (harg9 : arg9.IsWhole) (arg10 : Memref sig .tc .vmem S16x256x1 .f32) (harg10 : arg10.IsWhole) (arg11 : Memref sig .tc .vmem S16x256x64 .f32) (harg11 : arg11.IsWhole) (hc0 : cond1_0 i) (hc1 : ¬cond1_1 i)
    (x0 : Vec F S1x256x1024 .bf16) (x1 : Vec F S1x512x1024 .bf16) (x2 : Vec F S1x512x1024 .bf16) (x3 : Vec F S1x1x512 .f32) (x4 : Vec F S1x256x1024 .f32) :
    Σ' (L5 : List (View.Piece (Elt F) S1x256x1024 .f32)) (LS0 : List (View.Piece (Elt F) S16x256x1 .f32)) (LS1 : List (View.Piece (Elt F) S16x256x1 .f32)), { LS2 : List (View.Piece (Elt F) S16x256x64 .f32) //
      ∀ (xi5 : Vec F S1x256x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc1__flash_kernel i arg3 harg3 arg4 harg4 arg5 harg5 arg6 harg6 arg7 harg7 arg8 harg8 arg9 harg9 arg10 harg10 arg11 harg11) K } := by
  refine ⟨[], ?_, ?_, ?_, fun xi5 E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexists _; iexact HS0
    isplitl [HS1]; · iexists _; iexact HS1
    iexists _; iexact HS2

end Cert.KernelIdeal.Hand

end
-- ==== Proof.KI.R1RunB.lean ====
/-
  The attention region's body at a middle key block: the three running quantities, at what the key block before left,
  are advanced by one key block; the result window is left as it was found.
-/
import proofs.«110207_j12077448037095_2_alg».proof.Proof.KI.R1RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body's triple at a middle key block: on whole memrefs — the five inputs at their blocks, the result window's
    buffer at contents handed back untouched, the three running quantities' buffers at the named contents — the body
    runs to the continuation holding the inputs as they were and each running quantity's buffer with the listed
    stores written (last first). The lists are the witness the run finds. -/
noncomputable def kernelRun1_B (c : Dev nD) (i : grid1.Coords) (arg3 : Memref sig .tc .vmem S1x256x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1x512 .f32) (harg6 : arg6.IsWhole) (arg7 : Memref sig .tc .vmem S1x256x1024 .f32) (harg7 : arg7.IsWhole) (arg8 : Memref sig .tc .vmem S1x256x1024 .f32) (harg8 : arg8.IsWhole) (arg9 : Memref sig .tc .vmem S16x256x1 .f32) (harg9 : arg9.IsWhole) (arg10 : Memref sig .tc .vmem S16x256x1 .f32) (harg10 : arg10.IsWhole) (arg11 : Memref sig .tc .vmem S16x256x64 .f32) (harg11 : arg11.IsWhole) (hc0 : ¬cond1_0 i) (hc1 : ¬cond1_1 i)
    (x0 : Vec F S1x256x1024 .bf16) (x1 : Vec F S1x512x1024 .bf16) (x2 : Vec F S1x512x1024 .bf16) (x3 : Vec F S1x1x512 .f32) (x4 : Vec F S1x256x1024 .f32) (xs0 : Vec F S16x256x1 .f32) (xs1 : Vec F S16x256x1 .f32) (xs2 : Vec F S16x256x64 .f32) :
    Σ' (L5 : List (View.Piece (Elt F) S1x256x1024 .f32)) (LS0 : List (View.Piece (Elt F) S16x256x1 .f32)) (LS1 : List (View.Piece (Elt F) S16x256x1 .f32)), { LS2 : List (View.Piece (Elt F) S16x256x64 .f32) //
      ∀ (xi5 : Vec F S1x256x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0 ∗ owns (c : Thread nD τ) arg10 fullShare xs1 ∗ owns (c : Thread nD τ) arg11 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc1__flash_kernel i arg3 harg3 arg4 harg4 arg5 harg5 arg6 harg6 arg7 harg7 arg8 harg8 arg9 harg9 arg10 harg10 arg11 harg11) K } := by
  refine ⟨[], ?_, ?_, ?_, fun xi5 E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexists _; iexact HS0
    isplitl [HS1]; · iexists _; iexact HS1
    iexists _; iexact HS2

end Cert.KernelIdeal.Hand

end
-- ==== Proof.KI.R1RunC.lean ====
/-
  The attention region's body at a last key block: the three running quantities, at what the key block before left,
  are advanced by one key block, and the result block — the weighted sum over the sum of exponentials, plus the
  residual block — is stored into the result window.
-/
import proofs.«110207_j12077448037095_2_alg».proof.Proof.KI.R1RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body's triple at a last key block: on whole memrefs — the five inputs at their blocks, the result window's
    buffer at anything, the three running quantities' buffers at the named contents — the body runs to the
    continuation holding the inputs as they were and the result window's and each running quantity's buffer with the
    listed stores written (last first). The lists are the witness the run finds. -/
noncomputable def kernelRun1_C (c : Dev nD) (i : grid1.Coords) (arg3 : Memref sig .tc .vmem S1x256x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1x512 .f32) (harg6 : arg6.IsWhole) (arg7 : Memref sig .tc .vmem S1x256x1024 .f32) (harg7 : arg7.IsWhole) (arg8 : Memref sig .tc .vmem S1x256x1024 .f32) (harg8 : arg8.IsWhole) (arg9 : Memref sig .tc .vmem S16x256x1 .f32) (harg9 : arg9.IsWhole) (arg10 : Memref sig .tc .vmem S16x256x1 .f32) (harg10 : arg10.IsWhole) (arg11 : Memref sig .tc .vmem S16x256x64 .f32) (harg11 : arg11.IsWhole) (hc0 : ¬cond1_0 i) (hc1 : cond1_1 i)
    (x0 : Vec F S1x256x1024 .bf16) (x1 : Vec F S1x512x1024 .bf16) (x2 : Vec F S1x512x1024 .bf16) (x3 : Vec F S1x1x512 .f32) (x4 : Vec F S1x256x1024 .f32) (xs0 : Vec F S16x256x1 .f32) (xs1 : Vec F S16x256x1 .f32) (xs2 : Vec F S16x256x64 .f32) :
    Σ' (L5 : List (View.Piece (Elt F) S1x256x1024 .f32)) (LS0 : List (View.Piece (Elt F) S16x256x1 .f32)) (LS1 : List (View.Piece (Elt F) S16x256x1 .f32)), { LS2 : List (View.Piece (Elt F) S16x256x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0 ∗ owns (c : Thread nD τ) arg10 fullShare xs1 ∗ owns (c : Thread nD τ) arg11 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc1__flash_kernel i arg3 harg3 arg4 harg4 arg5 harg5 arg6 harg6 arg7 harg7 arg8 harg8 arg9 harg9 arg10 harg10 arg11 harg11) K } := by
  refine ⟨?_, ?_, ?_, ?_, fun E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hf4
    obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [HS0]; · iexists _; iexact HS0
    isplitl [HS1]; · iexists _; iexact HS1
    iexists _; iexact HS2

end Cert.KernelIdeal.Hand

end
-- ==== Proof.KI.R1Body.lean ====
/-
  The attention region's body obligation. At each grid point the body advances three running quantities per head and
  query row (maximum, sum of exponentials, weighted sum of value rows) by one key block; at a first key block it first
  resets them, at a last key block it also stores the result block. Each of the three control cases has its run; what
  a run leaves in each buffer is the last store into it, a pure function of the point's input blocks and of the
  quantities the position before left; these are the steps by which the region's proof data names the quantities.
-/
import proofs.«110207_j12077448037095_2_alg».proof.Proof.KI.R1RunC
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

namespace R1B

/-- The zero offsets of a rank-three buffer, as the stores and loads spell them. -/
theorem hz3 : (![0, 0, 0] : Fin 3 → Nat) = fun _ => 0 := funext fun a => by fin_cases a <;> rfl

/-! ## Each buffer's last store is of the whole buffer, so the stores cover it -/

theorem scover1_A_0 (c : Dev nD) (i : grid1.Coords) (arg3 : Memref sig .tc .vmem S1x256x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1x512 .f32) (harg6 : arg6.IsWhole) (arg7 : Memref sig .tc .vmem S1x256x1024 .f32) (harg7 : arg7.IsWhole) (arg8 : Memref sig .tc .vmem S1x256x1024 .f32) (harg8 : arg8.IsWhole) (arg9 : Memref sig .tc .vmem S16x256x1 .f32) (harg9 : arg9.IsWhole) (arg10 : Memref sig .tc .vmem S16x256x1 .f32) (harg10 : arg10.IsWhole) (arg11 : Memref sig .tc .vmem S16x256x64 .f32) (harg11 : arg11.IsWhole) (hc0 : cond1_0 i) (hc1 : ¬cond1_1 i) (x0 : Vec F S1x256x1024 .bf16) (x1 : Vec F S1x512x1024 .bf16) (x2 : Vec F S1x512x1024 .bf16) (x3 : Vec F S1x1x512 .f32) (x4 : Vec F S1x256x1024 .f32) (y : S16x256x1.Idx) :
    ∃ pc ∈ (kernelRun1_A c i arg3 harg3 arg4 harg4 arg5 harg5 arg6 harg6 arg7 harg7 arg8 harg8 arg9 harg9 arg10 harg10 arg11 harg11 hc0 hc1 x0 x1 x2 x3 x4).2.1, y ∈ pc.1.set := by
  unfold kernelRun1_A
  dsimp only
  sl_unfold_words
  refine ⟨_, List.mem_cons_self, ?_⟩
  exact View.mem_set_unit_zero (S := S16x256x1) hz3 inb_S16x256x1_S16x256x1_0_0_0 y
theorem scover1_A_1 (c : Dev nD) (i : grid1.Coords) (arg3 : Memref sig .tc .vmem S1x256x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1x512 .f32) (harg6 : arg6.IsWhole) (arg7 : Memref sig .tc .vmem S1x256x1024 .f32) (harg7 : arg7.IsWhole) (arg8 : Memref sig .tc .vmem S1x256x1024 .f32) (harg8 : arg8.IsWhole) (arg9 : Memref sig .tc .vmem S16x256x1 .f32) (harg9 : arg9.IsWhole) (arg10 : Memref sig .tc .vmem S16x256x1 .f32) (harg10 : arg10.IsWhole) (arg11 : Memref sig .tc .vmem S16x256x64 .f32) (harg11 : arg11.IsWhole) (hc0 : cond1_0 i) (hc1 : ¬cond1_1 i) (x0 : Vec F S1x256x1024 .bf16) (x1 : Vec F S1x512x1024 .bf16) (x2 : Vec F S1x512x1024 .bf16) (x3 : Vec F S1x1x512 .f32) (x4 : Vec F S1x256x1024 .f32) (y : S16x256x1.Idx) :
    ∃ pc ∈ (kernelRun1_A c i arg3 harg3 arg4 harg4 arg5 harg5 arg6 harg6 arg7 harg7 arg8 harg8 arg9 harg9 arg10 harg10 arg11 harg11 hc0 hc1 x0 x1 x2 x3 x4).2.2.1, y ∈ pc.1.set := by
  unfold kernelRun1_A
  dsimp only
  sl_unfold_words
  refine ⟨_, List.mem_cons_self, ?_⟩
  exact View.mem_set_unit_zero (S := S16x256x1) hz3 inb_S16x256x1_S16x256x1_0_0_0 y
theorem scover1_A_2 (c : Dev nD) (i : grid1.Coords) (arg3 : Memref sig .tc .vmem S1x256x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1x512 .f32) (harg6 : arg6.IsWhole) (arg7 : Memref sig .tc .vmem S1x256x1024 .f32) (harg7 : arg7.IsWhole) (arg8 : Memref sig .tc .vmem S1x256x1024 .f32) (harg8 : arg8.IsWhole) (arg9 : Memref sig .tc .vmem S16x256x1 .f32) (harg9 : arg9.IsWhole) (arg10 : Memref sig .tc .vmem S16x256x1 .f32) (harg10 : arg10.IsWhole) (arg11 : Memref sig .tc .vmem S16x256x64 .f32) (harg11 : arg11.IsWhole) (hc0 : cond1_0 i) (hc1 : ¬cond1_1 i) (x0 : Vec F S1x256x1024 .bf16) (x1 : Vec F S1x512x1024 .bf16) (x2 : Vec F S1x512x1024 .bf16) (x3 : Vec F S1x1x512 .f32) (x4 : Vec F S1x256x1024 .f32) (y : S16x256x64.Idx) :
    ∃ pc ∈ (kernelRun1_A c i arg3 harg3 arg4 harg4 arg5 harg5 arg6 harg6 arg7 harg7 arg8 harg8 arg9 harg9 arg10 harg10 arg11 harg11 hc0 hc1 x0 x1 x2 x3 x4).2.2.2.1, y ∈ pc.1.set := by
  unfold kernelRun1_A
  dsimp only
  sl_unfold_words
  refine ⟨_, List.mem_cons_self, ?_⟩
  exact View.mem_set_unit_zero (S := S16x256x64) hz3 inb_S16x256x64_S16x256x64_0_0_0 y
theorem scover1_B_0 (c : Dev nD) (i : grid1.Coords) (arg3 : Memref sig .tc .vmem S1x256x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1x512 .f32) (harg6 : arg6.IsWhole) (arg7 : Memref sig .tc .vmem S1x256x1024 .f32) (harg7 : arg7.IsWhole) (arg8 : Memref sig .tc .vmem S1x256x1024 .f32) (harg8 : arg8.IsWhole) (arg9 : Memref sig .tc .vmem S16x256x1 .f32) (harg9 : arg9.IsWhole) (arg10 : Memref sig .tc .vmem S16x256x1 .f32) (harg10 : arg10.IsWhole) (arg11 : Memref sig .tc .vmem S16x256x64 .f32) (harg11 : arg11.IsWhole) (hc0 : ¬cond1_0 i) (hc1 : ¬cond1_1 i) (x0 : Vec F S1x256x1024 .bf16) (x1 : Vec F S1x512x1024 .bf16) (x2 : Vec F S1x512x1024 .bf16) (x3 : Vec F S1x1x512 .f32) (x4 : Vec F S1x256x1024 .f32) (xs0 : Vec F S16x256x1 .f32) (xs1 : Vec F S16x256x1 .f32) (xs2 : Vec F S16x256x64 .f32) (y : S16x256x1.Idx) :
    ∃ pc ∈ (kernelRun1_B c i arg3 harg3 arg4 harg4 arg5 harg5 arg6 harg6 arg7 harg7 arg8 harg8 arg9 harg9 arg10 harg10 arg11 harg11 hc0 hc1 x0 x1 x2 x3 x4 xs0 xs1 xs2).2.1, y ∈ pc.1.set := by
  unfold kernelRun1_B
  dsimp only
  sl_unfold_words
  refine ⟨_, List.mem_cons_self, ?_⟩
  exact View.mem_set_unit_zero (S := S16x256x1) hz3 inb_S16x256x1_S16x256x1_0_0_0 y
theorem scover1_B_1 (c : Dev nD) (i : grid1.Coords) (arg3 : Memref sig .tc .vmem S1x256x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1x512 .f32) (harg6 : arg6.IsWhole) (arg7 : Memref sig .tc .vmem S1x256x1024 .f32) (harg7 : arg7.IsWhole) (arg8 : Memref sig .tc .vmem S1x256x1024 .f32) (harg8 : arg8.IsWhole) (arg9 : Memref sig .tc .vmem S16x256x1 .f32) (harg9 : arg9.IsWhole) (arg10 : Memref sig .tc .vmem S16x256x1 .f32) (harg10 : arg10.IsWhole) (arg11 : Memref sig .tc .vmem S16x256x64 .f32) (harg11 : arg11.IsWhole) (hc0 : ¬cond1_0 i) (hc1 : ¬cond1_1 i) (x0 : Vec F S1x256x1024 .bf16) (x1 : Vec F S1x512x1024 .bf16) (x2 : Vec F S1x512x1024 .bf16) (x3 : Vec F S1x1x512 .f32) (x4 : Vec F S1x256x1024 .f32) (xs0 : Vec F S16x256x1 .f32) (xs1 : Vec F S16x256x1 .f32) (xs2 : Vec F S16x256x64 .f32) (y : S16x256x1.Idx) :
    ∃ pc ∈ (kernelRun1_B c i arg3 harg3 arg4 harg4 arg5 harg5 arg6 harg6 arg7 harg7 arg8 harg8 arg9 harg9 arg10 harg10 arg11 harg11 hc0 hc1 x0 x1 x2 x3 x4 xs0 xs1 xs2).2.2.1, y ∈ pc.1.set := by
  unfold kernelRun1_B
  dsimp only
  sl_unfold_words
  refine ⟨_, List.mem_cons_self, ?_⟩
  exact View.mem_set_unit_zero (S := S16x256x1) hz3 inb_S16x256x1_S16x256x1_0_0_0 y
theorem scover1_B_2 (c : Dev nD) (i : grid1.Coords) (arg3 : Memref sig .tc .vmem S1x256x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1x512 .f32) (harg6 : arg6.IsWhole) (arg7 : Memref sig .tc .vmem S1x256x1024 .f32) (harg7 : arg7.IsWhole) (arg8 : Memref sig .tc .vmem S1x256x1024 .f32) (harg8 : arg8.IsWhole) (arg9 : Memref sig .tc .vmem S16x256x1 .f32) (harg9 : arg9.IsWhole) (arg10 : Memref sig .tc .vmem S16x256x1 .f32) (harg10 : arg10.IsWhole) (arg11 : Memref sig .tc .vmem S16x256x64 .f32) (harg11 : arg11.IsWhole) (hc0 : ¬cond1_0 i) (hc1 : ¬cond1_1 i) (x0 : Vec F S1x256x1024 .bf16) (x1 : Vec F S1x512x1024 .bf16) (x2 : Vec F S1x512x1024 .bf16) (x3 : Vec F S1x1x512 .f32) (x4 : Vec F S1x256x1024 .f32) (xs0 : Vec F S16x256x1 .f32) (xs1 : Vec F S16x256x1 .f32) (xs2 : Vec F S16x256x64 .f32) (y : S16x256x64.Idx) :
    ∃ pc ∈ (kernelRun1_B c i arg3 harg3 arg4 harg4 arg5 harg5 arg6 harg6 arg7 harg7 arg8 harg8 arg9 harg9 arg10 harg10 arg11 harg11 hc0 hc1 x0 x1 x2 x3 x4 xs0 xs1 xs2).2.2.2.1, y ∈ pc.1.set := by
  unfold kernelRun1_B
  dsimp only
  sl_unfold_words
  refine ⟨_, List.mem_cons_self, ?_⟩
  exact View.mem_set_unit_zero (S := S16x256x64) hz3 inb_S16x256x64_S16x256x64_0_0_0 y
theorem scover1_C_0 (c : Dev nD) (i : grid1.Coords) (arg3 : Memref sig .tc .vmem S1x256x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1x512 .f32) (harg6 : arg6.IsWhole) (arg7 : Memref sig .tc .vmem S1x256x1024 .f32) (harg7 : arg7.IsWhole) (arg8 : Memref sig .tc .vmem S1x256x1024 .f32) (harg8 : arg8.IsWhole) (arg9 : Memref sig .tc .vmem S16x256x1 .f32) (harg9 : arg9.IsWhole) (arg10 : Memref sig .tc .vmem S16x256x1 .f32) (harg10 : arg10.IsWhole) (arg11 : Memref sig .tc .vmem S16x256x64 .f32) (harg11 : arg11.IsWhole) (hc0 : ¬cond1_0 i) (hc1 : cond1_1 i) (x0 : Vec F S1x256x1024 .bf16) (x1 : Vec F S1x512x1024 .bf16) (x2 : Vec F S1x512x1024 .bf16) (x3 : Vec F S1x1x512 .f32) (x4 : Vec F S1x256x1024 .f32) (xs0 : Vec F S16x256x1 .f32) (xs1 : Vec F S16x256x1 .f32) (xs2 : Vec F S16x256x64 .f32) (y : S16x256x1.Idx) :
    ∃ pc ∈ (kernelRun1_C c i arg3 harg3 arg4 harg4 arg5 harg5 arg6 harg6 arg7 harg7 arg8 harg8 arg9 harg9 arg10 harg10 arg11 harg11 hc0 hc1 x0 x1 x2 x3 x4 xs0 xs1 xs2).2.1, y ∈ pc.1.set := by
  unfold kernelRun1_C
  dsimp only
  sl_unfold_words
  refine ⟨_, List.mem_cons_self, ?_⟩
  exact View.mem_set_unit_zero (S := S16x256x1) hz3 inb_S16x256x1_S16x256x1_0_0_0 y
theorem scover1_C_1 (c : Dev nD) (i : grid1.Coords) (arg3 : Memref sig .tc .vmem S1x256x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1x512 .f32) (harg6 : arg6.IsWhole) (arg7 : Memref sig .tc .vmem S1x256x1024 .f32) (harg7 : arg7.IsWhole) (arg8 : Memref sig .tc .vmem S1x256x1024 .f32) (harg8 : arg8.IsWhole) (arg9 : Memref sig .tc .vmem S16x256x1 .f32) (harg9 : arg9.IsWhole) (arg10 : Memref sig .tc .vmem S16x256x1 .f32) (harg10 : arg10.IsWhole) (arg11 : Memref sig .tc .vmem S16x256x64 .f32) (harg11 : arg11.IsWhole) (hc0 : ¬cond1_0 i) (hc1 : cond1_1 i) (x0 : Vec F S1x256x1024 .bf16) (x1 : Vec F S1x512x1024 .bf16) (x2 : Vec F S1x512x1024 .bf16) (x3 : Vec F S1x1x512 .f32) (x4 : Vec F S1x256x1024 .f32) (xs0 : Vec F S16x256x1 .f32) (xs1 : Vec F S16x256x1 .f32) (xs2 : Vec F S16x256x64 .f32) (y : S16x256x1.Idx) :
    ∃ pc ∈ (kernelRun1_C c i arg3 harg3 arg4 harg4 arg5 harg5 arg6 harg6 arg7 harg7 arg8 harg8 arg9 harg9 arg10 harg10 arg11 harg11 hc0 hc1 x0 x1 x2 x3 x4 xs0 xs1 xs2).2.2.1, y ∈ pc.1.set := by
  unfold kernelRun1_C
  dsimp only
  sl_unfold_words
  refine ⟨_, List.mem_cons_self, ?_⟩
  exact View.mem_set_unit_zero (S := S16x256x1) hz3 inb_S16x256x1_S16x256x1_0_0_0 y
theorem scover1_C_2 (c : Dev nD) (i : grid1.Coords) (arg3 : Memref sig .tc .vmem S1x256x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1x512 .f32) (harg6 : arg6.IsWhole) (arg7 : Memref sig .tc .vmem S1x256x1024 .f32) (harg7 : arg7.IsWhole) (arg8 : Memref sig .tc .vmem S1x256x1024 .f32) (harg8 : arg8.IsWhole) (arg9 : Memref sig .tc .vmem S16x256x1 .f32) (harg9 : arg9.IsWhole) (arg10 : Memref sig .tc .vmem S16x256x1 .f32) (harg10 : arg10.IsWhole) (arg11 : Memref sig .tc .vmem S16x256x64 .f32) (harg11 : arg11.IsWhole) (hc0 : ¬cond1_0 i) (hc1 : cond1_1 i) (x0 : Vec F S1x256x1024 .bf16) (x1 : Vec F S1x512x1024 .bf16) (x2 : Vec F S1x512x1024 .bf16) (x3 : Vec F S1x1x512 .f32) (x4 : Vec F S1x256x1024 .f32) (xs0 : Vec F S16x256x1 .f32) (xs1 : Vec F S16x256x1 .f32) (xs2 : Vec F S16x256x64 .f32) (y : S16x256x64.Idx) :
    ∃ pc ∈ (kernelRun1_C c i arg3 harg3 arg4 harg4 arg5 harg5 arg6 harg6 arg7 harg7 arg8 harg8 arg9 harg9 arg10 harg10 arg11 harg11 hc0 hc1 x0 x1 x2 x3 x4 xs0 xs1 xs2).2.2.2.1, y ∈ pc.1.set := by
  unfold kernelRun1_C
  dsimp only
  sl_unfold_words
  refine ⟨_, List.mem_cons_self, ?_⟩
  exact View.mem_set_unit_zero (S := S16x256x64) hz3 inb_S16x256x64_S16x256x64_0_0_0 y
theorem cover1_C_5 (c : Dev nD) (i : grid1.Coords) (arg3 : Memref sig .tc .vmem S1x256x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1x512 .f32) (harg6 : arg6.IsWhole) (arg7 : Memref sig .tc .vmem S1x256x1024 .f32) (harg7 : arg7.IsWhole) (arg8 : Memref sig .tc .vmem S1x256x1024 .f32) (harg8 : arg8.IsWhole) (arg9 : Memref sig .tc .vmem S16x256x1 .f32) (harg9 : arg9.IsWhole) (arg10 : Memref sig .tc .vmem S16x256x1 .f32) (harg10 : arg10.IsWhole) (arg11 : Memref sig .tc .vmem S16x256x64 .f32) (harg11 : arg11.IsWhole) (hc0 : ¬cond1_0 i) (hc1 : cond1_1 i) (x0 : Vec F S1x256x1024 .bf16) (x1 : Vec F S1x512x1024 .bf16) (x2 : Vec F S1x512x1024 .bf16) (x3 : Vec F S1x1x512 .f32) (x4 : Vec F S1x256x1024 .f32) (xs0 : Vec F S16x256x1 .f32) (xs1 : Vec F S16x256x1 .f32) (xs2 : Vec F S16x256x64 .f32) (y : S1x256x1024.Idx) :
    ∃ pc ∈ (kernelRun1_C c i arg3 harg3 arg4 harg4 arg5 harg5 arg6 harg6 arg7 harg7 arg8 harg8 arg9 harg9 arg10 harg10 arg11 harg11 hc0 hc1 x0 x1 x2 x3 x4 xs0 xs1 xs2).1, y ∈ pc.1.set := by
  unfold kernelRun1_C
  dsimp only
  sl_unfold_words
  refine ⟨_, List.mem_cons_self, ?_⟩
  exact View.mem_set_unit_zero (S := S1x256x1024) hz3 inb_S1x256x1024_S1x256x1024_0_0_0 y

/-! ## What a first key block leaves in the three running quantities' buffers: a step from the reset values -/

theorem canon1_A_0 (c : Dev nD) (i : grid1.Coords) (arg3 : Memref sig .tc .vmem S1x256x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1x512 .f32) (harg6 : arg6.IsWhole) (arg7 : Memref sig .tc .vmem S1x256x1024 .f32) (harg7 : arg7.IsWhole) (arg8 : Memref sig .tc .vmem S1x256x1024 .f32) (harg8 : arg8.IsWhole) (arg9 : Memref sig .tc .vmem S16x256x1 .f32) (harg9 : arg9.IsWhole) (arg10 : Memref sig .tc .vmem S16x256x1 .f32) (harg10 : arg10.IsWhole) (arg11 : Memref sig .tc .vmem S16x256x64 .f32) (harg11 : arg11.IsWhole) (hc0 : cond1_0 i) (hc1 : ¬cond1_1 i) (x0 : Vec F S1x256x1024 .bf16) (x1 : Vec F S1x512x1024 .bf16) (x2 : Vec F S1x512x1024 .bf16) (x3 : Vec F S1x1x512 .f32) (x4 : Vec F S1x256x1024 .f32) :
    View.canon (kernelRun1_A c i arg3 harg3 arg4 harg4 arg5 harg5 arg6 harg6 arg7 harg7 arg8 harg8 arg9 harg9 arg10 harg10 arg11 harg11 hc0 hc1 x0 x1 x2 x3 x4).2.1 = k1_pay4 (k1_pay11 x0 x1 x3 (k1_pay6 (F := F))) := by
  unfold kernelRun1_A
  dsimp only
  rw [View.canon_cons_unit_zero (S := S16x256x1) hz3]
  sl_unfold_words
  simp only [View.readAt_eq_ld, harg3.read_unread, harg4.read_unread, harg5.read_unread, harg6.read_unread, harg7.read_unread, View.ld_unit_zero (S := S1x256x1024) hz3, View.ld_unit_zero (S := S1x512x1024) hz3, View.ld_unit_zero (S := S1x1x512) hz3, View.ld_unit_zero (S := S16x256x1) hz3, View.ld_unit_zero (S := S16x256x64) hz3, View.readCov_unit_zero (S := S16x256x1) _ hz3, View.readCov_unit_zero (S := S16x256x64) _ hz3]

theorem canon1_A_1 (c : Dev nD) (i : grid1.Coords) (arg3 : Memref sig .tc .vmem S1x256x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1x512 .f32) (harg6 : arg6.IsWhole) (arg7 : Memref sig .tc .vmem S1x256x1024 .f32) (harg7 : arg7.IsWhole) (arg8 : Memref sig .tc .vmem S1x256x1024 .f32) (harg8 : arg8.IsWhole) (arg9 : Memref sig .tc .vmem S16x256x1 .f32) (harg9 : arg9.IsWhole) (arg10 : Memref sig .tc .vmem S16x256x1 .f32) (harg10 : arg10.IsWhole) (arg11 : Memref sig .tc .vmem S16x256x64 .f32) (harg11 : arg11.IsWhole) (hc0 : cond1_0 i) (hc1 : ¬cond1_1 i) (x0 : Vec F S1x256x1024 .bf16) (x1 : Vec F S1x512x1024 .bf16) (x2 : Vec F S1x512x1024 .bf16) (x3 : Vec F S1x1x512 .f32) (x4 : Vec F S1x256x1024 .f32) :
    View.canon (kernelRun1_A c i arg3 harg3 arg4 harg4 arg5 harg5 arg6 harg6 arg7 harg7 arg8 harg8 arg9 harg9 arg10 harg10 arg11 harg11 hc0 hc1 x0 x1 x2 x3 x4).2.2.1 = k1_pay2 (k1_pay12 x0 x1 x3 (k1_pay6 (F := F)) (k1_pay6 (F := F))) (k1_pay13 x0 x1 x3 (k1_pay6 (F := F))) (k1_pay7 (F := F)) := by
  unfold kernelRun1_A
  dsimp only
  rw [View.canon_cons_unit_zero (S := S16x256x1) hz3]
  sl_unfold_words
  simp only [View.readAt_eq_ld, harg3.read_unread, harg4.read_unread, harg5.read_unread, harg6.read_unread, harg7.read_unread, View.ld_unit_zero (S := S1x256x1024) hz3, View.ld_unit_zero (S := S1x512x1024) hz3, View.ld_unit_zero (S := S1x1x512) hz3, View.ld_unit_zero (S := S16x256x1) hz3, View.ld_unit_zero (S := S16x256x64) hz3, View.readCov_unit_zero (S := S16x256x1) _ hz3, View.readCov_unit_zero (S := S16x256x64) _ hz3]

theorem canon1_A_2 (c : Dev nD) (i : grid1.Coords) (arg3 : Memref sig .tc .vmem S1x256x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1x512 .f32) (harg6 : arg6.IsWhole) (arg7 : Memref sig .tc .vmem S1x256x1024 .f32) (harg7 : arg7.IsWhole) (arg8 : Memref sig .tc .vmem S1x256x1024 .f32) (harg8 : arg8.IsWhole) (arg9 : Memref sig .tc .vmem S16x256x1 .f32) (harg9 : arg9.IsWhole) (arg10 : Memref sig .tc .vmem S16x256x1 .f32) (harg10 : arg10.IsWhole) (arg11 : Memref sig .tc .vmem S16x256x64 .f32) (harg11 : arg11.IsWhole) (hc0 : cond1_0 i) (hc1 : ¬cond1_1 i) (x0 : Vec F S1x256x1024 .bf16) (x1 : Vec F S1x512x1024 .bf16) (x2 : Vec F S1x512x1024 .bf16) (x3 : Vec F S1x1x512 .f32) (x4 : Vec F S1x256x1024 .f32) :
    View.canon (kernelRun1_A c i arg3 harg3 arg4 harg4 arg5 harg5 arg6 harg6 arg7 harg7 arg8 harg8 arg9 harg9 arg10 harg10 arg11 harg11 hc0 hc1 x0 x1 x2 x3 x4).2.2.2.1 = k1_pay3 (k1_pay9 x2) (k1_pay12 x0 x1 x3 (k1_pay6 (F := F)) (k1_pay6 (F := F))) (k1_pay13 x0 x1 x3 (k1_pay6 (F := F))) (k1_pay8 (F := F)) := by
  unfold kernelRun1_A
  dsimp only
  rw [View.canon_cons_unit_zero (S := S16x256x64) hz3]
  sl_unfold_words
  simp only [View.readAt_eq_ld, harg3.read_unread, harg4.read_unread, harg5.read_unread, harg6.read_unread, harg7.read_unread, View.ld_unit_zero (S := S1x256x1024) hz3, View.ld_unit_zero (S := S1x512x1024) hz3, View.ld_unit_zero (S := S1x1x512) hz3, View.ld_unit_zero (S := S16x256x1) hz3, View.ld_unit_zero (S := S16x256x64) hz3, View.readCov_unit_zero (S := S16x256x1) _ hz3, View.readCov_unit_zero (S := S16x256x64) _ hz3]

/-! ## What a middle key block leaves in the three running quantities' buffers -/

theorem canon1_B_0 (c : Dev nD) (i : grid1.Coords) (arg3 : Memref sig .tc .vmem S1x256x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1x512 .f32) (harg6 : arg6.IsWhole) (arg7 : Memref sig .tc .vmem S1x256x1024 .f32) (harg7 : arg7.IsWhole) (arg8 : Memref sig .tc .vmem S1x256x1024 .f32) (harg8 : arg8.IsWhole) (arg9 : Memref sig .tc .vmem S16x256x1 .f32) (harg9 : arg9.IsWhole) (arg10 : Memref sig .tc .vmem S16x256x1 .f32) (harg10 : arg10.IsWhole) (arg11 : Memref sig .tc .vmem S16x256x64 .f32) (harg11 : arg11.IsWhole) (hc0 : ¬cond1_0 i) (hc1 : ¬cond1_1 i) (x0 : Vec F S1x256x1024 .bf16) (x1 : Vec F S1x512x1024 .bf16) (x2 : Vec F S1x512x1024 .bf16) (x3 : Vec F S1x1x512 .f32) (x4 : Vec F S1x256x1024 .f32) (xs0 : Vec F S16x256x1 .f32) (xs1 : Vec F S16x256x1 .f32) (xs2 : Vec F S16x256x64 .f32) :
    View.canon (kernelRun1_B c i arg3 harg3 arg4 harg4 arg5 harg5 arg6 harg6 arg7 harg7 arg8 harg8 arg9 harg9 arg10 harg10 arg11 harg11 hc0 hc1 x0 x1 x2 x3 x4 xs0 xs1 xs2).2.1 = k1_pay4 (k1_pay11 x0 x1 x3 xs0) := by
  unfold kernelRun1_B
  dsimp only
  sl_unfold_words
  rw [View.canon_unit_zero (S := S16x256x1) hz3]
  simp only [View.readAt_eq_ld, harg3.read_unread, harg4.read_unread, harg5.read_unread, harg6.read_unread, harg7.read_unread, harg9.read_unread, harg10.read_unread, harg11.read_unread, View.ld_unit_zero (S := S1x256x1024) hz3, View.ld_unit_zero (S := S1x512x1024) hz3, View.ld_unit_zero (S := S1x1x512) hz3, View.ld_unit_zero (S := S16x256x1) hz3, View.ld_unit_zero (S := S16x256x64) hz3]

theorem canon1_B_1 (c : Dev nD) (i : grid1.Coords) (arg3 : Memref sig .tc .vmem S1x256x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1x512 .f32) (harg6 : arg6.IsWhole) (arg7 : Memref sig .tc .vmem S1x256x1024 .f32) (harg7 : arg7.IsWhole) (arg8 : Memref sig .tc .vmem S1x256x1024 .f32) (harg8 : arg8.IsWhole) (arg9 : Memref sig .tc .vmem S16x256x1 .f32) (harg9 : arg9.IsWhole) (arg10 : Memref sig .tc .vmem S16x256x1 .f32) (harg10 : arg10.IsWhole) (arg11 : Memref sig .tc .vmem S16x256x64 .f32) (harg11 : arg11.IsWhole) (hc0 : ¬cond1_0 i) (hc1 : ¬cond1_1 i) (x0 : Vec F S1x256x1024 .bf16) (x1 : Vec F S1x512x1024 .bf16) (x2 : Vec F S1x512x1024 .bf16) (x3 : Vec F S1x1x512 .f32) (x4 : Vec F S1x256x1024 .f32) (xs0 : Vec F S16x256x1 .f32) (xs1 : Vec F S16x256x1 .f32) (xs2 : Vec F S16x256x64 .f32) :
    View.canon (kernelRun1_B c i arg3 harg3 arg4 harg4 arg5 harg5 arg6 harg6 arg7 harg7 arg8 harg8 arg9 harg9 arg10 harg10 arg11 harg11 hc0 hc1 x0 x1 x2 x3 x4 xs0 xs1 xs2).2.2.1 = k1_pay2 (k1_pay12 x0 x1 x3 xs0 xs0) (k1_pay13 x0 x1 x3 xs0) xs1 := by
  unfold kernelRun1_B
  dsimp only
  sl_unfold_words
  rw [View.canon_unit_zero (S := S16x256x1) hz3]
  simp only [View.readAt_eq_ld, harg3.read_unread, harg4.read_unread, harg5.read_unread, harg6.read_unread, harg7.read_unread, harg9.read_unread, harg10.read_unread, harg11.read_unread, View.ld_unit_zero (S := S1x256x1024) hz3, View.ld_unit_zero (S := S1x512x1024) hz3, View.ld_unit_zero (S := S1x1x512) hz3, View.ld_unit_zero (S := S16x256x1) hz3, View.ld_unit_zero (S := S16x256x64) hz3]

theorem canon1_B_2 (c : Dev nD) (i : grid1.Coords) (arg3 : Memref sig .tc .vmem S1x256x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1x512 .f32) (harg6 : arg6.IsWhole) (arg7 : Memref sig .tc .vmem S1x256x1024 .f32) (harg7 : arg7.IsWhole) (arg8 : Memref sig .tc .vmem S1x256x1024 .f32) (harg8 : arg8.IsWhole) (arg9 : Memref sig .tc .vmem S16x256x1 .f32) (harg9 : arg9.IsWhole) (arg10 : Memref sig .tc .vmem S16x256x1 .f32) (harg10 : arg10.IsWhole) (arg11 : Memref sig .tc .vmem S16x256x64 .f32) (harg11 : arg11.IsWhole) (hc0 : ¬cond1_0 i) (hc1 : ¬cond1_1 i) (x0 : Vec F S1x256x1024 .bf16) (x1 : Vec F S1x512x1024 .bf16) (x2 : Vec F S1x512x1024 .bf16) (x3 : Vec F S1x1x512 .f32) (x4 : Vec F S1x256x1024 .f32) (xs0 : Vec F S16x256x1 .f32) (xs1 : Vec F S16x256x1 .f32) (xs2 : Vec F S16x256x64 .f32) :
    View.canon (kernelRun1_B c i arg3 harg3 arg4 harg4 arg5 harg5 arg6 harg6 arg7 harg7 arg8 harg8 arg9 harg9 arg10 harg10 arg11 harg11 hc0 hc1 x0 x1 x2 x3 x4 xs0 xs1 xs2).2.2.2.1 = k1_pay3 (k1_pay9 x2) (k1_pay12 x0 x1 x3 xs0 xs0) (k1_pay13 x0 x1 x3 xs0) xs2 := by
  unfold kernelRun1_B
  dsimp only
  sl_unfold_words
  rw [View.canon_unit_zero (S := S16x256x64) hz3]
  simp only [View.readAt_eq_ld, harg3.read_unread, harg4.read_unread, harg5.read_unread, harg6.read_unread, harg7.read_unread, harg9.read_unread, harg10.read_unread, harg11.read_unread, View.ld_unit_zero (S := S1x256x1024) hz3, View.ld_unit_zero (S := S1x512x1024) hz3, View.ld_unit_zero (S := S1x1x512) hz3, View.ld_unit_zero (S := S16x256x1) hz3, View.ld_unit_zero (S := S16x256x64) hz3]

/-! ## What a last key block leaves: the three running quantities as at a middle key block, and the result block -/

theorem canon1_C_0 (c : Dev nD) (i : grid1.Coords) (arg3 : Memref sig .tc .vmem S1x256x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1x512 .f32) (harg6 : arg6.IsWhole) (arg7 : Memref sig .tc .vmem S1x256x1024 .f32) (harg7 : arg7.IsWhole) (arg8 : Memref sig .tc .vmem S1x256x1024 .f32) (harg8 : arg8.IsWhole) (arg9 : Memref sig .tc .vmem S16x256x1 .f32) (harg9 : arg9.IsWhole) (arg10 : Memref sig .tc .vmem S16x256x1 .f32) (harg10 : arg10.IsWhole) (arg11 : Memref sig .tc .vmem S16x256x64 .f32) (harg11 : arg11.IsWhole) (hc0 : ¬cond1_0 i) (hc1 : cond1_1 i) (x0 : Vec F S1x256x1024 .bf16) (x1 : Vec F S1x512x1024 .bf16) (x2 : Vec F S1x512x1024 .bf16) (x3 : Vec F S1x1x512 .f32) (x4 : Vec F S1x256x1024 .f32) (xs0 : Vec F S16x256x1 .f32) (xs1 : Vec F S16x256x1 .f32) (xs2 : Vec F S16x256x64 .f32) :
    View.canon (kernelRun1_C c i arg3 harg3 arg4 harg4 arg5 harg5 arg6 harg6 arg7 harg7 arg8 harg8 arg9 harg9 arg10 harg10 arg11 harg11 hc0 hc1 x0 x1 x2 x3 x4 xs0 xs1 xs2).2.1 = k1_pay4 (k1_pay11 x0 x1 x3 xs0) := by
  unfold kernelRun1_C
  dsimp only
  sl_unfold_words
  rw [View.canon_unit_zero (S := S16x256x1) hz3]
  simp only [View.readAt_eq_ld, harg3.read_unread, harg4.read_unread, harg5.read_unread, harg6.read_unread, harg7.read_unread, harg9.read_unread, harg10.read_unread, harg11.read_unread, View.ld_unit_zero (S := S1x256x1024) hz3, View.ld_unit_zero (S := S1x512x1024) hz3, View.ld_unit_zero (S := S1x1x512) hz3, View.ld_unit_zero (S := S16x256x1) hz3, View.ld_unit_zero (S := S16x256x64) hz3]

theorem canon1_C_1 (c : Dev nD) (i : grid1.Coords) (arg3 : Memref sig .tc .vmem S1x256x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1x512 .f32) (harg6 : arg6.IsWhole) (arg7 : Memref sig .tc .vmem S1x256x1024 .f32) (harg7 : arg7.IsWhole) (arg8 : Memref sig .tc .vmem S1x256x1024 .f32) (harg8 : arg8.IsWhole) (arg9 : Memref sig .tc .vmem S16x256x1 .f32) (harg9 : arg9.IsWhole) (arg10 : Memref sig .tc .vmem S16x256x1 .f32) (harg10 : arg10.IsWhole) (arg11 : Memref sig .tc .vmem S16x256x64 .f32) (harg11 : arg11.IsWhole) (hc0 : ¬cond1_0 i) (hc1 : cond1_1 i) (x0 : Vec F S1x256x1024 .bf16) (x1 : Vec F S1x512x1024 .bf16) (x2 : Vec F S1x512x1024 .bf16) (x3 : Vec F S1x1x512 .f32) (x4 : Vec F S1x256x1024 .f32) (xs0 : Vec F S16x256x1 .f32) (xs1 : Vec F S16x256x1 .f32) (xs2 : Vec F S16x256x64 .f32) :
    View.canon (kernelRun1_C c i arg3 harg3 arg4 harg4 arg5 harg5 arg6 harg6 arg7 harg7 arg8 harg8 arg9 harg9 arg10 harg10 arg11 harg11 hc0 hc1 x0 x1 x2 x3 x4 xs0 xs1 xs2).2.2.1 = k1_pay2 (k1_pay12 x0 x1 x3 xs0 xs0) (k1_pay13 x0 x1 x3 xs0) xs1 := by
  unfold kernelRun1_C
  dsimp only
  sl_unfold_words
  rw [View.canon_unit_zero (S := S16x256x1) hz3]
  simp only [View.readAt_eq_ld, harg3.read_unread, harg4.read_unread, harg5.read_unread, harg6.read_unread, harg7.read_unread, harg9.read_unread, harg10.read_unread, harg11.read_unread, View.ld_unit_zero (S := S1x256x1024) hz3, View.ld_unit_zero (S := S1x512x1024) hz3, View.ld_unit_zero (S := S1x1x512) hz3, View.ld_unit_zero (S := S16x256x1) hz3, View.ld_unit_zero (S := S16x256x64) hz3]

theorem canon1_C_2 (c : Dev nD) (i : grid1.Coords) (arg3 : Memref sig .tc .vmem S1x256x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1x512 .f32) (harg6 : arg6.IsWhole) (arg7 : Memref sig .tc .vmem S1x256x1024 .f32) (harg7 : arg7.IsWhole) (arg8 : Memref sig .tc .vmem S1x256x1024 .f32) (harg8 : arg8.IsWhole) (arg9 : Memref sig .tc .vmem S16x256x1 .f32) (harg9 : arg9.IsWhole) (arg10 : Memref sig .tc .vmem S16x256x1 .f32) (harg10 : arg10.IsWhole) (arg11 : Memref sig .tc .vmem S16x256x64 .f32) (harg11 : arg11.IsWhole) (hc0 : ¬cond1_0 i) (hc1 : cond1_1 i) (x0 : Vec F S1x256x1024 .bf16) (x1 : Vec F S1x512x1024 .bf16) (x2 : Vec F S1x512x1024 .bf16) (x3 : Vec F S1x1x512 .f32) (x4 : Vec F S1x256x1024 .f32) (xs0 : Vec F S16x256x1 .f32) (xs1 : Vec F S16x256x1 .f32) (xs2 : Vec F S16x256x64 .f32) :
    View.canon (kernelRun1_C c i arg3 harg3 arg4 harg4 arg5 harg5 arg6 harg6 arg7 harg7 arg8 harg8 arg9 harg9 arg10 harg10 arg11 harg11 hc0 hc1 x0 x1 x2 x3 x4 xs0 xs1 xs2).2.2.2.1 = k1_pay3 (k1_pay9 x2) (k1_pay12 x0 x1 x3 xs0 xs0) (k1_pay13 x0 x1 x3 xs0) xs2 := by
  unfold kernelRun1_C
  dsimp only
  sl_unfold_words
  rw [View.canon_unit_zero (S := S16x256x64) hz3]
  simp only [View.readAt_eq_ld, harg3.read_unread, harg4.read_unread, harg5.read_unread, harg6.read_unread, harg7.read_unread, harg9.read_unread, harg10.read_unread, harg11.read_unread, View.ld_unit_zero (S := S1x256x1024) hz3, View.ld_unit_zero (S := S1x512x1024) hz3, View.ld_unit_zero (S := S1x1x512) hz3, View.ld_unit_zero (S := S16x256x1) hz3, View.ld_unit_zero (S := S16x256x64) hz3]

/-- The result block: the new weighted sum over the new sum of exponentials (both read back from the stores just
    made), plus the residual block. -/
theorem canon1_C_5 (c : Dev nD) (i : grid1.Coords) (arg3 : Memref sig .tc .vmem S1x256x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1x512 .f32) (harg6 : arg6.IsWhole) (arg7 : Memref sig .tc .vmem S1x256x1024 .f32) (harg7 : arg7.IsWhole) (arg8 : Memref sig .tc .vmem S1x256x1024 .f32) (harg8 : arg8.IsWhole) (arg9 : Memref sig .tc .vmem S16x256x1 .f32) (harg9 : arg9.IsWhole) (arg10 : Memref sig .tc .vmem S16x256x1 .f32) (harg10 : arg10.IsWhole) (arg11 : Memref sig .tc .vmem S16x256x64 .f32) (harg11 : arg11.IsWhole) (hc0 : ¬cond1_0 i) (hc1 : cond1_1 i) (x0 : Vec F S1x256x1024 .bf16) (x1 : Vec F S1x512x1024 .bf16) (x2 : Vec F S1x512x1024 .bf16) (x3 : Vec F S1x1x512 .f32) (x4 : Vec F S1x256x1024 .f32) (xs0 : Vec F S16x256x1 .f32) (xs1 : Vec F S16x256x1 .f32) (xs2 : Vec F S16x256x64 .f32) :
    View.canon (kernelRun1_C c i arg3 harg3 arg4 harg4 arg5 harg5 arg6 harg6 arg7 harg7 arg8 harg8 arg9 harg9 arg10 harg10 arg11 harg11 hc0 hc1 x0 x1 x2 x3 x4 xs0 xs1 xs2).1
      = k1_pay5 (k1_pay3 (k1_pay9 x2) (k1_pay12 x0 x1 x3 xs0 xs0) (k1_pay13 x0 x1 x3 xs0) xs2) (k1_pay2 (k1_pay12 x0 x1 x3 xs0 xs0) (k1_pay13 x0 x1 x3 xs0) xs1) x4 := by
  unfold kernelRun1_C
  dsimp only
  sl_unfold_words
  rw [View.canon_unit_zero (S := S1x256x1024) hz3]
  simp only [View.readAt_eq_ld, harg3.read_unread, harg4.read_unread, harg5.read_unread, harg6.read_unread, harg7.read_unread, harg9.read_unread, harg10.read_unread, harg11.read_unread, View.ld_unit_zero (S := S1x256x1024) hz3, View.ld_unit_zero (S := S1x512x1024) hz3, View.ld_unit_zero (S := S1x1x512) hz3, View.ld_unit_zero (S := S16x256x1) hz3, View.ld_unit_zero (S := S16x256x64) hz3, View.readCov_unit_zero (S := S16x256x1) _ hz3, View.readCov_unit_zero (S := S16x256x64) _ hz3]

/-! ## The scoped rest, with the other region's staging buffers as one block -/

/-- The other region's sixteen staging buffers, each whole at some contents. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ (∃ f : Buf (Elt F) ((c : Thread nD τ).loc cc0_stg10_0), ((c : Thread nD τ).loc cc0_stg10_0) ↦{fullShare} f) ∗ (∃ f : Buf (Elt F) ((c : Thread nD τ).loc cc0_stg10_1), ((c : Thread nD τ).loc cc0_stg10_1) ↦{fullShare} f) ∗ (∃ f : Buf (Elt F) ((c : Thread nD τ).loc cc0_stg11_0), ((c : Thread nD τ).loc cc0_stg11_0) ↦{fullShare} f) ∗ (∃ f : Buf (Elt F) ((c : Thread nD τ).loc cc0_stg11_1), ((c : Thread nD τ).loc cc0_stg11_1) ↦{fullShare} f))

/-- The scoped rest is that block beside the three running quantities' buffers. -/
theorem scoped1_eq (c : Dev nD) (P0 P1 P2 : sProp 𝕄) :
    scoped1 c P0 P1 P2 = iprop(others1 (F := F) c ∗ P0 ∗ P1 ∗ P2) := by
  unfold scoped1 others1
  have h₁ : iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ (∃ f : Buf (Elt F) ((c : Thread nD τ).loc cc0_stg10_0), ((c : Thread nD τ).loc cc0_stg10_0) ↦{fullShare} f) ∗ (∃ f : Buf (Elt F) ((c : Thread nD τ).loc cc0_stg10_1), ((c : Thread nD τ).loc cc0_stg10_1) ↦{fullShare} f) ∗ (∃ f : Buf (Elt F) ((c : Thread nD τ).loc cc0_stg11_0), ((c : Thread nD τ).loc cc0_stg11_0) ↦{fullShare} f) ∗ (∃ f : Buf (Elt F) ((c : Thread nD τ).loc cc0_stg11_1), ((c : Thread nD τ).loc cc0_stg11_1) ↦{fullShare} f) ∗ P0 ∗ P1 ∗ P2)
      ⊢ (iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ (∃ f : Buf (Elt F) ((c : Thread nD τ).loc cc0_stg10_0), ((c : Thread nD τ).loc cc0_stg10_0) ↦{fullShare} f) ∗ (∃ f : Buf (Elt F) ((c : Thread nD τ).loc cc0_stg10_1), ((c : Thread nD τ).loc cc0_stg10_1) ↦{fullShare} f) ∗ (∃ f : Buf (Elt F) ((c : Thread nD τ).loc cc0_stg11_0), ((c : Thread nD τ).loc cc0_stg11_0) ↦{fullShare} f) ∗ (∃ f : Buf (Elt F) ((c : Thread nD τ).loc cc0_stg11_1), ((c : Thread nD τ).loc cc0_stg11_1) ↦{fullShare} f)) ∗ P0 ∗ P1 ∗ P2) : sProp 𝕄) := by
    iintro ⟨R0, R1, R2, R3, R4, R5, R6, R7, R8, R9, R10, R11, R12, R13, R14, R15, H0, H1, H2⟩
    isplitl [R0 R1 R2 R3 R4 R5 R6 R7 R8 R9 R10 R11 R12 R13 R14 R15]
    · isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [R9]; · iexact R9
      isplitl [R10]; · iexact R10
      isplitl [R11]; · iexact R11
      isplitl [R12]; · iexact R12
      isplitl [R13]; · iexact R13
      isplitl [R14]; · iexact R14
      iexact R15
    isplitl [H0]; · iexact H0
    isplitl [H1]; · iexact H1
    iexact H2
  have h₂ : iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ (∃ f : Buf (Elt F) ((c : Thread nD τ).loc cc0_stg10_0), ((c : Thread nD τ).loc cc0_stg10_0) ↦{fullShare} f) ∗ (∃ f : Buf (Elt F) ((c : Thread nD τ).loc cc0_stg10_1), ((c : Thread nD τ).loc cc0_stg10_1) ↦{fullShare} f) ∗ (∃ f : Buf (Elt F) ((c : Thread nD τ).loc cc0_stg11_0), ((c : Thread nD τ).loc cc0_stg11_0) ↦{fullShare} f) ∗ (∃ f : Buf (Elt F) ((c : Thread nD τ).loc cc0_stg11_1), ((c : Thread nD τ).loc cc0_stg11_1) ↦{fullShare} f)) ∗ P0 ∗ P1 ∗ P2)
      ⊢ (iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ (∃ f : Buf (Elt F) ((c : Thread nD τ).loc cc0_stg10_0), ((c : Thread nD τ).loc cc0_stg10_0) ↦{fullShare} f) ∗ (∃ f : Buf (Elt F) ((c : Thread nD τ).loc cc0_stg10_1), ((c : Thread nD τ).loc cc0_stg10_1) ↦{fullShare} f) ∗ (∃ f : Buf (Elt F) ((c : Thread nD τ).loc cc0_stg11_0), ((c : Thread nD τ).loc cc0_stg11_0) ↦{fullShare} f) ∗ (∃ f : Buf (Elt F) ((c : Thread nD τ).loc cc0_stg11_1), ((c : Thread nD τ).loc cc0_stg11_1) ↦{fullShare} f) ∗ P0 ∗ P1 ∗ P2) : sProp 𝕄) := by
    iintro ⟨⟨R0, R1, R2, R3, R4, R5, R6, R7, R8, R9, R10, R11, R12, R13, R14, R15⟩, H0, H1, H2⟩
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [R14]; · iexact R14
    isplitl [R15]; · iexact R15
    isplitl [H0]; · iexact H0
    isplitl [H1]; · iexact H1
    iexact H2
  exact BI.equiv_iff.mp ⟨h₁, h₂⟩

section Body
variable (V : (c : Dev nD) → (b : Ref sig .tc) → Buf (Elt F) ((c : Thread nD τ).loc b))

/-! ## The running quantities at a point, by the point's place among its four key blocks -/

/-- At a first key block: a step from the reset values. -/
theorem st1_first (c : Dev nD) (t : Fin cfg1.N) (h0 : t.val % 4 = 0) :
    st1 V c t.val t.isLt = step1 (init1 (F := F)) (iblk1 V c 0 t) (iblk1 V c 1 t) (iblk1 V c 2 t) (iblk1 V c 3 t) := by
  obtain ⟨n, hn⟩ := t
  cases n with
  | zero => rfl
  | succ n =>
    (try dsimp only at h0)
    show step1 (if (n + 1) % 4 = 0 then init1 (F := F) else st1 V c n (Nat.lt_of_succ_lt hn)) _ _ _ _ = _
    rw [if_pos h0]

/-- At any other key block: a step from what the position before left. -/
theorem st1_next (c : Dev nD) (t : Fin cfg1.N) (h0 : ¬t.val % 4 = 0) :
    st1 V c t.val t.isLt = step1 (st1 V c (t.val - 1) (Nat.lt_of_le_of_lt (Nat.sub_le _ _) t.isLt)) (iblk1 V c 0 t) (iblk1 V c 1 t) (iblk1 V c 2 t) (iblk1 V c 3 t) := by
  obtain ⟨n, hn⟩ := t
  cases n with
  | zero => exact absurd (Nat.zero_mod _) h0
  | succ n =>
    (try dsimp only at h0)
    show step1 (if (n + 1) % 4 = 0 then init1 (F := F) else st1 V c n (Nat.lt_of_succ_lt hn)) _ _ _ _ = _
    rw [if_neg h0]; rfl

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point. The inputs' memrefs hold their blocks; the point's place among its four key blocks says
    which of the three runs applies; the invariant hands the body the three running quantities' buffers at what the
    position before left (at anything at the region's first point, which is a first key block, where they are reset
    anyway) and takes them back at this point's step; the result window is handed back untouched away from a last
    key block, and left at the result block at one; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  by_cases h0 : t.val % 4 = 0
  · have h3 : ¬t.val % 4 = 3 := by omega
    rw [Dat.leavesExact_idle (dat1 V c) 5 t (idleAt1_5 t (fun h => h3 ((hcond1_1 t).mp h))) (noFlush1_5 t (fun h => h3 ((hcond1_1 t).mp h)))]
    rw [st1_first V c t h0]; dsimp only [step1, init1]
    rw [scoped1_eq]
    by_cases hz : t.val = 0
    · rw [PhiS1_castSucc V c t, PhiS1_zero V c _ _ hz, PhiA1_eq, scoped1_eq]
      iintro ⟨⟨⟨HR, HS0, HS1, HS2⟩, Hg⟩, Ho, ⟨%d0, H0⟩, ⟨%d1, H1⟩, ⟨%d2, H2⟩, ⟨%d3, H3⟩, ⟨%d4, H4⟩, ⟨%d5, H5⟩⟩
      iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h3 ((hcond1_1 t).mp h)) (iblk1 V c 0 t) (iblk1 V c 1 t) (iblk1 V c 2 t) (iblk1 V c 3 t) (iblk1 V c 4 t)).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, ⟨%es0, HS0⟩, ⟨%es1, HS1⟩, ⟨%es2, HS2⟩⟩
      isplitl [HR HS0 HS1 HS2 Hg]
      · isplitl [HR HS0 HS1 HS2]
        · isplitl [HR]; · iexact HR
          isplitl [HS0]
          · unfold owns; iexists _; isplitr
            swap; · iexact HS0
            ipureintro
            exact (View.read_writes_eq_canon _ _ _ (scover1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h3 ((hcond1_1 t).mp h)) (iblk1 V c 0 t) (iblk1 V c 1 t) (iblk1 V c 2 t) (iblk1 V c 3 t) (iblk1 V c 4 t))).trans (canon1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h3 ((hcond1_1 t).mp h)) (iblk1 V c 0 t) (iblk1 V c 1 t) (iblk1 V c 2 t) (iblk1 V c 3 t) (iblk1 V c 4 t))
          isplitl [HS1]
          · unfold owns; iexists _; isplitr
            swap; · iexact HS1
            ipureintro
            exact (View.read_writes_eq_canon _ _ _ (scover1_A_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h3 ((hcond1_1 t).mp h)) (iblk1 V c 0 t) (iblk1 V c 1 t) (iblk1 V c 2 t) (iblk1 V c 3 t) (iblk1 V c 4 t))).trans (canon1_A_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h3 ((hcond1_1 t).mp h)) (iblk1 V c 0 t) (iblk1 V c 1 t) (iblk1 V c 2 t) (iblk1 V c 3 t) (iblk1 V c 4 t))
          unfold owns; iexists _; isplitr
          swap; · iexact HS2
          ipureintro
          exact (View.read_writes_eq_canon _ _ _ (scover1_A_2 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h3 ((hcond1_1 t).mp h)) (iblk1 V c 0 t) (iblk1 V c 1 t) (iblk1 V c 2 t) (iblk1 V c 3 t) (iblk1 V c 4 t))).trans (canon1_A_2 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h3 ((hcond1_1 t).mp h)) (iblk1 V c 0 t) (iblk1 V c 1 t) (iblk1 V c 2 t) (iblk1 V c 3 t) (iblk1 V c 4 t))
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS1_castSucc V c t, PhiS1_pos V c _ _ hz, scoped1_eq]
      iintro ⟨⟨⟨HR, HS0, HS1, HS2⟩, Hg⟩, Ho, ⟨%d0, H0⟩, ⟨%d1, H1⟩, ⟨%d2, H2⟩, ⟨%d3, H3⟩, ⟨%d4, H4⟩, ⟨%d5, H5⟩⟩
      iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h3 ((hcond1_1 t).mp h)) (iblk1 V c 0 t) (iblk1 V c 1 t) (iblk1 V c 2 t) (iblk1 V c 3 t) (iblk1 V c 4 t)).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexists _; iexact HS1
      isplitl [HS2]; · iexists _; iexact HS2
      iintro ⟨H0, H1, H2, H3, H4, H5, ⟨%es0, HS0⟩, ⟨%es1, HS1⟩, ⟨%es2, HS2⟩⟩
      isplitl [HR HS0 HS1 HS2 Hg]
      · isplitl [HR HS0 HS1 HS2]
        · isplitl [HR]; · iexact HR
          isplitl [HS0]
          · unfold owns; iexists _; isplitr
            swap; · iexact HS0
            ipureintro
            exact (View.read_writes_eq_canon _ _ _ (scover1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h3 ((hcond1_1 t).mp h)) (iblk1 V c 0 t) (iblk1 V c 1 t) (iblk1 V c 2 t) (iblk1 V c 3 t) (iblk1 V c 4 t))).trans (canon1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h3 ((hcond1_1 t).mp h)) (iblk1 V c 0 t) (iblk1 V c 1 t) (iblk1 V c 2 t) (iblk1 V c 3 t) (iblk1 V c 4 t))
          isplitl [HS1]
          · unfold owns; iexists _; isplitr
            swap; · iexact HS1
            ipureintro
            exact (View.read_writes_eq_canon _ _ _ (scover1_A_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h3 ((hcond1_1 t).mp h)) (iblk1 V c 0 t) (iblk1 V c 1 t) (iblk1 V c 2 t) (iblk1 V c 3 t) (iblk1 V c 4 t))).trans (canon1_A_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h3 ((hcond1_1 t).mp h)) (iblk1 V c 0 t) (iblk1 V c 1 t) (iblk1 V c 2 t) (iblk1 V c 3 t) (iblk1 V c 4 t))
          unfold owns; iexists _; isplitr
          swap; · iexact HS2
          ipureintro
          exact (View.read_writes_eq_canon _ _ _ (scover1_A_2 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h3 ((hcond1_1 t).mp h)) (iblk1 V c 0 t) (iblk1 V c 1 t) (iblk1 V c 2 t) (iblk1 V c 3 t) (iblk1 V c 4 t))).trans (canon1_A_2 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h3 ((hcond1_1 t).mp h)) (iblk1 V c 0 t) (iblk1 V c 1 t) (iblk1 V c 2 t) (iblk1 V c 3 t) (iblk1 V c 4 t))
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun h => h0 (by rw [h])
    by_cases h3 : t.val % 4 = 3
    · rw [show (dat1 V c).leavesExact 5 t = owns (c : Thread nD τ) (ms1_5 t) fullShare ((dat1 V c).after 5 t) from by
        unfold Dat.leavesExact; rw [liveAt1_5 t ((hcond1_1 t).mpr h3)], after1_5]
      unfold oOut1
      rw [st1_next V c t h0]; dsimp only [step1]
      rw [PhiS1_castSucc V c t, PhiS1_pos V c _ _ hz, scoped1_eq, scoped1_eq]
      iintro ⟨⟨⟨HR, HS0, HS1, HS2⟩, Hg⟩, Ho, ⟨%d0, H0⟩, ⟨%d1, H1⟩, ⟨%d2, H2⟩, ⟨%d3, H3⟩, ⟨%d4, H4⟩, ⟨%d5, H5⟩⟩
      iapply ((kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h3) (iblk1 V c 0 t) (iblk1 V c 1 t) (iblk1 V c 2 t) (iblk1 V c 3 t) (iblk1 V c 4 t) (st1 V c (t.val - 1) (Nat.lt_of_le_of_lt (Nat.sub_le _ _) t.isLt)).1 (st1 V c (t.val - 1) (Nat.lt_of_le_of_lt (Nat.sub_le _ _) t.isLt)).2.1 (st1 V c (t.val - 1) (Nat.lt_of_le_of_lt (Nat.sub_le _ _) t.isLt)).2.2).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HS2]; · iexact HS2
      iintro ⟨H0, H1, H2, H3, H4, ⟨%e5, H5⟩, ⟨%es0, HS0⟩, ⟨%es1, HS1⟩, ⟨%es2, HS2⟩⟩
      isplitl [HR HS0 HS1 HS2 Hg]
      · isplitl [HR HS0 HS1 HS2]
        · isplitl [HR]; · iexact HR
          isplitl [HS0]
          · unfold owns; iexists _; isplitr
            swap; · iexact HS0
            ipureintro
            exact (View.read_writes_eq_canon _ _ _ (scover1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h3) (iblk1 V c 0 t) (iblk1 V c 1 t) (iblk1 V c 2 t) (iblk1 V c 3 t) (iblk1 V c 4 t) (st1 V c (t.val - 1) (Nat.lt_of_le_of_lt (Nat.sub_le _ _) t.isLt)).1 (st1 V c (t.val - 1) (Nat.lt_of_le_of_lt (Nat.sub_le _ _) t.isLt)).2.1 (st1 V c (t.val - 1) (Nat.lt_of_le_of_lt (Nat.sub_le _ _) t.isLt)).2.2)).trans (canon1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h3) (iblk1 V c 0 t) (iblk1 V c 1 t) (iblk1 V c 2 t) (iblk1 V c 3 t) (iblk1 V c 4 t) (st1 V c (t.val - 1) (Nat.lt_of_le_of_lt (Nat.sub_le _ _) t.isLt)).1 (st1 V c (t.val - 1) (Nat.lt_of_le_of_lt (Nat.sub_le _ _) t.isLt)).2.1 (st1 V c (t.val - 1) (Nat.lt_of_le_of_lt (Nat.sub_le _ _) t.isLt)).2.2)
          isplitl [HS1]
          · unfold owns; iexists _; isplitr
            swap; · iexact HS1
            ipureintro
            exact (View.read_writes_eq_canon _ _ _ (scover1_C_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h3) (iblk1 V c 0 t) (iblk1 V c 1 t) (iblk1 V c 2 t) (iblk1 V c 3 t) (iblk1 V c 4 t) (st1 V c (t.val - 1) (Nat.lt_of_le_of_lt (Nat.sub_le _ _) t.isLt)).1 (st1 V c (t.val - 1) (Nat.lt_of_le_of_lt (Nat.sub_le _ _) t.isLt)).2.1 (st1 V c (t.val - 1) (Nat.lt_of_le_of_lt (Nat.sub_le _ _) t.isLt)).2.2)).trans (canon1_C_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h3) (iblk1 V c 0 t) (iblk1 V c 1 t) (iblk1 V c 2 t) (iblk1 V c 3 t) (iblk1 V c 4 t) (st1 V c (t.val - 1) (Nat.lt_of_le_of_lt (Nat.sub_le _ _) t.isLt)).1 (st1 V c (t.val - 1) (Nat.lt_of_le_of_lt (Nat.sub_le _ _) t.isLt)).2.1 (st1 V c (t.val - 1) (Nat.lt_of_le_of_lt (Nat.sub_le _ _) t.isLt)).2.2)
          unfold owns; iexists _; isplitr
          swap; · iexact HS2
          ipureintro
          exact (View.read_writes_eq_canon _ _ _ (scover1_C_2 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h3) (iblk1 V c 0 t) (iblk1 V c 1 t) (iblk1 V c 2 t) (iblk1 V c 3 t) (iblk1 V c 4 t) (st1 V c (t.val - 1) (Nat.lt_of_le_of_lt (Nat.sub_le _ _) t.isLt)).1 (st1 V c (t.val - 1) (Nat.lt_of_le_of_lt (Nat.sub_le _ _) t.isLt)).2.1 (st1 V c (t.val - 1) (Nat.lt_of_le_of_lt (Nat.sub_le _ _) t.isLt)).2.2)).trans (canon1_C_2 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h3) (iblk1 V c 0 t) (iblk1 V c 1 t) (iblk1 V c 2 t) (iblk1 V c 3 t) (iblk1 V c 4 t) (st1 V c (t.val - 1) (Nat.lt_of_le_of_lt (Nat.sub_le _ _) t.isLt)).1 (st1 V c (t.val - 1) (Nat.lt_of_le_of_lt (Nat.sub_le _ _) t.isLt)).2.1 (st1 V c (t.val - 1) (Nat.lt_of_le_of_lt (Nat.sub_le _ _) t.isLt)).2.2)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro
      exact (View.read_writes_eq_canon _ _ _ (cover1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h3) (iblk1 V c 0 t) (iblk1 V c 1 t) (iblk1 V c 2 t) (iblk1 V c 3 t) (iblk1 V c 4 t) (st1 V c (t.val - 1) (Nat.lt_of_le_of_lt (Nat.sub_le _ _) t.isLt)).1 (st1 V c (t.val - 1) (Nat.lt_of_le_of_lt (Nat.sub_le _ _) t.isLt)).2.1 (st1 V c (t.val - 1) (Nat.lt_of_le_of_lt (Nat.sub_le _ _) t.isLt)).2.2)).trans (canon1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h3) (iblk1 V c 0 t) (iblk1 V c 1 t) (iblk1 V c 2 t) (iblk1 V c 3 t) (iblk1 V c 4 t) (st1 V c (t.val - 1) (Nat.lt_of_le_of_lt (Nat.sub_le _ _) t.isLt)).1 (st1 V c (t.val - 1) (Nat.lt_of_le_of_lt (Nat.sub_le _ _) t.isLt)).2.1 (st1 V c (t.val - 1) (Nat.lt_of_le_of_lt (Nat.sub_le _ _) t.isLt)).2.2)
    · rw [Dat.leavesExact_idle (dat1 V c) 5 t (idleAt1_5 t (fun h => h3 ((hcond1_1 t).mp h))) (noFlush1_5 t (fun h => h3 ((hcond1_1 t).mp h)))]
      rw [st1_next V c t h0]; dsimp only [step1]
      rw [PhiS1_castSucc V c t, PhiS1_pos V c _ _ hz, scoped1_eq, scoped1_eq]
      iintro ⟨⟨⟨HR, HS0, HS1, HS2⟩, Hg⟩, Ho, ⟨%d0, H0⟩, ⟨%d1, H1⟩, ⟨%d2, H2⟩, ⟨%d3, H3⟩, ⟨%d4, H4⟩, ⟨%d5, H5⟩⟩
      iapply ((kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) (fun h => h3 ((hcond1_1 t).mp h)) (iblk1 V c 0 t) (iblk1 V c 1 t) (iblk1 V c 2 t) (iblk1 V c 3 t) (iblk1 V c 4 t) (st1 V c (t.val - 1) (Nat.lt_of_le_of_lt (Nat.sub_le _ _) t.isLt)).1 (st1 V c (t.val - 1) (Nat.lt_of_le_of_lt (Nat.sub_le _ _) t.isLt)).2.1 (st1 V c (t.val - 1) (Nat.lt_of_le_of_lt (Nat.sub_le _ _) t.isLt)).2.2).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, ⟨%es0, HS0⟩, ⟨%es1, HS1⟩, ⟨%es2, HS2⟩⟩
      isplitl [HR HS0 HS1 HS2 Hg]
      · isplitl [HR HS0 HS1 HS2]
        · isplitl [HR]; · iexact HR
          isplitl [HS0]
          · unfold owns; iexists _; isplitr
            swap; · iexact HS0
            ipureintro
            exact (View.read_writes_eq_canon _ _ _ (scover1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) (fun h => h3 ((hcond1_1 t).mp h)) (iblk1 V c 0 t) (iblk1 V c 1 t) (iblk1 V c 2 t) (iblk1 V c 3 t) (iblk1 V c 4 t) (st1 V c (t.val - 1) (Nat.lt_of_le_of_lt (Nat.sub_le _ _) t.isLt)).1 (st1 V c (t.val - 1) (Nat.lt_of_le_of_lt (Nat.sub_le _ _) t.isLt)).2.1 (st1 V c (t.val - 1) (Nat.lt_of_le_of_lt (Nat.sub_le _ _) t.isLt)).2.2)).trans (canon1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) (fun h => h3 ((hcond1_1 t).mp h)) (iblk1 V c 0 t) (iblk1 V c 1 t) (iblk1 V c 2 t) (iblk1 V c 3 t) (iblk1 V c 4 t) (st1 V c (t.val - 1) (Nat.lt_of_le_of_lt (Nat.sub_le _ _) t.isLt)).1 (st1 V c (t.val - 1) (Nat.lt_of_le_of_lt (Nat.sub_le _ _) t.isLt)).2.1 (st1 V c (t.val - 1) (Nat.lt_of_le_of_lt (Nat.sub_le _ _) t.isLt)).2.2)
          isplitl [HS1]
          · unfold owns; iexists _; isplitr
            swap; · iexact HS1
            ipureintro
            exact (View.read_writes_eq_canon _ _ _ (scover1_B_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) (fun h => h3 ((hcond1_1 t).mp h)) (iblk1 V c 0 t) (iblk1 V c 1 t) (iblk1 V c 2 t) (iblk1 V c 3 t) (iblk1 V c 4 t) (st1 V c (t.val - 1) (Nat.lt_of_le_of_lt (Nat.sub_le _ _) t.isLt)).1 (st1 V c (t.val - 1) (Nat.lt_of_le_of_lt (Nat.sub_le _ _) t.isLt)).2.1 (st1 V c (t.val - 1) (Nat.lt_of_le_of_lt (Nat.sub_le _ _) t.isLt)).2.2)).trans (canon1_B_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) (fun h => h3 ((hcond1_1 t).mp h)) (iblk1 V c 0 t) (iblk1 V c 1 t) (iblk1 V c 2 t) (iblk1 V c 3 t) (iblk1 V c 4 t) (st1 V c (t.val - 1) (Nat.lt_of_le_of_lt (Nat.sub_le _ _) t.isLt)).1 (st1 V c (t.val - 1) (Nat.lt_of_le_of_lt (Nat.sub_le _ _) t.isLt)).2.1 (st1 V c (t.val - 1) (Nat.lt_of_le_of_lt (Nat.sub_le _ _) t.isLt)).2.2)
          unfold owns; iexists _; isplitr
          swap; · iexact HS2
          ipureintro
          exact (View.read_writes_eq_canon _ _ _ (scover1_B_2 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) (fun h => h3 ((hcond1_1 t).mp h)) (iblk1 V c 0 t) (iblk1 V c 1 t) (iblk1 V c 2 t) (iblk1 V c 3 t) (iblk1 V c 4 t) (st1 V c (t.val - 1) (Nat.lt_of_le_of_lt (Nat.sub_le _ _) t.isLt)).1 (st1 V c (t.val - 1) (Nat.lt_of_le_of_lt (Nat.sub_le _ _) t.isLt)).2.1 (st1 V c (t.val - 1) (Nat.lt_of_le_of_lt (Nat.sub_le _ _) t.isLt)).2.2)).trans (canon1_B_2 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) (fun h => h3 ((hcond1_1 t).mp h)) (iblk1 V c 0 t) (iblk1 V c 1 t) (iblk1 V c 2 t) (iblk1 V c 3 t) (iblk1 V c 4 t) (st1 V c (t.val - 1) (Nat.lt_of_le_of_lt (Nat.sub_le _ _) t.isLt)).1 (st1 V c (t.val - 1) (Nat.lt_of_le_of_lt (Nat.sub_le _ _) t.isLt)).2.1 (st1 V c (t.val - 1) (Nat.lt_of_le_of_lt (Nat.sub_le _ _) t.isLt)).2.2)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem _root_.Cert.KernelIdeal.Hand.body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem _root_.Cert.KernelIdeal.Hand.hin1 (c : Dev nD) : Pipeline.ΦA spec1 c ⊢ (dat1 (F := F) V c).Φ 0 := by
  rw [show (dat1 V c).Φ 0 = PhiS1 V c 0 (Nat.zero_le _) from rfl, PhiS1_zero V c 0 _ rfl]
  try exact Idealize.SL.BI.Entails.refl _

/-- After any point the invariant gives the launch's back: the running quantities' named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq, scoped1_eq, scoped1_eq]
  iintro ⟨⟨HR, HS0, HS1, HS2⟩, Hg⟩
  isplitl [HR HS0 HS1 HS2]
  · isplitl [HR]; · iexact HR
    isplitl [HS0]; · iexists _; iexact HS0
    isplitl [HS1]; · iexists _; iexact HS1
    iexists _; iexact HS2
  iexact Hg

/-- The same after the last point. -/
theorem _root_.Cert.KernelIdeal.Hand.hout1 (c : Dev nD) : (dat1 (F := F) V c).Φ (Fin.last cfg1.N) ⊢ Pipeline.ΦA spec1 c :=
  Phi_out1 V c _ (by rw [Fin.val_last]; have : cfg1.N = 64 := N_1; omega)

end Body

end R1B

end Cert.KernelIdeal.Hand

end
-- ==== Proof.K.Data.lean ====
/-
  The two kernel regions of the program as data, at a parameter `V` (what the TensorCore's buffers hold when a
  region is entered).  Region 0 normalises each row of a 512-row block of x (mean, variance, rsqrt, scale and shift)
  and multiplies the normalised block by three weight matrices, adding a bias: three result blocks per point, each a
  pure function of the point's input blocks.  Region 1 walks, for each block of 256 query rows, over four blocks of
  512 key rows and keeps three running quantities per head and query row: the running maximum of the scores, the sum
  of exponentials relative to it, and the exponential-weighted sum of the value rows.  After the fourth key block the
  quotient of the last two, plus the residual block of x, is the result block.  The running quantities after a point
  are stated here by recursion on the point (`st1`), each step a pure function (`step1`) of the quantities before it
  and of the point's blocks; at a first key block the quantities before it are the reset values (`init1`).
-/
import proofs.«110207_j12077448037095_2_alg».proof.Proof.Gen.Kernel.Launch
import proofs.«110207_j12077448037095_2_alg».proof.Proof.Gen.Kernel.Skeleton
import proofs.«110207_j12077448037095_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## Region 0 -/

/-- Window `w`'s block at point `t` of region 0, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The normalised rows of a block of x (scale `g`, shift `b`). -/
def lnOut (x : Vec F S1x512x1024 .f32) (g b : Vec F S1024 .f32) : FVec F S512x1024 .bf16 := k0_pay3 x g b
/-- The first projection of the normalised rows (weights `w`, bias `bias`): the query block. -/
def qOut (x : Vec F S1x512x1024 .f32) (g b : Vec F S1024 .f32) (w : Vec F S1024x1024 .bf16) (bias : Vec F S1024 .f32) : Vec F S1x512x1024 .bf16 :=
  k0_pay4 x g b w bias
/-- The second projection: the key block. -/
def kOut (x : Vec F S1x512x1024 .f32) (g b : Vec F S1024 .f32) (w : Vec F S1024x1024 .bf16) (bias : Vec F S1024 .f32) : Vec F S1x512x1024 .bf16 :=
  k0_pay1 (k0_pay3 x g b) w bias
/-- The third projection: the value block. -/
def vOut (x : Vec F S1x512x1024 .f32) (g b : Vec F S1024 .f32) (w : Vec F S1024x1024 .bf16) (bias : Vec F S1024 .f32) : Vec F S1x512x1024 .bf16 :=
  k0_pay2 (k0_pay3 x g b) w bias

/-- Region 0's proof data: the arrays as entered; after the body each input's buffer at its block, the three results'
    at the three projections of the point's blocks; the class invariant; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => qOut (iblk0 V c 0 t) (iblk0 V c 1 t) (iblk0 V c 2 t) (iblk0 V c 3 t) (iblk0 V c 4 t)
    | ⟨10, _⟩ => kOut (iblk0 V c 0 t) (iblk0 V c 1 t) (iblk0 V c 2 t) (iblk0 V c 5 t) (iblk0 V c 6 t)
    | ⟨11, _⟩ => vOut (iblk0 V c 0 t) (iblk0 V c 1 t) (iblk0 V c 2 t) (iblk0 V c 7 t) (iblk0 V c 8 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = qOut (iblk0 V c 0 t) (iblk0 V c 1 t) (iblk0 V c 2 t) (iblk0 V c 3 t) (iblk0 V c 4 t) := by dsimp only [dat0]
theorem after0_10 (c : Dev nD) (t : Fin cfg0.N) : (dat0 V c).after 10 t = kOut (iblk0 V c 0 t) (iblk0 V c 1 t) (iblk0 V c 2 t) (iblk0 V c 5 t) (iblk0 V c 6 t) := by dsimp only [dat0]
theorem after0_11 (c : Dev nD) (t : Fin cfg0.N) : (dat0 V c).after 11 t = vOut (iblk0 V c 0 t) (iblk0 V c 1 t) (iblk0 V c 2 t) (iblk0 V c 7 t) (iblk0 V c 8 t) := by dsimp only [dat0]

/-! ## Region 1 -/

/-- Window `w`'s block at point `t` of region 1, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The three running quantities per head and query row: maximum, sum of exponentials, weighted sum of value rows. -/
abbrev St1 (F : FTy → Type) [FloatOps F] : Type := Vec F S16x256x1 .f32 × Vec F S16x256x1 .f32 × Vec F S16x256x64 .f32

/-- The reset values: a large negative number, zero, zero. -/
def init1 : St1 F := (k1_pay6 (F := F), k1_pay7 (F := F), k1_pay8 (F := F))

/-- One key block: the new maximum, the sum and the weighted sum rescaled to it and extended by the block's terms. -/
def step1 (s : St1 F) (q : Vec F S1x256x1024 .bf16) (k v : Vec F S1x512x1024 .bf16) (msk : Vec F S1x1x512 .f32) : St1 F :=
  (k1_pay4 (k1_pay11 q k msk s.1),
   k1_pay2 (k1_pay12 q k msk s.1 s.1) (k1_pay13 q k msk s.1) s.2.1,
   k1_pay3 (k1_pay9 v) (k1_pay12 q k msk s.1 s.1) (k1_pay13 q k msk s.1) s.2.2)

/-- The running quantities after the body at position `n`: a step from the reset values at a first key block
    (`n % 4 = 0`), from what the position before left otherwise. -/
def st1 (c : Dev nD) : (n : ℕ) → n < cfg1.N → St1 F
  | 0, hn => step1 (init1 (F := F)) (iblk1 V c 0 ⟨0, hn⟩) (iblk1 V c 1 ⟨0, hn⟩) (iblk1 V c 2 ⟨0, hn⟩) (iblk1 V c 3 ⟨0, hn⟩)
  | n + 1, hn =>
    step1 (if (n + 1) % 4 = 0 then init1 (F := F) else st1 c n (Nat.lt_of_succ_lt hn))
      (iblk1 V c 0 ⟨n + 1, hn⟩) (iblk1 V c 1 ⟨n + 1, hn⟩) (iblk1 V c 2 ⟨n + 1, hn⟩) (iblk1 V c 3 ⟨n + 1, hn⟩)

/-- The result block a point would store: the weighted sum over the sum of exponentials, plus the residual block. -/
def oOut1 (c : Dev nD) (t : Fin cfg1.N) : Vec F S1x256x1024 .f32 :=
  k1_pay5 (st1 V c t.val t.isLt).2.2 (st1 V c t.val t.isLt).2.1 (iblk1 V c 4 t)

/-- The three scratch operands, whole scoped buffers of the kernel's own. -/
abbrev scM1_0 : Memref sig .tc .vmem S16x256x1 .f32 := Memref.whole cc1_scratch0
abbrev scM1_1 : Memref sig .tc .vmem S16x256x1 .f32 := Memref.whole cc1_scratch1
abbrev scM1_2 : Memref sig .tc .vmem S16x256x64 .f32 := Memref.whole cc1_scratch2

/-- The core's scoped buffers that are no staging buffer of region 1, the three scratch operands at `P0`, `P1`, `P2`
    and the others (region 0's staging buffers) each whole at some contents. -/
def scoped1 (c : Dev nD) (P0 P1 P2 : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ (∃ f : Buf (Elt F) ((c : Thread nD τ).loc cc0_stg10_0), ((c : Thread nD τ).loc cc0_stg10_0) ↦{fullShare} f) ∗ (∃ f : Buf (Elt F) ((c : Thread nD τ).loc cc0_stg10_1), ((c : Thread nD τ).loc cc0_stg10_1) ↦{fullShare} f) ∗ (∃ f : Buf (Elt F) ((c : Thread nD τ).loc cc0_stg11_0), ((c : Thread nD τ).loc cc0_stg11_0) ↦{fullShare} f) ∗ (∃ f : Buf (Elt F) ((c : Thread nD τ).loc cc0_stg11_1), ((c : Thread nD τ).loc cc0_stg11_1) ↦{fullShare} f) ∗ P0 ∗ P1 ∗ P2)

/-- The region invariant before position `n`: before the first point the class's; afterwards the scoped rest with the
    three scratch operands at what the position before left in them, and the generator register at some state. -/
def PhiS1 (c : Dev nD) : (n : ℕ) → n ≤ cfg1.N → sProp 𝕄
  | 0, _ => Pipeline.ΦA spec1 c
  | n + 1, hn => iprop(scoped1 c (owns (c : Thread nD τ) scM1_0 fullShare (st1 V c n hn).1) (owns (c : Thread nD τ) scM1_1 fullShare (st1 V c n hn).2.1) (owns (c : Thread nD τ) scM1_2 fullShare (st1 V c n hn).2.2) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(scoped1 c (owns (c : Thread nD τ) scM1_0 fullShare (st1 V c n hn).1) (owns (c : Thread nD τ) scM1_1 fullShare (st1 V c n hn).2.1) (owns (c : Thread nD τ) scM1_2 fullShare (st1 V c n hn).2.2) ∗ (∃ r, prngReg c r)) := rfl

theorem PhiS1_pos (c : Dev nD) (n : ℕ) (h : n ≤ cfg1.N) (hz : n ≠ 0) :
    PhiS1 V c n h = iprop(scoped1 c (owns (c : Thread nD τ) scM1_0 fullShare (st1 V c (n - 1) (by omega)).1) (owns (c : Thread nD τ) scM1_1 fullShare (st1 V c (n - 1) (by omega)).2.1) (owns (c : Thread nD τ) scM1_2 fullShare (st1 V c (n - 1) (by omega)).2.2) ∗ (∃ r, prngReg c r)) := by
  cases n with
  | zero => exact absurd rfl hz
  | succ n => rfl

/-- Region 1's proof data: the arrays as entered; after the body each input's buffer at its block and the result's at
    `oOut1`; the invariant `PhiS1`; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => oOut1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = oOut1 V c t := by dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

end Regions

end Cert.Kernel.Hand

end
-- ==== Proof.K.Run.lean ====
/-
  The run of the program from the launch to the return, over its four segments: the three conversions of the weight
  matrices, region 0 (normalisation and the three projections), the eight operations that make the additive mask, and
  region 1 (the walk over the key blocks).  The buffers' contents at each boundary are a fold from the launch memory:
  a stretch of operations rewrites the buffers it writes and leaves the rest; a region leaves each of its arrays at
  what its write-backs fold to and every other buffer as it found it.  Each argument array is read back through the
  fold to its launch contents, and the regions' results are read at the boundary where the next segment finds them.
  The regions' body obligations, and the passage between region 1's invariant and the class's at its first and last
  positions, are hypotheses of the run.
-/
import proofs.«110207_j12077448037095_2_alg».proof.Proof.Gen.Kernel.Launch
import proofs.«110207_j12077448037095_2_alg».proof.Proof.Gen.Kernel.Skeleton
import proofs.«110207_j12077448037095_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«110207_j12077448037095_2_alg».proof.Proof.K.Data

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the two stretches of operations write -/

/-- The buffers the three conversions write: the three converted weight matrices. -/
abbrev wr0 : List (Ref sig .tc) := [main_v0, main_v1, main_v2]
/-- The buffers the eight mask operations write. -/
abbrev wr1 : List (Ref sig .tc) := [main_v4, main_cst, main_v5, main_v6, main_cst_0, main_v7, main_v8, main_v9]

theorem hostOps0_writes : (hostOps0 : List (HloOp τ sig (Elt F))).Forall fun op => op.writes ⊆ (wr0.map (Proc.devRef (τ := τ) .tc)).toFinset := by
  simp only [List.Forall]
  repeat' apply And.intro
  all_goals
    simp only [StableHlo.nullary_writes, StableHlo.unary_writes, StableHlo.binary_writes, StableHlo.reshape_writes, Finset.singleton_subset_iff, List.mem_toFinset]
    exact List.mem_map_of_mem (by decide)

theorem hostOps1_writes : (hostOps1 : List (HloOp τ sig (Elt F))).Forall fun op => op.writes ⊆ (wr1.map (Proc.devRef (τ := τ) .tc)).toFinset := by
  simp only [List.Forall]
  repeat' apply And.intro
  all_goals
    simp only [StableHlo.nullary_writes, StableHlo.unary_writes, StableHlo.binary_writes, StableHlo.reshape_writes, Finset.singleton_subset_iff, List.mem_toFinset]
    exact List.mem_map_of_mem (by decide)

/-- No operation of the first stretch allocates a buffer. -/
theorem hostOps0_fresh : (hostOps0 : List (HloOp τ sig (Elt F))).Forall fun op => op.fresh = ∅ := by
  simp only [List.Forall]; repeat' constructor
/-- No operation of the second stretch allocates a buffer. -/
theorem hostOps1_fresh : (hostOps1 : List (HloOp τ sig (Elt F))).Forall fun op => op.fresh = ∅ := by
  simp only [List.Forall]; repeat' constructor

/-! ## The buffer contents at each segment boundary: a fold through the program -/

/-- The core's buffers at launch. -/
abbrev W0 : Dev nD → Valuation τ sig (Elt F) := fun c b => (s₀ m ρ).mem ((c : Dev nD), b)
/-- After the three conversions (region 0's entry). -/
abbrev W1 : Dev nD → Valuation τ sig (Elt F) := fun c => StableHlo.after hostOps0 (W0 m ρ c)
/-- The same read at the core's references (what region 0's proof data take). -/
abbrev V1 : (c : Dev nD) → (b : Ref sig .tc) → Buf (Elt F) ((c : Thread nD τ).loc b) := fun c b => W1 m ρ c b
/-- At region 0's exit: its arrays at what the write-backs fold to (an input as entered), every other buffer as
    entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the core's references (region 0's exit contents). -/
abbrev V2 : (c : Dev nD) → (b : Ref sig .tc) → Buf (Elt F) ((c : Thread nD τ).loc b) := fun c b => W2 m ρ c b
/-- At region 0's exit each of its arrays holds what the region leaves and every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the eight mask operations (region 1's entry). -/
abbrev W3 : Dev nD → Valuation τ sig (Elt F) := fun c => StableHlo.after hostOps1 (W2 m ρ c)
/-- The same read at the core's references (what region 1's proof data take). -/
abbrev V3 : (c : Dev nD) → (b : Ref sig .tc) → Buf (Elt F) ((c : Thread nD τ).loc b) := fun c b => W3 m ρ c b
/-- At region 1's exit: its arrays at what the write-backs fold to, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the core's references (region 1's exit contents). -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## One step of the fold at a buffer the step does not change -/

/-- The launch contents are the launch memory's. -/
theorem W0_apply (c : Dev nD) (b : Ref sig .tc) : W0 m ρ c (Proc.devRef .tc b) = m ((c : Thread nD τ).loc b) := rfl
/-- A buffer the conversions do not write is after them as at launch. -/
theorem W1_of (c : Dev nD) (r : Ref sig .tc) (h : r ∉ wr0) : W1 m ρ c (Proc.devRef .tc r) = W0 m ρ c (Proc.devRef .tc r) :=
  StableHlo.after_of_writes_sub hostOps0 _ hostOps0_writes h
/-- A buffer the mask operations do not write is after them as at region 0's exit. -/
theorem W3_of (c : Dev nD) (r : Ref sig .tc) (h : r ∉ wr1) : W3 m ρ c (Proc.devRef .tc r) = W2 m ρ c (Proc.devRef .tc r) :=
  StableHlo.after_of_writes_sub hostOps1 _ hostOps1_writes h
/-- An input array of region 0 is at its exit as at its entry. -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hw _).trans (A_eq0 (V1 m ρ) c w))
/-- An input array of region 1 is at its exit as at its entry. -/
theorem W4_in (c : Dev nD) (w : Fin cfg1.W) (hw : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hw _).trans (A_eq1 (V3 m ρ) c w))

/-! ## The arguments end as launched

No operation writes an argument and no region writes one: a region reads it through an input window or passes it
by.  So the fold at an argument's buffer walks back to the launch memory. -/

/-- The block of x: input window 0 of region 0 and input window 4 of region 1. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_in m ρ c 4 rfl
    _ = W2 m ρ c (Proc.devRef .tc main_arg0) := W3_of m ρ c main_arg0 (by decide)
    _ = W1 m ρ c (Proc.devRef .tc main_arg0) := W2_in m ρ c 0 rfl
    _ = W0 m ρ c (Proc.devRef .tc main_arg0) := W1_of m ρ c main_arg0 (by decide)
    _ = m ((c : Thread nD τ).loc main_arg0) := rfl

/-- The integer mask: no window's array. -/
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := W3_of m ρ c main_arg1 (by decide)
    _ = W1 m ρ c (Proc.devRef .tc main_arg1) := W2_of_ne m ρ c main_arg1 (by decide)
    _ = W0 m ρ c (Proc.devRef .tc main_arg1) := W1_of m ρ c main_arg1 (by decide)
    _ = m ((c : Thread nD τ).loc main_arg1) := rfl

/-- The scale: input window 1 of region 0. -/
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_of m ρ c main_arg2 (by decide)
    _ = W1 m ρ c (Proc.devRef .tc main_arg2) := W2_in m ρ c 1 rfl
    _ = W0 m ρ c (Proc.devRef .tc main_arg2) := W1_of m ρ c main_arg2 (by decide)
    _ = m ((c : Thread nD τ).loc main_arg2) := rfl

/-- The shift: input window 2 of region 0. -/
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := W3_of m ρ c main_arg3 (by decide)
    _ = W1 m ρ c (Proc.devRef .tc main_arg3) := W2_in m ρ c 2 rfl
    _ = W0 m ρ c (Proc.devRef .tc main_arg3) := W1_of m ρ c main_arg3 (by decide)
    _ = m ((c : Thread nD τ).loc main_arg3) := rfl

/-- The first weight matrix before its conversion: no window's array. -/
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := W3_of m ρ c main_arg4 (by decide)
    _ = W1 m ρ c (Proc.devRef .tc main_arg4) := W2_of_ne m ρ c main_arg4 (by decide)
    _ = W0 m ρ c (Proc.devRef .tc main_arg4) := W1_of m ρ c main_arg4 (by decide)
    _ = m ((c : Thread nD τ).loc main_arg4) := rfl

/-- The first bias: input window 4 of region 0. -/
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := W3_of m ρ c main_arg5 (by decide)
    _ = W1 m ρ c (Proc.devRef .tc main_arg5) := W2_in m ρ c 4 rfl
    _ = W0 m ρ c (Proc.devRef .tc main_arg5) := W1_of m ρ c main_arg5 (by decide)
    _ = m ((c : Thread nD τ).loc main_arg5) := rfl

/-- The second weight matrix before its conversion: no window's array. -/
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := W3_of m ρ c main_arg6 (by decide)
    _ = W1 m ρ c (Proc.devRef .tc main_arg6) := W2_of_ne m ρ c main_arg6 (by decide)
    _ = W0 m ρ c (Proc.devRef .tc main_arg6) := W1_of m ρ c main_arg6 (by decide)
    _ = m ((c : Thread nD τ).loc main_arg6) := rfl

/-- The second bias: input window 6 of region 0. -/
theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := W3_of m ρ c main_arg7 (by decide)
    _ = W1 m ρ c (Proc.devRef .tc main_arg7) := W2_in m ρ c 6 rfl
    _ = W0 m ρ c (Proc.devRef .tc main_arg7) := W1_of m ρ c main_arg7 (by decide)
    _ = m ((c : Thread nD τ).loc main_arg7) := rfl

/-- The third weight matrix before its conversion: no window's array. -/
theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := W3_of m ρ c main_arg8 (by decide)
    _ = W1 m ρ c (Proc.devRef .tc main_arg8) := W2_of_ne m ρ c main_arg8 (by decide)
    _ = W0 m ρ c (Proc.devRef .tc main_arg8) := W1_of m ρ c main_arg8 (by decide)
    _ = m ((c : Thread nD τ).loc main_arg8) := rfl

/-- The third bias: input window 8 of region 0. -/
theorem W4_main_arg9 (c : Dev nD) : W4 m ρ c (Proc.devRef .tc main_arg9) = m ((c : Thread nD τ).loc main_arg9) :=
  calc W4 m ρ c (Proc.devRef .tc main_arg9)
    _ = W3 m ρ c (Proc.devRef .tc main_arg9) := W4_of_ne m ρ c main_arg9 (by decide)
    _ = W2 m ρ c (Proc.devRef .tc main_arg9) := W3_of m ρ c main_arg9 (by decide)
    _ = W1 m ρ c (Proc.devRef .tc main_arg9) := W2_in m ρ c 8 rfl
    _ = W0 m ρ c (Proc.devRef .tc main_arg9) := W1_of m ρ c main_arg9 (by decide)
    _ = m ((c : Thread nD τ).loc main_arg9) := rfl

/-! ## The regions' results and operands, read at the boundaries -/

/-- The program's result: what region 1's write-backs fold to in its output array (window 5). -/
theorem W4_out (c : Dev nD) : W4 m ρ c (Proc.devRef .tc main_v10) = (dat1 (V3 m ρ) c).arrAt 5 cfg1.N :=
  W4_arr m ρ c 5

/-- Region 1 finds the query array at what region 0's write-backs fold to in its window 9: the mask operations
    do not write it. -/
theorem V3_q (c : Dev nD) : V3 m ρ c main_v3_0 = (dat0 (V1 m ρ) c).arrAt 9 cfg0.N :=
  (W3_of m ρ c main_v3_0 (by decide)).trans (W2_arr m ρ c 9)
/-- The key array: region 0's window 10. -/
theorem V3_k (c : Dev nD) : V3 m ρ c main_v3_1 = (dat0 (V1 m ρ) c).arrAt 10 cfg0.N :=
  (W3_of m ρ c main_v3_1 (by decide)).trans (W2_arr m ρ c 10)
/-- The value array: region 0's window 11. -/
theorem V3_v (c : Dev nD) : V3 m ρ c main_v3_2 = (dat0 (V1 m ρ) c).arrAt 11 cfg0.N :=
  (W3_of m ρ c main_v3_2 (by decide)).trans (W2_arr m ρ c 11)
/-- Region 1 finds x as launched. -/
theorem V3_x (c : Dev nD) : V3 m ρ c main_arg0 = m ((c : Thread nD τ).loc main_arg0) :=
  calc V3 m ρ c main_arg0
    _ = W2 m ρ c (Proc.devRef .tc main_arg0) := W3_of m ρ c main_arg0 (by decide)
    _ = W1 m ρ c (Proc.devRef .tc main_arg0) := W2_in m ρ c 0 rfl
    _ = W0 m ρ c (Proc.devRef .tc main_arg0) := W1_of m ρ c main_arg0 (by decide)
    _ = m ((c : Thread nD τ).loc main_arg0) := rfl
/-- Region 1 finds the additive mask at what the eight operations make of region 0's exit contents, -/
theorem V3_mask (c : Dev nD) : V3 m ρ c main_v9 = StableHlo.after hostOps1 (W2 m ρ c) (Proc.devRef .tc main_v9) := rfl
/-- where the integer mask is still as launched. -/
theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := W1_of m ρ c main_arg1 (by decide)
    _ = m ((c : Thread nD τ).loc main_arg1) := rfl

/-- Region 0 finds each converted weight matrix at what the conversions make of the launch contents, -/
theorem V1_w0 (c : Dev nD) : V1 m ρ c main_v0 = StableHlo.after hostOps0 (W0 m ρ c) (Proc.devRef .tc main_v0) := rfl
theorem V1_w1 (c : Dev nD) : V1 m ρ c main_v1 = StableHlo.after hostOps0 (W0 m ρ c) (Proc.devRef .tc main_v1) := rfl
theorem V1_w2 (c : Dev nD) : V1 m ρ c main_v2 = StableHlo.after hostOps0 (W0 m ρ c) (Proc.devRef .tc main_v2) := rfl
/-- and x, the scale, the shift and the three biases as launched. -/
theorem V1_main_arg0 (c : Dev nD) : V1 m ρ c main_arg0 = m ((c : Thread nD τ).loc main_arg0) := W1_of m ρ c main_arg0 (by decide)
theorem V1_main_arg2 (c : Dev nD) : V1 m ρ c main_arg2 = m ((c : Thread nD τ).loc main_arg2) := W1_of m ρ c main_arg2 (by decide)
theorem V1_main_arg3 (c : Dev nD) : V1 m ρ c main_arg3 = m ((c : Thread nD τ).loc main_arg3) := W1_of m ρ c main_arg3 (by decide)
theorem V1_main_arg5 (c : Dev nD) : V1 m ρ c main_arg5 = m ((c : Thread nD τ).loc main_arg5) := W1_of m ρ c main_arg5 (by decide)
theorem V1_main_arg7 (c : Dev nD) : V1 m ρ c main_arg7 = m ((c : Thread nD τ).loc main_arg7) := W1_of m ρ c main_arg7 (by decide)
theorem V1_main_arg9 (c : Dev nD) : V1 m ρ c main_arg9 = m ((c : Thread nD τ).loc main_arg9) := W1_of m ρ c main_arg9 (by decide)

/-! ## The proof data family and the thread state -/

/-- The prefetched tables' admissible contents: no region has a table. -/
abbrev adm : (p : Fin 2) → (pcfgs (F := F) p).Adm := fun p => (cfgs p).toPCfg_adm
/-- Each region's proof data, at its entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state, and the core
    owing nothing. -/
abbrev R (c : Dev nD) : sProp 𝕄 := iprop((∃ r, prngReg c r) ∗ ∃ W, owes (c : Thread nD τ) (0 : CellTallies nD τ sig Unit) W)
/-- A stretch of operations as a segment over the unscoped buffers from the contents W, R riding along: it leaves
    them at what the operations make of W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owing: every unscoped buffer at the last boundary's contents, the generator
    register at some state. -/
abbrev Tₙ (c : Dev nD) : sProp 𝕄 := iprop(StableHlo.held (c : Thread nD τ) (Pipeline.ucRefs τ sig) (W4 m ρ c) ∗ ∃ r, prngReg c r)

/-! ## The regions as segments -/

section Run

variable (hb0 : ∀ c, BodyObligation (dat0 (F := F) (V1 m ρ) c) (defs₀ (F := F)) Variants.none () Set.univ)
  (hb1 : ∀ c, BodyObligation (dat1 (F := F) (V3 m ρ) c) (defs₀ (F := F)) Variants.none () Set.univ)
  (hin1 : ∀ c, Pipeline.ΦA spec1 c ⊢ (dat1 (F := F) (V3 m ρ) c).Φ 0)
  (hout1 : ∀ c, (dat1 (F := F) (V3 m ρ) c).Φ (Fin.last cfg1.N) ⊢ Pipeline.ΦA spec1 c)

set_option backward.isDefEq.respectTransparency.types false in
/-- Region 0 over the thread state: entered from every unscoped buffer at W1, left at W2.  Its arrays are split out of
    the unscoped buffers and put back at the exit contents; the generator register goes into the class invariant and
    comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (hb0 c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at W3, left at W4.  Its invariant carries the
    three running quantities, so the class invariant is taken to it at the first position and back from it at the
    last; otherwise as region 0. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (hb1 c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ (Pipeline.ΦA spec1 c : sProp 𝕄)).trans (hin1 c)
    unfold Pipeline.ΦA
    iintro ⟨Hp, -, Hr⟩
    isplitl [Hr]; · iexact Hr
    iexact Hp
  hout c := by
    refine (hout1 c).trans (?_ : (Pipeline.ΦA spec1 c : sProp 𝕄) ⊢ _)
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's four segments in order: a stretch of operations from its boundary's contents, a region, a
    stretch, a region. -/
abbrev segs : List (Pipeline.Seg (pcfgs (F := F)) adm (pdats m ρ) () defs₀ 𝒱₀ L lv) :=
  [ .host (hseg hostOps0 hostOps0_sub hostOps0_fresh (W0 m ρ)),
    .region (reg0 m ρ hb0),
    .host (hseg hostOps1 hostOps1_sub hostOps1_fresh (W2 m ρ)),
    .region (reg1 m ρ hb1 hin1 hout1) ]
/-- The program is the run of the segments. -/
theorem main_run (c : Dev nD) : main (F := F) c = Pipeline.Seg.run (segs m ρ hb0 hb1 hin1 hout1) := (main_chain c).trans (by chain_rfl)

include hb0 hb1 hin1 hout1

set_option backward.isDefEq.respectTransparency.types false in
/-- The run, at any property of the final memory that follows from every unscoped buffer of every core holding the
    last boundary's contents: from any memory with zero counters, every weakly fair execution of the program
    terminates, nothing faulting, in such a memory. -/
theorem run_post {Q : PUnit × MemSt nD τ sig (Elt F) → Prop}
    (hQ : ∀ s : MemSt nD τ sig (Elt F), (∀ c : Dev nD, ∀ b ∈ Pipeline.ucRefs τ sig, s.mem (((c : Thread nD τ)).1, b) = W4 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ hb0 hb1 hin1 hout1)
    (fun c Q => by rw [main_run m ρ hb0 hb1 hin1 hout1 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := hQ)

/-- The run with its post kept whole: in every final memory every unscoped buffer of every core holds the last
    boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W4 m ρ c b) :=
  run_post m ρ hb0 hb1 hin1 hout1 fun _ h => h

/-- The frame: every final memory has the ten argument arrays as launched, each read off the last boundary's contents
    and walked back through the fold. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  run_post m ρ hb0 hb1 hin1 hout1 fun s h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c),
     (h c _ (mem_uc main_arg9 (by decide))).trans (W4_main_arg9 m ρ c)⟩

end Run

end Cert.Kernel.Hand

end
-- ==== Proof.K.R0Body.lean ====
/-
  Region 0's body obligation.  At every point the body is handed its nine input windows' staging buffers, each
  holding the window's block there, and its three output windows' buffers at anything; it loads the nine blocks whole,
  computes the normalised rows and their three projections, and stores each projection whole.  So it leaves the inputs'
  buffers as they were and each output's buffer at the corresponding projection of the point's blocks, which is what
  region 0's proof data states.  The invariant and the core's debts pass through unread.
-/
import proofs.«110207_j12077448037095_2_alg».proof.Proof.Gen.Kernel.Launch
import proofs.«110207_j12077448037095_2_alg».proof.Proof.Gen.Kernel.Skeleton
import proofs.«110207_j12077448037095_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«110207_j12077448037095_2_alg».proof.Proof.K.Data

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## The input windows' buffers hold their blocks -/

/-- Input window 0's current buffer holds its block at every point, fetched there or not (unfetched, the block index
    has not moved), for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current buffer holds its block at every point, fetched there or not (unfetched, the block index
    has not moved), for any proof data whose array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current buffer holds its block at every point, fetched there or not (unfetched, the block index
    has not moved), for any proof data whose array is `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current buffer holds its block at every point, fetched there or not (unfetched, the block index
    has not moved), for any proof data whose array is `V`'s and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current buffer holds its block at every point, fetched there or not (unfetched, the block index
    has not moved), for any proof data whose array is `V`'s and whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current buffer holds its block at every point, fetched there or not (unfetched, the block index
    has not moved), for any proof data whose array is `V`'s and whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current buffer holds its block at every point, fetched there or not (unfetched, the block index
    has not moved), for any proof data whose array is `V`'s and whose body leaves the block in place. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7's current buffer holds its block at every point, fetched there or not (unfetched, the block index
    has not moved), for any proof data whose array is `V`'s and whose body leaves the block in place. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- Input window 8's current buffer holds its block at every point, fetched there or not (unfetched, the block index
    has not moved), for any proof data whose array is `V`'s and whose body leaves the block in place. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each a whole buffer -/

abbrev r0_x : Rect S1x512x1024 := Rect.unit (s := S1x512x1024) ![0, 0, 0] S1x512x1024.size inb_S1x512x1024_S1x512x1024_0_0_0
abbrev r0_v : Rect S1024 := Rect.unit (s := S1024) ![0] S1024.size inb_S1024_S1024_0
abbrev r0_m : Rect S1024x1024 := Rect.unit (s := S1024x1024) ![0, 0] S1024x1024.size inb_S1024x1024_S1024x1024_0_0

theorem hz0_x : (![0, 0, 0] : Fin 3 → Nat) = fun _ => 0 := funext fun a => by fin_cases a <;> rfl
theorem hz0_v : (![0] : Fin 1 → Nat) = fun _ => 0 := funext fun a => by fin_cases a <;> rfl
theorem hz0_m : (![0, 0] : Fin 2 → Nat) = fun _ => 0 := funext fun a => by fin_cases a <;> rfl

/-- A load of a whole block reads the block. -/
theorem ld0_x {e : EltTy} (X : S1x512x1024.Idx → Elt F e) : View.ld X r0_x = X := View.ld_unit_zero (S := S1x512x1024) hz0_x _ X
theorem ld0_v {e : EltTy} (X : S1024.Idx → Elt F e) : View.ld X r0_v = X := View.ld_unit_zero (S := S1024) hz0_v _ X
theorem ld0_m {e : EltTy} (X : S1024x1024.Idx → Elt F e) : View.ld X r0_m = X := View.ld_unit_zero (S := S1024x1024) hz0_m _ X

/-- One store of a whole block covers the buffer. -/
theorem cover0_out (p0 : Vec F S1x512x1024 .bf16) (y : S1x512x1024.Idx) :
    ∃ pc ∈ ([⟨r0_x, p0⟩] : List (View.Piece (Elt F) S1x512x1024 .bf16)), y ∈ pc.1.set :=
  View.cover_of_tiled [⟨r0_x, p0⟩] S1x512x1024.size (by rfl) y

/-- and leaves its payload there. -/
theorem canon0_out (p0 : Vec F S1x512x1024 .bf16) :
    View.canon ([⟨r0_x, p0⟩] : List (View.Piece (Elt F) S1x512x1024 .bf16)) = p0 :=
  View.canon_unit_zero hz0_x _ p0

/-- So a load of a whole buffer reads its contents. -/
theorem rd0_x {e : EltTy} (v : View sig .tc .vmem S1x512x1024 e) (f : v.ty.Contents (Elt F)) :
    v.readAt (Elt F) r0_x.toLoadRect f = v.read (Elt F) f := ld0_x _
theorem rd0_v {e : EltTy} (v : View sig .tc .vmem S1024 e) (f : v.ty.Contents (Elt F)) :
    v.readAt (Elt F) r0_v.toLoadRect f = v.read (Elt F) f := ld0_v _
theorem rd0_m {e : EltTy} (v : View sig .tc .vmem S1024x1024 e) (f : v.ty.Contents (Elt F)) :
    v.readAt (Elt F) r0_m.toLoadRect f = v.read (Elt F) f := ld0_m _

/-! ## The body's triple -/

set_option maxHeartbeats 1000000 in
/-- The kernel body on whole memrefs, the inputs' at contents `xW` and the outputs' at anything, runs to the
    continuation holding the inputs' as they were and the outputs' at the three projections of the inputs. -/
theorem sound_kernel0 (c : Dev nD) (E : Set ℕ) (i : grid0.Coords) (arg0 : Memref sig .tc .vmem S1x512x1024 .f32) (harg0 : arg0.IsWhole) (arg1 : Memref sig .tc .vmem S1024 .f32) (harg1 : arg1.IsWhole) (arg2 : Memref sig .tc .vmem S1024 .f32) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1x512x1024 .bf16) (harg9 : arg9.IsWhole) (arg10 : Memref sig .tc .vmem S1x512x1024 .bf16) (harg10 : arg10.IsWhole) (arg11 : Memref sig .tc .vmem S1x512x1024 .bf16) (harg11 : arg11.IsWhole)
    (x0 : Vec F S1x512x1024 .f32) (x1 : Vec F S1024 .f32) (x2 : Vec F S1024 .f32) (x3 : Vec F S1024x1024 .bf16) (x4 : Vec F S1024 .f32) (x5 : Vec F S1024x1024 .bf16) (x6 : Vec F S1024 .f32) (x7 : Vec F S1024x1024 .bf16) (x8 : Vec F S1024 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (qOut x0 x1 x2 x3 x4) ∗ owns (c : Thread nD τ) arg10 fullShare (kOut x0 x1 x2 x5 x6) ∗ owns (c : Thread nD τ) arg11 fullShare (vOut x0 x1 x2 x7 x8)) -∗ K ⟨⟩))
      ⊢ wp frame (wpE (defs₀ (F := F)) Variants.none c none) E (cc0__ln_qkv_kernel i arg0 harg0 arg1 harg1 arg2 harg2 arg3 harg3 arg4 harg4 arg5 harg5 arg6 harg6 arg7 harg7 arg8 harg8 arg9 harg9 arg10 harg10 arg11 harg11) K := by
  simp only [cc0__ln_qkv_kernel_eq_skeleton]; unfold cc0__ln_qkv_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    refine (View.read_writes_eq_canon _ _ _ (cover0_out _)).trans ((canon0_out _).trans ?_)
    sl_unfold_run_names
    rw [rd0_x arg0.view, rd0_v arg1.view, rd0_v arg2.view, rd0_m arg3.view, rd0_v arg4.view]
    rfl
  isplitl [H10]
  · iexists _; isplitr
    swap; · iexact H10
    ipureintro
    refine (View.read_writes_eq_canon _ _ _ (cover0_out _)).trans ((canon0_out _).trans ?_)
    sl_unfold_run_names
    rw [rd0_x arg0.view, rd0_v arg1.view, rd0_v arg2.view, rd0_m arg5.view, rd0_v arg6.view]
    rfl
  iexists _; isplitr
  swap; · iexact H11
  ipureintro
  refine (View.read_writes_eq_canon _ _ _ (cover0_out _)).trans ((canon0_out _).trans ?_)
  sl_unfold_run_names
  rw [rd0_x arg0.view, rd0_v arg1.view, rd0_v arg2.view, rd0_m arg7.view, rd0_v arg8.view]
  rfl

/-! ## The body obligation, at a generic point -/

/-- Input window 0's current buffer holds its block at every point. -/
theorem before0_0 (c : Dev nD) (t : Fin cfg0.N) (d) : (dat0 V c).before 0 t d = iblk0 V c 0 t :=
  before0_0_of V (dat0 V c) (A_eq0 V c 0) (after0_0 V c) t d
/-- Input window 1's current buffer holds its block at every point. -/
theorem before0_1 (c : Dev nD) (t : Fin cfg0.N) (d) : (dat0 V c).before 1 t d = iblk0 V c 1 t :=
  before0_1_of V (dat0 V c) (A_eq0 V c 1) (after0_1 V c) t d
/-- Input window 2's current buffer holds its block at every point. -/
theorem before0_2 (c : Dev nD) (t : Fin cfg0.N) (d) : (dat0 V c).before 2 t d = iblk0 V c 2 t :=
  before0_2_of V (dat0 V c) (A_eq0 V c 2) (after0_2 V c) t d
/-- Input window 3's current buffer holds its block at every point. -/
theorem before0_3 (c : Dev nD) (t : Fin cfg0.N) (d) : (dat0 V c).before 3 t d = iblk0 V c 3 t :=
  before0_3_of V (dat0 V c) (A_eq0 V c 3) (after0_3 V c) t d
/-- Input window 4's current buffer holds its block at every point. -/
theorem before0_4 (c : Dev nD) (t : Fin cfg0.N) (d) : (dat0 V c).before 4 t d = iblk0 V c 4 t :=
  before0_4_of V (dat0 V c) (A_eq0 V c 4) (after0_4 V c) t d
/-- Input window 5's current buffer holds its block at every point. -/
theorem before0_5 (c : Dev nD) (t : Fin cfg0.N) (d) : (dat0 V c).before 5 t d = iblk0 V c 5 t :=
  before0_5_of V (dat0 V c) (A_eq0 V c 5) (after0_5 V c) t d
/-- Input window 6's current buffer holds its block at every point. -/
theorem before0_6 (c : Dev nD) (t : Fin cfg0.N) (d) : (dat0 V c).before 6 t d = iblk0 V c 6 t :=
  before0_6_of V (dat0 V c) (A_eq0 V c 6) (after0_6 V c) t d
/-- Input window 7's current buffer holds its block at every point. -/
theorem before0_7 (c : Dev nD) (t : Fin cfg0.N) (d) : (dat0 V c).before 7 t d = iblk0 V c 7 t :=
  before0_7_of V (dat0 V c) (A_eq0 V c 7) (after0_7 V c) t d
/-- Input window 8's current buffer holds its block at every point. -/
theorem before0_8 (c : Dev nD) (t : Fin cfg0.N) (d) : (dat0 V c).before 8 t d = iblk0 V c 8 t :=
  before0_8_of V (dat0 V c) (A_eq0 V c 8) (after0_8 V c) t d

/-- What the body is called with at point `t`: the invariant, the core's debts, and each window's current buffer at
    what the point finds in it, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d)))

/-- and what it returns: the same with each buffer at what the body leaves in it. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t))

/-- The body at any point: the inputs' buffers hold their blocks, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel0 c Set.univ (grid0.coords t) _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- Region 0's body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.Kernel.Hand

end
-- ==== Proof.K.R1Runs.lean ====
/-
  What the three control cases of the attention region's body share: the two conditions on the key-block coordinate
  (first key block: the running quantities are reset; last key block: the result block is stored), decided over the
  grid in closed form; where the result window is idle; the staging memrefs at a point; each input window's buffer
  holding its block at every point; the region invariant with the three running quantities' buffers named.
-/
import proofs.«110207_j12077448037095_2_alg».proof.Proof.K.Data

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

namespace R1B

section Inputs
variable (V : (c : Dev nD) → (b : Ref sig .tc) → Buf (Elt F) ((c : Thread nD τ).loc b))

/-! ## The input windows' buffers hold their blocks at every point, fetched there or not -/

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)

end Inputs

end R1B

/-! ## The body's two conditions on the key-block coordinate -/

/-- First key block (coordinate 2 is zero): the running quantities are reset. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- Last key block (coordinate 2 is three): the result block is stored. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

namespace R1B

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- Away from a last key block the result window is idle and not written back. -/
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
/-- At a last key block it is live. -/
theorem liveAt1_5 : ∀ t : Fin cfg1.N, cond1_1 (grid1.coords t) → cfg1.idle 5 (grid1.coords t) = false := by decide +kernel

/-! ## The memrefs the body is called with -/

abbrev ms1_0 (t : Fin cfg1.N) : Memref sig .tc .vmem S1x256x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x256x1024 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x256x1024 .f32 := win1_5.stage (cfg1.slots t 5)
abbrev hs1_5 (t : Fin cfg1.N) : (ms1_5 t).IsWhole := hstage1_5 ((cfg1.slots t 5).cast nbuf1_5)

end R1B

/-! ## The region invariant as the launch hands it over -/

/-- The class's invariant with the three running quantities' buffers as memrefs owned at some contents. -/
theorem PhiA1_eq (c : Dev nD) :
    (Pipeline.ΦA spec1 c : sProp 𝕄)
      = iprop(scoped1 c iprop(∃ d, owns (c : Thread nD τ) scM1_0 fullShare d) iprop(∃ d, owns (c : Thread nD τ) scM1_1 fullShare d) iprop(∃ d, owns (c : Thread nD τ) scM1_2 fullShare d) ∗ (∃ r, prngReg c r)) := by
  unfold Pipeline.ΦA scoped1; rw [scopedRest1_eq]; simp only [scM1_0, scM1_1, scM1_2, owns_whole]; try rfl

end Cert.Kernel.Hand

end
-- ==== Proof.K.R1RunA.lean ====
/-
  The attention region's body at a first key block: the three running quantities are reset to their starting values
  and then advanced by one key block; the result window is left as it was found.
-/
import proofs.«110207_j12077448037095_2_alg».proof.Proof.K.R1Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body's triple at a first key block: on whole memrefs — the five inputs at their blocks, the result window's
    buffer at contents handed back untouched, the three running quantities' buffers at anything — the body runs to
    the continuation holding the inputs as they were and each running quantity's buffer with the listed stores
    written (last first). The lists are the witness the run finds. -/
noncomputable def kernelRun1_A (c : Dev nD) (i : grid1.Coords) (arg3 : Memref sig .tc .vmem S1x256x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1x512 .f32) (harg6 : arg6.IsWhole) (arg7 : Memref sig .tc .vmem S1x256x1024 .f32) (harg7 : arg7.IsWhole) (arg8 : Memref sig .tc .vmem S1x256x1024 .f32) (harg8 : arg8.IsWhole) (arg9 : Memref sig .tc .vmem S16x256x1 .f32) (harg9 : arg9.IsWhole) (arg10 : Memref sig .tc .vmem S16x256x1 .f32) (harg10 : arg10.IsWhole) (arg11 : Memref sig .tc .vmem S16x256x64 .f32) (harg11 : arg11.IsWhole) (hc0 : cond1_0 i) (hc1 : ¬cond1_1 i)
    (x0 : Vec F S1x256x1024 .bf16) (x1 : Vec F S1x512x1024 .bf16) (x2 : Vec F S1x512x1024 .bf16) (x3 : Vec F S1x1x512 .f32) (x4 : Vec F S1x256x1024 .f32) :
    Σ' (L5 : List (View.Piece (Elt F) S1x256x1024 .f32)) (LS0 : List (View.Piece (Elt F) S16x256x1 .f32)) (LS1 : List (View.Piece (Elt F) S16x256x1 .f32)), { LS2 : List (View.Piece (Elt F) S16x256x64 .f32) //
      ∀ (xi5 : Vec F S1x256x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc1__flash_kernel i arg3 harg3 arg4 harg4 arg5 harg5 arg6 harg6 arg7 harg7 arg8 harg8 arg9 harg9 arg10 harg10 arg11 harg11) K } := by
  refine ⟨[], ?_, ?_, ?_, fun xi5 E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexists _; iexact HS0
    isplitl [HS1]; · iexists _; iexact HS1
    iexists _; iexact HS2

end Cert.Kernel.Hand

end
-- ==== Proof.K.R1RunB.lean ====
/-
  The attention region's body at a middle key block: the three running quantities, at what the key block before left,
  are advanced by one key block; the result window is left as it was found.
-/
import proofs.«110207_j12077448037095_2_alg».proof.Proof.K.R1RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body's triple at a middle key block: on whole memrefs — the five inputs at their blocks, the result window's
    buffer at contents handed back untouched, the three running quantities' buffers at the named contents — the body
    runs to the continuation holding the inputs as they were and each running quantity's buffer with the listed
    stores written (last first). The lists are the witness the run finds. -/
noncomputable def kernelRun1_B (c : Dev nD) (i : grid1.Coords) (arg3 : Memref sig .tc .vmem S1x256x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1x512 .f32) (harg6 : arg6.IsWhole) (arg7 : Memref sig .tc .vmem S1x256x1024 .f32) (harg7 : arg7.IsWhole) (arg8 : Memref sig .tc .vmem S1x256x1024 .f32) (harg8 : arg8.IsWhole) (arg9 : Memref sig .tc .vmem S16x256x1 .f32) (harg9 : arg9.IsWhole) (arg10 : Memref sig .tc .vmem S16x256x1 .f32) (harg10 : arg10.IsWhole) (arg11 : Memref sig .tc .vmem S16x256x64 .f32) (harg11 : arg11.IsWhole) (hc0 : ¬cond1_0 i) (hc1 : ¬cond1_1 i)
    (x0 : Vec F S1x256x1024 .bf16) (x1 : Vec F S1x512x1024 .bf16) (x2 : Vec F S1x512x1024 .bf16) (x3 : Vec F S1x1x512 .f32) (x4 : Vec F S1x256x1024 .f32) (xs0 : Vec F S16x256x1 .f32) (xs1 : Vec F S16x256x1 .f32) (xs2 : Vec F S16x256x64 .f32) :
    Σ' (L5 : List (View.Piece (Elt F) S1x256x1024 .f32)) (LS0 : List (View.Piece (Elt F) S16x256x1 .f32)) (LS1 : List (View.Piece (Elt F) S16x256x1 .f32)), { LS2 : List (View.Piece (Elt F) S16x256x64 .f32) //
      ∀ (xi5 : Vec F S1x256x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0 ∗ owns (c : Thread nD τ) arg10 fullShare xs1 ∗ owns (c : Thread nD τ) arg11 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc1__flash_kernel i arg3 harg3 arg4 harg4 arg5 harg5 arg6 harg6 arg7 harg7 arg8 harg8 arg9 harg9 arg10 harg10 arg11 harg11) K } := by
  refine ⟨[], ?_, ?_, ?_, fun xi5 E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexists _; iexact HS0
    isplitl [HS1]; · iexists _; iexact HS1
    iexists _; iexact HS2

end Cert.Kernel.Hand

end
-- ==== Proof.K.R1RunC.lean ====
/-
  The attention region's body at a last key block: the three running quantities, at what the key block before left,
  are advanced by one key block, and the result block — the weighted sum over the sum of exponentials, plus the
  residual block — is stored into the result window.
-/
import proofs.«110207_j12077448037095_2_alg».proof.Proof.K.R1RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body's triple at a last key block: on whole memrefs — the five inputs at their blocks, the result window's
    buffer at anything, the three running quantities' buffers at the named contents — the body runs to the
    continuation holding the inputs as they were and the result window's and each running quantity's buffer with the
    listed stores written (last first). The lists are the witness the run finds. -/
noncomputable def kernelRun1_C (c : Dev nD) (i : grid1.Coords) (arg3 : Memref sig .tc .vmem S1x256x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1x512 .f32) (harg6 : arg6.IsWhole) (arg7 : Memref sig .tc .vmem S1x256x1024 .f32) (harg7 : arg7.IsWhole) (arg8 : Memref sig .tc .vmem S1x256x1024 .f32) (harg8 : arg8.IsWhole) (arg9 : Memref sig .tc .vmem S16x256x1 .f32) (harg9 : arg9.IsWhole) (arg10 : Memref sig .tc .vmem S16x256x1 .f32) (harg10 : arg10.IsWhole) (arg11 : Memref sig .tc .vmem S16x256x64 .f32) (harg11 : arg11.IsWhole) (hc0 : ¬cond1_0 i) (hc1 : cond1_1 i)
    (x0 : Vec F S1x256x1024 .bf16) (x1 : Vec F S1x512x1024 .bf16) (x2 : Vec F S1x512x1024 .bf16) (x3 : Vec F S1x1x512 .f32) (x4 : Vec F S1x256x1024 .f32) (xs0 : Vec F S16x256x1 .f32) (xs1 : Vec F S16x256x1 .f32) (xs2 : Vec F S16x256x64 .f32) :
    Σ' (L5 : List (View.Piece (Elt F) S1x256x1024 .f32)) (LS0 : List (View.Piece (Elt F) S16x256x1 .f32)) (LS1 : List (View.Piece (Elt F) S16x256x1 .f32)), { LS2 : List (View.Piece (Elt F) S16x256x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0 ∗ owns (c : Thread nD τ) arg10 fullShare xs1 ∗ owns (c : Thread nD τ) arg11 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc1__flash_kernel i arg3 harg3 arg4 harg4 arg5 harg5 arg6 harg6 arg7 harg7 arg8 harg8 arg9 harg9 arg10 harg10 arg11 harg11) K } := by
  refine ⟨?_, ?_, ?_, ?_, fun E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hf4
    obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [HS0]; · iexists _; iexact HS0
    isplitl [HS1]; · iexists _; iexact HS1
    iexists _; iexact HS2

end Cert.Kernel.Hand

end
-- ==== Proof.K.R1Body.lean ====
/-
  The attention region's body obligation. At each grid point the body advances three running quantities per head and
  query row (maximum, sum of exponentials, weighted sum of value rows) by one key block; at a first key block it first
  resets them, at a last key block it also stores the result block. Each of the three control cases has its run; what
  a run leaves in each buffer is the last store into it, a pure function of the point's input blocks and of the
  quantities the position before left; these are the steps by which the region's proof data names the quantities.
-/
import proofs.«110207_j12077448037095_2_alg».proof.Proof.K.R1RunC
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

namespace R1B

/-- The zero offsets of a rank-three buffer, as the stores and loads spell them. -/
theorem hz3 : (![0, 0, 0] : Fin 3 → Nat) = fun _ => 0 := funext fun a => by fin_cases a <;> rfl

/-! ## Each buffer's last store is of the whole buffer, so the stores cover it -/

theorem scover1_A_0 (c : Dev nD) (i : grid1.Coords) (arg3 : Memref sig .tc .vmem S1x256x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1x512 .f32) (harg6 : arg6.IsWhole) (arg7 : Memref sig .tc .vmem S1x256x1024 .f32) (harg7 : arg7.IsWhole) (arg8 : Memref sig .tc .vmem S1x256x1024 .f32) (harg8 : arg8.IsWhole) (arg9 : Memref sig .tc .vmem S16x256x1 .f32) (harg9 : arg9.IsWhole) (arg10 : Memref sig .tc .vmem S16x256x1 .f32) (harg10 : arg10.IsWhole) (arg11 : Memref sig .tc .vmem S16x256x64 .f32) (harg11 : arg11.IsWhole) (hc0 : cond1_0 i) (hc1 : ¬cond1_1 i) (x0 : Vec F S1x256x1024 .bf16) (x1 : Vec F S1x512x1024 .bf16) (x2 : Vec F S1x512x1024 .bf16) (x3 : Vec F S1x1x512 .f32) (x4 : Vec F S1x256x1024 .f32) (y : S16x256x1.Idx) :
    ∃ pc ∈ (kernelRun1_A c i arg3 harg3 arg4 harg4 arg5 harg5 arg6 harg6 arg7 harg7 arg8 harg8 arg9 harg9 arg10 harg10 arg11 harg11 hc0 hc1 x0 x1 x2 x3 x4).2.1, y ∈ pc.1.set := by
  unfold kernelRun1_A
  dsimp only
  sl_unfold_words
  refine ⟨_, List.mem_cons_self, ?_⟩
  exact View.mem_set_unit_zero (S := S16x256x1) hz3 inb_S16x256x1_S16x256x1_0_0_0 y
theorem scover1_A_1 (c : Dev nD) (i : grid1.Coords) (arg3 : Memref sig .tc .vmem S1x256x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1x512 .f32) (harg6 : arg6.IsWhole) (arg7 : Memref sig .tc .vmem S1x256x1024 .f32) (harg7 : arg7.IsWhole) (arg8 : Memref sig .tc .vmem S1x256x1024 .f32) (harg8 : arg8.IsWhole) (arg9 : Memref sig .tc .vmem S16x256x1 .f32) (harg9 : arg9.IsWhole) (arg10 : Memref sig .tc .vmem S16x256x1 .f32) (harg10 : arg10.IsWhole) (arg11 : Memref sig .tc .vmem S16x256x64 .f32) (harg11 : arg11.IsWhole) (hc0 : cond1_0 i) (hc1 : ¬cond1_1 i) (x0 : Vec F S1x256x1024 .bf16) (x1 : Vec F S1x512x1024 .bf16) (x2 : Vec F S1x512x1024 .bf16) (x3 : Vec F S1x1x512 .f32) (x4 : Vec F S1x256x1024 .f32) (y : S16x256x1.Idx) :
    ∃ pc ∈ (kernelRun1_A c i arg3 harg3 arg4 harg4 arg5 harg5 arg6 harg6 arg7 harg7 arg8 harg8 arg9 harg9 arg10 harg10 arg11 harg11 hc0 hc1 x0 x1 x2 x3 x4).2.2.1, y ∈ pc.1.set := by
  unfold kernelRun1_A
  dsimp only
  sl_unfold_words
  refine ⟨_, List.mem_cons_self, ?_⟩
  exact View.mem_set_unit_zero (S := S16x256x1) hz3 inb_S16x256x1_S16x256x1_0_0_0 y
theorem scover1_A_2 (c : Dev nD) (i : grid1.Coords) (arg3 : Memref sig .tc .vmem S1x256x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1x512 .f32) (harg6 : arg6.IsWhole) (arg7 : Memref sig .tc .vmem S1x256x1024 .f32) (harg7 : arg7.IsWhole) (arg8 : Memref sig .tc .vmem S1x256x1024 .f32) (harg8 : arg8.IsWhole) (arg9 : Memref sig .tc .vmem S16x256x1 .f32) (harg9 : arg9.IsWhole) (arg10 : Memref sig .tc .vmem S16x256x1 .f32) (harg10 : arg10.IsWhole) (arg11 : Memref sig .tc .vmem S16x256x64 .f32) (harg11 : arg11.IsWhole) (hc0 : cond1_0 i) (hc1 : ¬cond1_1 i) (x0 : Vec F S1x256x1024 .bf16) (x1 : Vec F S1x512x1024 .bf16) (x2 : Vec F S1x512x1024 .bf16) (x3 : Vec F S1x1x512 .f32) (x4 : Vec F S1x256x1024 .f32) (y : S16x256x64.Idx) :
    ∃ pc ∈ (kernelRun1_A c i arg3 harg3 arg4 harg4 arg5 harg5 arg6 harg6 arg7 harg7 arg8 harg8 arg9 harg9 arg10 harg10 arg11 harg11 hc0 hc1 x0 x1 x2 x3 x4).2.2.2.1, y ∈ pc.1.set := by
  unfold kernelRun1_A
  dsimp only
  sl_unfold_words
  refine ⟨_, List.mem_cons_self, ?_⟩
  exact View.mem_set_unit_zero (S := S16x256x64) hz3 inb_S16x256x64_S16x256x64_0_0_0 y
theorem scover1_B_0 (c : Dev nD) (i : grid1.Coords) (arg3 : Memref sig .tc .vmem S1x256x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1x512 .f32) (harg6 : arg6.IsWhole) (arg7 : Memref sig .tc .vmem S1x256x1024 .f32) (harg7 : arg7.IsWhole) (arg8 : Memref sig .tc .vmem S1x256x1024 .f32) (harg8 : arg8.IsWhole) (arg9 : Memref sig .tc .vmem S16x256x1 .f32) (harg9 : arg9.IsWhole) (arg10 : Memref sig .tc .vmem S16x256x1 .f32) (harg10 : arg10.IsWhole) (arg11 : Memref sig .tc .vmem S16x256x64 .f32) (harg11 : arg11.IsWhole) (hc0 : ¬cond1_0 i) (hc1 : ¬cond1_1 i) (x0 : Vec F S1x256x1024 .bf16) (x1 : Vec F S1x512x1024 .bf16) (x2 : Vec F S1x512x1024 .bf16) (x3 : Vec F S1x1x512 .f32) (x4 : Vec F S1x256x1024 .f32) (xs0 : Vec F S16x256x1 .f32) (xs1 : Vec F S16x256x1 .f32) (xs2 : Vec F S16x256x64 .f32) (y : S16x256x1.Idx) :
    ∃ pc ∈ (kernelRun1_B c i arg3 harg3 arg4 harg4 arg5 harg5 arg6 harg6 arg7 harg7 arg8 harg8 arg9 harg9 arg10 harg10 arg11 harg11 hc0 hc1 x0 x1 x2 x3 x4 xs0 xs1 xs2).2.1, y ∈ pc.1.set := by
  unfold kernelRun1_B
  dsimp only
  sl_unfold_words
  refine ⟨_, List.mem_cons_self, ?_⟩
  exact View.mem_set_unit_zero (S := S16x256x1) hz3 inb_S16x256x1_S16x256x1_0_0_0 y
theorem scover1_B_1 (c : Dev nD) (i : grid1.Coords) (arg3 : Memref sig .tc .vmem S1x256x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1x512 .f32) (harg6 : arg6.IsWhole) (arg7 : Memref sig .tc .vmem S1x256x1024 .f32) (harg7 : arg7.IsWhole) (arg8 : Memref sig .tc .vmem S1x256x1024 .f32) (harg8 : arg8.IsWhole) (arg9 : Memref sig .tc .vmem S16x256x1 .f32) (harg9 : arg9.IsWhole) (arg10 : Memref sig .tc .vmem S16x256x1 .f32) (harg10 : arg10.IsWhole) (arg11 : Memref sig .tc .vmem S16x256x64 .f32) (harg11 : arg11.IsWhole) (hc0 : ¬cond1_0 i) (hc1 : ¬cond1_1 i) (x0 : Vec F S1x256x1024 .bf16) (x1 : Vec F S1x512x1024 .bf16) (x2 : Vec F S1x512x1024 .bf16) (x3 : Vec F S1x1x512 .f32) (x4 : Vec F S1x256x1024 .f32) (xs0 : Vec F S16x256x1 .f32) (xs1 : Vec F S16x256x1 .f32) (xs2 : Vec F S16x256x64 .f32) (y : S16x256x1.Idx) :
    ∃ pc ∈ (kernelRun1_B c i arg3 harg3 arg4 harg4 arg5 harg5 arg6 harg6 arg7 harg7 arg8 harg8 arg9 harg9 arg10 harg10 arg11 harg11 hc0 hc1 x0 x1 x2 x3 x4 xs0 xs1 xs2).2.2.1, y ∈ pc.1.set := by
  unfold kernelRun1_B
  dsimp only
  sl_unfold_words
  refine ⟨_, List.mem_cons_self, ?_⟩
  exact View.mem_set_unit_zero (S := S16x256x1) hz3 inb_S16x256x1_S16x256x1_0_0_0 y
theorem scover1_B_2 (c : Dev nD) (i : grid1.Coords) (arg3 : Memref sig .tc .vmem S1x256x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1x512 .f32) (harg6 : arg6.IsWhole) (arg7 : Memref sig .tc .vmem S1x256x1024 .f32) (harg7 : arg7.IsWhole) (arg8 : Memref sig .tc .vmem S1x256x1024 .f32) (harg8 : arg8.IsWhole) (arg9 : Memref sig .tc .vmem S16x256x1 .f32) (harg9 : arg9.IsWhole) (arg10 : Memref sig .tc .vmem S16x256x1 .f32) (harg10 : arg10.IsWhole) (arg11 : Memref sig .tc .vmem S16x256x64 .f32) (harg11 : arg11.IsWhole) (hc0 : ¬cond1_0 i) (hc1 : ¬cond1_1 i) (x0 : Vec F S1x256x1024 .bf16) (x1 : Vec F S1x512x1024 .bf16) (x2 : Vec F S1x512x1024 .bf16) (x3 : Vec F S1x1x512 .f32) (x4 : Vec F S1x256x1024 .f32) (xs0 : Vec F S16x256x1 .f32) (xs1 : Vec F S16x256x1 .f32) (xs2 : Vec F S16x256x64 .f32) (y : S16x256x64.Idx) :
    ∃ pc ∈ (kernelRun1_B c i arg3 harg3 arg4 harg4 arg5 harg5 arg6 harg6 arg7 harg7 arg8 harg8 arg9 harg9 arg10 harg10 arg11 harg11 hc0 hc1 x0 x1 x2 x3 x4 xs0 xs1 xs2).2.2.2.1, y ∈ pc.1.set := by
  unfold kernelRun1_B
  dsimp only
  sl_unfold_words
  refine ⟨_, List.mem_cons_self, ?_⟩
  exact View.mem_set_unit_zero (S := S16x256x64) hz3 inb_S16x256x64_S16x256x64_0_0_0 y
theorem scover1_C_0 (c : Dev nD) (i : grid1.Coords) (arg3 : Memref sig .tc .vmem S1x256x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1x512 .f32) (harg6 : arg6.IsWhole) (arg7 : Memref sig .tc .vmem S1x256x1024 .f32) (harg7 : arg7.IsWhole) (arg8 : Memref sig .tc .vmem S1x256x1024 .f32) (harg8 : arg8.IsWhole) (arg9 : Memref sig .tc .vmem S16x256x1 .f32) (harg9 : arg9.IsWhole) (arg10 : Memref sig .tc .vmem S16x256x1 .f32) (harg10 : arg10.IsWhole) (arg11 : Memref sig .tc .vmem S16x256x64 .f32) (harg11 : arg11.IsWhole) (hc0 : ¬cond1_0 i) (hc1 : cond1_1 i) (x0 : Vec F S1x256x1024 .bf16) (x1 : Vec F S1x512x1024 .bf16) (x2 : Vec F S1x512x1024 .bf16) (x3 : Vec F S1x1x512 .f32) (x4 : Vec F S1x256x1024 .f32) (xs0 : Vec F S16x256x1 .f32) (xs1 : Vec F S16x256x1 .f32) (xs2 : Vec F S16x256x64 .f32) (y : S16x256x1.Idx) :
    ∃ pc ∈ (kernelRun1_C c i arg3 harg3 arg4 harg4 arg5 harg5 arg6 harg6 arg7 harg7 arg8 harg8 arg9 harg9 arg10 harg10 arg11 harg11 hc0 hc1 x0 x1 x2 x3 x4 xs0 xs1 xs2).2.1, y ∈ pc.1.set := by
  unfold kernelRun1_C
  dsimp only
  sl_unfold_words
  refine ⟨_, List.mem_cons_self, ?_⟩
  exact View.mem_set_unit_zero (S := S16x256x1) hz3 inb_S16x256x1_S16x256x1_0_0_0 y
theorem scover1_C_1 (c : Dev nD) (i : grid1.Coords) (arg3 : Memref sig .tc .vmem S1x256x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1x512 .f32) (harg6 : arg6.IsWhole) (arg7 : Memref sig .tc .vmem S1x256x1024 .f32) (harg7 : arg7.IsWhole) (arg8 : Memref sig .tc .vmem S1x256x1024 .f32) (harg8 : arg8.IsWhole) (arg9 : Memref sig .tc .vmem S16x256x1 .f32) (harg9 : arg9.IsWhole) (arg10 : Memref sig .tc .vmem S16x256x1 .f32) (harg10 : arg10.IsWhole) (arg11 : Memref sig .tc .vmem S16x256x64 .f32) (harg11 : arg11.IsWhole) (hc0 : ¬cond1_0 i) (hc1 : cond1_1 i) (x0 : Vec F S1x256x1024 .bf16) (x1 : Vec F S1x512x1024 .bf16) (x2 : Vec F S1x512x1024 .bf16) (x3 : Vec F S1x1x512 .f32) (x4 : Vec F S1x256x1024 .f32) (xs0 : Vec F S16x256x1 .f32) (xs1 : Vec F S16x256x1 .f32) (xs2 : Vec F S16x256x64 .f32) (y : S16x256x1.Idx) :
    ∃ pc ∈ (kernelRun1_C c i arg3 harg3 arg4 harg4 arg5 harg5 arg6 harg6 arg7 harg7 arg8 harg8 arg9 harg9 arg10 harg10 arg11 harg11 hc0 hc1 x0 x1 x2 x3 x4 xs0 xs1 xs2).2.2.1, y ∈ pc.1.set := by
  unfold kernelRun1_C
  dsimp only
  sl_unfold_words
  refine ⟨_, List.mem_cons_self, ?_⟩
  exact View.mem_set_unit_zero (S := S16x256x1) hz3 inb_S16x256x1_S16x256x1_0_0_0 y
theorem scover1_C_2 (c : Dev nD) (i : grid1.Coords) (arg3 : Memref sig .tc .vmem S1x256x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1x512 .f32) (harg6 : arg6.IsWhole) (arg7 : Memref sig .tc .vmem S1x256x1024 .f32) (harg7 : arg7.IsWhole) (arg8 : Memref sig .tc .vmem S1x256x1024 .f32) (harg8 : arg8.IsWhole) (arg9 : Memref sig .tc .vmem S16x256x1 .f32) (harg9 : arg9.IsWhole) (arg10 : Memref sig .tc .vmem S16x256x1 .f32) (harg10 : arg10.IsWhole) (arg11 : Memref sig .tc .vmem S16x256x64 .f32) (harg11 : arg11.IsWhole) (hc0 : ¬cond1_0 i) (hc1 : cond1_1 i) (x0 : Vec F S1x256x1024 .bf16) (x1 : Vec F S1x512x1024 .bf16) (x2 : Vec F S1x512x1024 .bf16) (x3 : Vec F S1x1x512 .f32) (x4 : Vec F S1x256x1024 .f32) (xs0 : Vec F S16x256x1 .f32) (xs1 : Vec F S16x256x1 .f32) (xs2 : Vec F S16x256x64 .f32) (y : S16x256x64.Idx) :
    ∃ pc ∈ (kernelRun1_C c i arg3 harg3 arg4 harg4 arg5 harg5 arg6 harg6 arg7 harg7 arg8 harg8 arg9 harg9 arg10 harg10 arg11 harg11 hc0 hc1 x0 x1 x2 x3 x4 xs0 xs1 xs2).2.2.2.1, y ∈ pc.1.set := by
  unfold kernelRun1_C
  dsimp only
  sl_unfold_words
  refine ⟨_, List.mem_cons_self, ?_⟩
  exact View.mem_set_unit_zero (S := S16x256x64) hz3 inb_S16x256x64_S16x256x64_0_0_0 y
theorem cover1_C_5 (c : Dev nD) (i : grid1.Coords) (arg3 : Memref sig .tc .vmem S1x256x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1x512 .f32) (harg6 : arg6.IsWhole) (arg7 : Memref sig .tc .vmem S1x256x1024 .f32) (harg7 : arg7.IsWhole) (arg8 : Memref sig .tc .vmem S1x256x1024 .f32) (harg8 : arg8.IsWhole) (arg9 : Memref sig .tc .vmem S16x256x1 .f32) (harg9 : arg9.IsWhole) (arg10 : Memref sig .tc .vmem S16x256x1 .f32) (harg10 : arg10.IsWhole) (arg11 : Memref sig .tc .vmem S16x256x64 .f32) (harg11 : arg11.IsWhole) (hc0 : ¬cond1_0 i) (hc1 : cond1_1 i) (x0 : Vec F S1x256x1024 .bf16) (x1 : Vec F S1x512x1024 .bf16) (x2 : Vec F S1x512x1024 .bf16) (x3 : Vec F S1x1x512 .f32) (x4 : Vec F S1x256x1024 .f32) (xs0 : Vec F S16x256x1 .f32) (xs1 : Vec F S16x256x1 .f32) (xs2 : Vec F S16x256x64 .f32) (y : S1x256x1024.Idx) :
    ∃ pc ∈ (kernelRun1_C c i arg3 harg3 arg4 harg4 arg5 harg5 arg6 harg6 arg7 harg7 arg8 harg8 arg9 harg9 arg10 harg10 arg11 harg11 hc0 hc1 x0 x1 x2 x3 x4 xs0 xs1 xs2).1, y ∈ pc.1.set := by
  unfold kernelRun1_C
  dsimp only
  sl_unfold_words
  refine ⟨_, List.mem_cons_self, ?_⟩
  exact View.mem_set_unit_zero (S := S1x256x1024) hz3 inb_S1x256x1024_S1x256x1024_0_0_0 y

/-! ## What a first key block leaves in the three running quantities' buffers: a step from the reset values -/

theorem canon1_A_0 (c : Dev nD) (i : grid1.Coords) (arg3 : Memref sig .tc .vmem S1x256x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1x512 .f32) (harg6 : arg6.IsWhole) (arg7 : Memref sig .tc .vmem S1x256x1024 .f32) (harg7 : arg7.IsWhole) (arg8 : Memref sig .tc .vmem S1x256x1024 .f32) (harg8 : arg8.IsWhole) (arg9 : Memref sig .tc .vmem S16x256x1 .f32) (harg9 : arg9.IsWhole) (arg10 : Memref sig .tc .vmem S16x256x1 .f32) (harg10 : arg10.IsWhole) (arg11 : Memref sig .tc .vmem S16x256x64 .f32) (harg11 : arg11.IsWhole) (hc0 : cond1_0 i) (hc1 : ¬cond1_1 i) (x0 : Vec F S1x256x1024 .bf16) (x1 : Vec F S1x512x1024 .bf16) (x2 : Vec F S1x512x1024 .bf16) (x3 : Vec F S1x1x512 .f32) (x4 : Vec F S1x256x1024 .f32) :
    View.canon (kernelRun1_A c i arg3 harg3 arg4 harg4 arg5 harg5 arg6 harg6 arg7 harg7 arg8 harg8 arg9 harg9 arg10 harg10 arg11 harg11 hc0 hc1 x0 x1 x2 x3 x4).2.1 = k1_pay4 (k1_pay11 x0 x1 x3 (k1_pay6 (F := F))) := by
  unfold kernelRun1_A
  dsimp only
  rw [View.canon_cons_unit_zero (S := S16x256x1) hz3]
  sl_unfold_words
  simp only [View.readAt_eq_ld, harg3.read_unread, harg4.read_unread, harg5.read_unread, harg6.read_unread, harg7.read_unread, View.ld_unit_zero (S := S1x256x1024) hz3, View.ld_unit_zero (S := S1x512x1024) hz3, View.ld_unit_zero (S := S1x1x512) hz3, View.ld_unit_zero (S := S16x256x1) hz3, View.ld_unit_zero (S := S16x256x64) hz3, View.readCov_unit_zero (S := S16x256x1) _ hz3, View.readCov_unit_zero (S := S16x256x64) _ hz3]

theorem canon1_A_1 (c : Dev nD) (i : grid1.Coords) (arg3 : Memref sig .tc .vmem S1x256x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1x512 .f32) (harg6 : arg6.IsWhole) (arg7 : Memref sig .tc .vmem S1x256x1024 .f32) (harg7 : arg7.IsWhole) (arg8 : Memref sig .tc .vmem S1x256x1024 .f32) (harg8 : arg8.IsWhole) (arg9 : Memref sig .tc .vmem S16x256x1 .f32) (harg9 : arg9.IsWhole) (arg10 : Memref sig .tc .vmem S16x256x1 .f32) (harg10 : arg10.IsWhole) (arg11 : Memref sig .tc .vmem S16x256x64 .f32) (harg11 : arg11.IsWhole) (hc0 : cond1_0 i) (hc1 : ¬cond1_1 i) (x0 : Vec F S1x256x1024 .bf16) (x1 : Vec F S1x512x1024 .bf16) (x2 : Vec F S1x512x1024 .bf16) (x3 : Vec F S1x1x512 .f32) (x4 : Vec F S1x256x1024 .f32) :
    View.canon (kernelRun1_A c i arg3 harg3 arg4 harg4 arg5 harg5 arg6 harg6 arg7 harg7 arg8 harg8 arg9 harg9 arg10 harg10 arg11 harg11 hc0 hc1 x0 x1 x2 x3 x4).2.2.1 = k1_pay2 (k1_pay12 x0 x1 x3 (k1_pay6 (F := F)) (k1_pay6 (F := F))) (k1_pay13 x0 x1 x3 (k1_pay6 (F := F))) (k1_pay7 (F := F)) := by
  unfold kernelRun1_A
  dsimp only
  rw [View.canon_cons_unit_zero (S := S16x256x1) hz3]
  sl_unfold_words
  simp only [View.readAt_eq_ld, harg3.read_unread, harg4.read_unread, harg5.read_unread, harg6.read_unread, harg7.read_unread, View.ld_unit_zero (S := S1x256x1024) hz3, View.ld_unit_zero (S := S1x512x1024) hz3, View.ld_unit_zero (S := S1x1x512) hz3, View.ld_unit_zero (S := S16x256x1) hz3, View.ld_unit_zero (S := S16x256x64) hz3, View.readCov_unit_zero (S := S16x256x1) _ hz3, View.readCov_unit_zero (S := S16x256x64) _ hz3]

theorem canon1_A_2 (c : Dev nD) (i : grid1.Coords) (arg3 : Memref sig .tc .vmem S1x256x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1x512 .f32) (harg6 : arg6.IsWhole) (arg7 : Memref sig .tc .vmem S1x256x1024 .f32) (harg7 : arg7.IsWhole) (arg8 : Memref sig .tc .vmem S1x256x1024 .f32) (harg8 : arg8.IsWhole) (arg9 : Memref sig .tc .vmem S16x256x1 .f32) (harg9 : arg9.IsWhole) (arg10 : Memref sig .tc .vmem S16x256x1 .f32) (harg10 : arg10.IsWhole) (arg11 : Memref sig .tc .vmem S16x256x64 .f32) (harg11 : arg11.IsWhole) (hc0 : cond1_0 i) (hc1 : ¬cond1_1 i) (x0 : Vec F S1x256x1024 .bf16) (x1 : Vec F S1x512x1024 .bf16) (x2 : Vec F S1x512x1024 .bf16) (x3 : Vec F S1x1x512 .f32) (x4 : Vec F S1x256x1024 .f32) :
    View.canon (kernelRun1_A c i arg3 harg3 arg4 harg4 arg5 harg5 arg6 harg6 arg7 harg7 arg8 harg8 arg9 harg9 arg10 harg10 arg11 harg11 hc0 hc1 x0 x1 x2 x3 x4).2.2.2.1 = k1_pay3 (k1_pay9 x2) (k1_pay12 x0 x1 x3 (k1_pay6 (F := F)) (k1_pay6 (F := F))) (k1_pay13 x0 x1 x3 (k1_pay6 (F := F))) (k1_pay8 (F := F)) := by
  unfold kernelRun1_A
  dsimp only
  rw [View.canon_cons_unit_zero (S := S16x256x64) hz3]
  sl_unfold_words
  simp only [View.readAt_eq_ld, harg3.read_unread, harg4.read_unread, harg5.read_unread, harg6.read_unread, harg7.read_unread, View.ld_unit_zero (S := S1x256x1024) hz3, View.ld_unit_zero (S := S1x512x1024) hz3, View.ld_unit_zero (S := S1x1x512) hz3, View.ld_unit_zero (S := S16x256x1) hz3, View.ld_unit_zero (S := S16x256x64) hz3, View.readCov_unit_zero (S := S16x256x1) _ hz3, View.readCov_unit_zero (S := S16x256x64) _ hz3]

/-! ## What a middle key block leaves in the three running quantities' buffers -/

theorem canon1_B_0 (c : Dev nD) (i : grid1.Coords) (arg3 : Memref sig .tc .vmem S1x256x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1x512 .f32) (harg6 : arg6.IsWhole) (arg7 : Memref sig .tc .vmem S1x256x1024 .f32) (harg7 : arg7.IsWhole) (arg8 : Memref sig .tc .vmem S1x256x1024 .f32) (harg8 : arg8.IsWhole) (arg9 : Memref sig .tc .vmem S16x256x1 .f32) (harg9 : arg9.IsWhole) (arg10 : Memref sig .tc .vmem S16x256x1 .f32) (harg10 : arg10.IsWhole) (arg11 : Memref sig .tc .vmem S16x256x64 .f32) (harg11 : arg11.IsWhole) (hc0 : ¬cond1_0 i) (hc1 : ¬cond1_1 i) (x0 : Vec F S1x256x1024 .bf16) (x1 : Vec F S1x512x1024 .bf16) (x2 : Vec F S1x512x1024 .bf16) (x3 : Vec F S1x1x512 .f32) (x4 : Vec F S1x256x1024 .f32) (xs0 : Vec F S16x256x1 .f32) (xs1 : Vec F S16x256x1 .f32) (xs2 : Vec F S16x256x64 .f32) :
    View.canon (kernelRun1_B c i arg3 harg3 arg4 harg4 arg5 harg5 arg6 harg6 arg7 harg7 arg8 harg8 arg9 harg9 arg10 harg10 arg11 harg11 hc0 hc1 x0 x1 x2 x3 x4 xs0 xs1 xs2).2.1 = k1_pay4 (k1_pay11 x0 x1 x3 xs0) := by
  unfold kernelRun1_B
  dsimp only
  sl_unfold_words
  rw [View.canon_unit_zero (S := S16x256x1) hz3]
  simp only [View.readAt_eq_ld, harg3.read_unread, harg4.read_unread, harg5.read_unread, harg6.read_unread, harg7.read_unread, harg9.read_unread, harg10.read_unread, harg11.read_unread, View.ld_unit_zero (S := S1x256x1024) hz3, View.ld_unit_zero (S := S1x512x1024) hz3, View.ld_unit_zero (S := S1x1x512) hz3, View.ld_unit_zero (S := S16x256x1) hz3, View.ld_unit_zero (S := S16x256x64) hz3]

theorem canon1_B_1 (c : Dev nD) (i : grid1.Coords) (arg3 : Memref sig .tc .vmem S1x256x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1x512 .f32) (harg6 : arg6.IsWhole) (arg7 : Memref sig .tc .vmem S1x256x1024 .f32) (harg7 : arg7.IsWhole) (arg8 : Memref sig .tc .vmem S1x256x1024 .f32) (harg8 : arg8.IsWhole) (arg9 : Memref sig .tc .vmem S16x256x1 .f32) (harg9 : arg9.IsWhole) (arg10 : Memref sig .tc .vmem S16x256x1 .f32) (harg10 : arg10.IsWhole) (arg11 : Memref sig .tc .vmem S16x256x64 .f32) (harg11 : arg11.IsWhole) (hc0 : ¬cond1_0 i) (hc1 : ¬cond1_1 i) (x0 : Vec F S1x256x1024 .bf16) (x1 : Vec F S1x512x1024 .bf16) (x2 : Vec F S1x512x1024 .bf16) (x3 : Vec F S1x1x512 .f32) (x4 : Vec F S1x256x1024 .f32) (xs0 : Vec F S16x256x1 .f32) (xs1 : Vec F S16x256x1 .f32) (xs2 : Vec F S16x256x64 .f32) :
    View.canon (kernelRun1_B c i arg3 harg3 arg4 harg4 arg5 harg5 arg6 harg6 arg7 harg7 arg8 harg8 arg9 harg9 arg10 harg10 arg11 harg11 hc0 hc1 x0 x1 x2 x3 x4 xs0 xs1 xs2).2.2.1 = k1_pay2 (k1_pay12 x0 x1 x3 xs0 xs0) (k1_pay13 x0 x1 x3 xs0) xs1 := by
  unfold kernelRun1_B
  dsimp only
  sl_unfold_words
  rw [View.canon_unit_zero (S := S16x256x1) hz3]
  simp only [View.readAt_eq_ld, harg3.read_unread, harg4.read_unread, harg5.read_unread, harg6.read_unread, harg7.read_unread, harg9.read_unread, harg10.read_unread, harg11.read_unread, View.ld_unit_zero (S := S1x256x1024) hz3, View.ld_unit_zero (S := S1x512x1024) hz3, View.ld_unit_zero (S := S1x1x512) hz3, View.ld_unit_zero (S := S16x256x1) hz3, View.ld_unit_zero (S := S16x256x64) hz3]

theorem canon1_B_2 (c : Dev nD) (i : grid1.Coords) (arg3 : Memref sig .tc .vmem S1x256x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1x512 .f32) (harg6 : arg6.IsWhole) (arg7 : Memref sig .tc .vmem S1x256x1024 .f32) (harg7 : arg7.IsWhole) (arg8 : Memref sig .tc .vmem S1x256x1024 .f32) (harg8 : arg8.IsWhole) (arg9 : Memref sig .tc .vmem S16x256x1 .f32) (harg9 : arg9.IsWhole) (arg10 : Memref sig .tc .vmem S16x256x1 .f32) (harg10 : arg10.IsWhole) (arg11 : Memref sig .tc .vmem S16x256x64 .f32) (harg11 : arg11.IsWhole) (hc0 : ¬cond1_0 i) (hc1 : ¬cond1_1 i) (x0 : Vec F S1x256x1024 .bf16) (x1 : Vec F S1x512x1024 .bf16) (x2 : Vec F S1x512x1024 .bf16) (x3 : Vec F S1x1x512 .f32) (x4 : Vec F S1x256x1024 .f32) (xs0 : Vec F S16x256x1 .f32) (xs1 : Vec F S16x256x1 .f32) (xs2 : Vec F S16x256x64 .f32) :
    View.canon (kernelRun1_B c i arg3 harg3 arg4 harg4 arg5 harg5 arg6 harg6 arg7 harg7 arg8 harg8 arg9 harg9 arg10 harg10 arg11 harg11 hc0 hc1 x0 x1 x2 x3 x4 xs0 xs1 xs2).2.2.2.1 = k1_pay3 (k1_pay9 x2) (k1_pay12 x0 x1 x3 xs0 xs0) (k1_pay13 x0 x1 x3 xs0) xs2 := by
  unfold kernelRun1_B
  dsimp only
  sl_unfold_words
  rw [View.canon_unit_zero (S := S16x256x64) hz3]
  simp only [View.readAt_eq_ld, harg3.read_unread, harg4.read_unread, harg5.read_unread, harg6.read_unread, harg7.read_unread, harg9.read_unread, harg10.read_unread, harg11.read_unread, View.ld_unit_zero (S := S1x256x1024) hz3, View.ld_unit_zero (S := S1x512x1024) hz3, View.ld_unit_zero (S := S1x1x512) hz3, View.ld_unit_zero (S := S16x256x1) hz3, View.ld_unit_zero (S := S16x256x64) hz3]

/-! ## What a last key block leaves: the three running quantities as at a middle key block, and the result block -/

theorem canon1_C_0 (c : Dev nD) (i : grid1.Coords) (arg3 : Memref sig .tc .vmem S1x256x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1x512 .f32) (harg6 : arg6.IsWhole) (arg7 : Memref sig .tc .vmem S1x256x1024 .f32) (harg7 : arg7.IsWhole) (arg8 : Memref sig .tc .vmem S1x256x1024 .f32) (harg8 : arg8.IsWhole) (arg9 : Memref sig .tc .vmem S16x256x1 .f32) (harg9 : arg9.IsWhole) (arg10 : Memref sig .tc .vmem S16x256x1 .f32) (harg10 : arg10.IsWhole) (arg11 : Memref sig .tc .vmem S16x256x64 .f32) (harg11 : arg11.IsWhole) (hc0 : ¬cond1_0 i) (hc1 : cond1_1 i) (x0 : Vec F S1x256x1024 .bf16) (x1 : Vec F S1x512x1024 .bf16) (x2 : Vec F S1x512x1024 .bf16) (x3 : Vec F S1x1x512 .f32) (x4 : Vec F S1x256x1024 .f32) (xs0 : Vec F S16x256x1 .f32) (xs1 : Vec F S16x256x1 .f32) (xs2 : Vec F S16x256x64 .f32) :
    View.canon (kernelRun1_C c i arg3 harg3 arg4 harg4 arg5 harg5 arg6 harg6 arg7 harg7 arg8 harg8 arg9 harg9 arg10 harg10 arg11 harg11 hc0 hc1 x0 x1 x2 x3 x4 xs0 xs1 xs2).2.1 = k1_pay4 (k1_pay11 x0 x1 x3 xs0) := by
  unfold kernelRun1_C
  dsimp only
  sl_unfold_words
  rw [View.canon_unit_zero (S := S16x256x1) hz3]
  simp only [View.readAt_eq_ld, harg3.read_unread, harg4.read_unread, harg5.read_unread, harg6.read_unread, harg7.read_unread, harg9.read_unread, harg10.read_unread, harg11.read_unread, View.ld_unit_zero (S := S1x256x1024) hz3, View.ld_unit_zero (S := S1x512x1024) hz3, View.ld_unit_zero (S := S1x1x512) hz3, View.ld_unit_zero (S := S16x256x1) hz3, View.ld_unit_zero (S := S16x256x64) hz3]

theorem canon1_C_1 (c : Dev nD) (i : grid1.Coords) (arg3 : Memref sig .tc .vmem S1x256x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1x512 .f32) (harg6 : arg6.IsWhole) (arg7 : Memref sig .tc .vmem S1x256x1024 .f32) (harg7 : arg7.IsWhole) (arg8 : Memref sig .tc .vmem S1x256x1024 .f32) (harg8 : arg8.IsWhole) (arg9 : Memref sig .tc .vmem S16x256x1 .f32) (harg9 : arg9.IsWhole) (arg10 : Memref sig .tc .vmem S16x256x1 .f32) (harg10 : arg10.IsWhole) (arg11 : Memref sig .tc .vmem S16x256x64 .f32) (harg11 : arg11.IsWhole) (hc0 : ¬cond1_0 i) (hc1 : cond1_1 i) (x0 : Vec F S1x256x1024 .bf16) (x1 : Vec F S1x512x1024 .bf16) (x2 : Vec F S1x512x1024 .bf16) (x3 : Vec F S1x1x512 .f32) (x4 : Vec F S1x256x1024 .f32) (xs0 : Vec F S16x256x1 .f32) (xs1 : Vec F S16x256x1 .f32) (xs2 : Vec F S16x256x64 .f32) :
    View.canon (kernelRun1_C c i arg3 harg3 arg4 harg4 arg5 harg5 arg6 harg6 arg7 harg7 arg8 harg8 arg9 harg9 arg10 harg10 arg11 harg11 hc0 hc1 x0 x1 x2 x3 x4 xs0 xs1 xs2).2.2.1 = k1_pay2 (k1_pay12 x0 x1 x3 xs0 xs0) (k1_pay13 x0 x1 x3 xs0) xs1 := by
  unfold kernelRun1_C
  dsimp only
  sl_unfold_words
  rw [View.canon_unit_zero (S := S16x256x1) hz3]
  simp only [View.readAt_eq_ld, harg3.read_unread, harg4.read_unread, harg5.read_unread, harg6.read_unread, harg7.read_unread, harg9.read_unread, harg10.read_unread, harg11.read_unread, View.ld_unit_zero (S := S1x256x1024) hz3, View.ld_unit_zero (S := S1x512x1024) hz3, View.ld_unit_zero (S := S1x1x512) hz3, View.ld_unit_zero (S := S16x256x1) hz3, View.ld_unit_zero (S := S16x256x64) hz3]

theorem canon1_C_2 (c : Dev nD) (i : grid1.Coords) (arg3 : Memref sig .tc .vmem S1x256x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1x512 .f32) (harg6 : arg6.IsWhole) (arg7 : Memref sig .tc .vmem S1x256x1024 .f32) (harg7 : arg7.IsWhole) (arg8 : Memref sig .tc .vmem S1x256x1024 .f32) (harg8 : arg8.IsWhole) (arg9 : Memref sig .tc .vmem S16x256x1 .f32) (harg9 : arg9.IsWhole) (arg10 : Memref sig .tc .vmem S16x256x1 .f32) (harg10 : arg10.IsWhole) (arg11 : Memref sig .tc .vmem S16x256x64 .f32) (harg11 : arg11.IsWhole) (hc0 : ¬cond1_0 i) (hc1 : cond1_1 i) (x0 : Vec F S1x256x1024 .bf16) (x1 : Vec F S1x512x1024 .bf16) (x2 : Vec F S1x512x1024 .bf16) (x3 : Vec F S1x1x512 .f32) (x4 : Vec F S1x256x1024 .f32) (xs0 : Vec F S16x256x1 .f32) (xs1 : Vec F S16x256x1 .f32) (xs2 : Vec F S16x256x64 .f32) :
    View.canon (kernelRun1_C c i arg3 harg3 arg4 harg4 arg5 harg5 arg6 harg6 arg7 harg7 arg8 harg8 arg9 harg9 arg10 harg10 arg11 harg11 hc0 hc1 x0 x1 x2 x3 x4 xs0 xs1 xs2).2.2.2.1 = k1_pay3 (k1_pay9 x2) (k1_pay12 x0 x1 x3 xs0 xs0) (k1_pay13 x0 x1 x3 xs0) xs2 := by
  unfold kernelRun1_C
  dsimp only
  sl_unfold_words
  rw [View.canon_unit_zero (S := S16x256x64) hz3]
  simp only [View.readAt_eq_ld, harg3.read_unread, harg4.read_unread, harg5.read_unread, harg6.read_unread, harg7.read_unread, harg9.read_unread, harg10.read_unread, harg11.read_unread, View.ld_unit_zero (S := S1x256x1024) hz3, View.ld_unit_zero (S := S1x512x1024) hz3, View.ld_unit_zero (S := S1x1x512) hz3, View.ld_unit_zero (S := S16x256x1) hz3, View.ld_unit_zero (S := S16x256x64) hz3]

/-- The result block: the new weighted sum over the new sum of exponentials (both read back from the stores just
    made), plus the residual block. -/
theorem canon1_C_5 (c : Dev nD) (i : grid1.Coords) (arg3 : Memref sig .tc .vmem S1x256x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1x512 .f32) (harg6 : arg6.IsWhole) (arg7 : Memref sig .tc .vmem S1x256x1024 .f32) (harg7 : arg7.IsWhole) (arg8 : Memref sig .tc .vmem S1x256x1024 .f32) (harg8 : arg8.IsWhole) (arg9 : Memref sig .tc .vmem S16x256x1 .f32) (harg9 : arg9.IsWhole) (arg10 : Memref sig .tc .vmem S16x256x1 .f32) (harg10 : arg10.IsWhole) (arg11 : Memref sig .tc .vmem S16x256x64 .f32) (harg11 : arg11.IsWhole) (hc0 : ¬cond1_0 i) (hc1 : cond1_1 i) (x0 : Vec F S1x256x1024 .bf16) (x1 : Vec F S1x512x1024 .bf16) (x2 : Vec F S1x512x1024 .bf16) (x3 : Vec F S1x1x512 .f32) (x4 : Vec F S1x256x1024 .f32) (xs0 : Vec F S16x256x1 .f32) (xs1 : Vec F S16x256x1 .f32) (xs2 : Vec F S16x256x64 .f32) :
    View.canon (kernelRun1_C c i arg3 harg3 arg4 harg4 arg5 harg5 arg6 harg6 arg7 harg7 arg8 harg8 arg9 harg9 arg10 harg10 arg11 harg11 hc0 hc1 x0 x1 x2 x3 x4 xs0 xs1 xs2).1
      = k1_pay5 (k1_pay3 (k1_pay9 x2) (k1_pay12 x0 x1 x3 xs0 xs0) (k1_pay13 x0 x1 x3 xs0) xs2) (k1_pay2 (k1_pay12 x0 x1 x3 xs0 xs0) (k1_pay13 x0 x1 x3 xs0) xs1) x4 := by
  unfold kernelRun1_C
  dsimp only
  sl_unfold_words
  rw [View.canon_unit_zero (S := S1x256x1024) hz3]
  simp only [View.readAt_eq_ld, harg3.read_unread, harg4.read_unread, harg5.read_unread, harg6.read_unread, harg7.read_unread, harg9.read_unread, harg10.read_unread, harg11.read_unread, View.ld_unit_zero (S := S1x256x1024) hz3, View.ld_unit_zero (S := S1x512x1024) hz3, View.ld_unit_zero (S := S1x1x512) hz3, View.ld_unit_zero (S := S16x256x1) hz3, View.ld_unit_zero (S := S16x256x64) hz3, View.readCov_unit_zero (S := S16x256x1) _ hz3, View.readCov_unit_zero (S := S16x256x64) _ hz3]

/-! ## The scoped rest, with the other region's staging buffers as one block -/

/-- The other region's sixteen staging buffers, each whole at some contents. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ (∃ f : Buf (Elt F) ((c : Thread nD τ).loc cc0_stg10_0), ((c : Thread nD τ).loc cc0_stg10_0) ↦{fullShare} f) ∗ (∃ f : Buf (Elt F) ((c : Thread nD τ).loc cc0_stg10_1), ((c : Thread nD τ).loc cc0_stg10_1) ↦{fullShare} f) ∗ (∃ f : Buf (Elt F) ((c : Thread nD τ).loc cc0_stg11_0), ((c : Thread nD τ).loc cc0_stg11_0) ↦{fullShare} f) ∗ (∃ f : Buf (Elt F) ((c : Thread nD τ).loc cc0_stg11_1), ((c : Thread nD τ).loc cc0_stg11_1) ↦{fullShare} f))

/-- The scoped rest is that block beside the three running quantities' buffers. -/
theorem scoped1_eq (c : Dev nD) (P0 P1 P2 : sProp 𝕄) :
    scoped1 c P0 P1 P2 = iprop(others1 (F := F) c ∗ P0 ∗ P1 ∗ P2) := by
  unfold scoped1 others1
  have h₁ : iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ (∃ f : Buf (Elt F) ((c : Thread nD τ).loc cc0_stg10_0), ((c : Thread nD τ).loc cc0_stg10_0) ↦{fullShare} f) ∗ (∃ f : Buf (Elt F) ((c : Thread nD τ).loc cc0_stg10_1), ((c : Thread nD τ).loc cc0_stg10_1) ↦{fullShare} f) ∗ (∃ f : Buf (Elt F) ((c : Thread nD τ).loc cc0_stg11_0), ((c : Thread nD τ).loc cc0_stg11_0) ↦{fullShare} f) ∗ (∃ f : Buf (Elt F) ((c : Thread nD τ).loc cc0_stg11_1), ((c : Thread nD τ).loc cc0_stg11_1) ↦{fullShare} f) ∗ P0 ∗ P1 ∗ P2)
      ⊢ (iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ (∃ f : Buf (Elt F) ((c : Thread nD τ).loc cc0_stg10_0), ((c : Thread nD τ).loc cc0_stg10_0) ↦{fullShare} f) ∗ (∃ f : Buf (Elt F) ((c : Thread nD τ).loc cc0_stg10_1), ((c : Thread nD τ).loc cc0_stg10_1) ↦{fullShare} f) ∗ (∃ f : Buf (Elt F) ((c : Thread nD τ).loc cc0_stg11_0), ((c : Thread nD τ).loc cc0_stg11_0) ↦{fullShare} f) ∗ (∃ f : Buf (Elt F) ((c : Thread nD τ).loc cc0_stg11_1), ((c : Thread nD τ).loc cc0_stg11_1) ↦{fullShare} f)) ∗ P0 ∗ P1 ∗ P2) : sProp 𝕄) := by
    iintro ⟨R0, R1, R2, R3, R4, R5, R6, R7, R8, R9, R10, R11, R12, R13, R14, R15, H0, H1, H2⟩
    isplitl [R0 R1 R2 R3 R4 R5 R6 R7 R8 R9 R10 R11 R12 R13 R14 R15]
    · isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [R9]; · iexact R9
      isplitl [R10]; · iexact R10
      isplitl [R11]; · iexact R11
      isplitl [R12]; · iexact R12
      isplitl [R13]; · iexact R13
      isplitl [R14]; · iexact R14
      iexact R15
    isplitl [H0]; · iexact H0
    isplitl [H1]; · iexact H1
    iexact H2
  have h₂ : iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ (∃ f : Buf (Elt F) ((c : Thread nD τ).loc cc0_stg10_0), ((c : Thread nD τ).loc cc0_stg10_0) ↦{fullShare} f) ∗ (∃ f : Buf (Elt F) ((c : Thread nD τ).loc cc0_stg10_1), ((c : Thread nD τ).loc cc0_stg10_1) ↦{fullShare} f) ∗ (∃ f : Buf (Elt F) ((c : Thread nD τ).loc cc0_stg11_0), ((c : Thread nD τ).loc cc0_stg11_0) ↦{fullShare} f) ∗ (∃ f : Buf (Elt F) ((c : Thread nD τ).loc cc0_stg11_1), ((c : Thread nD τ).loc cc0_stg11_1) ↦{fullShare} f)) ∗ P0 ∗ P1 ∗ P2)
      ⊢ (iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ (∃ f : Buf (Elt F) ((c : Thread nD τ).loc cc0_stg10_0), ((c : Thread nD τ).loc cc0_stg10_0) ↦{fullShare} f) ∗ (∃ f : Buf (Elt F) ((c : Thread nD τ).loc cc0_stg10_1), ((c : Thread nD τ).loc cc0_stg10_1) ↦{fullShare} f) ∗ (∃ f : Buf (Elt F) ((c : Thread nD τ).loc cc0_stg11_0), ((c : Thread nD τ).loc cc0_stg11_0) ↦{fullShare} f) ∗ (∃ f : Buf (Elt F) ((c : Thread nD τ).loc cc0_stg11_1), ((c : Thread nD τ).loc cc0_stg11_1) ↦{fullShare} f) ∗ P0 ∗ P1 ∗ P2) : sProp 𝕄) := by
    iintro ⟨⟨R0, R1, R2, R3, R4, R5, R6, R7, R8, R9, R10, R11, R12, R13, R14, R15⟩, H0, H1, H2⟩
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [R14]; · iexact R14
    isplitl [R15]; · iexact R15
    isplitl [H0]; · iexact H0
    isplitl [H1]; · iexact H1
    iexact H2
  exact BI.equiv_iff.mp ⟨h₁, h₂⟩

section Body
variable (V : (c : Dev nD) → (b : Ref sig .tc) → Buf (Elt F) ((c : Thread nD τ).loc b))

/-! ## The running quantities at a point, by the point's place among its four key blocks -/

/-- At a first key block: a step from the reset values. -/
theorem st1_first (c : Dev nD) (t : Fin cfg1.N) (h0 : t.val % 4 = 0) :
    st1 V c t.val t.isLt = step1 (init1 (F := F)) (iblk1 V c 0 t) (iblk1 V c 1 t) (iblk1 V c 2 t) (iblk1 V c 3 t) := by
  obtain ⟨n, hn⟩ := t
  cases n with
  | zero => rfl
  | succ n =>
    (try dsimp only at h0)
    show step1 (if (n + 1) % 4 = 0 then init1 (F := F) else st1 V c n (Nat.lt_of_succ_lt hn)) _ _ _ _ = _
    rw [if_pos h0]

/-- At any other key block: a step from what the position before left. -/
theorem st1_next (c : Dev nD) (t : Fin cfg1.N) (h0 : ¬t.val % 4 = 0) :
    st1 V c t.val t.isLt = step1 (st1 V c (t.val - 1) (Nat.lt_of_le_of_lt (Nat.sub_le _ _) t.isLt)) (iblk1 V c 0 t) (iblk1 V c 1 t) (iblk1 V c 2 t) (iblk1 V c 3 t) := by
  obtain ⟨n, hn⟩ := t
  cases n with
  | zero => exact absurd (Nat.zero_mod _) h0
  | succ n =>
    (try dsimp only at h0)
    show step1 (if (n + 1) % 4 = 0 then init1 (F := F) else st1 V c n (Nat.lt_of_succ_lt hn)) _ _ _ _ = _
    rw [if_neg h0]; rfl

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point. The inputs' memrefs hold their blocks; the point's place among its four key blocks says
    which of the three runs applies; the invariant hands the body the three running quantities' buffers at what the
    position before left (at anything at the region's first point, which is a first key block, where they are reset
    anyway) and takes them back at this point's step; the result window is handed back untouched away from a last
    key block, and left at the result block at one; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  by_cases h0 : t.val % 4 = 0
  · have h3 : ¬t.val % 4 = 3 := by omega
    rw [Dat.leavesExact_idle (dat1 V c) 5 t (idleAt1_5 t (fun h => h3 ((hcond1_1 t).mp h))) (noFlush1_5 t (fun h => h3 ((hcond1_1 t).mp h)))]
    rw [st1_first V c t h0]; dsimp only [step1, init1]
    rw [scoped1_eq]
    by_cases hz : t.val = 0
    · rw [PhiS1_castSucc V c t, PhiS1_zero V c _ _ hz, PhiA1_eq, scoped1_eq]
      iintro ⟨⟨⟨HR, HS0, HS1, HS2⟩, Hg⟩, Ho, ⟨%d0, H0⟩, ⟨%d1, H1⟩, ⟨%d2, H2⟩, ⟨%d3, H3⟩, ⟨%d4, H4⟩, ⟨%d5, H5⟩⟩
      iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h3 ((hcond1_1 t).mp h)) (iblk1 V c 0 t) (iblk1 V c 1 t) (iblk1 V c 2 t) (iblk1 V c 3 t) (iblk1 V c 4 t)).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, ⟨%es0, HS0⟩, ⟨%es1, HS1⟩, ⟨%es2, HS2⟩⟩
      isplitl [HR HS0 HS1 HS2 Hg]
      · isplitl [HR HS0 HS1 HS2]
        · isplitl [HR]; · iexact HR
          isplitl [HS0]
          · unfold owns; iexists _; isplitr
            swap; · iexact HS0
            ipureintro
            exact (View.read_writes_eq_canon _ _ _ (scover1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h3 ((hcond1_1 t).mp h)) (iblk1 V c 0 t) (iblk1 V c 1 t) (iblk1 V c 2 t) (iblk1 V c 3 t) (iblk1 V c 4 t))).trans (canon1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h3 ((hcond1_1 t).mp h)) (iblk1 V c 0 t) (iblk1 V c 1 t) (iblk1 V c 2 t) (iblk1 V c 3 t) (iblk1 V c 4 t))
          isplitl [HS1]
          · unfold owns; iexists _; isplitr
            swap; · iexact HS1
            ipureintro
            exact (View.read_writes_eq_canon _ _ _ (scover1_A_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h3 ((hcond1_1 t).mp h)) (iblk1 V c 0 t) (iblk1 V c 1 t) (iblk1 V c 2 t) (iblk1 V c 3 t) (iblk1 V c 4 t))).trans (canon1_A_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h3 ((hcond1_1 t).mp h)) (iblk1 V c 0 t) (iblk1 V c 1 t) (iblk1 V c 2 t) (iblk1 V c 3 t) (iblk1 V c 4 t))
          unfold owns; iexists _; isplitr
          swap; · iexact HS2
          ipureintro
          exact (View.read_writes_eq_canon _ _ _ (scover1_A_2 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h3 ((hcond1_1 t).mp h)) (iblk1 V c 0 t) (iblk1 V c 1 t) (iblk1 V c 2 t) (iblk1 V c 3 t) (iblk1 V c 4 t))).trans (canon1_A_2 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h3 ((hcond1_1 t).mp h)) (iblk1 V c 0 t) (iblk1 V c 1 t) (iblk1 V c 2 t) (iblk1 V c 3 t) (iblk1 V c 4 t))
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS1_castSucc V c t, PhiS1_pos V c _ _ hz, scoped1_eq]
      iintro ⟨⟨⟨HR, HS0, HS1, HS2⟩, Hg⟩, Ho, ⟨%d0, H0⟩, ⟨%d1, H1⟩, ⟨%d2, H2⟩, ⟨%d3, H3⟩, ⟨%d4, H4⟩, ⟨%d5, H5⟩⟩
      iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h3 ((hcond1_1 t).mp h)) (iblk1 V c 0 t) (iblk1 V c 1 t) (iblk1 V c 2 t) (iblk1 V c 3 t) (iblk1 V c 4 t)).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexists _; iexact HS1
      isplitl [HS2]; · iexists _; iexact HS2
      iintro ⟨H0, H1, H2, H3, H4, H5, ⟨%es0, HS0⟩, ⟨%es1, HS1⟩, ⟨%es2, HS2⟩⟩
      isplitl [HR HS0 HS1 HS2 Hg]
      · isplitl [HR HS0 HS1 HS2]
        · isplitl [HR]; · iexact HR
          isplitl [HS0]
          · unfold owns; iexists _; isplitr
            swap; · iexact HS0
            ipureintro
            exact (View.read_writes_eq_canon _ _ _ (scover1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h3 ((hcond1_1 t).mp h)) (iblk1 V c 0 t) (iblk1 V c 1 t) (iblk1 V c 2 t) (iblk1 V c 3 t) (iblk1 V c 4 t))).trans (canon1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h3 ((hcond1_1 t).mp h)) (iblk1 V c 0 t) (iblk1 V c 1 t) (iblk1 V c 2 t) (iblk1 V c 3 t) (iblk1 V c 4 t))
          isplitl [HS1]
          · unfold owns; iexists _; isplitr
            swap; · iexact HS1
            ipureintro
            exact (View.read_writes_eq_canon _ _ _ (scover1_A_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h3 ((hcond1_1 t).mp h)) (iblk1 V c 0 t) (iblk1 V c 1 t) (iblk1 V c 2 t) (iblk1 V c 3 t) (iblk1 V c 4 t))).trans (canon1_A_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h3 ((hcond1_1 t).mp h)) (iblk1 V c 0 t) (iblk1 V c 1 t) (iblk1 V c 2 t) (iblk1 V c 3 t) (iblk1 V c 4 t))
          unfold owns; iexists _; isplitr
          swap; · iexact HS2
          ipureintro
          exact (View.read_writes_eq_canon _ _ _ (scover1_A_2 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h3 ((hcond1_1 t).mp h)) (iblk1 V c 0 t) (iblk1 V c 1 t) (iblk1 V c 2 t) (iblk1 V c 3 t) (iblk1 V c 4 t))).trans (canon1_A_2 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h3 ((hcond1_1 t).mp h)) (iblk1 V c 0 t) (iblk1 V c 1 t) (iblk1 V c 2 t) (iblk1 V c 3 t) (iblk1 V c 4 t))
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun h => h0 (by rw [h])
    by_cases h3 : t.val % 4 = 3
    · rw [show (dat1 V c).leavesExact 5 t = owns (c : Thread nD τ) (ms1_5 t) fullShare ((dat1 V c).after 5 t) from by
        unfold Dat.leavesExact; rw [liveAt1_5 t ((hcond1_1 t).mpr h3)], after1_5]
      unfold oOut1
      rw [st1_next V c t h0]; dsimp only [step1]
      rw [PhiS1_castSucc V c t, PhiS1_pos V c _ _ hz, scoped1_eq, scoped1_eq]
      iintro ⟨⟨⟨HR, HS0, HS1, HS2⟩, Hg⟩, Ho, ⟨%d0, H0⟩, ⟨%d1, H1⟩, ⟨%d2, H2⟩, ⟨%d3, H3⟩, ⟨%d4, H4⟩, ⟨%d5, H5⟩⟩
      iapply ((kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h3) (iblk1 V c 0 t) (iblk1 V c 1 t) (iblk1 V c 2 t) (iblk1 V c 3 t) (iblk1 V c 4 t) (st1 V c (t.val - 1) (Nat.lt_of_le_of_lt (Nat.sub_le _ _) t.isLt)).1 (st1 V c (t.val - 1) (Nat.lt_of_le_of_lt (Nat.sub_le _ _) t.isLt)).2.1 (st1 V c (t.val - 1) (Nat.lt_of_le_of_lt (Nat.sub_le _ _) t.isLt)).2.2).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HS2]; · iexact HS2
      iintro ⟨H0, H1, H2, H3, H4, ⟨%e5, H5⟩, ⟨%es0, HS0⟩, ⟨%es1, HS1⟩, ⟨%es2, HS2⟩⟩
      isplitl [HR HS0 HS1 HS2 Hg]
      · isplitl [HR HS0 HS1 HS2]
        · isplitl [HR]; · iexact HR
          isplitl [HS0]
          · unfold owns; iexists _; isplitr
            swap; · iexact HS0
            ipureintro
            exact (View.read_writes_eq_canon _ _ _ (scover1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h3) (iblk1 V c 0 t) (iblk1 V c 1 t) (iblk1 V c 2 t) (iblk1 V c 3 t) (iblk1 V c 4 t) (st1 V c (t.val - 1) (Nat.lt_of_le_of_lt (Nat.sub_le _ _) t.isLt)).1 (st1 V c (t.val - 1) (Nat.lt_of_le_of_lt (Nat.sub_le _ _) t.isLt)).2.1 (st1 V c (t.val - 1) (Nat.lt_of_le_of_lt (Nat.sub_le _ _) t.isLt)).2.2)).trans (canon1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h3) (iblk1 V c 0 t) (iblk1 V c 1 t) (iblk1 V c 2 t) (iblk1 V c 3 t) (iblk1 V c 4 t) (st1 V c (t.val - 1) (Nat.lt_of_le_of_lt (Nat.sub_le _ _) t.isLt)).1 (st1 V c (t.val - 1) (Nat.lt_of_le_of_lt (Nat.sub_le _ _) t.isLt)).2.1 (st1 V c (t.val - 1) (Nat.lt_of_le_of_lt (Nat.sub_le _ _) t.isLt)).2.2)
          isplitl [HS1]
          · unfold owns; iexists _; isplitr
            swap; · iexact HS1
            ipureintro
            exact (View.read_writes_eq_canon _ _ _ (scover1_C_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h3) (iblk1 V c 0 t) (iblk1 V c 1 t) (iblk1 V c 2 t) (iblk1 V c 3 t) (iblk1 V c 4 t) (st1 V c (t.val - 1) (Nat.lt_of_le_of_lt (Nat.sub_le _ _) t.isLt)).1 (st1 V c (t.val - 1) (Nat.lt_of_le_of_lt (Nat.sub_le _ _) t.isLt)).2.1 (st1 V c (t.val - 1) (Nat.lt_of_le_of_lt (Nat.sub_le _ _) t.isLt)).2.2)).trans (canon1_C_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h3) (iblk1 V c 0 t) (iblk1 V c 1 t) (iblk1 V c 2 t) (iblk1 V c 3 t) (iblk1 V c 4 t) (st1 V c (t.val - 1) (Nat.lt_of_le_of_lt (Nat.sub_le _ _) t.isLt)).1 (st1 V c (t.val - 1) (Nat.lt_of_le_of_lt (Nat.sub_le _ _) t.isLt)).2.1 (st1 V c (t.val - 1) (Nat.lt_of_le_of_lt (Nat.sub_le _ _) t.isLt)).2.2)
          unfold owns; iexists _; isplitr
          swap; · iexact HS2
          ipureintro
          exact (View.read_writes_eq_canon _ _ _ (scover1_C_2 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h3) (iblk1 V c 0 t) (iblk1 V c 1 t) (iblk1 V c 2 t) (iblk1 V c 3 t) (iblk1 V c 4 t) (st1 V c (t.val - 1) (Nat.lt_of_le_of_lt (Nat.sub_le _ _) t.isLt)).1 (st1 V c (t.val - 1) (Nat.lt_of_le_of_lt (Nat.sub_le _ _) t.isLt)).2.1 (st1 V c (t.val - 1) (Nat.lt_of_le_of_lt (Nat.sub_le _ _) t.isLt)).2.2)).trans (canon1_C_2 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h3) (iblk1 V c 0 t) (iblk1 V c 1 t) (iblk1 V c 2 t) (iblk1 V c 3 t) (iblk1 V c 4 t) (st1 V c (t.val - 1) (Nat.lt_of_le_of_lt (Nat.sub_le _ _) t.isLt)).1 (st1 V c (t.val - 1) (Nat.lt_of_le_of_lt (Nat.sub_le _ _) t.isLt)).2.1 (st1 V c (t.val - 1) (Nat.lt_of_le_of_lt (Nat.sub_le _ _) t.isLt)).2.2)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro
      exact (View.read_writes_eq_canon _ _ _ (cover1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h3) (iblk1 V c 0 t) (iblk1 V c 1 t) (iblk1 V c 2 t) (iblk1 V c 3 t) (iblk1 V c 4 t) (st1 V c (t.val - 1) (Nat.lt_of_le_of_lt (Nat.sub_le _ _) t.isLt)).1 (st1 V c (t.val - 1) (Nat.lt_of_le_of_lt (Nat.sub_le _ _) t.isLt)).2.1 (st1 V c (t.val - 1) (Nat.lt_of_le_of_lt (Nat.sub_le _ _) t.isLt)).2.2)).trans (canon1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h3) (iblk1 V c 0 t) (iblk1 V c 1 t) (iblk1 V c 2 t) (iblk1 V c 3 t) (iblk1 V c 4 t) (st1 V c (t.val - 1) (Nat.lt_of_le_of_lt (Nat.sub_le _ _) t.isLt)).1 (st1 V c (t.val - 1) (Nat.lt_of_le_of_lt (Nat.sub_le _ _) t.isLt)).2.1 (st1 V c (t.val - 1) (Nat.lt_of_le_of_lt (Nat.sub_le _ _) t.isLt)).2.2)
    · rw [Dat.leavesExact_idle (dat1 V c) 5 t (idleAt1_5 t (fun h => h3 ((hcond1_1 t).mp h))) (noFlush1_5 t (fun h => h3 ((hcond1_1 t).mp h)))]
      rw [st1_next V c t h0]; dsimp only [step1]
      rw [PhiS1_castSucc V c t, PhiS1_pos V c _ _ hz, scoped1_eq, scoped1_eq]
      iintro ⟨⟨⟨HR, HS0, HS1, HS2⟩, Hg⟩, Ho, ⟨%d0, H0⟩, ⟨%d1, H1⟩, ⟨%d2, H2⟩, ⟨%d3, H3⟩, ⟨%d4, H4⟩, ⟨%d5, H5⟩⟩
      iapply ((kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) (fun h => h3 ((hcond1_1 t).mp h)) (iblk1 V c 0 t) (iblk1 V c 1 t) (iblk1 V c 2 t) (iblk1 V c 3 t) (iblk1 V c 4 t) (st1 V c (t.val - 1) (Nat.lt_of_le_of_lt (Nat.sub_le _ _) t.isLt)).1 (st1 V c (t.val - 1) (Nat.lt_of_le_of_lt (Nat.sub_le _ _) t.isLt)).2.1 (st1 V c (t.val - 1) (Nat.lt_of_le_of_lt (Nat.sub_le _ _) t.isLt)).2.2).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, ⟨%es0, HS0⟩, ⟨%es1, HS1⟩, ⟨%es2, HS2⟩⟩
      isplitl [HR HS0 HS1 HS2 Hg]
      · isplitl [HR HS0 HS1 HS2]
        · isplitl [HR]; · iexact HR
          isplitl [HS0]
          · unfold owns; iexists _; isplitr
            swap; · iexact HS0
            ipureintro
            exact (View.read_writes_eq_canon _ _ _ (scover1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) (fun h => h3 ((hcond1_1 t).mp h)) (iblk1 V c 0 t) (iblk1 V c 1 t) (iblk1 V c 2 t) (iblk1 V c 3 t) (iblk1 V c 4 t) (st1 V c (t.val - 1) (Nat.lt_of_le_of_lt (Nat.sub_le _ _) t.isLt)).1 (st1 V c (t.val - 1) (Nat.lt_of_le_of_lt (Nat.sub_le _ _) t.isLt)).2.1 (st1 V c (t.val - 1) (Nat.lt_of_le_of_lt (Nat.sub_le _ _) t.isLt)).2.2)).trans (canon1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) (fun h => h3 ((hcond1_1 t).mp h)) (iblk1 V c 0 t) (iblk1 V c 1 t) (iblk1 V c 2 t) (iblk1 V c 3 t) (iblk1 V c 4 t) (st1 V c (t.val - 1) (Nat.lt_of_le_of_lt (Nat.sub_le _ _) t.isLt)).1 (st1 V c (t.val - 1) (Nat.lt_of_le_of_lt (Nat.sub_le _ _) t.isLt)).2.1 (st1 V c (t.val - 1) (Nat.lt_of_le_of_lt (Nat.sub_le _ _) t.isLt)).2.2)
          isplitl [HS1]
          · unfold owns; iexists _; isplitr
            swap; · iexact HS1
            ipureintro
            exact (View.read_writes_eq_canon _ _ _ (scover1_B_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) (fun h => h3 ((hcond1_1 t).mp h)) (iblk1 V c 0 t) (iblk1 V c 1 t) (iblk1 V c 2 t) (iblk1 V c 3 t) (iblk1 V c 4 t) (st1 V c (t.val - 1) (Nat.lt_of_le_of_lt (Nat.sub_le _ _) t.isLt)).1 (st1 V c (t.val - 1) (Nat.lt_of_le_of_lt (Nat.sub_le _ _) t.isLt)).2.1 (st1 V c (t.val - 1) (Nat.lt_of_le_of_lt (Nat.sub_le _ _) t.isLt)).2.2)).trans (canon1_B_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) (fun h => h3 ((hcond1_1 t).mp h)) (iblk1 V c 0 t) (iblk1 V c 1 t) (iblk1 V c 2 t) (iblk1 V c 3 t) (iblk1 V c 4 t) (st1 V c (t.val - 1) (Nat.lt_of_le_of_lt (Nat.sub_le _ _) t.isLt)).1 (st1 V c (t.val - 1) (Nat.lt_of_le_of_lt (Nat.sub_le _ _) t.isLt)).2.1 (st1 V c (t.val - 1) (Nat.lt_of_le_of_lt (Nat.sub_le _ _) t.isLt)).2.2)
          unfold owns; iexists _; isplitr
          swap; · iexact HS2
          ipureintro
          exact (View.read_writes_eq_canon _ _ _ (scover1_B_2 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) (fun h => h3 ((hcond1_1 t).mp h)) (iblk1 V c 0 t) (iblk1 V c 1 t) (iblk1 V c 2 t) (iblk1 V c 3 t) (iblk1 V c 4 t) (st1 V c (t.val - 1) (Nat.lt_of_le_of_lt (Nat.sub_le _ _) t.isLt)).1 (st1 V c (t.val - 1) (Nat.lt_of_le_of_lt (Nat.sub_le _ _) t.isLt)).2.1 (st1 V c (t.val - 1) (Nat.lt_of_le_of_lt (Nat.sub_le _ _) t.isLt)).2.2)).trans (canon1_B_2 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) (fun h => h3 ((hcond1_1 t).mp h)) (iblk1 V c 0 t) (iblk1 V c 1 t) (iblk1 V c 2 t) (iblk1 V c 3 t) (iblk1 V c 4 t) (st1 V c (t.val - 1) (Nat.lt_of_le_of_lt (Nat.sub_le _ _) t.isLt)).1 (st1 V c (t.val - 1) (Nat.lt_of_le_of_lt (Nat.sub_le _ _) t.isLt)).2.1 (st1 V c (t.val - 1) (Nat.lt_of_le_of_lt (Nat.sub_le _ _) t.isLt)).2.2)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem _root_.Cert.Kernel.Hand.body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem _root_.Cert.Kernel.Hand.hin1 (c : Dev nD) : Pipeline.ΦA spec1 c ⊢ (dat1 (F := F) V c).Φ 0 := by
  rw [show (dat1 V c).Φ 0 = PhiS1 V c 0 (Nat.zero_le _) from rfl, PhiS1_zero V c 0 _ rfl]
  try exact Idealize.SL.BI.Entails.refl _

/-- After any point the invariant gives the launch's back: the running quantities' named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq, scoped1_eq, scoped1_eq]
  iintro ⟨⟨HR, HS0, HS1, HS2⟩, Hg⟩
  isplitl [HR HS0 HS1 HS2]
  · isplitl [HR]; · iexact HR
    isplitl [HS0]; · iexists _; iexact HS0
    isplitl [HS1]; · iexists _; iexact HS1
    iexists _; iexact HS2
  iexact Hg

/-- The same after the last point. -/
theorem _root_.Cert.Kernel.Hand.hout1 (c : Dev nD) : (dat1 (F := F) V c).Φ (Fin.last cfg1.N) ⊢ Pipeline.ΦA spec1 c :=
  Phi_out1 V c _ (by rw [Fin.val_last]; have : cfg1.N = 64 := N_1; omega)

end Body

end R1B

end Cert.Kernel.Hand

end
-- ==== Proof.Frames.lean ====
/-
  The two frame conjuncts of the claim: the program as printed, read at the machine's words, and the idealized
  program, read at the extended reals.  Each is the run over the program's four segments (three conversions,
  region 0, the mask operations, region 1) with both regions' body obligations, and with region 1's invariant taken
  from the class's at its first position and back to it at its last; every argument array is read off the last
  boundary's contents and walked back through the fold to its launch contents.
-/
import proofs.«110207_j12077448037095_2_alg».proof.Defs
import proofs.«110207_j12077448037095_2_alg».proof.Proof.Gen.Kernel
import proofs.«110207_j12077448037095_2_alg».proof.Proof.Gen.KernelIdeal
import proofs.«110207_j12077448037095_2_alg».proof.Proof.Gen.Pre_finite_inputs
import proofs.«110207_j12077448037095_2_alg».proof.Proof.KI.Run
import proofs.«110207_j12077448037095_2_alg».proof.Proof.KI.R0Body
import proofs.«110207_j12077448037095_2_alg».proof.Proof.KI.R1Body
import proofs.«110207_j12077448037095_2_alg».proof.Proof.K.Run
import proofs.«110207_j12077448037095_2_alg».proof.Proof.K.R0Body
import proofs.«110207_j12077448037095_2_alg».proof.Proof.K.R1Body

noncomputable section

namespace Cert.Proof.Frames

open Idealize.ShloMosaic Idealize.SL.Sem

/-- The program as printed, read at the machine's words: from any memory with zero counters every weakly fair
    execution terminates, nothing faulting, and the ten argument arrays end as launched.  The run over the four
    segments, with both regions' body obligations and region 1's invariant taken from and back to the class's. -/
theorem frame_k : Cert.frame_Kernel (hKernel := Cert.Kernel.Gen.facts) (hPre_finite_inputs := Cert.Pre_finite_inputs.Gen.facts) :=
  fun m ρ _ => Cert.Kernel.Hand.frame (F := Bits) m ρ
    (fun c => Cert.Kernel.Hand.body_obligation0 _ c) (fun c => Cert.Kernel.Hand.body_obligation1 _ c)
    (fun c => Cert.Kernel.Hand.hin1 _ c) (fun c => Cert.Kernel.Hand.hout1 _ c)

/-- The same of the idealized program, read at the extended reals. -/
theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ
    (fun c => Cert.KernelIdeal.Hand.body_obligation0 _ c) (fun c => Cert.KernelIdeal.Hand.body_obligation1 _ c)
    (fun c => Cert.KernelIdeal.Hand.hin1 _ c) (fun c => Cert.KernelIdeal.Hand.hout1 _ c)

end Cert.Proof.Frames

end
-- ==== Proof.Spec.lean ====
/-
  The function both programs compute, over the reals, index by index.

  Layer normalisation of a row x[b,s,·] of length 1024: subtract the row's mean, multiply by the reciprocal square
  root of the row's variance plus a fixed positive offset, scale by g and shift by β.  A projection is the normalised
  row times a 1024×1024 weight matrix plus a bias.  Attention, for batch b, head h (columns 64h … 64h+63), query row
  s: the score against key row t is the inner product of the head's 64 query and key columns, divided by 8, plus an
  additive mask term of the key row; the result is the average of the value rows weighted by the exponentials of the
  scores (a softmax), plus the residual x.  The weighted average is written with the plain exponentials: subtracting
  any common number from the scores first, as both programs do, does not change it.
-/
import Mathlib.Analysis.SpecialFunctions.Exp
import Mathlib.Analysis.SpecialFunctions.Sqrt
import Mathlib.Algebra.BigOperators.Field
import Idealize.ShloMosaic.Lib.ValueIdx

noncomputable section

open scoped BigOperators

namespace Cert.Spec

open Idealize.ShloMosaic Idealize.ShloMosaic.ValueIdx

/-- Index types of the arrays: [2, 2048, 1024], [1024], [1024, 1024], [2, 1, 2048]. -/
abbrev I3 : Type := (⟨3, ![2, 2048, 1024]⟩ : Shape).Idx
abbrev I1 : Type := (⟨1, ![1024]⟩ : Shape).Idx
abbrev I2 : Type := (⟨2, ![1024, 1024]⟩ : Shape).Idx
abbrev IM : Type := (⟨3, ![2, 1, 2048]⟩ : Shape).Idx

/-- The mean of row (b, s). -/
def mu (x : I3 → ℝ) (b : Fin 2) (s : Fin 2048) : ℝ := (∑ d : Fin 1024, x (ix3 b s d)) / 1024

/-- The variance of row (b, s). -/
def var (x : I3 → ℝ) (b : Fin 2) (s : Fin 2048) : ℝ :=
  (∑ d : Fin 1024, (x (ix3 b s d) - mu x b s) * (x (ix3 b s d) - mu x b s)) / 1024

/-- The normalised, scaled and shifted entry (b, s, d); `ε` is the variance offset. -/
def xn (ε : ℝ) (x : I3 → ℝ) (g β : I1 → ℝ) (b : Fin 2) (s : Fin 2048) (d : Fin 1024) : ℝ :=
  (x (ix3 b s d) - mu x b s) * (1 / Real.sqrt (var x b s + ε)) * g (ix1 d) + β (ix1 d)

/-- A projection of the normalised rows: times the weights, plus the bias. -/
def proj (ε : ℝ) (x : I3 → ℝ) (g β : I1 → ℝ) (w : I2 → ℝ) (bias : I1 → ℝ) : I3 → ℝ := fun i =>
  (∑ d : Fin 1024, xn ε x g β (i 0) (i 1) d * w (ix2 d (i 2))) + bias (ix1 (i 2))

/-- Column `64 h + j` of head `h`. -/
def col (h : Fin 16) (j : Fin 64) : Fin 1024 := ⟨64 * h.val + j.val, by omega⟩

/-- The head a column belongs to. -/
def headOf (e : Fin 1024) : Fin 16 := ⟨e.val / 64, by omega⟩

/-- The score of query row s against key row t in batch b, head h; `madd` is the additive mask. -/
def score (q k : I3 → ℝ) (madd : IM → ℝ) (b : Fin 2) (h : Fin 16) (s t : Fin 2048) : ℝ :=
  (∑ j : Fin 64, q (ix3 b s (col h j)) * k (ix3 b t (col h j))) * (1 / 8) + madd (ix3 b 0 t)

/-- Attention plus the residual: the softmax-weighted average of the value rows, plus x. -/
def att (q k v : I3 → ℝ) (madd : IM → ℝ) (x : I3 → ℝ) : I3 → ℝ := fun i =>
  (∑ t : Fin 2048, Real.exp (score q k madd (i 0) (headOf (i 2)) (i 1) t) * v (ix3 (i 0) t (i 2)))
    / (∑ t : Fin 2048, Real.exp (score q k madd (i 0) (headOf (i 2)) (i 1) t)) + x i

end Cert.Spec

end
-- ==== Proof.Consts.lean ====
/-
  The float constants the two programs spell, as the extended reals their bit patterns denote when a float is read
  as an exact number: each is a real (the one pattern that is not, the negative infinity a maximum starts from, is
  the bottom element).  Stated once so that the patterns are unfolded in one place only.
-/
import Idealize.ShloMosaic.PureOps.Ideal

noncomputable section

namespace Cert.Consts

open Idealize.ShloMosaic

/-- `+0.0` denotes `0`. -/
theorem ofBits_zero : Ideal.ofBits .f32 0x00000000#32 = 0 := by
  simp [Ideal.ofBits, Ideal.ieee]

/-- `1.0` denotes `1`. -/
theorem ofBits_one : Ideal.ofBits .f32 0x3F800000#32 = ((1 : ℝ) : EReal) := by
  simp [Ideal.ofBits, Ideal.ieee, -EReal.coe_mul] <;> norm_num

/-- `1024.0`, the row length a mean divides by. -/
theorem ofBits_1024 : Ideal.ofBits .f32 0x44800000#32 = ((1024 : ℝ) : EReal) := by
  simp [Ideal.ofBits, Ideal.ieee, -EReal.coe_mul] <;> norm_num

/-- `64.0`, the head width whose square root the reference divides by. -/
theorem ofBits_64 : Ideal.ofBits .f32 0x42800000#32 = ((64 : ℝ) : EReal) := by
  simp [Ideal.ofBits, Ideal.ieee, -EReal.coe_mul] <;> norm_num

/-- `0.125`, the factor the kernel scales its scores by. -/
theorem ofBits_eighth : Ideal.ofBits .f32 0x3E000000#32 = (((1 : ℝ) / 8 : ℝ) : EReal) := by
  simp [Ideal.ofBits, Ideal.ieee, -EReal.coe_mul] <;> norm_num

/-- `10000.0`, the magnitude of the additive mask. -/
theorem ofBits_1e4 : Ideal.ofBits .f32 0x461C4000#32 = ((10000 : ℝ) : EReal) := by
  simp [Ideal.ofBits, Ideal.ieee, -EReal.coe_mul] <;> norm_num

/-- `-10000.0`. -/
theorem ofBits_neg1e4 : Ideal.ofBits .f32 0xC61C4000#32 = ((-10000 : ℝ) : EReal) := by
  simp [Ideal.ofBits, Ideal.ieee, -EReal.coe_mul] <;> norm_num

/-- The variance offset: the binary fraction nearest to one hundred-thousandth, `10995116 / 2^40`. -/
def eps : ℝ := 10995116 / 2 ^ 40

theorem eps_pos : 0 < eps := by unfold eps; positivity

theorem ofBits_eps : Ideal.ofBits .f32 0x3727C5AC#32 = ((eps : ℝ) : EReal) := by
  unfold eps; simp [Ideal.ofBits, Ideal.ieee, -EReal.coe_mul] <;> norm_num

/-- The large negative number the kernel's running maximum starts from: `-11744050 · 2^104`, a real. -/
def negBig : ℝ := -(11744050 * 2 ^ 104)

theorem ofBits_negBig : Ideal.ofBits .f32 0xFF333332#32 = ((negBig : ℝ) : EReal) := by
  unfold negBig; simp [Ideal.ofBits, Ideal.ieee, -EReal.coe_mul] <;> norm_num

/-- The pattern of negative infinity, which a maximum starts from, is the bottom element. -/
theorem ofBits_negInf : Ideal.ofBits .f32 0xFF800000#32 = (⊥ : EReal) := by
  simp [Ideal.ofBits, Ideal.ieee]

end Cert.Consts

end
-- ==== Proof.RefLN.lean ====
/-
  The reference's layer normalisation, read at an index on real inputs: the mean of a row, its variance, and the
  normalised, scaled and shifted entry are the coercions of the specification's.  The variance is a sum of squares
  over a positive number, so adding the positive offset gives a positive real, whose reciprocal square root is a real.
-/
import proofs.«110207_j12077448037095_2_alg».proof.Proof.Gen.ReferenceIdeal.Read
import proofs.«110207_j12077448037095_2_alg».proof.Proof.Spec
import proofs.«110207_j12077448037095_2_alg».proof.Proof.Consts

noncomputable section

open scoped BigOperators

namespace Cert.RefValue

open Cert.ReferenceIdeal Cert.ReferenceIdeal.Read Idealize.ShloMosaic Idealize.ShloMosaic.ValueIdx Cert.Spec

/-- A finite sum of coerced reals is the coerced sum. -/
theorem coe_sum {ι : Type*} (s : Finset ι) (f : ι → ℝ) :
    ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- An array of reals read as an array of extended reals. -/
abbrev cx3 (xR : I3 → ℝ) : (⟨S2x2048x1024, .f32⟩ : BufTy).Contents (Elt Ideal) := fun i => ((xR i : ℝ) : EReal)
abbrev cx1 (gR : I1 → ℝ) : (⟨S1024, .f32⟩ : BufTy).Contents (Elt Ideal) := fun i => ((gR i : ℝ) : EReal)
abbrev cx2 (wR : I2 → ℝ) : (⟨S1024x1024, .f32⟩ : BufTy).Contents (Elt Ideal) := fun i => ((wR i : ℝ) : EReal)

theorem var_nonneg (xR : I3 → ℝ) (b : Fin 2) (s : Fin 2048) : 0 ≤ var xR b s := by
  unfold var
  exact div_nonneg (Finset.sum_nonneg fun d _ => mul_self_nonneg _) (by norm_num)

variable (xR : I3 → ℝ) (gR βR : I1 → ℝ)

/-- The row mean. -/
theorem mean_eq (b : Fin 2) (s : Fin 2048) :
    val_main_v3 (F := Ideal) (cx3 xR) (ix3 b s (0 : Fin 1)) = ((mu xR b s : ℝ) : EReal) := by
  rw [val_main_v3_apply, val_main_v1_apply, val_main_v0_apply, val_main_v2_apply, val_main_cst_0_apply, val_main_cst_apply]
  simp only [Ideal.hostDivf_def, Ideal.ofBits_def, Consts.ofBits_zero, Consts.ofBits_1024, zero_add]
  have h : ∀ k : Fin 1024, cx3 xR (idx_main_v0 (idx_main_v1 (ix3 b s (0 : Fin 1))) k) = ((xR (ix3 b s k) : ℝ) : EReal) := fun k =>
    congrArg (fun j => ((xR j : ℝ) : EReal)) (funext fun a => by match a with | ⟨0, _⟩ => rfl | ⟨1, _⟩ => rfl | ⟨2, _⟩ => rfl)
  rw [Finset.sum_congr rfl (fun k _ => h k), coe_sum, Ideal.div_coe (by norm_num : (1024 : ℝ) ≠ 0), ← EReal.coe_mul]
  congr 1; unfold mu; ring

/-- The centred entry. -/
theorem centred_eq (b : Fin 2) (s : Fin 2048) (d : Fin 1024) :
    val_main_v5 (F := Ideal) (cx3 xR) (ix3 b s d) = ((xR (ix3 b s d) - mu xR b s : ℝ) : EReal) := by
  rw [val_main_v5_apply, val_main_v4_apply]
  have e : idx_main_v4 (ix3 b s d) = ix3 b s (0 : Fin 1) := funext fun a => by match a with | ⟨0, _⟩ => rfl | ⟨1, _⟩ => rfl | ⟨2, _⟩ => rfl
  rw [e, mean_eq]
  simp only [Ideal.subf_def]
  rw [← EReal.coe_sub]

/-- The row variance. -/
theorem var_eq (b : Fin 2) (s : Fin 2048) :
    val_main_v10 (F := Ideal) (cx3 xR) (ix3 b s (0 : Fin 1)) = ((var xR b s : ℝ) : EReal) := by
  rw [val_main_v10_apply, val_main_v8_apply, val_main_v7_apply, val_main_v9_apply, val_main_cst_2_apply, val_main_cst_1_apply]
  simp only [Ideal.hostDivf_def, Ideal.ofBits_def, Consts.ofBits_zero, Consts.ofBits_1024, zero_add]
  have h : ∀ k : Fin 1024, val_main_v6 (F := Ideal) (cx3 xR) (idx_main_v7 (idx_main_v8 (ix3 b s (0 : Fin 1))) k)
      = (((xR (ix3 b s k) - mu xR b s) * (xR (ix3 b s k) - mu xR b s) : ℝ) : EReal) := fun k => by
    have e : idx_main_v7 (idx_main_v8 (ix3 b s (0 : Fin 1))) k = ix3 b s k := funext fun a => by match a with | ⟨0, _⟩ => rfl | ⟨1, _⟩ => rfl | ⟨2, _⟩ => rfl
    rw [e, val_main_v6_apply, centred_eq]
    simp only [Ideal.mulf_def]
    rw [← EReal.coe_mul]
  rw [Finset.sum_congr rfl (fun k _ => h k), coe_sum, Ideal.div_coe (by norm_num : (1024 : ℝ) ≠ 0), ← EReal.coe_mul]
  congr 1; unfold var; ring

/-- The reciprocal square root of the variance plus the offset. -/
theorem rstd_eq (b : Fin 2) (s : Fin 2048) :
    val_main_v15 (F := Ideal) (cx3 xR) (ix3 b s (0 : Fin 1)) = (((1 / Real.sqrt (var xR b s + Consts.eps)) : ℝ) : EReal) := by
  rw [val_main_v15_apply, val_main_v14_apply, var_eq, val_main_v13_apply, val_main_cst_3_apply]
  simp only [Ideal.hostUnary_rsqrt_def, Ideal.addf_def, Ideal.ofBits_def, Consts.ofBits_eps]
  rw [← EReal.coe_add, Ideal.rsqrt_coe]
  have hpos : 0 < var xR b s + Consts.eps := add_pos_of_nonneg_of_pos (var_nonneg xR b s) Consts.eps_pos
  rw [if_neg (not_lt.mpr hpos.le), if_neg hpos.ne', one_div]

/-- The normalised, scaled and shifted entry. -/
theorem xn_eq (b : Fin 2) (s : Fin 2048) (d : Fin 1024) :
    val_main_v23 (F := Ideal) (cx3 xR) (cx1 gR) (cx1 βR) (ix3 b s d) = ((xn Consts.eps xR gR βR b s d : ℝ) : EReal) := by
  rw [val_main_v23_apply, val_main_v20_apply, val_main_v17_apply, val_main_v12_apply, val_main_v11_apply, val_main_v16_apply,
    val_main_v19_apply, val_main_v18_apply, val_main_v22_apply, val_main_v21_apply]
  have e11 : idx_main_v11 (ix3 b s d) = ix3 b s (0 : Fin 1) := funext fun a => by match a with | ⟨0, _⟩ => rfl | ⟨1, _⟩ => rfl | ⟨2, _⟩ => rfl
  have e16 : idx_main_v16 (ix3 b s d) = ix3 b s (0 : Fin 1) := funext fun a => by match a with | ⟨0, _⟩ => rfl | ⟨1, _⟩ => rfl | ⟨2, _⟩ => rfl
  have e18 : idx_main_v18 (idx_main_v19 (ix3 b s d)) = ix1 d := funext fun a => by match a with | ⟨0, _⟩ => rfl
  have e21 : idx_main_v21 (idx_main_v22 (ix3 b s d)) = ix1 d := funext fun a => by match a with | ⟨0, _⟩ => rfl
  rw [e11, e16, e18, e21, mean_eq, rstd_eq]
  simp only [Ideal.addf_def, Ideal.mulf_def, Ideal.subf_def]
  rw [← EReal.coe_sub, ← EReal.coe_mul, ← EReal.coe_mul, ← EReal.coe_add]
  rfl

end Cert.RefValue

end
-- ==== Proof.RefProj.lean ====
/-
  The reference's three projections, read at an index on real inputs: the contraction of the normalised row with a
  column of the weights, plus the bias, is the coercion of the specification's projection.
-/
import proofs.«110207_j12077448037095_2_alg».proof.Proof.RefLN

noncomputable section

open scoped BigOperators

namespace Cert.RefValue

open Cert.ReferenceIdeal Cert.ReferenceIdeal.Read Idealize.ShloMosaic Idealize.ShloMosaic.ValueIdx Cert.Spec

variable (xR : I3 → ℝ) (gR βR : I1 → ℝ) (wR : I2 → ℝ) (bR : I1 → ℝ)

theorem projq_eq (b : Fin 2) (s : Fin 2048) (e : Fin 1024) :
    val_main_v27 (F := Ideal) (cx3 xR) (cx1 gR) (cx1 βR) (cx2 wR) (cx1 bR) (ix3 b s e)
      = ((proj Consts.eps xR gR βR wR bR (ix3 b s e) : ℝ) : EReal) := by
  rw [val_main_v27_apply, val_main_v24_apply, val_main_v26_apply, val_main_v25_apply]
  have eb : idx_main_v25 (idx_main_v26 (ix3 b s e)) = ix1 e := funext fun a => by match a with | ⟨0, _⟩ => rfl
  have h : ∀ k : Fin 1024, val_main_v23 (F := Ideal) (cx3 xR) (cx1 gR) (cx1 βR) (lidx_main_v24 (ix3 b s e) k) * cx2 wR (ridx_main_v24 (ix3 b s e) k)
      = ((xn Consts.eps xR gR βR b s k * wR (ix2 k e) : ℝ) : EReal) := fun k => by
    have el : lidx_main_v24 (ix3 b s e) k = ix3 b s k := funext fun a => by match a with | ⟨0, _⟩ => rfl | ⟨1, _⟩ => rfl | ⟨2, _⟩ => rfl
    have er : ridx_main_v24 (ix3 b s e) k = ix2 k e := funext fun a => by match a with | ⟨0, _⟩ => rfl | ⟨1, _⟩ => rfl
    rw [el, er, xn_eq, EReal.coe_mul]
  rw [eb, Finset.sum_congr rfl (fun k _ => h k), coe_sum]
  simp only [Ideal.addf_def]
  rw [← EReal.coe_add]
  rfl

theorem projk_eq (b : Fin 2) (s : Fin 2048) (e : Fin 1024) :
    val_main_v33 (F := Ideal) (cx3 xR) (cx1 gR) (cx1 βR) (cx2 wR) (cx1 bR) (ix3 b s e)
      = ((proj Consts.eps xR gR βR wR bR (ix3 b s e) : ℝ) : EReal) := by
  rw [val_main_v33_apply, val_main_v30_apply, val_main_v32_apply, val_main_v31_apply]
  have eb : idx_main_v31 (idx_main_v32 (ix3 b s e)) = ix1 e := funext fun a => by match a with | ⟨0, _⟩ => rfl
  have h : ∀ k : Fin 1024, val_main_v23 (F := Ideal) (cx3 xR) (cx1 gR) (cx1 βR) (lidx_main_v30 (ix3 b s e) k) * cx2 wR (ridx_main_v30 (ix3 b s e) k)
      = ((xn Consts.eps xR gR βR b s k * wR (ix2 k e) : ℝ) : EReal) := fun k => by
    have el : lidx_main_v30 (ix3 b s e) k = ix3 b s k := funext fun a => by match a with | ⟨0, _⟩ => rfl | ⟨1, _⟩ => rfl | ⟨2, _⟩ => rfl
    have er : ridx_main_v30 (ix3 b s e) k = ix2 k e := funext fun a => by match a with | ⟨0, _⟩ => rfl | ⟨1, _⟩ => rfl
    rw [el, er, xn_eq, EReal.coe_mul]
  rw [eb, Finset.sum_congr rfl (fun k _ => h k), coe_sum]
  simp only [Ideal.addf_def]
  rw [← EReal.coe_add]
  rfl

theorem projv_eq (b : Fin 2) (s : Fin 2048) (e : Fin 1024) :
    val_main_v39 (F := Ideal) (cx3 xR) (cx1 gR) (cx1 βR) (cx2 wR) (cx1 bR) (ix3 b s e)
      = ((proj Consts.eps xR gR βR wR bR (ix3 b s e) : ℝ) : EReal) := by
  rw [val_main_v39_apply, val_main_v36_apply, val_main_v38_apply, val_main_v37_apply]
  have eb : idx_main_v37 (idx_main_v38 (ix3 b s e)) = ix1 e := funext fun a => by match a with | ⟨0, _⟩ => rfl
  have h : ∀ k : Fin 1024, val_main_v23 (F := Ideal) (cx3 xR) (cx1 gR) (cx1 βR) (lidx_main_v36 (ix3 b s e) k) * cx2 wR (ridx_main_v36 (ix3 b s e) k)
      = ((xn Consts.eps xR gR βR b s k * wR (ix2 k e) : ℝ) : EReal) := fun k => by
    have el : lidx_main_v36 (ix3 b s e) k = ix3 b s k := funext fun a => by match a with | ⟨0, _⟩ => rfl | ⟨1, _⟩ => rfl | ⟨2, _⟩ => rfl
    have er : ridx_main_v36 (ix3 b s e) k = ix2 k e := funext fun a => by match a with | ⟨0, _⟩ => rfl | ⟨1, _⟩ => rfl
    rw [el, er, xn_eq, EReal.coe_mul]
  rw [eb, Finset.sum_congr rfl (fun k _ => h k), coe_sum]
  simp only [Ideal.addf_def]
  rw [← EReal.coe_add]
  rfl

end Cert.RefValue

end
-- ==== Proof.RefScore.lean ====
/-
  The reference's scores, read at an index on real inputs.  A projection re-laid per head: entry (b, h, s, w) of the
  head layout is entry (b, s, 64 h + w) of the projection.  The score of query row s against key row t is the inner
  product of the head's 64 columns divided by the square root of 64, which is 8, minus ten thousand times one minus
  the mask word of the key row read as a signed integer: the specification's score with that mask term.
-/
import proofs.«110207_j12077448037095_2_alg».proof.Proof.RefProj

noncomputable section

open scoped BigOperators

namespace Cert.RefValue

open Cert.ReferenceIdeal Cert.ReferenceIdeal.Read Idealize.ShloMosaic Idealize.ShloMosaic.ValueIdx Cert.Spec

/-- The additive mask of key row t in batch b, from the integer mask array. -/
def maskTerm (x1 : (⟨S2x2048, .i32⟩ : BufTy).Contents (Elt Ideal)) : IM → ℝ := fun i =>
  -10000 * (1 - (((x1 (ix2 (i 0) (i 2)) : BitVec 32).toInt : ℤ) : ℝ))

theorem sqrt64 : Real.sqrt 64 = 8 := by
  rw [show (64 : ℝ) = 8 ^ 2 by norm_num]; exact Real.sqrt_sq (by norm_num)

section Heads
variable (xR : I3 → ℝ) (gR βR : I1 → ℝ) (wR : I2 → ℝ) (bR : I1 → ℝ)

theorem headq_eq (b : Fin 2) (h : Fin 16) (s : Fin 2048) (w : Fin 64) :
    val_main_v29 (F := Ideal) (cx3 xR) (cx1 gR) (cx1 βR) (cx2 wR) (cx1 bR) (ix4 b h s w)
      = ((proj Consts.eps xR gR βR wR bR (ix3 b s (col h w)) : ℝ) : EReal) := by
  rw [val_main_v29_apply, val_main_v28_apply]
  have e : idx_main_v28 (idx_main_v29 (ix4 b h s w)) = ix3 b s (col h w) := funext fun a => by
    have hb := b.isLt; have hs := s.isLt; have hh := h.isLt; have hw := w.isLt
    match a with
    | ⟨0, _⟩ => exact Fin.ext (by show (((b.val * 2048 + s.val) * 16 + h.val) * 64 + w.val) / 2097152 = b.val; omega)
    | ⟨1, _⟩ => exact Fin.ext (by show (((b.val * 2048 + s.val) * 16 + h.val) * 64 + w.val) / 1024 % 2048 = s.val; omega)
    | ⟨2, _⟩ => exact Fin.ext (by show (((b.val * 2048 + s.val) * 16 + h.val) * 64 + w.val) % 1024 = 64 * h.val + w.val; omega)
  rw [e, projq_eq]

theorem headk_eq (b : Fin 2) (h : Fin 16) (s : Fin 2048) (w : Fin 64) :
    val_main_v35 (F := Ideal) (cx3 xR) (cx1 gR) (cx1 βR) (cx2 wR) (cx1 bR) (ix4 b h s w)
      = ((proj Consts.eps xR gR βR wR bR (ix3 b s (col h w)) : ℝ) : EReal) := by
  rw [val_main_v35_apply, val_main_v34_apply]
  have e : idx_main_v34 (idx_main_v35 (ix4 b h s w)) = ix3 b s (col h w) := funext fun a => by
    have hb := b.isLt; have hs := s.isLt; have hh := h.isLt; have hw := w.isLt
    match a with
    | ⟨0, _⟩ => exact Fin.ext (by show (((b.val * 2048 + s.val) * 16 + h.val) * 64 + w.val) / 2097152 = b.val; omega)
    | ⟨1, _⟩ => exact Fin.ext (by show (((b.val * 2048 + s.val) * 16 + h.val) * 64 + w.val) / 1024 % 2048 = s.val; omega)
    | ⟨2, _⟩ => exact Fin.ext (by show (((b.val * 2048 + s.val) * 16 + h.val) * 64 + w.val) % 1024 = 64 * h.val + w.val; omega)
  rw [e, projk_eq]

theorem headv_eq (b : Fin 2) (h : Fin 16) (s : Fin 2048) (w : Fin 64) :
    val_main_v41 (F := Ideal) (cx3 xR) (cx1 gR) (cx1 βR) (cx2 wR) (cx1 bR) (ix4 b h s w)
      = ((proj Consts.eps xR gR βR wR bR (ix3 b s (col h w)) : ℝ) : EReal) := by
  rw [val_main_v41_apply, val_main_v40_apply]
  have e : idx_main_v40 (idx_main_v41 (ix4 b h s w)) = ix3 b s (col h w) := funext fun a => by
    have hb := b.isLt; have hs := s.isLt; have hh := h.isLt; have hw := w.isLt
    match a with
    | ⟨0, _⟩ => exact Fin.ext (by show (((b.val * 2048 + s.val) * 16 + h.val) * 64 + w.val) / 2097152 = b.val; omega)
    | ⟨1, _⟩ => exact Fin.ext (by show (((b.val * 2048 + s.val) * 16 + h.val) * 64 + w.val) / 1024 % 2048 = s.val; omega)
    | ⟨2, _⟩ => exact Fin.ext (by show (((b.val * 2048 + s.val) * 16 + h.val) * 64 + w.val) % 1024 = 64 * h.val + w.val; omega)
  rw [e, projv_eq]

end Heads

variable (xR : I3 → ℝ) (gR βR : I1 → ℝ) (wqR : I2 → ℝ) (bqR : I1 → ℝ) (wkR : I2 → ℝ) (bkR : I1 → ℝ)
  (x1 : (⟨S2x2048, .i32⟩ : BufTy).Contents (Elt Ideal))

/-- The masked, scaled score. -/
theorem score_eq (b : Fin 2) (h : Fin 16) (s t : Fin 2048) :
    val_main_v53 (F := Ideal) (cx3 xR) x1 (cx1 gR) (cx1 βR) (cx2 wqR) (cx1 bqR) (cx2 wkR) (cx1 bkR) (ix4 b h s t)
      = ((score (proj Consts.eps xR gR βR wqR bqR) (proj Consts.eps xR gR βR wkR bkR) (maskTerm x1) b h s t : ℝ) : EReal) := by
  rw [val_main_v53_apply, val_main_v45_apply, val_main_v42_apply, val_main_v44_apply, val_main_v43_apply, val_main_cst_4_apply,
    val_main_v52_apply, val_main_v51_apply, val_main_v50_apply, val_main_cst_6_apply, val_main_v49_apply, val_main_v48_apply,
    val_main_cst_5_apply, val_main_v47_apply, val_main_v46_apply]
  have hk : ∀ k : Fin 64, val_main_v29 (F := Ideal) (cx3 xR) (cx1 gR) (cx1 βR) (cx2 wqR) (cx1 bqR) (lidx_main_v42 (ix4 b h s t) k)
        * val_main_v35 (F := Ideal) (cx3 xR) (cx1 gR) (cx1 βR) (cx2 wkR) (cx1 bkR) (ridx_main_v42 (ix4 b h s t) k)
      = ((proj Consts.eps xR gR βR wqR bqR (ix3 b s (col h k)) * proj Consts.eps xR gR βR wkR bkR (ix3 b t (col h k)) : ℝ) : EReal) := fun k => by
    have el : lidx_main_v42 (ix4 b h s t) k = ix4 b h s k := funext fun a => by match a with | ⟨0, _⟩ => rfl | ⟨1, _⟩ => rfl | ⟨2, _⟩ => rfl | ⟨3, _⟩ => rfl
    have er : ridx_main_v42 (ix4 b h s t) k = ix4 b h t k := funext fun a => by match a with | ⟨0, _⟩ => rfl | ⟨1, _⟩ => rfl | ⟨2, _⟩ => rfl | ⟨3, _⟩ => rfl
    rw [el, er, headq_eq, headk_eq, EReal.coe_mul]
  have em : idx_main_v46 (idx_main_v52 (ix4 b h s t)) = ix2 b t := funext fun a => by match a with | ⟨0, _⟩ => rfl | ⟨1, _⟩ => rfl
  rw [Finset.sum_congr rfl (fun k _ => hk k), coe_sum, em]
  simp only [Ideal.hostDivf_def, Ideal.hostUnary_sqrt_def, Ideal.ofBits_def, Ideal.subf_def, Ideal.mulf_def, Consts.ofBits_64,
    Consts.ofBits_1e4, Consts.ofBits_one]
  rw [Ideal.sqrt_coe, if_neg (by norm_num), sqrt64, Ideal.div_coe (by norm_num : (8 : ℝ) ≠ 0)]
  show _ - ((10000 : ℝ) : EReal) * (((1 : ℝ) : EReal) - (((((x1 (ix2 b t) : BitVec 32).toInt : ℤ) : ℝ)) : EReal)) = _
  rw [← EReal.coe_mul, ← EReal.coe_sub, ← EReal.coe_mul, ← EReal.coe_sub]
  congr 1
  unfold score maskTerm
  ring

end Cert.RefValue

end
-- ==== Proof.LibSoftmaxReal.lean ====
/-
  Softmax over the extended reals, on real logits: general facts (Mathlib and the exact float operations only).

  * the f32 patterns of `1.0` and of `−∞` denote `1` and `⊥`;
  * a finite sum of reals is real; `tanh` of any extended real is real;
  * the fold of `max` from a start value below `⊤` over a nonempty finite family of reals is real;
  * for real logits `z` and a real shift `M`, `Σ exp (z i − M)` over a nonempty finite set is positive;
  * `a · (1 / w) = a / w` whenever `w ≠ 0` (at `w = 0` the two differ: `1 / 0 = ⊤`, `0 · ⊤ = 0`, `0 / 0 = ⊥`);
  * hence the softmax written as a product with the reciprocal of the sum equals the softmax written as a quotient.
-/
import Idealize.ShloMosaic.PureOps.Ideal
import Idealize.ShloMosaic.PureOps.IdealRules

noncomputable section

namespace Cert.Lib.SoftmaxReal

open Idealize.ShloMosaic

/-- The f32 pattern of `1.0` denotes the real `1`. -/
theorem ofBits_one_f32 : Ideal.ofBits .f32 0x3F800000#32 = (1 : EReal) := IdealRules.sign_bit.ideal_onePat .f32

/-- The f32 pattern of `−∞` denotes the bottom of the extended reals. -/
theorem ofBits_negInf_f32 : Ideal.ofBits .f32 0xFF800000#32 = (⊥ : EReal) := by simp [Ideal.ofBits, Ideal.ieee]

/-- A finite sum of real numbers is a real number. -/
theorem exists_real_sum {ι : Type} (S : Finset ι) (f : ι → EReal) (h : ∀ i ∈ S, ∃ r : ℝ, f i = (r : EReal)) :
    ∃ r : ℝ, ∑ i ∈ S, f i = (r : EReal) := by
  classical
  induction S using Finset.induction_on with
  | empty => exact ⟨0, by simp⟩
  | insert a S ha ih =>
    obtain ⟨r, hr⟩ := h a (Finset.mem_insert_self a S)
    obtain ⟨q, hq⟩ := ih (fun i hi => h i (Finset.mem_insert_of_mem hi))
    exact ⟨r + q, by rw [Finset.sum_insert ha, hr, hq, EReal.coe_add]⟩

/-- `tanh` of any extended real is a real number (`−1` and `1` at the infinities). -/
theorem tanh_real (x : EReal) : ∃ r : ℝ, Ideal.tanh x = (r : EReal) := by
  induction x using EReal.rec with
  | bot => exact ⟨-1, by rw [Ideal.tanh_bot, EReal.coe_neg, EReal.coe_one]⟩
  | top => exact ⟨1, by rw [Ideal.tanh_top, EReal.coe_one]⟩
  | coe r => exact ⟨Real.tanh r, Ideal.tanh_coe r⟩

/-- The greatest of a nonempty finite family of reals, folded from a start value below `⊤`, is a real number. -/
theorem fold_max_real {ι : Type} (S : Finset ι) (hS : S.Nonempty) (c : EReal) (hc : c < ⊤) (z : ι → EReal)
    (hz : ∀ i ∈ S, ∃ r : ℝ, z i = (r : EReal)) : ∃ r : ℝ, S.fold max c z = (r : EReal) := by
  have hlt : S.fold max c z < ⊤ := by
    rw [Finset.fold_max_lt]
    exact ⟨hc, fun x hx => by obtain ⟨r, hr⟩ := hz x hx; rw [hr]; exact EReal.coe_lt_top _⟩
  have hgt : ⊥ < S.fold max c z := by
    obtain ⟨i, hi⟩ := hS
    have h0 : z i ≤ S.fold max c z := by
      rw [Finset.le_fold_max]
      exact Or.inr ⟨i, hi, le_rfl⟩
    obtain ⟨r, hr⟩ := hz i hi
    exact lt_of_lt_of_le (by rw [hr]; exact EReal.bot_lt_coe _) h0
  exact ⟨(S.fold max c z).toReal, (EReal.coe_toReal hlt.ne hgt.ne').symm⟩

/-- For real logits and a real shift the sum of the exponentials over a nonempty finite set is positive. -/
theorem sum_exp_sub_pos {ι : Type} (S : Finset ι) (hS : S.Nonempty) (z : ι → EReal) (M : EReal)
    (hz : ∀ i ∈ S, ∃ r : ℝ, z i = (r : EReal)) (hM : ∃ r : ℝ, M = (r : EReal)) :
    (0 : EReal) < ∑ i ∈ S, Ideal.exp (z i - M) := by
  obtain ⟨mr, rfl⟩ := hM
  have hw : ∀ i ∈ S, ∃ q : ℝ, 0 < q ∧ Ideal.exp (z i - (mr : EReal)) = (q : EReal) := fun i hi => by
    obtain ⟨r, hr⟩ := hz i hi
    exact ⟨Real.exp (r - mr), Real.exp_pos _, by rw [hr, ← EReal.coe_sub]; exact Ideal.exp_coe _⟩
  obtain ⟨i0, hi0⟩ := hS
  refine lt_of_lt_of_le ?_ (Finset.single_le_sum (f := fun i => Ideal.exp (z i - (mr : EReal))) (fun i hi => ?_) hi0)
  · obtain ⟨q, hq, e⟩ := hw i0 hi0
    show (0 : EReal) < Ideal.exp (z i0 - (mr : EReal))
    rw [e]; exact EReal.coe_pos.mpr hq
  · obtain ⟨q, hq, e⟩ := hw i hi
    show (0 : EReal) ≤ Ideal.exp (z i - (mr : EReal))
    rw [e]; exact EReal.coe_nonneg.mpr hq.le

/-- Off `w = 0` the product with the reciprocal is the quotient. -/
theorem mul_div_one_eq_div (a w : EReal) (hw : w ≠ 0) : a * Ideal.div 1 w = Ideal.div a w := by
  rw [Ideal.div, if_neg hw, Ideal.div, if_neg hw, one_mul]

/-- On real logits the softmax as a product with the reciprocal of the sum is the softmax as a quotient by the sum; the
    shift is the fold of `max` from any start value below `⊤` (a program's `−∞`). -/
theorem softmax_recip_eq_quot {ι : Type} (S : Finset ι) (hS : S.Nonempty) (c : EReal) (hc : c < ⊤) (z : ι → EReal)
    (hz : ∀ i ∈ S, ∃ r : ℝ, z i = (r : EReal)) (u : ι) :
    Ideal.exp (z u - S.fold max c z) * Ideal.div 1 (∑ i ∈ S, Ideal.exp (z i - S.fold max c z))
      = Ideal.div (Ideal.exp (z u - S.fold max c z)) (∑ i ∈ S, Ideal.exp (z i - S.fold max c z)) :=
  mul_div_one_eq_div _ _ (sum_exp_sub_pos S hS z _ hz (fold_max_real S hS c hc z hz)).ne'

end Cert.Lib.SoftmaxReal

end
-- ==== Proof.RefSoftmax.lean ====
/-
  The reference's softmax and weighted sum, read at an index on real inputs, is the specification's attention.
  The row maximum of finitely many real scores, folded from negative infinity, is a real M.  The exponentials of the
  scores minus M are positive reals, so is their sum D, and the weights are the quotients.  The weighted sum of the
  value rows, re-laid from the head layout, plus the residual, is then a real; and subtracting M from every score
  multiplies numerator and denominator by the same positive number, so the weighted average is the one written with
  the plain exponentials.
-/
import proofs.«110207_j12077448037095_2_alg».proof.Proof.RefScore
import proofs.«110207_j12077448037095_2_alg».proof.Proof.LibSoftmaxReal

noncomputable section

open scoped BigOperators

namespace Cert.RefValue

open Cert.ReferenceIdeal Cert.ReferenceIdeal.Gen Cert.ReferenceIdeal.Read Idealize.ShloMosaic Idealize.ShloMosaic.ValueIdx Cert.Spec

/-- Shifting every score by the same number does not change the softmax-weighted average. -/
theorem softmax_shift {n : ℕ} (s v : Fin n → ℝ) (M : ℝ) :
    ∑ t, Real.exp (s t - M) / (∑ t', Real.exp (s t' - M)) * v t = (∑ t, Real.exp (s t) * v t) / (∑ t, Real.exp (s t)) := by
  have hE : ∀ t, Real.exp (s t - M) = Real.exp (s t) * Real.exp (-M) := fun t => by rw [← Real.exp_add]; ring_nf
  have hc : Real.exp (-M) ≠ 0 := (Real.exp_pos _).ne'
  simp only [hE, ← Finset.sum_mul, mul_div_mul_right _ _ hc, div_mul_eq_mul_div, ← Finset.sum_div]

variable (xR : I3 → ℝ) (gR βR : I1 → ℝ) (wqR : I2 → ℝ) (bqR : I1 → ℝ) (wkR : I2 → ℝ) (bkR : I1 → ℝ) (wvR : I2 → ℝ) (bvR : I1 → ℝ)
  (x1 : (⟨S2x2048, .i32⟩ : BufTy).Contents (Elt Ideal))

/-- The score of the specification at the three projections and the mask term. -/
abbrev scR (b : Fin 2) (h : Fin 16) (s t : Fin 2048) : ℝ :=
  score (proj Consts.eps xR gR βR wqR bqR) (proj Consts.eps xR gR βR wkR bkR) (maskTerm x1) b h s t

/-- The row maximum is a real. -/
theorem max_real (b : Fin 2) (h : Fin 16) (s : Fin 2048) :
    ∃ M : ℝ, val_main_v56 (F := Ideal) (cx3 xR) x1 (cx1 gR) (cx1 βR) (cx2 wqR) (cx1 bqR) (cx2 wkR) (cx1 bkR) (ix3 b h s) = (M : EReal) := by
  rw [val_main_v56_apply, val_main_v55_apply, val_main_cst_8_apply]
  simp only [Ideal.maximumf_def, Ideal.ofBits_def, Consts.ofBits_negInf]
  rw [max_eq_right bot_le]
  unfold val_main_v54
  rw [Host.reduce_eq_fold_single FloatOps.maximumf _ _ reducesTo_S2x16x2048x2048_S2x16x2048_d3 (by decide) h_S_]
  refine Cert.Lib.SoftmaxReal.fold_max_real Finset.univ ⟨⟨0, by decide⟩, Finset.mem_univ _⟩ _ ?_ _ (fun k _ => ⟨scR xR gR βR wqR bqR wkR bkR x1 b h s ⟨k.val, k.isLt⟩, ?_⟩)
  · rw [val_main_cst_7_apply]; simp only [Ideal.ofBits_def, Consts.ofBits_negInf]; exact bot_lt_top
  · show val_main_v53 (F := Ideal) (cx3 xR) x1 (cx1 gR) (cx1 βR) (cx2 wqR) (cx1 bqR) (cx2 wkR) (cx1 bkR) _ = _
    refine Eq.trans (congrArg _ ?_) (score_eq xR gR βR wqR bqR wkR bkR x1 b h s ⟨k.val, k.isLt⟩)
    exact funext fun a => by match a with | ⟨0, _⟩ => rfl | ⟨1, _⟩ => rfl | ⟨2, _⟩ => rfl | ⟨3, _⟩ => rfl

section Row
variable (b : Fin 2) (h : Fin 16) (s : Fin 2048) (M : ℝ)
  (hM : val_main_v56 (F := Ideal) (cx3 xR) x1 (cx1 gR) (cx1 βR) (cx2 wqR) (cx1 bqR) (cx2 wkR) (cx1 bkR) (ix3 b h s) = (M : EReal))
include hM

/-- The exponential of a score minus the row maximum. -/
theorem exp_eq (t : Fin 2048) :
    val_main_v60 (F := Ideal) (cx3 xR) x1 (cx1 gR) (cx1 βR) (cx2 wqR) (cx1 bqR) (cx2 wkR) (cx1 bkR) (ix4 b h s t) = ((Real.exp (scR xR gR βR wqR bqR wkR bkR x1 b h s t - M) : ℝ) : EReal) := by
  rw [val_main_v60_apply, val_main_v59_apply, val_main_v58_apply, val_main_v57_apply]
  have e : idx_main_v57 (idx_main_v58 (ix4 b h s t)) = ix3 b h s := funext fun a => by match a with | ⟨0, _⟩ => rfl | ⟨1, _⟩ => rfl | ⟨2, _⟩ => rfl
  rw [e, hM, score_eq]
  simp only [Ideal.hostUnary_exp_def, Ideal.subf_def]
  rw [← EReal.coe_sub, Ideal.exp_coe]

/-- The sum of the row's exponentials. -/
theorem den_eq :
    val_main_v61 (F := Ideal) (cx3 xR) x1 (cx1 gR) (cx1 βR) (cx2 wqR) (cx1 bqR) (cx2 wkR) (cx1 bkR) (ix3 b h s) = ((∑ t : Fin 2048, Real.exp (scR xR gR βR wqR bqR wkR bkR x1 b h s t - M) : ℝ) : EReal) := by
  rw [val_main_v61_apply, val_main_cst_9_apply]
  simp only [Ideal.ofBits_def, Consts.ofBits_zero, zero_add]
  have hk : ∀ k : Fin 2048, val_main_v60 (F := Ideal) (cx3 xR) x1 (cx1 gR) (cx1 βR) (cx2 wqR) (cx1 bqR) (cx2 wkR) (cx1 bkR) (idx_main_v61 (ix3 b h s) k)
      = ((Real.exp (scR xR gR βR wqR bqR wkR bkR x1 b h s k - M) : ℝ) : EReal) := fun k => by
    have e : idx_main_v61 (ix3 b h s) k = ix4 b h s k := funext fun a => by match a with | ⟨0, _⟩ => rfl | ⟨1, _⟩ => rfl | ⟨2, _⟩ => rfl | ⟨3, _⟩ => rfl
    rw [e, exp_eq xR gR βR wqR bqR wkR bkR x1 b h s M hM]
  rw [Finset.sum_congr rfl (fun k _ => hk k), coe_sum]

/-- A softmax weight. -/
theorem weight_eq (t : Fin 2048) :
    val_main_v64 (F := Ideal) (cx3 xR) x1 (cx1 gR) (cx1 βR) (cx2 wqR) (cx1 bqR) (cx2 wkR) (cx1 bkR) (ix4 b h s t)
      = ((Real.exp (scR xR gR βR wqR bqR wkR bkR x1 b h s t - M) / (∑ t' : Fin 2048, Real.exp (scR xR gR βR wqR bqR wkR bkR x1 b h s t' - M)) : ℝ) : EReal) := by
  rw [val_main_v64_apply, val_main_v63_apply, val_main_v62_apply]
  have e : idx_main_v62 (idx_main_v63 (ix4 b h s t)) = ix3 b h s := funext fun a => by match a with | ⟨0, _⟩ => rfl | ⟨1, _⟩ => rfl | ⟨2, _⟩ => rfl
  rw [e, den_eq xR gR βR wqR bqR wkR bkR x1 b h s M hM, exp_eq xR gR βR wqR bqR wkR bkR x1 b h s M hM]
  simp only [Ideal.hostDivf_def]
  have hD : (∑ t' : Fin 2048, Real.exp (scR xR gR βR wqR bqR wkR bkR x1 b h s t' - M)) ≠ 0 :=
    (Finset.sum_pos (fun t' _ => Real.exp_pos _) ⟨⟨0, by decide⟩, Finset.mem_univ _⟩).ne'
  rw [Ideal.div_coe hD, ← EReal.coe_mul, mul_one_div]

/-- The weighted sum of the head's value column. -/
theorem wsum_eq (w : Fin 64) :
    val_main_v65 (F := Ideal) (cx3 xR) x1 (cx1 gR) (cx1 βR) (cx2 wqR) (cx1 bqR) (cx2 wkR) (cx1 bkR) (cx2 wvR) (cx1 bvR) (ix4 b h s w)
      = ((∑ t : Fin 2048, Real.exp (scR xR gR βR wqR bqR wkR bkR x1 b h s t - M) / (∑ t' : Fin 2048, Real.exp (scR xR gR βR wqR bqR wkR bkR x1 b h s t' - M))
          * proj Consts.eps xR gR βR wvR bvR (ix3 b t (col h w)) : ℝ) : EReal) := by
  rw [val_main_v65_apply]
  have hk : ∀ k : Fin 2048, val_main_v64 (F := Ideal) (cx3 xR) x1 (cx1 gR) (cx1 βR) (cx2 wqR) (cx1 bqR) (cx2 wkR) (cx1 bkR) (lidx_main_v65 (ix4 b h s w) k)
        * val_main_v41 (F := Ideal) (cx3 xR) (cx1 gR) (cx1 βR) (cx2 wvR) (cx1 bvR) (ridx_main_v65 (ix4 b h s w) k)
      = ((Real.exp (scR xR gR βR wqR bqR wkR bkR x1 b h s k - M) / (∑ t' : Fin 2048, Real.exp (scR xR gR βR wqR bqR wkR bkR x1 b h s t' - M))
          * proj Consts.eps xR gR βR wvR bvR (ix3 b k (col h w)) : ℝ) : EReal) := fun k => by
    have el : lidx_main_v65 (ix4 b h s w) k = ix4 b h s k := funext fun a => by match a with | ⟨0, _⟩ => rfl | ⟨1, _⟩ => rfl | ⟨2, _⟩ => rfl | ⟨3, _⟩ => rfl
    have er : ridx_main_v65 (ix4 b h s w) k = ix4 b h k w := funext fun a => by match a with | ⟨0, _⟩ => rfl | ⟨1, _⟩ => rfl | ⟨2, _⟩ => rfl | ⟨3, _⟩ => rfl
    rw [el, er, weight_eq xR gR βR wqR bqR wkR bkR x1 b h s M hM, headv_eq, EReal.coe_mul]
  rw [Finset.sum_congr rfl (fun k _ => hk k), coe_sum]

end Row

/-- The reference's result at an index is the specification's attention at the three projections. -/
theorem out_eq (b : Fin 2) (s : Fin 2048) (e : Fin 1024) :
    val_main_v68 (F := Ideal) (cx3 xR) x1 (cx1 gR) (cx1 βR) (cx2 wqR) (cx1 bqR) (cx2 wkR) (cx1 bkR) (cx2 wvR) (cx1 bvR) (ix3 b s e)
      = ((att (proj Consts.eps xR gR βR wqR bqR) (proj Consts.eps xR gR βR wkR bkR) (proj Consts.eps xR gR βR wvR bvR) (maskTerm x1) xR (ix3 b s e) : ℝ) : EReal) := by
  obtain ⟨M, hM⟩ := max_real xR gR βR wqR bqR wkR bkR x1 b (headOf e) s
  rw [val_main_v68_apply, val_main_v67_apply, val_main_v66_apply]
  have hi : idx_main_v66 (idx_main_v67 (ix3 b s e)) = ix4 b (headOf e) s (⟨e.val % 64, Nat.mod_lt _ (by norm_num)⟩ : Fin 64) := funext fun a => by
    have hb := b.isLt; have hs := s.isLt; have he := e.isLt
    match a with
    | ⟨0, _⟩ => exact Fin.ext (by show ((b.val * 2048 + s.val) * 1024 + e.val) / 2097152 = b.val; omega)
    | ⟨1, _⟩ => exact Fin.ext (by show ((b.val * 2048 + s.val) * 1024 + e.val) / 64 % 16 = e.val / 64; omega)
    | ⟨2, _⟩ => exact Fin.ext (by show ((b.val * 2048 + s.val) * 1024 + e.val) / 1024 % 2048 = s.val; omega)
    | ⟨3, _⟩ => exact Fin.ext (by show ((b.val * 2048 + s.val) * 1024 + e.val) % 64 = e.val % 64; omega)
  have hcol : col (headOf e) (⟨e.val % 64, Nat.mod_lt _ (by norm_num)⟩ : Fin 64) = e := Fin.ext (by show 64 * (e.val / 64) + e.val % 64 = e.val; omega)
  rw [hi, wsum_eq xR gR βR wqR bqR wkR bkR wvR bvR x1 b (headOf e) s M hM, hcol]
  simp only [Ideal.addf_def]
  rw [← EReal.coe_add, softmax_shift]
  rfl

end Cert.RefValue

end
-- ==== Proof.Finite.lean ====
/-
  Finiteness of the inputs.  The precondition takes, for each of the nine float arguments, the conjunction over all
  entries of "the absolute value is below plus infinity", and states that the conjunction of the nine is true.  Read as
  extended reals, an entry whose absolute value is below the top element is neither the top nor the bottom element, so
  it is a real; hence each float argument is the coercion of an array of reals.
-/
import proofs.«110207_j12077448037095_2_alg».proof.Proof.Gen.Pre_finite_inputs
import proofs.«110207_j12077448037095_2_alg».proof.Pre_finite_inputs
import proofs.«110207_j12077448037095_2_alg».proof.Defs
import proofs.«110207_j12077448037095_2_alg».proof.Proof.Spec
import Idealize.ShloMosaic.Lib.ReduceAll
import Idealize.ShloMosaic.Lib.ValueIdx

noncomputable section

namespace Cert.Finite

open Idealize.ShloMosaic Idealize.SL.Sem
open Cert.Pre_finite_inputs Cert.Pre_finite_inputs.Facts

/-- The shape with no axes has one index. -/
instance subsingleton_S_ : Subsingleton S_.Idx := ⟨fun a b => funext fun d => d.elim0⟩

/-- The pattern of plus infinity denotes the top element. -/
theorem ofBits_inf : Ideal.ofBits .f32 0x7F800000#32 = (⊤ : EReal) := by
  simp [Ideal.ofBits, Ideal.ieee]

/-- An extended real whose absolute value is below the top element is a real. -/
theorem real_of_abs_lt_top (x : EReal) (h : max x (-x) < ⊤) : ∃ r : ℝ, x = (r : EReal) := by
  induction x using EReal.rec with
  | bot => exact absurd h (by simp)
  | top => exact absurd h (by simp)
  | coe r => exact ⟨r, rfl⟩

/-- The element fact as the precondition spells it: the comparison "absolute value below the pattern of plus infinity"
    came out true. -/
theorem real_of_cmp (x : Ideal .f32)
    (h : FloatOps.cmpf (F := Ideal) .olt (FloatOps.hostAbsf x) (FloatOps.ofBits .f32 0x7F800000#32) = 1#1) :
    ∃ r : ℝ, x = (r : EReal) := by
  refine real_of_abs_lt_top x ?_
  have h' : BitVec.ofBool (decide (max x (-x) < Ideal.ofBits .f32 0x7F800000#32)) = 1#1 := h
  rw [ofBits_inf] at h'
  by_contra hn
  rw [decide_eq_false hn] at h'
  exact absurd h' (by decide)

/-- One argument: the conjunction over all its entries came out true, so the array is the coercion of a real array. -/
theorem real_array {s : Shape} {axes : List (Fin s.rank)} (hred : s.ReducesTo axes S_) (hb : S_.BroadcastsInDim s (![] : Fin 0 → Fin s.rank))
    (hpos : 0 < S_.numel) (a : FVec Ideal s .f32)
    (h : Host.reduce IntOp.andi (cmpf .olt (Host.absf a) (broadcastInDim s ![] hb (constant (F := Ideal) S_ .f32 0x7F800000#32)))
        (constantI S_ 1 1#1) hred hpos ValueIdx.ix0 = 1#1) :
    ∃ xR : s.Idx → ℝ, a = fun i => ((xR i : ℝ) : EReal) := by
  have hall : ∀ i : s.Idx, ∃ r : ℝ, a i = (r : EReal) := fun i =>
    real_of_cmp (a i) (Host.reduce_andi_all _ _ hred hpos ValueIdx.ix0 h i)
  choose xR hxR using hall
  exact ⟨xR, funext hxR⟩

/-- The precondition of one core's ten arguments makes each of the nine float arguments the coercion of a real array
    (the second argument is the integer mask, of which nothing is asked). -/
theorem real_args [Facts] (a0 : FVec Ideal S2x2048x1024 .f32) (a1 : IVec S2x2048 32) (a2 : FVec Ideal S1024 .f32) (a3 : FVec Ideal S1024 .f32) (a4 : FVec Ideal S1024x1024 .f32) (a5 : FVec Ideal S1024 .f32) (a6 : FVec Ideal S1024x1024 .f32) (a7 : FVec Ideal S1024 .f32) (a8 : FVec Ideal S1024x1024 .f32) (a9 : FVec Ideal S1024 .f32)
    (h : Cert.Pre_finite_inputs.fn (F := Ideal) a0 a1 a2 a3 a4 a5 a6 a7 a8 a9 = (fun _ => 1#1)) :
    (∃ xR : Spec.I3 → ℝ, a0 = fun i => ((xR i : ℝ) : EReal))
      ∧ (∃ xR : Spec.I1 → ℝ, a2 = fun i => ((xR i : ℝ) : EReal))
      ∧ (∃ xR : Spec.I1 → ℝ, a3 = fun i => ((xR i : ℝ) : EReal))
      ∧ (∃ xR : Spec.I2 → ℝ, a4 = fun i => ((xR i : ℝ) : EReal))
      ∧ (∃ xR : Spec.I1 → ℝ, a5 = fun i => ((xR i : ℝ) : EReal))
      ∧ (∃ xR : Spec.I2 → ℝ, a6 = fun i => ((xR i : ℝ) : EReal))
      ∧ (∃ xR : Spec.I1 → ℝ, a7 = fun i => ((xR i : ℝ) : EReal))
      ∧ (∃ xR : Spec.I2 → ℝ, a8 = fun i => ((xR i : ℝ) : EReal))
      ∧ (∃ xR : Spec.I1 → ℝ, a9 = fun i => ((xR i : ℝ) : EReal)) := by
  have h0 := congrFun h ValueIdx.ix0
  dsimp only [Cert.Pre_finite_inputs.fn, Cert.Pre_finite_inputs.fn_part1, Cert.Pre_finite_inputs.fn_part2] at h0
  simp only [andi, IntOp.andi_eq_one] at h0
  obtain ⟨⟨⟨⟨⟨⟨⟨⟨h0, h2⟩, h3⟩, h4⟩, h5⟩, h6⟩, h7⟩, h8⟩, h9⟩ := h0
  exact ⟨real_array reducesTo_S2x2048x1024_S_d0_1_2 bcast_S_S2x2048x1024 h_S_ a0 h0,
    real_array reducesTo_S1024_S_d0 bcast_S_S1024 h_S_ a2 h2,
    real_array reducesTo_S1024_S_d0 bcast_S_S1024 h_S_ a3 h3,
    real_array reducesTo_S1024x1024_S_d0_1 bcast_S_S1024x1024 h_S_ a4 h4,
    real_array reducesTo_S1024_S_d0 bcast_S_S1024 h_S_ a5 h5,
    real_array reducesTo_S1024x1024_S_d0_1 bcast_S_S1024x1024 h_S_ a6 h6,
    real_array reducesTo_S1024_S_d0 bcast_S_S1024 h_S_ a7 h7,
    real_array reducesTo_S1024x1024_S_d0_1 bcast_S_S1024x1024 h_S_ a8 h8,
    real_array reducesTo_S1024_S_d0 bcast_S_S1024 h_S_ a9 h9⟩

/-- The same of the kernel's launch memory, core by core: each float argument array is the coercion of a real array. -/
theorem real_mem (m : (ℓ : Loc Cert.KernelIdeal.nD Cert.KernelIdeal.τ Cert.KernelIdeal.sig) → Buf (Elt Ideal) ℓ)
    (hpre : Cert.Pre_KernelIdeal (hPre_finite_inputs := Cert.Pre_finite_inputs.Gen.facts) m) (c : Dev Cert.KernelIdeal.nD) :
    (∃ xR : Spec.I3 → ℝ, m ((c.tc : Thread Cert.KernelIdeal.nD Cert.KernelIdeal.τ).loc Cert.KernelIdeal.main_arg0) = fun i => ((xR i : ℝ) : EReal))
      ∧ (∃ xR : Spec.I1 → ℝ, m ((c.tc : Thread Cert.KernelIdeal.nD Cert.KernelIdeal.τ).loc Cert.KernelIdeal.main_arg2) = fun i => ((xR i : ℝ) : EReal))
      ∧ (∃ xR : Spec.I1 → ℝ, m ((c.tc : Thread Cert.KernelIdeal.nD Cert.KernelIdeal.τ).loc Cert.KernelIdeal.main_arg3) = fun i => ((xR i : ℝ) : EReal))
      ∧ (∃ xR : Spec.I2 → ℝ, m ((c.tc : Thread Cert.KernelIdeal.nD Cert.KernelIdeal.τ).loc Cert.KernelIdeal.main_arg4) = fun i => ((xR i : ℝ) : EReal))
      ∧ (∃ xR : Spec.I1 → ℝ, m ((c.tc : Thread Cert.KernelIdeal.nD Cert.KernelIdeal.τ).loc Cert.KernelIdeal.main_arg5) = fun i => ((xR i : ℝ) : EReal))
      ∧ (∃ xR : Spec.I2 → ℝ, m ((c.tc : Thread Cert.KernelIdeal.nD Cert.KernelIdeal.τ).loc Cert.KernelIdeal.main_arg6) = fun i => ((xR i : ℝ) : EReal))
      ∧ (∃ xR : Spec.I1 → ℝ, m ((c.tc : Thread Cert.KernelIdeal.nD Cert.KernelIdeal.τ).loc Cert.KernelIdeal.main_arg7) = fun i => ((xR i : ℝ) : EReal))
      ∧ (∃ xR : Spec.I2 → ℝ, m ((c.tc : Thread Cert.KernelIdeal.nD Cert.KernelIdeal.τ).loc Cert.KernelIdeal.main_arg8) = fun i => ((xR i : ℝ) : EReal))
      ∧ (∃ xR : Spec.I1 → ℝ, m ((c.tc : Thread Cert.KernelIdeal.nD Cert.KernelIdeal.τ).loc Cert.KernelIdeal.main_arg9) = fun i => ((xR i : ℝ) : EReal)) :=
  real_args (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (hpre c)

end Cert.Finite

end
-- ==== Proof.Alg.lean ====
/-
  The two idealized programs end with the same array.  Under the precondition every float argument is an array of
  reals.  The kernel's result array is what its second region leaves: the softmax-weighted average of the value
  rows plus x, computed from the three arrays its first region leaves (the three projections of the normalised x),
  the additive mask its host operations build from the integer mask, and x.  The reference's last operation, read
  index by index, is the same function of the same arrays.
-/
import proofs.«110207_j12077448037095_2_alg».proof.Proof.KI.Run
import proofs.«110207_j12077448037095_2_alg».proof.Proof.KI.R0Body
import proofs.«110207_j12077448037095_2_alg».proof.Proof.KI.R1Body
import proofs.«110207_j12077448037095_2_alg».proof.Proof.RefSoftmax
import proofs.«110207_j12077448037095_2_alg».proof.Proof.Finite

noncomputable section

namespace Cert.Proof.Alg

open Idealize.ShloMosaic Idealize.ShloMosaic.TcCoe Idealize.SL.Sem Idealize.ShloMosaic.ValueIdx
open Cert.KernelIdeal Cert.KernelIdeal.Gen Cert.KernelIdeal.Hand

/-- What the kernel's parts are known to compute, each for any contents its region is entered from. -/
structure Parts : Prop where
  arr0_q : ∀ (V : (c : Dev nD) → (b : Ref sig .tc) → Buf (Elt Ideal) ((c : Thread nD τ).loc b)) (c : Dev nD)
      (xR : Spec.I3 → ℝ) (gR βR : Spec.I1 → ℝ) (wR : Spec.I2 → ℝ) (bR : Spec.I1 → ℝ),
      V c main_arg0 = (fun i => ((xR i : ℝ) : EReal)) → V c main_arg2 = (fun i => ((gR i : ℝ) : EReal)) → V c main_arg3 = (fun i => ((βR i : ℝ) : EReal)) →
      V c main_v0 = (fun i => ((wR i : ℝ) : EReal)) → V c main_arg5 = (fun i => ((bR i : ℝ) : EReal)) →
      (dat0 (F := Ideal) V c).arrAt 9 cfg0.N = fun i => ((Spec.proj Consts.eps xR gR βR wR bR i : ℝ) : EReal)
  arr0_k : ∀ (V : (c : Dev nD) → (b : Ref sig .tc) → Buf (Elt Ideal) ((c : Thread nD τ).loc b)) (c : Dev nD)
      (xR : Spec.I3 → ℝ) (gR βR : Spec.I1 → ℝ) (wR : Spec.I2 → ℝ) (bR : Spec.I1 → ℝ),
      V c main_arg0 = (fun i => ((xR i : ℝ) : EReal)) → V c main_arg2 = (fun i => ((gR i : ℝ) : EReal)) → V c main_arg3 = (fun i => ((βR i : ℝ) : EReal)) →
      V c main_v1 = (fun i => ((wR i : ℝ) : EReal)) → V c main_arg7 = (fun i => ((bR i : ℝ) : EReal)) →
      (dat0 (F := Ideal) V c).arrAt 10 cfg0.N = fun i => ((Spec.proj Consts.eps xR gR βR wR bR i : ℝ) : EReal)
  arr0_v : ∀ (V : (c : Dev nD) → (b : Ref sig .tc) → Buf (Elt Ideal) ((c : Thread nD τ).loc b)) (c : Dev nD)
      (xR : Spec.I3 → ℝ) (gR βR : Spec.I1 → ℝ) (wR : Spec.I2 → ℝ) (bR : Spec.I1 → ℝ),
      V c main_arg0 = (fun i => ((xR i : ℝ) : EReal)) → V c main_arg2 = (fun i => ((gR i : ℝ) : EReal)) → V c main_arg3 = (fun i => ((βR i : ℝ) : EReal)) →
      V c main_v2 = (fun i => ((wR i : ℝ) : EReal)) → V c main_arg9 = (fun i => ((bR i : ℝ) : EReal)) →
      (dat0 (F := Ideal) V c).arrAt 11 cfg0.N = fun i => ((Spec.proj Consts.eps xR gR βR wR bR i : ℝ) : EReal)
  arr1_out : ∀ (V : (c : Dev nD) → (b : Ref sig .tc) → Buf (Elt Ideal) ((c : Thread nD τ).loc b)) (c : Dev nD)
      (qR kR vR : Spec.I3 → ℝ) (mR : Spec.IM → ℝ) (xR : Spec.I3 → ℝ),
      V c main_v3_0 = (fun i => ((qR i : ℝ) : EReal)) → V c main_v3_1 = (fun i => ((kR i : ℝ) : EReal)) → V c main_v3_2 = (fun i => ((vR i : ℝ) : EReal)) →
      V c main_v9 = (fun i => ((mR i : ℝ) : EReal)) → V c main_arg0 = (fun i => ((xR i : ℝ) : EReal)) →
      (dat1 (F := Ideal) V c).arrAt 5 cfg1.N = fun i => ((Spec.att qR kR vR mR xR i : ℝ) : EReal)
  host_w0 : ∀ (m : (ℓ : Loc nD τ sig) → Buf (Elt Ideal) ℓ) (ρ : Dev nD → PrngReg) (c : Dev nD),
      V1 (F := Ideal) m ρ c main_v0 = m ((c.tc : Thread nD τ).loc main_arg4)
  host_w1 : ∀ (m : (ℓ : Loc nD τ sig) → Buf (Elt Ideal) ℓ) (ρ : Dev nD → PrngReg) (c : Dev nD),
      V1 (F := Ideal) m ρ c main_v1 = m ((c.tc : Thread nD τ).loc main_arg6)
  host_w2 : ∀ (m : (ℓ : Loc nD τ sig) → Buf (Elt Ideal) ℓ) (ρ : Dev nD → PrngReg) (c : Dev nD),
      V1 (F := Ideal) m ρ c main_v2 = m ((c.tc : Thread nD τ).loc main_arg8)
  host_mask : ∀ (m : (ℓ : Loc nD τ sig) → Buf (Elt Ideal) ℓ) (ρ : Dev nD → PrngReg) (c : Dev nD) (b : Fin 2) (t : Fin 2048),
      V3 (F := Ideal) m ρ c main_v9 (ix3 b (0 : Fin 1) t)
        = (((-10000 : ℝ) * (1 - ((((m ((c.tc : Thread nD τ).loc main_arg1)) (ix2 b t) : BitVec 32).toInt : ℤ) : ℝ)) : ℝ) : EReal)

variable (m : (ℓ : Loc nD τ sig) → Buf (Elt Ideal) ℓ) (ρ : Dev nD → PrngReg) (c : Dev nD)

/-- The kernel's result array, from real arguments: the specification at the three projections and the mask term. -/
theorem kernel_value (P : Parts) (xR : Spec.I3 → ℝ) (gR βR : Spec.I1 → ℝ) (wqR : Spec.I2 → ℝ) (bqR : Spec.I1 → ℝ) (wkR : Spec.I2 → ℝ)
    (bkR : Spec.I1 → ℝ) (wvR : Spec.I2 → ℝ) (bvR : Spec.I1 → ℝ)
    (hx : m ((c.tc : Thread nD τ).loc main_arg0) = (fun i => ((xR i : ℝ) : EReal))) (hg : m ((c.tc : Thread nD τ).loc main_arg2) = (fun i => ((gR i : ℝ) : EReal))) (hβ : m ((c.tc : Thread nD τ).loc main_arg3) = (fun i => ((βR i : ℝ) : EReal)))
    (hwq : m ((c.tc : Thread nD τ).loc main_arg4) = (fun i => ((wqR i : ℝ) : EReal))) (hbq : m ((c.tc : Thread nD τ).loc main_arg5) = (fun i => ((bqR i : ℝ) : EReal)))
    (hwk : m ((c.tc : Thread nD τ).loc main_arg6) = (fun i => ((wkR i : ℝ) : EReal))) (hbk : m ((c.tc : Thread nD τ).loc main_arg7) = (fun i => ((bkR i : ℝ) : EReal)))
    (hwv : m ((c.tc : Thread nD τ).loc main_arg8) = (fun i => ((wvR i : ℝ) : EReal))) (hbv : m ((c.tc : Thread nD τ).loc main_arg9) = (fun i => ((bvR i : ℝ) : EReal))) :
    W4 (F := Ideal) m ρ c (Proc.devRef .tc main_v10)
      = fun i => ((Spec.att (Spec.proj Consts.eps xR gR βR wqR bqR) (Spec.proj Consts.eps xR gR βR wkR bkR)
          (Spec.proj Consts.eps xR gR βR wvR bvR) (Cert.RefValue.maskTerm (m ((c.tc : Thread nD τ).loc main_arg1))) xR i : ℝ) : EReal) := by
  have hx1 := (V1_main_arg0 m ρ c).trans hx
  have hg1 := (V1_main_arg2 m ρ c).trans hg
  have hβ1 := (V1_main_arg3 m ρ c).trans hβ
  have hq := (V3_q m ρ c).trans (P.arr0_q (V1 m ρ) c xR gR βR wqR bqR hx1 hg1 hβ1 ((P.host_w0 m ρ c).trans hwq) ((V1_main_arg5 m ρ c).trans hbq))
  have hk := (V3_k m ρ c).trans (P.arr0_k (V1 m ρ) c xR gR βR wkR bkR hx1 hg1 hβ1 ((P.host_w1 m ρ c).trans hwk) ((V1_main_arg7 m ρ c).trans hbk))
  have hv := (V3_v m ρ c).trans (P.arr0_v (V1 m ρ) c xR gR βR wvR bvR hx1 hg1 hβ1 ((P.host_w2 m ρ c).trans hwv) ((V1_main_arg9 m ρ c).trans hbv))
  have hm : V3 m ρ c main_v9 = fun i => ((Cert.RefValue.maskTerm (m ((c.tc : Thread nD τ).loc main_arg1)) i : ℝ) : EReal) := by
    funext i
    have e : i = ix3 (i 0) (0 : Fin 1) (i 2) := funext fun a => by
      match a with
      | ⟨0, _⟩ => rfl
      | ⟨1, h1⟩ => exact Fin.ext (by have h : (i ⟨1, h1⟩).val < 1 := (i ⟨1, h1⟩).isLt; show (i ⟨1, h1⟩).val = 0; omega)
      | ⟨2, _⟩ => rfl
    exact (congrArg (V3 m ρ c main_v9) e).trans (P.host_mask m ρ c (i 0) (i 2))
  exact (W4_out m ρ c).trans (P.arr1_out (V3 m ρ) c _ _ _ _ xR hq hk hv hm ((V3_x m ρ c).trans hx))

/-- The algebraic claim: both runs end, with the same result array and unchanged arguments. -/
theorem algebraic (P : Parts) :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) := by
  intro m ρ m' ρ' hpre hagree
  refine ⟨fun c => (show Buf (Elt Ideal) ((c.tc : Thread nD τ).loc main_v10) from W4 (F := Ideal) m ρ c (Proc.devRef .tc main_v10)), ?_, ?_⟩
  · refine (θ_run Cert.KernelIdeal.defs _ _).mono (fun r h c => ?_)
      (run_all (F := Ideal) m ρ (fun c => body_obligation0 _ c) (fun c => body_obligation1 _ c) (fun c => hin1 _ c) (fun c => hout1 _ c))
    exact ⟨h c _ (mem_uc main_v10 (by decide)),
      (h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c),
      (h c _ (mem_uc main_arg5 (by decide))).trans (W4_main_arg5 m ρ c),
      (h c _ (mem_uc main_arg6 (by decide))).trans (W4_main_arg6 m ρ c),
      (h c _ (mem_uc main_arg7 (by decide))).trans (W4_main_arg7 m ρ c),
      (h c _ (mem_uc main_arg8 (by decide))).trans (W4_main_arg8 m ρ c),
      (h c _ (mem_uc main_arg9 (by decide))).trans (W4_main_arg9 m ρ c)⟩
  · refine (θ_run Cert.ReferenceIdeal.defs _ _).mono (fun r h c => ⟨?_, (h c).2⟩)
      (Cert.ReferenceIdeal.Value.run (F := Ideal) m' ρ')
    obtain ⟨⟨xR, hx⟩, ⟨gR, hg⟩, ⟨βR, hβ⟩, ⟨wqR, hwq⟩, ⟨bqR, hbq⟩, ⟨wkR, hwk⟩, ⟨bkR, hbk⟩, ⟨wvR, hwv⟩, ⟨bvR, hbv⟩⟩ :=
      Cert.Finite.real_mem m hpre c
    beta_reduce
    rw [(h c).1, Cert.ReferenceIdeal.Read.val_main_v68_eq, (hagree c).1, (hagree c).2.1, (hagree c).2.2.1, (hagree c).2.2.2.1,
      (hagree c).2.2.2.2.1, (hagree c).2.2.2.2.2.1, (hagree c).2.2.2.2.2.2.1, (hagree c).2.2.2.2.2.2.2.1,
      (hagree c).2.2.2.2.2.2.2.2.1, (hagree c).2.2.2.2.2.2.2.2.2,
      kernel_value m ρ c P xR gR βR wqR bqR wkR bkR wvR bvR hx hg hβ hwq hbq hwk hbk hwv hbv,
      hx, hg, hβ, hwq, hbq, hwk, hbk, hwv, hbv]
    funext i
    rw [eq_ix3 i]
    exact Cert.RefValue.out_eq xR gR βR wqR bqR wkR bkR wvR bvR _ (i 0) (i 1) (i 2)

end Cert.Proof.Alg

end
-- ==== Proof.LibColumn.lean ====
/-
  Small general lemmas: the keep-dimension column forms of a cast and a broadcast read at an index, and a lane
  maximum, a lane sum and the host's maximum-reduce over the columns of a rank-2 array read at a row.
-/
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx

namespace Cert.Lib

variable {α : Type}

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- An `[a, 1]` array broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A reduced row index with the column put back is the pair. -/
theorem lift_row {n m : ℕ} (h : (⟨2, ![n, m]⟩ : Shape).Reduces [1] (⟨1, ![n]⟩ : Shape)) (r : Fin n)
    (k : Fin ((⟨2, ![n, m]⟩ : Shape).size 1)) : h.lift (ix1 r) k = ix2 r (⟨k.val, k.isLt⟩ : Fin m) := by
  funext c; apply Fin.ext
  fin_cases c <;> rfl

/-- A lane maximum of an `[n, m]` vector at row `r` is the fold of `max` over that row. -/
theorem multiReduction_max_row {n m : ℕ} (z : FVec Ideal ⟨2, ![n, m]⟩ .f32)
    (h : (⟨2, ![n, m]⟩ : Shape).Reduces [1] (⟨1, ![n]⟩ : Shape)) (hφ : FKind.Formats .f32)
    (hacc : (0xFF800000#32 : BitVec 32) = 0xFF800000#32) (r : Fin n) :
    multiReduction .maximumf [1] ⟨1, ![n]⟩ z 0xFF800000#32 h hφ hacc (ix1 r)
      = (Finset.univ : Finset (Fin m)).fold max (Ideal.ofBits .f32 0xFF800000#32) fun j => z (ix2 r j) := by
  refine (Ideal.multiReduction_maximumf_single z 0xFF800000#32 h hφ hacc (ix1 r)).trans ?_
  have hf : (z ∘ h.lift (ix1 r)) = fun k : Fin m => z (ix2 r k) := funext fun k => congrArg z (lift_row h r k)
  exact congrArg (fun f => Finset.fold max (Ideal.ofBits .f32 0xFF800000#32) f (Finset.univ : Finset (Fin m))) hf

/-- A lane sum of an `[n, m]` vector at row `r` is the sum over that row. -/
theorem multiReduction_add_row {n m : ℕ} (z : FVec Ideal ⟨2, ![n, m]⟩ .f32)
    (h : (⟨2, ![n, m]⟩ : Shape).Reduces [1] (⟨1, ![n]⟩ : Shape)) (hφ : FKind.Formats .f32)
    (hacc : (0x00000000#32 : BitVec 32) = 0x00000000#32) (r : Fin n) :
    multiReduction .add [1] ⟨1, ![n]⟩ z 0x00000000#32 h hφ hacc (ix1 r) = ∑ j : Fin m, z (ix2 r j) := by
  refine (Ideal.multiReduction_add_single z 0x00000000#32 h hφ hacc (ix1 r)).trans ?_
  exact Finset.sum_congr rfl fun k _ => congrArg z (lift_row h r k)

/-- The host's reduce with a maximum body over the columns, at row `r`: the fold of `max` over that row from the initial value. -/
theorem hostReduce_max_row {n m : ℕ} (x : FVec Ideal ⟨2, ![n, m]⟩ .f32) (init : (⟨0, ![]⟩ : Shape).Idx → EReal)
    (h' : (⟨2, ![n, m]⟩ : Shape).ReducesTo [1] (⟨1, ![n]⟩ : Shape)) (h : (⟨2, ![n, m]⟩ : Shape).Reduces [1] (⟨1, ![n]⟩ : Shape))
    (hu : 0 < (⟨0, ![]⟩ : Shape).numel) (r : Fin n) :
    Host.reduce FloatOps.maximumf x init h' hu (ix1 r) = (Finset.univ : Finset (Fin m)).fold max (init ix0) fun j => x (ix2 r j) := by
  rw [Host.reduce_eq_fold_single FloatOps.maximumf x init h' h hu]
  have hf : (x ∘ h.lift (ix1 r)) = fun k : Fin m => x (ix2 r k) := funext fun k => congrArg x (lift_row h r k)
  have hi : init (Shape.Idx.first hu) = init ix0 := congrArg init (eq_ix0 _)
  rw [hi]
  exact congrArg (fun f => Finset.fold max (init ix0) f (Finset.univ : Finset (Fin m))) hf

/-- The logarithm and the exponential of a vector at an index are those of the element. -/
theorem log_apply {s : Shape} {φ : FTy} (x : FVec Ideal s φ) (i : s.Idx) : log x i = Ideal.log (x i) := rfl
theorem exp_apply {s : Shape} {φ : FTy} (x : FVec Ideal s φ) (i : s.Idx) : exp x i = Ideal.exp (x i) := rfl

end Cert.Lib

end
-- ==== Proof.KI.Pay0.lean ====
/-
  Region 0's three stored blocks read at an index, on the extended reals.

  The normalised block is, entry by entry, (x − mean) · rsqrt(variance + offset) · g + b with the mean and the variance
  of the entry's row taken as lane sums divided by the literal 1024; the mean and the reciprocal root are columns laid
  along the row, the scale and the shift rows laid down the columns.  A projected block is, entry by entry, the inner
  product of a normalised row with a column of the weights, plus the bias entry of that column: the matrix product into
  a zero accumulator is the plain sum over the one contracted axis.
-/
import proofs.«110207_j12077448037095_2_alg».proof.Proof.KI.Data
import proofs.«110207_j12077448037095_2_alg».proof.Proof.LibColumn
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Hand.V0

open Idealize.ShloMosaic Idealize.ShloMosaic.TcCoe Idealize.ShloMosaic.ValueIdx
open Idealize.SL.Sem
open Cert.KernelIdeal Cert.KernelIdeal.Gen Cert.KernelIdeal.Hand

/-! ## The pieces of the normalisation, named -/

/-- A block of x with its leading unit axis dropped. -/
def xs (x : Vec Ideal S1x512x1024 .f32) : FVec Ideal S512x1024 .f32 :=
  shapeCast S512x1024 x shapeCasts_S1x512x1024_S512x1024

/-- Each row's lane sum divided by 1024, laid along the row. -/
def meanCol (z : FVec Ideal S512x1024 .f32) : FVec Ideal S512x1024 .f32 :=
  broadcastTo S512x1024
    (divf (shapeCast S512x1 (multiReduction .add [1] S512 z 0x00000000#32 reduces_S512x1024_S512 (.inl rfl) rfl) shapeCasts_S512_S512x1)
      (broadcast S512x1 (Scalar.ofBits .f32 0x44800000#32)))
    broadcasts_S512x1_S512x1024

/-- The centred block. -/
def cen (x : Vec Ideal S1x512x1024 .f32) : FVec Ideal S512x1024 .f32 := subf (xs x) (meanCol (xs x))

/-- The reciprocal root of each row's mean square plus the offset, laid along the row. -/
def rstdCol (c : FVec Ideal S512x1024 .f32) : FVec Ideal S512x1024 .f32 :=
  broadcastTo S512x1024
    (rsqrt (addf
      (divf (shapeCast S512x1 (multiReduction .add [1] S512 (mulf c c) 0x00000000#32 reduces_S512x1024_S512 (.inl rfl) rfl) shapeCasts_S512_S512x1)
        (broadcast S512x1 (Scalar.ofBits .f32 0x44800000#32)))
      (broadcast S512x1 (Scalar.ofBits .f32 0x3727C5AC#32))))
    broadcasts_S512x1_S512x1024

/-- A vector of 1024 entries laid down the 512 rows. -/
def rowB (g : Vec Ideal S1024 .f32) : FVec Ideal S512x1024 .f32 :=
  broadcastTo S512x1024 (shapeCast S1x1024 g shapeCasts_S1024_S1x1024) broadcasts_S1x1024_S512x1024

/-- The normalised block is the centred block times the reciprocal-root column times the scale row plus the shift row. -/
theorem lnOut_eq (x : Vec Ideal S1x512x1024 .f32) (g b : Vec Ideal S1024 .f32) :
    lnOut x g b = fun i => cen x i * rstdCol (cen x) i * rowB g i + rowB b i := rfl

/-! ## Each piece at an index -/

theorem xs_apply (x : Vec Ideal S1x512x1024 .f32) (r : Fin 512) (e : Fin 1024) :
    xs x (ix2 r e) = x (ix3 (0 : Fin 1) r e) :=
  shapeCast_1ab_ab_apply x shapeCasts_S1x512x1024_S512x1024 r e

theorem meanCol_apply (z : FVec Ideal S512x1024 .f32) (r : Fin 512) (e : Fin 1024) :
    meanCol z (ix2 r e) = Ideal.div (∑ j : Fin 1024, z (ix2 r j)) (Ideal.ofBits .f32 0x44800000#32) := by
  unfold meanCol
  refine (Cert.Lib.broadcastTo_a1_ab_apply _ broadcasts_S512x1_S512x1024 r e).trans ?_
  show Ideal.div (shapeCast S512x1 (multiReduction (F := Ideal) .add [1] S512 z 0x00000000#32 reduces_S512x1024_S512 (.inl rfl) rfl) shapeCasts_S512_S512x1 (ix2 r (0 : Fin 1))) (Ideal.ofBits .f32 0x44800000#32) = _
  refine congrArg (fun t => Ideal.div t (Ideal.ofBits .f32 0x44800000#32)) ?_
  refine (Cert.Lib.shapeCast_a_a1_apply _ shapeCasts_S512_S512x1 r (0 : Fin 1)).trans ?_
  exact Cert.Lib.multiReduction_add_row z reduces_S512x1024_S512 (.inl rfl) rfl r

theorem rstdCol_apply (c : FVec Ideal S512x1024 .f32) (r : Fin 512) (e : Fin 1024) :
    rstdCol c (ix2 r e)
      = Ideal.rsqrt (Ideal.div (∑ j : Fin 1024, c (ix2 r j) * c (ix2 r j)) (Ideal.ofBits .f32 0x44800000#32) + Ideal.ofBits .f32 0x3727C5AC#32) := by
  unfold rstdCol
  refine (Cert.Lib.broadcastTo_a1_ab_apply _ broadcasts_S512x1_S512x1024 r e).trans ?_
  show Ideal.rsqrt (Ideal.div (shapeCast S512x1 (multiReduction (F := Ideal) .add [1] S512 (mulf c c) 0x00000000#32 reduces_S512x1024_S512 (.inl rfl) rfl) shapeCasts_S512_S512x1 (ix2 r (0 : Fin 1))) (Ideal.ofBits .f32 0x44800000#32) + Ideal.ofBits .f32 0x3727C5AC#32) = _
  refine congrArg (fun t => Ideal.rsqrt (Ideal.div t (Ideal.ofBits .f32 0x44800000#32) + Ideal.ofBits .f32 0x3727C5AC#32)) ?_
  refine (Cert.Lib.shapeCast_a_a1_apply _ shapeCasts_S512_S512x1 r (0 : Fin 1)).trans ?_
  exact Cert.Lib.multiReduction_add_row (mulf c c) reduces_S512x1024_S512 (.inl rfl) rfl r

theorem rowB_apply (g : Vec Ideal S1024 .f32) (r : Fin 512) (e : Fin 1024) : rowB g (ix2 r e) = g (ix1 e) := by
  unfold rowB
  refine (broadcastTo_1b_ab_apply _ broadcasts_S1x1024_S512x1024 r e).trans ?_
  exact shapeCast_a_1a_apply g shapeCasts_S1024_S1x1024 (0 : Fin 1) e

theorem cen_apply (x : Vec Ideal S1x512x1024 .f32) (r : Fin 512) (e : Fin 1024) :
    cen x (ix2 r e) = x (ix3 (0 : Fin 1) r e) - Ideal.div (∑ j : Fin 1024, x (ix3 (0 : Fin 1) r j)) (Ideal.ofBits .f32 0x44800000#32) := by
  show xs x (ix2 r e) - meanCol (xs x) (ix2 r e) = _
  rw [xs_apply, meanCol_apply]
  refine congrArg (fun t => x (ix3 (0 : Fin 1) r e) - Ideal.div t (Ideal.ofBits .f32 0x44800000#32)) ?_
  exact Finset.sum_congr rfl fun j _ => xs_apply x r j

/-- THE NORMALISED BLOCK AT (r, e). -/
theorem lnOut_apply (x : Vec Ideal S1x512x1024 .f32) (g b : Vec Ideal S1024 .f32) (r : Fin 512) (e : Fin 1024) :
    lnOut x g b (ix2 r e)
      = cen x (ix2 r e)
          * Ideal.rsqrt (Ideal.div (∑ j : Fin 1024, cen x (ix2 r j) * cen x (ix2 r j)) (Ideal.ofBits .f32 0x44800000#32) + Ideal.ofBits .f32 0x3727C5AC#32)
          * g (ix1 e) + b (ix1 e) := by
  rw [lnOut_eq]
  show cen x (ix2 r e) * rstdCol (cen x) (ix2 r e) * rowB g (ix2 r e) + rowB b (ix2 r e) = _
  rw [rstdCol_apply, rowB_apply, rowB_apply]

/-! ## The matrix product at an index -/

theorem lhs_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide),
    dif_pos (show (0 : Fin S512x1024.rank) ∈ dot_S512x1024_S1024x1024_S512x1024_1_0_0_1_n_n.lhsNonContracting by decide)]
  rfl

theorem lhs_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q

theorem rhs_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q

theorem rhs_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide),
    dif_pos (show (1 : Fin S1024x1024.rank) ∈ dot_S512x1024_S1024x1024_S512x1024_1_0_0_1_n_n.rhsNonContracting by decide)]
  rfl

/-- A [512,1024] by [1024,1024] product into a zero accumulator, at (r, e): the sum over the contracted axis. -/
theorem matmul0_apply (a : FVec Ideal S512x1024 .bf16) (w : FVec Ideal S1024x1024 .bf16) (r : Fin 512) (e : Fin 1024) :
    matmul dot_S512x1024_S1024x1024_S512x1024_1_0_0_1_n_n none a w (constant (F := Ideal) S512x1024 .f32 0x00000000#32) (ix2 r e)
      = ∑ d : Fin 1024, a (ix2 r d) * w (ix2 d e) := by
  show FloatOps.matmul dot_S512x1024_S1024x1024_S512x1024_1_0_0_1_n_n none a w (constant (F := Ideal) S512x1024 .f32 0x00000000#32) (ix2 r e) = _
  rw [Ideal.matmul_constant_zero_apply, ← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 r e) ((contrEquiv1 dot_S512x1024_S1024x1024_S512x1024_1_0_0_1_n_n 1024 rfl rfl).symm k) = ix2 r k :=
    funext fun ax => Fin.ext (by
      match ax with
      | ⟨0, _⟩ => exact lhs_0 _ _
      | ⟨1, _⟩ => exact (lhs_1 _ _).trans hk)
  have er : dot_S512x1024_S1024x1024_S512x1024_1_0_0_1_n_n.rhsIdx (ix2 r e) ((contrEquiv1 dot_S512x1024_S1024x1024_S512x1024_1_0_0_1_n_n 1024 rfl rfl).symm k) = ix2 k e :=
    funext fun ax => Fin.ext (by
      match ax with
      | ⟨0, _⟩ => exact (rhs_0 _ _).trans hk
      | ⟨1, _⟩ => exact rhs_1 _ _)
  rw [el, er]

/-! ## A projected block -/

/-- A block times the weights plus the bias row, stored with a leading unit axis. -/
def projOut (a : FVec Ideal S512x1024 .bf16) (w : Vec Ideal S1024x1024 .bf16) (bias : Vec Ideal S1024 .f32) : FVec Ideal S1x512x1024 .bf16 :=
  shapeCast S1x512x1024
    (truncf .bf16
      (addf (matmul dot_S512x1024_S1024x1024_S512x1024_1_0_0_1_n_n none a (shapeCast S1024x1024 w shapeCasts_S1024x1024_S1024x1024 : FVec Ideal S1024x1024 .bf16) (constant S512x1024 .f32 0x00000000#32))
        (rowB bias))
      bitsLt_bf16_f32)
    shapeCasts_S512x1024_S1x512x1024

theorem qOut_eq (x : Vec Ideal S1x512x1024 .f32) (g b : Vec Ideal S1024 .f32) (w : Vec Ideal S1024x1024 .bf16) (bias : Vec Ideal S1024 .f32) :
    qOut x g b w bias = projOut (lnOut x g b) w bias := rfl
theorem kOut_eq (x : Vec Ideal S1x512x1024 .f32) (g b : Vec Ideal S1024 .f32) (w : Vec Ideal S1024x1024 .bf16) (bias : Vec Ideal S1024 .f32) :
    kOut x g b w bias = projOut (lnOut x g b) w bias := rfl
theorem vOut_eq (x : Vec Ideal S1x512x1024 .f32) (g b : Vec Ideal S1024 .f32) (w : Vec Ideal S1024x1024 .bf16) (bias : Vec Ideal S1024 .f32) :
    vOut x g b w bias = projOut (lnOut x g b) w bias := rfl

/-- A PROJECTED BLOCK AT (u, r, e): the row's inner product with the weights' column, plus the column's bias. -/
theorem projOut_apply (a : FVec Ideal S512x1024 .bf16) (w : Vec Ideal S1024x1024 .bf16) (bias : Vec Ideal S1024 .f32)
    (u : Fin 1) (r : Fin 512) (e : Fin 1024) :
    projOut a w bias (ix3 u r e) = (∑ d : Fin 1024, a (ix2 r d) * w (ix2 d e)) + bias (ix1 e) := by
  unfold projOut
  refine (shapeCast_ab_1ab_apply _ shapeCasts_S512x1024_S1x512x1024 u r e).trans ?_
  show matmul dot_S512x1024_S1024x1024_S512x1024_1_0_0_1_n_n none a (shapeCast S1024x1024 w shapeCasts_S1024x1024_S1024x1024 : FVec Ideal S1024x1024 .bf16) (constant (F := Ideal) S512x1024 .f32 0x00000000#32) (ix2 r e)
      + rowB bias (ix2 r e) = _
  rw [matmul0_apply, rowB_apply, shapeCast_self]

end Cert.KernelIdeal.Hand.V0

end
-- ==== Proof.KI.LnAlg.lean ====
/-
  The arithmetic of one normalised row and of one projected entry, on the extended reals.

  A row of 1024 reals, read as extended reals, is normalised by the exact operations: its sum divided by 1024 is the
  mean; the sum of squared deviations divided by 1024 is the variance; the variance plus a positive offset is a positive
  real, so its reciprocal square root is the real 1/√(·); products and sums of reals stay real.  Hence the normalised,
  scaled and shifted entry is the coercion of the real formula, and an inner product of such a row with a real column
  plus a real bias is the coercion of the real inner product plus the bias.
-/
import Idealize.ShloMosaic.PureOps.Ideal
import Idealize.ShloMosaic.PureOps.Ideal.Laws
import proofs.«110207_j12077448037095_2_alg».proof.Proof.Consts
import proofs.«110207_j12077448037095_2_alg».proof.Proof.Spec

noncomputable section

open scoped BigOperators

namespace Cert.KernelIdeal.Hand.V0

open Idealize.ShloMosaic

/-- A finite sum of reals read as extended reals is the sum read as an extended real. -/
theorem coe_sum {ι : Type*} (s : Finset ι) (f : ι → ℝ) :
    ∑ j ∈ s, ((f j : ℝ) : EReal) = ((∑ j ∈ s, f j : ℝ) : EReal) := by
  classical
  induction s using Finset.induction_on with
  | empty => simp
  | insert a s ha ih => rw [Finset.sum_insert ha, Finset.sum_insert ha, ih, EReal.coe_add]

/-- A real divided by the literal 1024. -/
theorem div_1024 (a : ℝ) : Ideal.div (a : EReal) (Ideal.ofBits .f32 0x44800000#32) = ((a / 1024 : ℝ) : EReal) := by
  rw [Consts.ofBits_1024, Ideal.div_coe (by norm_num : (1024 : ℝ) ≠ 0), ← EReal.coe_mul, mul_one_div]

/-- The reciprocal square root of a positive real. -/
theorem rsqrt_coe_pos {r : ℝ} (hr : 0 < r) : Ideal.rsqrt (r : EReal) = ((1 / Real.sqrt r : ℝ) : EReal) := by
  have h1 : Ideal.rsqrt (r : EReal) = if r < 0 then ⊥ else if r = 0 then ⊤ else (((Real.sqrt r)⁻¹ : ℝ) : EReal) := rfl
  rw [h1, if_neg (not_lt.mpr hr.le), if_neg hr.ne', one_div]

/-- The mean of a real row, by the exact operations. -/
theorem mean_row (x : Fin 1024 → ℝ) :
    Ideal.div (∑ j, ((x j : ℝ) : EReal)) (Ideal.ofBits .f32 0x44800000#32) = (((∑ j, x j) / 1024 : ℝ) : EReal) := by
  rw [coe_sum, div_1024]

/-- The variance of a real row about a real centre, by the exact operations. -/
theorem var_row (x : Fin 1024 → ℝ) (m : ℝ) :
    Ideal.div (∑ j, (((x j : ℝ) : EReal) - (m : EReal)) * (((x j : ℝ) : EReal) - (m : EReal))) (Ideal.ofBits .f32 0x44800000#32)
      = (((∑ j, (x j - m) * (x j - m)) / 1024 : ℝ) : EReal) := by
  have h : ∀ j, (((x j : ℝ) : EReal) - (m : EReal)) * (((x j : ℝ) : EReal) - (m : EReal)) = (((x j - m) * (x j - m) : ℝ) : EReal) := by
    intro j; rw [← EReal.coe_sub, ← EReal.coe_mul]
  rw [Finset.sum_congr rfl fun j _ => h j, coe_sum, div_1024]

/-- A sum of squares over 1024 is nonnegative. -/
theorem var_nonneg (x : Fin 1024 → ℝ) (m : ℝ) : 0 ≤ (∑ j, (x j - m) * (x j - m)) / 1024 :=
  div_nonneg (Finset.sum_nonneg fun j _ => mul_self_nonneg _) (by norm_num)

/-- The normalised, scaled and shifted entry of a real row, by the exact operations, is the real formula. -/
theorem ln_entry (x : Fin 1024 → ℝ) (g b : ℝ) (d : Fin 1024) (M V : EReal)
    (hM : M = Ideal.div (∑ j, ((x j : ℝ) : EReal)) (Ideal.ofBits .f32 0x44800000#32))
    (hV : V = Ideal.div (∑ j, (((x j : ℝ) : EReal) - M) * (((x j : ℝ) : EReal) - M)) (Ideal.ofBits .f32 0x44800000#32)) :
    (((x d : ℝ) : EReal) - M) * Ideal.rsqrt (V + Ideal.ofBits .f32 0x3727C5AC#32) * (g : EReal) + (b : EReal)
      = (((x d - (∑ j, x j) / 1024) * (1 / Real.sqrt ((∑ j, (x j - (∑ j, x j) / 1024) * (x j - (∑ j, x j) / 1024)) / 1024 + Consts.eps)) * g + b : ℝ) : EReal) := by
  rw [mean_row] at hM
  subst hM
  rw [var_row] at hV
  subst hV
  have hpos : 0 < (∑ j, (x j - (∑ j, x j) / 1024) * (x j - (∑ j, x j) / 1024)) / 1024 + Consts.eps :=
    add_pos_of_nonneg_of_pos (var_nonneg x _) Consts.eps_pos
  rw [Consts.ofBits_eps, ← EReal.coe_add, rsqrt_coe_pos hpos, ← EReal.coe_sub, ← EReal.coe_mul, ← EReal.coe_mul, ← EReal.coe_add]

/-- An inner product of two real rows plus a real, read on the extended reals, is the real inner product plus the real. -/
theorem dot_bias (a w : Fin 1024 → ℝ) (c : ℝ) :
    (∑ d, ((a d : ℝ) : EReal) * ((w d : ℝ) : EReal)) + (c : EReal) = (((∑ d, a d * w d) + c : ℝ) : EReal) := by
  rw [Finset.sum_congr rfl fun d _ => (EReal.coe_mul (a d) (w d)).symm, coe_sum, ← EReal.coe_add]

end Cert.KernelIdeal.Hand.V0

end
-- ==== Proof.KI.Proj0.lean ====
/-
  A projected block of region 0 on real inputs.

  When the block of x holds the reals of rows s0 … s0+511 of batch b, and the scale, the shift, the weights and the bias
  hold reals, the projected block holds at (·, r, e) the real projection of row s0 + r at column e: the row's mean and
  variance are those of the real row, the normalised entries are real, and so is their inner product with a column of
  the weights plus the bias.
-/
import proofs.«110207_j12077448037095_2_alg».proof.Proof.KI.Pay0
import proofs.«110207_j12077448037095_2_alg».proof.Proof.KI.LnAlg

set_option maxRecDepth 16384

noncomputable section

open scoped BigOperators

namespace Cert.KernelIdeal.Hand.V0

open Idealize.ShloMosaic Idealize.ShloMosaic.TcCoe Idealize.ShloMosaic.ValueIdx
open Idealize.SL.Sem
open Cert.KernelIdeal Cert.KernelIdeal.Gen Cert.KernelIdeal.Hand

/-- The normalised block on a real block of x: entry (r, d) is the real normalised entry of row s0 + r. -/
theorem lnOut_real (x : Vec Ideal S1x512x1024 .f32) (g β : Vec Ideal S1024 .f32)
    (xR : Spec.I3 → ℝ) (gR βR : Spec.I1 → ℝ) (b : Fin 2) (s : Fin 512 → Fin 2048)
    (hx : ∀ (r : Fin 512) (j : Fin 1024), x (ix3 (0 : Fin 1) r j) = ((xR (ix3 b (s r) j) : ℝ) : EReal))
    (hg : ∀ e : Fin 1024, g (ix1 e) = ((gR (ix1 e) : ℝ) : EReal))
    (hβ : ∀ e : Fin 1024, β (ix1 e) = ((βR (ix1 e) : ℝ) : EReal))
    (r : Fin 512) (d : Fin 1024) :
    lnOut x g β (ix2 r d) = ((Spec.xn Consts.eps xR gR βR b (s r) d : ℝ) : EReal) := by
  rw [lnOut_apply]
  have hc : ∀ j : Fin 1024, cen x (ix2 r j)
      = ((xR (ix3 b (s r) j) : ℝ) : EReal) - Ideal.div (∑ j : Fin 1024, ((xR (ix3 b (s r) j) : ℝ) : EReal)) (Ideal.ofBits .f32 0x44800000#32) := by
    intro j
    rw [cen_apply, hx r j]
    refine congrArg (fun t => ((xR (ix3 b (s r) j) : ℝ) : EReal) - Ideal.div t (Ideal.ofBits .f32 0x44800000#32)) ?_
    exact Finset.sum_congr rfl fun k _ => hx r k
  rw [hc d, Finset.sum_congr rfl fun j _ => show cen x (ix2 r j) * cen x (ix2 r j) = _ from by rw [hc j], hg d, hβ d]
  exact ln_entry (fun j => xR (ix3 b (s r) j)) (gR (ix1 d)) (βR (ix1 d)) d _ _ rfl rfl

/-- A PROJECTED BLOCK ON REAL INPUTS: entry (u, r, e) is the real projection of row s0 + r at column e. -/
theorem projOut_real (x : Vec Ideal S1x512x1024 .f32) (g β : Vec Ideal S1024 .f32) (w : Vec Ideal S1024x1024 .bf16) (bias : Vec Ideal S1024 .f32)
    (xR : Spec.I3 → ℝ) (gR βR : Spec.I1 → ℝ) (wR : Spec.I2 → ℝ) (bR : Spec.I1 → ℝ) (b : Fin 2) (s : Fin 512 → Fin 2048)
    (hx : ∀ (r : Fin 512) (j : Fin 1024), x (ix3 (0 : Fin 1) r j) = ((xR (ix3 b (s r) j) : ℝ) : EReal))
    (hg : ∀ e : Fin 1024, g (ix1 e) = ((gR (ix1 e) : ℝ) : EReal))
    (hβ : ∀ e : Fin 1024, β (ix1 e) = ((βR (ix1 e) : ℝ) : EReal))
    (hw : ∀ (d e : Fin 1024), w (ix2 d e) = ((wR (ix2 d e) : ℝ) : EReal))
    (hb : ∀ e : Fin 1024, bias (ix1 e) = ((bR (ix1 e) : ℝ) : EReal))
    (u : Fin 1) (r : Fin 512) (e : Fin 1024) :
    projOut (lnOut x g β) w bias (ix3 u r e) = ((Spec.proj Consts.eps xR gR βR wR bR (ix3 b (s r) e) : ℝ) : EReal) := by
  rw [projOut_apply, hb e,
    Finset.sum_congr rfl fun d _ => show lnOut x g β (ix2 r d) * w (ix2 d e) = _ from by
      rw [lnOut_real x g β xR gR βR b s hx hg hβ r d, hw d e]]
  exact dot_bias (fun d => Spec.xn Consts.eps xR gR βR b (s r) d) (fun d => wR (ix2 d e)) (bR (ix1 e))

end Cert.KernelIdeal.Hand.V0

end
-- ==== Proof.KI.Blk0.lean ====
/-
  Region 0 from blocks to arrays.

  The grid is 2 × 4: point t works on batch t / 4 and on the rows 512·(t mod 4) … 512·(t mod 4) + 511.  The block of x
  and the three result blocks at point t are those rows of that batch (all 1024 columns); the scale, the shift, the
  weights and the biases are whole arrays, the same at every point.  Every point writes its three result blocks back,
  and the eight blocks tile each result array; so when the inputs hold reals each result array ends holding, entry by
  entry, the real projection.
-/
import proofs.«110207_j12077448037095_2_alg».proof.Proof.KI.Proj0
import Idealize.ShloMosaic.Lib.Pipeline.Value

set_option maxRecDepth 16384

noncomputable section

open scoped BigOperators

namespace Cert.KernelIdeal.Hand.V0

open Idealize.ShloMosaic Idealize.ShloMosaic.TcCoe Idealize.ShloMosaic.ValueIdx
open Idealize.SL.Sem
open Idealize.ShloMosaic.Pipeline (Dat)
open Cert.KernelIdeal Cert.KernelIdeal.Gen Cert.KernelIdeal.Hand

/-! ## The index maps over the grid -/

/-- The block indices of every window at every point: x and the three results move with (t / 4, t mod 4, 0); the
    others stay at block 0. -/
theorem idx0 : ∀ t : Fin cfg0.N,
    (win0_0.index t (0 : Fin 3) = t.val / 4 ∧ win0_0.index t (1 : Fin 3) = t.val % 4 ∧ win0_0.index t (2 : Fin 3) = 0)
    ∧ (win0_9.index t (0 : Fin 3) = t.val / 4 ∧ win0_9.index t (1 : Fin 3) = t.val % 4 ∧ win0_9.index t (2 : Fin 3) = 0)
    ∧ (win0_10.index t (0 : Fin 3) = t.val / 4 ∧ win0_10.index t (1 : Fin 3) = t.val % 4 ∧ win0_10.index t (2 : Fin 3) = 0)
    ∧ (win0_11.index t (0 : Fin 3) = t.val / 4 ∧ win0_11.index t (1 : Fin 3) = t.val % 4 ∧ win0_11.index t (2 : Fin 3) = 0)
    ∧ win0_1.index t (0 : Fin 1) = 0 ∧ win0_2.index t (0 : Fin 1) = 0
    ∧ (win0_3.index t (0 : Fin 2) = 0 ∧ win0_3.index t (1 : Fin 2) = 0) ∧ win0_4.index t (0 : Fin 1) = 0
    ∧ (win0_5.index t (0 : Fin 2) = 0 ∧ win0_5.index t (1 : Fin 2) = 0) ∧ win0_6.index t (0 : Fin 1) = 0
    ∧ (win0_7.index t (0 : Fin 2) = 0 ∧ win0_7.index t (1 : Fin 2) = 0) ∧ win0_8.index t (0 : Fin 1) = 0 :=
  (by decide +kernel : ∀ t : Fin grid0.N, _)

/-- The batch point t works on. -/
def batchOf (t : Fin cfg0.N) : Fin 2 := ⟨t.val / 4, by have := t.isLt; have hN : cfg0.N = 8 := N_0; omega⟩
/-- Row r of point t's block, as a row of the array. -/
def rowOf (t : Fin cfg0.N) (r : Fin 512) : Fin 2048 :=
  ⟨512 * (t.val % 4) + r.val, by have := r.isLt; omega⟩

section Blocks
variable (V : (c : Dev nD) → (b : Ref sig .tc) → Buf (Elt Ideal) ((c : Thread nD τ).loc b))

/-! ## The input blocks read at an index -/

/-- The block of x at point t holds rows 512·(t mod 4) … of batch t / 4. -/
theorem iblk0_x (c : Dev nD) (t : Fin cfg0.N) (r : Fin 512) (j : Fin 1024) :
    (iblk0 V c 0 t : Vec Ideal S1x512x1024 .f32) (ix3 (0 : Fin 1) r j)
      = (V c main_arg0 : S2x2048x1024.Idx → Elt Ideal .f32) (ix3 (batchOf t) (rowOf t r) j) := by
  obtain ⟨⟨e0, e1, e2⟩, -⟩ := idx0 t
  unfold iblk0
  rw [View.read_apply]
  show V c main_arg0 _ = V c main_arg0 _
  refine congrArg (V c main_arg0) ?_
  funext a
  apply Fin.ext
  match a with
  | ⟨0, _⟩ => show win0_0.index t (0 : Fin 3) * 1 + 1 * 0 = t.val / 4; rw [e0]; omega
  | ⟨1, _⟩ => show win0_0.index t (1 : Fin 3) * 512 + 1 * r.val = 512 * (t.val % 4) + r.val; rw [e1]; omega
  | ⟨2, _⟩ => show win0_0.index t (2 : Fin 3) * 1024 + 1 * j.val = j.val; rw [e2]; omega

/-- The scale is the whole array. -/
theorem iblk0_1 (c : Dev nD) (t : Fin cfg0.N) (e : Fin 1024) :
    (iblk0 V c 1 t : Vec Ideal S1024 .f32) (ix1 e) = (V c main_arg2 : S1024.Idx → Elt Ideal .f32) (ix1 e) := by
  obtain ⟨-, -, -, -, h, -⟩ := idx0 t
  unfold iblk0
  rw [View.read_apply]
  show V c main_arg2 _ = V c main_arg2 _
  refine congrArg (V c main_arg2) ?_
  funext a
  apply Fin.ext
  match a with
  | ⟨0, _⟩ => show win0_1.index t (0 : Fin 1) * 1024 + 1 * e.val = e.val; rw [h]; omega

/-- The shift is the whole array. -/
theorem iblk0_2 (c : Dev nD) (t : Fin cfg0.N) (e : Fin 1024) :
    (iblk0 V c 2 t : Vec Ideal S1024 .f32) (ix1 e) = (V c main_arg3 : S1024.Idx → Elt Ideal .f32) (ix1 e) := by
  obtain ⟨-, -, -, -, -, h, -⟩ := idx0 t
  unfold iblk0
  rw [View.read_apply]
  show V c main_arg3 _ = V c main_arg3 _
  refine congrArg (V c main_arg3) ?_
  funext a
  apply Fin.ext
  match a with
  | ⟨0, _⟩ => show win0_2.index t (0 : Fin 1) * 1024 + 1 * e.val = e.val; rw [h]; omega

/-- The first weights are the whole array. -/
theorem iblk0_3 (c : Dev nD) (t : Fin cfg0.N) (d e : Fin 1024) :
    (iblk0 V c 3 t : Vec Ideal S1024x1024 .bf16) (ix2 d e) = (V c main_v0 : S1024x1024.Idx → Elt Ideal .bf16) (ix2 d e) := by
  obtain ⟨-, -, -, -, -, -, ⟨h0, h1⟩, -⟩ := idx0 t
  unfold iblk0
  rw [View.read_apply]
  show V c main_v0 _ = V c main_v0 _
  refine congrArg (V c main_v0) ?_
  funext a
  apply Fin.ext
  match a with
  | ⟨0, _⟩ => show win0_3.index t (0 : Fin 2) * 1024 + 1 * d.val = d.val; rw [h0]; omega
  | ⟨1, _⟩ => show win0_3.index t (1 : Fin 2) * 1024 + 1 * e.val = e.val; rw [h1]; omega

/-- The first bias is the whole array. -/
theorem iblk0_4 (c : Dev nD) (t : Fin cfg0.N) (e : Fin 1024) :
    (iblk0 V c 4 t : Vec Ideal S1024 .f32) (ix1 e) = (V c main_arg5 : S1024.Idx → Elt Ideal .f32) (ix1 e) := by
  obtain ⟨-, -, -, -, -, -, -, h, -⟩ := idx0 t
  unfold iblk0
  rw [View.read_apply]
  show V c main_arg5 _ = V c main_arg5 _
  refine congrArg (V c main_arg5) ?_
  funext a
  apply Fin.ext
  match a with
  | ⟨0, _⟩ => show win0_4.index t (0 : Fin 1) * 1024 + 1 * e.val = e.val; rw [h]; omega

/-- The second weights are the whole array. -/
theorem iblk0_5 (c : Dev nD) (t : Fin cfg0.N) (d e : Fin 1024) :
    (iblk0 V c 5 t : Vec Ideal S1024x1024 .bf16) (ix2 d e) = (V c main_v1 : S1024x1024.Idx → Elt Ideal .bf16) (ix2 d e) := by
  obtain ⟨-, -, -, -, -, -, -, -, ⟨h0, h1⟩, -⟩ := idx0 t
  unfold iblk0
  rw [View.read_apply]
  show V c main_v1 _ = V c main_v1 _
  refine congrArg (V c main_v1) ?_
  funext a
  apply Fin.ext
  match a with
  | ⟨0, _⟩ => show win0_5.index t (0 : Fin 2) * 1024 + 1 * d.val = d.val; rw [h0]; omega
  | ⟨1, _⟩ => show win0_5.index t (1 : Fin 2) * 1024 + 1 * e.val = e.val; rw [h1]; omega

/-- The second bias is the whole array. -/
theorem iblk0_6 (c : Dev nD) (t : Fin cfg0.N) (e : Fin 1024) :
    (iblk0 V c 6 t : Vec Ideal S1024 .f32) (ix1 e) = (V c main_arg7 : S1024.Idx → Elt Ideal .f32) (ix1 e) := by
  obtain ⟨-, -, -, -, -, -, -, -, -, h, -⟩ := idx0 t
  unfold iblk0
  rw [View.read_apply]
  show V c main_arg7 _ = V c main_arg7 _
  refine congrArg (V c main_arg7) ?_
  funext a
  apply Fin.ext
  match a with
  | ⟨0, _⟩ => show win0_6.index t (0 : Fin 1) * 1024 + 1 * e.val = e.val; rw [h]; omega

/-- The third weights are the whole array. -/
theorem iblk0_7 (c : Dev nD) (t : Fin cfg0.N) (d e : Fin 1024) :
    (iblk0 V c 7 t : Vec Ideal S1024x1024 .bf16) (ix2 d e) = (V c main_v2 : S1024x1024.Idx → Elt Ideal .bf16) (ix2 d e) := by
  obtain ⟨-, -, -, -, -, -, -, -, -, -, ⟨h0, h1⟩, -⟩ := idx0 t
  unfold iblk0
  rw [View.read_apply]
  show V c main_v2 _ = V c main_v2 _
  refine congrArg (V c main_v2) ?_
  funext a
  apply Fin.ext
  match a with
  | ⟨0, _⟩ => show win0_7.index t (0 : Fin 2) * 1024 + 1 * d.val = d.val; rw [h0]; omega
  | ⟨1, _⟩ => show win0_7.index t (1 : Fin 2) * 1024 + 1 * e.val = e.val; rw [h1]; omega

/-- The third bias is the whole array. -/
theorem iblk0_8 (c : Dev nD) (t : Fin cfg0.N) (e : Fin 1024) :
    (iblk0 V c 8 t : Vec Ideal S1024 .f32) (ix1 e) = (V c main_arg9 : S1024.Idx → Elt Ideal .f32) (ix1 e) := by
  obtain ⟨-, -, -, -, -, -, -, -, -, -, -, h⟩ := idx0 t
  unfold iblk0
  rw [View.read_apply]
  show V c main_arg9 _ = V c main_arg9 _
  refine congrArg (V c main_arg9) ?_
  funext a
  apply Fin.ext
  match a with
  | ⟨0, _⟩ => show win0_8.index t (0 : Fin 1) * 1024 + 1 * e.val = e.val; rw [h]; omega

/-! ## The first result array -/

/-- WHAT POINT t WRITES BACK to the first result: its block of the real projection. -/
theorem flushed9_eq (c : Dev nD) (xR : Spec.I3 → ℝ) (gR βR : Spec.I1 → ℝ) (wR : Spec.I2 → ℝ) (bR : Spec.I1 → ℝ)
    (hx : (V c main_arg0 : S2x2048x1024.Idx → Elt Ideal .f32) = fun i => ((xR i : ℝ) : EReal))
    (hg : (V c main_arg2 : S1024.Idx → Elt Ideal .f32) = fun i => ((gR i : ℝ) : EReal))
    (hβ : (V c main_arg3 : S1024.Idx → Elt Ideal .f32) = fun i => ((βR i : ℝ) : EReal))
    (hw : (V c main_v0 : S1024x1024.Idx → Elt Ideal .bf16) = fun i => ((wR i : ℝ) : EReal))
    (hb : (V c main_arg5 : S1024.Idx → Elt Ideal .f32) = fun i => ((bR i : ℝ) : EReal))
    (t : Fin cfg0.N) :
    (dat0 V c).flushed 9 t
      = ((cfg0.win 9).blk t).view.read (Elt Ideal) (fun i : S2x2048x1024.Idx => ((Spec.proj Consts.eps xR gR βR wR bR i : ℝ) : EReal)) := by
  show (cfg0.win 9).cut (grid0.coords t) ((dat0 V c).after 9 t) = _
  rw [after0_9]
  funext y
  obtain ⟨u, r, e, rfl⟩ : ∃ (u : Fin 1) (r : Fin 512) (e : Fin 1024), y = ix3 u r e := ⟨y 0, y 1, y 2, eq_ix3 y⟩
  rw [View.read_apply]
  show qOut (iblk0 V c 0 t) (iblk0 V c 1 t) (iblk0 V c 2 t) (iblk0 V c 3 t) (iblk0 V c 4 t) (ix3 u r e) = _
  refine (congrFun (qOut_eq (iblk0 V c 0 t) (iblk0 V c 1 t) (iblk0 V c 2 t) (iblk0 V c 3 t) (iblk0 V c 4 t)) (ix3 u r e)).trans ?_
  refine (projOut_real (iblk0 V c 0 t) (iblk0 V c 1 t) (iblk0 V c 2 t) (iblk0 V c 3 t) (iblk0 V c 4 t) xR gR βR wR bR
    (batchOf t) (rowOf t)
    (fun r j => (iblk0_x V c t r j).trans (congrFun hx _))
    (fun e => (iblk0_1 V c t e).trans (congrFun hg _))
    (fun e => (iblk0_2 V c t e).trans (congrFun hβ _))
    (fun d e => (iblk0_3 V c t d e).trans (congrFun hw _))
    (fun e => (iblk0_4 V c t e).trans (congrFun hb _))
    u r e).trans ?_
  refine congrArg (fun i : S2x2048x1024.Idx => ((Spec.proj Consts.eps xR gR βR wR bR i : ℝ) : EReal)) ?_
  obtain ⟨-, ⟨e0, e1, e2⟩, -⟩ := idx0 t
  have hu : u.val = 0 := by omega
  funext a
  apply Fin.ext
  match a with
  | ⟨0, _⟩ => show t.val / 4 = win0_9.index t (0 : Fin 3) * 1 + 1 * u.val; rw [e0, hu]; omega
  | ⟨1, _⟩ => show 512 * (t.val % 4) + r.val = win0_9.index t (1 : Fin 3) * 512 + 1 * r.val; rw [e1]; omega
  | ⟨2, _⟩ => show e.val = win0_9.index t (2 : Fin 3) * 1024 + 1 * e.val; rw [e2]; omega

/-- An index of the first result array is in point t's block iff each coordinate is in the block's range. -/
theorem mem_blk9 (t : Fin cfg0.N) (i : S2x2048x1024.Idx) :
    i ∈ ((cfg0.win 9).blk t).view.set ↔ ∀ a : Fin 3, win0_9.index t a * S1x512x1024.size a ≤ (i a).val ∧ (i a).val < win0_9.index t a * S1x512x1024.size a + S1x512x1024.size a := by
  show i ∈ ((View.whole main_v3_0).slice (win0_9.rect t)).set ↔ _
  rw [View.set_slice_whole, Rect.mem_set_unit]
  exact Iff.rfl

/-- Every index of the first result array is in the block of the point that works on its batch and its rows. -/
theorem cover9 (i : S2x2048x1024.Idx) : ∃ t : Fin cfg0.N, (cfg0.win 9).flush t = true ∧ i ∈ ((cfg0.win 9).blk t).view.set := by
  have h0 : (i 0).val < 2 := (i 0).isLt
  have h1 : (i 1).val < 2048 := (i 1).isLt
  have h2 : (i 2).val < 1024 := (i 2).isLt
  have hN : cfg0.N = 8 := N_0
  have htv : 4 * (i 0).val + (i 1).val / 512 < cfg0.N := by omega
  obtain ⟨-, ⟨e0, e1, e2⟩, -⟩ := idx0 ⟨4 * (i 0).val + (i 1).val / 512, htv⟩
  refine ⟨⟨4 * (i 0).val + (i 1).val / 512, htv⟩, flush0_9 _, ?_⟩
  rw [mem_blk9]
  intro a
  match a with
  | ⟨0, _⟩ =>
    show win0_9.index ⟨4 * (i 0).val + (i 1).val / 512, htv⟩ (0 : Fin 3) * 1 ≤ (i 0).val ∧ (i 0).val < win0_9.index ⟨4 * (i 0).val + (i 1).val / 512, htv⟩ (0 : Fin 3) * 1 + 1
    rw [e0]; show (4 * (i 0).val + (i 1).val / 512) / 4 * 1 ≤ (i 0).val ∧ (i 0).val < (4 * (i 0).val + (i 1).val / 512) / 4 * 1 + 1; omega
  | ⟨1, _⟩ =>
    show win0_9.index ⟨4 * (i 0).val + (i 1).val / 512, htv⟩ (1 : Fin 3) * 512 ≤ (i 1).val ∧ (i 1).val < win0_9.index ⟨4 * (i 0).val + (i 1).val / 512, htv⟩ (1 : Fin 3) * 512 + 512
    rw [e1]; show (4 * (i 0).val + (i 1).val / 512) % 4 * 512 ≤ (i 1).val ∧ (i 1).val < (4 * (i 0).val + (i 1).val / 512) % 4 * 512 + 512; omega
  | ⟨2, _⟩ =>
    show win0_9.index ⟨4 * (i 0).val + (i 1).val / 512, htv⟩ (2 : Fin 3) * 1024 ≤ (i 2).val ∧ (i 2).val < win0_9.index ⟨4 * (i 0).val + (i 1).val / 512, htv⟩ (2 : Fin 3) * 1024 + 1024
    rw [e2]; omega

/-- THE FIRST RESULT ARRAY after the region: the real projection, entry by entry. -/
theorem final9 (c : Dev nD) (xR : Spec.I3 → ℝ) (gR βR : Spec.I1 → ℝ) (wR : Spec.I2 → ℝ) (bR : Spec.I1 → ℝ)
    (hx : (V c main_arg0 : S2x2048x1024.Idx → Elt Ideal .f32) = fun i => ((xR i : ℝ) : EReal))
    (hg : (V c main_arg2 : S1024.Idx → Elt Ideal .f32) = fun i => ((gR i : ℝ) : EReal))
    (hβ : (V c main_arg3 : S1024.Idx → Elt Ideal .f32) = fun i => ((βR i : ℝ) : EReal))
    (hw : (V c main_v0 : S1024x1024.Idx → Elt Ideal .bf16) = fun i => ((wR i : ℝ) : EReal))
    (hb : (V c main_arg5 : S1024.Idx → Elt Ideal .f32) = fun i => ((bR i : ℝ) : EReal)) :
    (dat0 V c).arrAt 9 cfg0.N = fun i : S2x2048x1024.Idx => ((Spec.proj Consts.eps xR gR βR wR bR i : ℝ) : EReal) :=
  (dat0 V c).arrAt_eq_of_cover 9 (fun i : S2x2048x1024.Idx => ((Spec.proj Consts.eps xR gR βR wR bR i : ℝ) : EReal))
    (fun t _ => flushed9_eq V c xR gR βR wR bR hx hg hβ hw hb t) cover9

/-! ## The second result array -/

/-- WHAT POINT t WRITES BACK to the second result: its block of the real projection. -/
theorem flushed10_eq (c : Dev nD) (xR : Spec.I3 → ℝ) (gR βR : Spec.I1 → ℝ) (wR : Spec.I2 → ℝ) (bR : Spec.I1 → ℝ)
    (hx : (V c main_arg0 : S2x2048x1024.Idx → Elt Ideal .f32) = fun i => ((xR i : ℝ) : EReal))
    (hg : (V c main_arg2 : S1024.Idx → Elt Ideal .f32) = fun i => ((gR i : ℝ) : EReal))
    (hβ : (V c main_arg3 : S1024.Idx → Elt Ideal .f32) = fun i => ((βR i : ℝ) : EReal))
    (hw : (V c main_v1 : S1024x1024.Idx → Elt Ideal .bf16) = fun i => ((wR i : ℝ) : EReal))
    (hb : (V c main_arg7 : S1024.Idx → Elt Ideal .f32) = fun i => ((bR i : ℝ) : EReal))
    (t : Fin cfg0.N) :
    (dat0 V c).flushed 10 t
      = ((cfg0.win 10).blk t).view.read (Elt Ideal) (fun i : S2x2048x1024.Idx => ((Spec.proj Consts.eps xR gR βR wR bR i : ℝ) : EReal)) := by
  show (cfg0.win 10).cut (grid0.coords t) ((dat0 V c).after 10 t) = _
  rw [after0_10]
  funext y
  obtain ⟨u, r, e, rfl⟩ : ∃ (u : Fin 1) (r : Fin 512) (e : Fin 1024), y = ix3 u r e := ⟨y 0, y 1, y 2, eq_ix3 y⟩
  rw [View.read_apply]
  show kOut (iblk0 V c 0 t) (iblk0 V c 1 t) (iblk0 V c 2 t) (iblk0 V c 5 t) (iblk0 V c 6 t) (ix3 u r e) = _
  refine (congrFun (kOut_eq (iblk0 V c 0 t) (iblk0 V c 1 t) (iblk0 V c 2 t) (iblk0 V c 5 t) (iblk0 V c 6 t)) (ix3 u r e)).trans ?_
  refine (projOut_real (iblk0 V c 0 t) (iblk0 V c 1 t) (iblk0 V c 2 t) (iblk0 V c 5 t) (iblk0 V c 6 t) xR gR βR wR bR
    (batchOf t) (rowOf t)
    (fun r j => (iblk0_x V c t r j).trans (congrFun hx _))
    (fun e => (iblk0_1 V c t e).trans (congrFun hg _))
    (fun e => (iblk0_2 V c t e).trans (congrFun hβ _))
    (fun d e => (iblk0_5 V c t d e).trans (congrFun hw _))
    (fun e => (iblk0_6 V c t e).trans (congrFun hb _))
    u r e).trans ?_
  refine congrArg (fun i : S2x2048x1024.Idx => ((Spec.proj Consts.eps xR gR βR wR bR i : ℝ) : EReal)) ?_
  obtain ⟨-, -, ⟨e0, e1, e2⟩, -⟩ := idx0 t
  have hu : u.val = 0 := by omega
  funext a
  apply Fin.ext
  match a with
  | ⟨0, _⟩ => show t.val / 4 = win0_10.index t (0 : Fin 3) * 1 + 1 * u.val; rw [e0, hu]; omega
  | ⟨1, _⟩ => show 512 * (t.val % 4) + r.val = win0_10.index t (1 : Fin 3) * 512 + 1 * r.val; rw [e1]; omega
  | ⟨2, _⟩ => show e.val = win0_10.index t (2 : Fin 3) * 1024 + 1 * e.val; rw [e2]; omega

/-- An index of the second result array is in point t's block iff each coordinate is in the block's range. -/
theorem mem_blk10 (t : Fin cfg0.N) (i : S2x2048x1024.Idx) :
    i ∈ ((cfg0.win 10).blk t).view.set ↔ ∀ a : Fin 3, win0_10.index t a * S1x512x1024.size a ≤ (i a).val ∧ (i a).val < win0_10.index t a * S1x512x1024.size a + S1x512x1024.size a := by
  show i ∈ ((View.whole main_v3_1).slice (win0_10.rect t)).set ↔ _
  rw [View.set_slice_whole, Rect.mem_set_unit]
  exact Iff.rfl

/-- Every index of the second result array is in the block of the point that works on its batch and its rows. -/
theorem cover10 (i : S2x2048x1024.Idx) : ∃ t : Fin cfg0.N, (cfg0.win 10).flush t = true ∧ i ∈ ((cfg0.win 10).blk t).view.set := by
  have h0 : (i 0).val < 2 := (i 0).isLt
  have h1 : (i 1).val < 2048 := (i 1).isLt
  have h2 : (i 2).val < 1024 := (i 2).isLt
  have hN : cfg0.N = 8 := N_0
  have htv : 4 * (i 0).val + (i 1).val / 512 < cfg0.N := by omega
  obtain ⟨-, -, ⟨e0, e1, e2⟩, -⟩ := idx0 ⟨4 * (i 0).val + (i 1).val / 512, htv⟩
  refine ⟨⟨4 * (i 0).val + (i 1).val / 512, htv⟩, flush0_10 _, ?_⟩
  rw [mem_blk10]
  intro a
  match a with
  | ⟨0, _⟩ =>
    show win0_10.index ⟨4 * (i 0).val + (i 1).val / 512, htv⟩ (0 : Fin 3) * 1 ≤ (i 0).val ∧ (i 0).val < win0_10.index ⟨4 * (i 0).val + (i 1).val / 512, htv⟩ (0 : Fin 3) * 1 + 1
    rw [e0]; show (4 * (i 0).val + (i 1).val / 512) / 4 * 1 ≤ (i 0).val ∧ (i 0).val < (4 * (i 0).val + (i 1).val / 512) / 4 * 1 + 1; omega
  | ⟨1, _⟩ =>
    show win0_10.index ⟨4 * (i 0).val + (i 1).val / 512, htv⟩ (1 : Fin 3) * 512 ≤ (i 1).val ∧ (i 1).val < win0_10.index ⟨4 * (i 0).val + (i 1).val / 512, htv⟩ (1 : Fin 3) * 512 + 512
    rw [e1]; show (4 * (i 0).val + (i 1).val / 512) % 4 * 512 ≤ (i 1).val ∧ (i 1).val < (4 * (i 0).val + (i 1).val / 512) % 4 * 512 + 512; omega
  | ⟨2, _⟩ =>
    show win0_10.index ⟨4 * (i 0).val + (i 1).val / 512, htv⟩ (2 : Fin 3) * 1024 ≤ (i 2).val ∧ (i 2).val < win0_10.index ⟨4 * (i 0).val + (i 1).val / 512, htv⟩ (2 : Fin 3) * 1024 + 1024
    rw [e2]; omega

/-- THE SECOND RESULT ARRAY after the region: the real projection, entry by entry. -/
theorem final10 (c : Dev nD) (xR : Spec.I3 → ℝ) (gR βR : Spec.I1 → ℝ) (wR : Spec.I2 → ℝ) (bR : Spec.I1 → ℝ)
    (hx : (V c main_arg0 : S2x2048x1024.Idx → Elt Ideal .f32) = fun i => ((xR i : ℝ) : EReal))
    (hg : (V c main_arg2 : S1024.Idx → Elt Ideal .f32) = fun i => ((gR i : ℝ) : EReal))
    (hβ : (V c main_arg3 : S1024.Idx → Elt Ideal .f32) = fun i => ((βR i : ℝ) : EReal))
    (hw : (V c main_v1 : S1024x1024.Idx → Elt Ideal .bf16) = fun i => ((wR i : ℝ) : EReal))
    (hb : (V c main_arg7 : S1024.Idx → Elt Ideal .f32) = fun i => ((bR i : ℝ) : EReal)) :
    (dat0 V c).arrAt 10 cfg0.N = fun i : S2x2048x1024.Idx => ((Spec.proj Consts.eps xR gR βR wR bR i : ℝ) : EReal) :=
  (dat0 V c).arrAt_eq_of_cover 10 (fun i : S2x2048x1024.Idx => ((Spec.proj Consts.eps xR gR βR wR bR i : ℝ) : EReal))
    (fun t _ => flushed10_eq V c xR gR βR wR bR hx hg hβ hw hb t) cover10

/-! ## The third result array -/

/-- WHAT POINT t WRITES BACK to the third result: its block of the real projection. -/
theorem flushed11_eq (c : Dev nD) (xR : Spec.I3 → ℝ) (gR βR : Spec.I1 → ℝ) (wR : Spec.I2 → ℝ) (bR : Spec.I1 → ℝ)
    (hx : (V c main_arg0 : S2x2048x1024.Idx → Elt Ideal .f32) = fun i => ((xR i : ℝ) : EReal))
    (hg : (V c main_arg2 : S1024.Idx → Elt Ideal .f32) = fun i => ((gR i : ℝ) : EReal))
    (hβ : (V c main_arg3 : S1024.Idx → Elt Ideal .f32) = fun i => ((βR i : ℝ) : EReal))
    (hw : (V c main_v2 : S1024x1024.Idx → Elt Ideal .bf16) = fun i => ((wR i : ℝ) : EReal))
    (hb : (V c main_arg9 : S1024.Idx → Elt Ideal .f32) = fun i => ((bR i : ℝ) : EReal))
    (t : Fin cfg0.N) :
    (dat0 V c).flushed 11 t
      = ((cfg0.win 11).blk t).view.read (Elt Ideal) (fun i : S2x2048x1024.Idx => ((Spec.proj Consts.eps xR gR βR wR bR i : ℝ) : EReal)) := by
  show (cfg0.win 11).cut (grid0.coords t) ((dat0 V c).after 11 t) = _
  rw [after0_11]
  funext y
  obtain ⟨u, r, e, rfl⟩ : ∃ (u : Fin 1) (r : Fin 512) (e : Fin 1024), y = ix3 u r e := ⟨y 0, y 1, y 2, eq_ix3 y⟩
  rw [View.read_apply]
  show vOut (iblk0 V c 0 t) (iblk0 V c 1 t) (iblk0 V c 2 t) (iblk0 V c 7 t) (iblk0 V c 8 t) (ix3 u r e) = _
  refine (congrFun (vOut_eq (iblk0 V c 0 t) (iblk0 V c 1 t) (iblk0 V c 2 t) (iblk0 V c 7 t) (iblk0 V c 8 t)) (ix3 u r e)).trans ?_
  refine (projOut_real (iblk0 V c 0 t) (iblk0 V c 1 t) (iblk0 V c 2 t) (iblk0 V c 7 t) (iblk0 V c 8 t) xR gR βR wR bR
    (batchOf t) (rowOf t)
    (fun r j => (iblk0_x V c t r j).trans (congrFun hx _))
    (fun e => (iblk0_1 V c t e).trans (congrFun hg _))
    (fun e => (iblk0_2 V c t e).trans (congrFun hβ _))
    (fun d e => (iblk0_7 V c t d e).trans (congrFun hw _))
    (fun e => (iblk0_8 V c t e).trans (congrFun hb _))
    u r e).trans ?_
  refine congrArg (fun i : S2x2048x1024.Idx => ((Spec.proj Consts.eps xR gR βR wR bR i : ℝ) : EReal)) ?_
  obtain ⟨-, -, -, ⟨e0, e1, e2⟩, -⟩ := idx0 t
  have hu : u.val = 0 := by omega
  funext a
  apply Fin.ext
  match a with
  | ⟨0, _⟩ => show t.val / 4 = win0_11.index t (0 : Fin 3) * 1 + 1 * u.val; rw [e0, hu]; omega
  | ⟨1, _⟩ => show 512 * (t.val % 4) + r.val = win0_11.index t (1 : Fin 3) * 512 + 1 * r.val; rw [e1]; omega
  | ⟨2, _⟩ => show e.val = win0_11.index t (2 : Fin 3) * 1024 + 1 * e.val; rw [e2]; omega

/-- An index of the third result array is in point t's block iff each coordinate is in the block's range. -/
theorem mem_blk11 (t : Fin cfg0.N) (i : S2x2048x1024.Idx) :
    i ∈ ((cfg0.win 11).blk t).view.set ↔ ∀ a : Fin 3, win0_11.index t a * S1x512x1024.size a ≤ (i a).val ∧ (i a).val < win0_11.index t a * S1x512x1024.size a + S1x512x1024.size a := by
  show i ∈ ((View.whole main_v3_2).slice (win0_11.rect t)).set ↔ _
  rw [View.set_slice_whole, Rect.mem_set_unit]
  exact Iff.rfl

/-- Every index of the third result array is in the block of the point that works on its batch and its rows. -/
theorem cover11 (i : S2x2048x1024.Idx) : ∃ t : Fin cfg0.N, (cfg0.win 11).flush t = true ∧ i ∈ ((cfg0.win 11).blk t).view.set := by
  have h0 : (i 0).val < 2 := (i 0).isLt
  have h1 : (i 1).val < 2048 := (i 1).isLt
  have h2 : (i 2).val < 1024 := (i 2).isLt
  have hN : cfg0.N = 8 := N_0
  have htv : 4 * (i 0).val + (i 1).val / 512 < cfg0.N := by omega
  obtain ⟨-, -, -, ⟨e0, e1, e2⟩, -⟩ := idx0 ⟨4 * (i 0).val + (i 1).val / 512, htv⟩
  refine ⟨⟨4 * (i 0).val + (i 1).val / 512, htv⟩, flush0_11 _, ?_⟩
  rw [mem_blk11]
  intro a
  match a with
  | ⟨0, _⟩ =>
    show win0_11.index ⟨4 * (i 0).val + (i 1).val / 512, htv⟩ (0 : Fin 3) * 1 ≤ (i 0).val ∧ (i 0).val < win0_11.index ⟨4 * (i 0).val + (i 1).val / 512, htv⟩ (0 : Fin 3) * 1 + 1
    rw [e0]; show (4 * (i 0).val + (i 1).val / 512) / 4 * 1 ≤ (i 0).val ∧ (i 0).val < (4 * (i 0).val + (i 1).val / 512) / 4 * 1 + 1; omega
  | ⟨1, _⟩ =>
    show win0_11.index ⟨4 * (i 0).val + (i 1).val / 512, htv⟩ (1 : Fin 3) * 512 ≤ (i 1).val ∧ (i 1).val < win0_11.index ⟨4 * (i 0).val + (i 1).val / 512, htv⟩ (1 : Fin 3) * 512 + 512
    rw [e1]; show (4 * (i 0).val + (i 1).val / 512) % 4 * 512 ≤ (i 1).val ∧ (i 1).val < (4 * (i 0).val + (i 1).val / 512) % 4 * 512 + 512; omega
  | ⟨2, _⟩ =>
    show win0_11.index ⟨4 * (i 0).val + (i 1).val / 512, htv⟩ (2 : Fin 3) * 1024 ≤ (i 2).val ∧ (i 2).val < win0_11.index ⟨4 * (i 0).val + (i 1).val / 512, htv⟩ (2 : Fin 3) * 1024 + 1024
    rw [e2]; omega

/-- THE THIRD RESULT ARRAY after the region: the real projection, entry by entry. -/
theorem final11 (c : Dev nD) (xR : Spec.I3 → ℝ) (gR βR : Spec.I1 → ℝ) (wR : Spec.I2 → ℝ) (bR : Spec.I1 → ℝ)
    (hx : (V c main_arg0 : S2x2048x1024.Idx → Elt Ideal .f32) = fun i => ((xR i : ℝ) : EReal))
    (hg : (V c main_arg2 : S1024.Idx → Elt Ideal .f32) = fun i => ((gR i : ℝ) : EReal))
    (hβ : (V c main_arg3 : S1024.Idx → Elt Ideal .f32) = fun i => ((βR i : ℝ) : EReal))
    (hw : (V c main_v2 : S1024x1024.Idx → Elt Ideal .bf16) = fun i => ((wR i : ℝ) : EReal))
    (hb : (V c main_arg9 : S1024.Idx → Elt Ideal .f32) = fun i => ((bR i : ℝ) : EReal)) :
    (dat0 V c).arrAt 11 cfg0.N = fun i : S2x2048x1024.Idx => ((Spec.proj Consts.eps xR gR βR wR bR i : ℝ) : EReal) :=
  (dat0 V c).arrAt_eq_of_cover 11 (fun i : S2x2048x1024.Idx => ((Spec.proj Consts.eps xR gR βR wR bR i : ℝ) : EReal))
    (fun t _ => flushed11_eq V c xR gR βR wR bR hx hg hβ hw hb t) cover11

end Blocks

end Cert.KernelIdeal.Hand.V0

end
-- ==== Proof.KI.Val0.lean ====
/-
  The value of region 0: layer normalisation and the three projections.

  For any contents of the buffers as the region finds them in which the five arrays a projection reads hold reals — x,
  the scale, the shift, the projection's weights and its bias — the array the region leaves in that projection's result
  window holds, entry by entry, the real projection of the normalised rows: each row of x minus its mean, times the
  reciprocal root of its variance plus the offset, scaled and shifted, times the weights, plus the bias.
-/
import proofs.«110207_j12077448037095_2_alg».proof.Proof.KI.Blk0

set_option maxRecDepth 16384

noncomputable section

namespace Cert.KernelIdeal.Hand

open Idealize.ShloMosaic Idealize.ShloMosaic.TcCoe
open Idealize.SL.Sem
open Idealize.ShloMosaic.Pipeline (Dat)
open Cert.KernelIdeal Cert.KernelIdeal.Gen

/-- The first result array (the queries) is the projection by the first weights and bias. -/
theorem arr0_q (V : (c : Dev nD) → (b : Ref sig .tc) → Buf (Elt Ideal) ((c : Thread nD τ).loc b)) (c : Dev nD)
    (xR : Spec.I3 → ℝ) (gR βR : Spec.I1 → ℝ) (wR : Spec.I2 → ℝ) (bR : Spec.I1 → ℝ)
    (hx : V c main_arg0 = fun i => ((xR i : ℝ) : EReal)) (hg : V c main_arg2 = fun i => ((gR i : ℝ) : EReal)) (hβ : V c main_arg3 = fun i => ((βR i : ℝ) : EReal))
    (hw : V c main_v0 = fun i => ((wR i : ℝ) : EReal)) (hb : V c main_arg5 = fun i => ((bR i : ℝ) : EReal)) :
    (dat0 (F := Ideal) V c).arrAt 9 cfg0.N = fun i => ((Spec.proj Consts.eps xR gR βR wR bR i : ℝ) : EReal) :=
  V0.final9 V c xR gR βR wR bR hx hg hβ hw hb

/-- The second result array (the keys) is the projection by the second weights and bias. -/
theorem arr0_k (V : (c : Dev nD) → (b : Ref sig .tc) → Buf (Elt Ideal) ((c : Thread nD τ).loc b)) (c : Dev nD)
    (xR : Spec.I3 → ℝ) (gR βR : Spec.I1 → ℝ) (wR : Spec.I2 → ℝ) (bR : Spec.I1 → ℝ)
    (hx : V c main_arg0 = fun i => ((xR i : ℝ) : EReal)) (hg : V c main_arg2 = fun i => ((gR i : ℝ) : EReal)) (hβ : V c main_arg3 = fun i => ((βR i : ℝ) : EReal))
    (hw : V c main_v1 = fun i => ((wR i : ℝ) : EReal)) (hb : V c main_arg7 = fun i => ((bR i : ℝ) : EReal)) :
    (dat0 (F := Ideal) V c).arrAt 10 cfg0.N = fun i => ((Spec.proj Consts.eps xR gR βR wR bR i : ℝ) : EReal) :=
  V0.final10 V c xR gR βR wR bR hx hg hβ hw hb

/-- The third result array (the values) is the projection by the third weights and bias. -/
theorem arr0_v (V : (c : Dev nD) → (b : Ref sig .tc) → Buf (Elt Ideal) ((c : Thread nD τ).loc b)) (c : Dev nD)
    (xR : Spec.I3 → ℝ) (gR βR : Spec.I1 → ℝ) (wR : Spec.I2 → ℝ) (bR : Spec.I1 → ℝ)
    (hx : V c main_arg0 = fun i => ((xR i : ℝ) : EReal)) (hg : V c main_arg2 = fun i => ((gR i : ℝ) : EReal)) (hβ : V c main_arg3 = fun i => ((βR i : ℝ) : EReal))
    (hw : V c main_v2 = fun i => ((wR i : ℝ) : EReal)) (hb : V c main_arg9 = fun i => ((bR i : ℝ) : EReal)) :
    (dat0 (F := Ideal) V c).arrAt 11 cfg0.N = fun i => ((Spec.proj Consts.eps xR gR βR wR bR i : ℝ) : EReal) :=
  V0.final11 V c xR gR βR wR bR hx hg hβ hw hb

end Cert.KernelIdeal.Hand

end
-- ==== Proof.KI.V1Pay.lean ====
/-
  The arithmetic of one key block of the attention region, read at an index, on the extended reals.  A block of 256
  query rows (or 512 key or value rows) of width 1024 is re-laid per head: head h owns columns 64h … 64h+63.  The score
  of query row r against key row j in head h is the inner product of the head's 64 columns, times one eighth, plus the
  key row's mask term.  The running maximum is the larger of the old maximum and the row's greatest score; the sum of
  exponentials and the weighted sum of value rows are rescaled by the exponential of the old maximum minus the new one
  and extended by the block's terms.  The result block is the quotient of the last two, re-laid to width 1024, plus
  the residual block.
-/
import proofs.«110207_j12077448037095_2_alg».proof.Proof.KI.Data
import proofs.«110207_j12077448037095_2_alg».proof.Proof.Spec
import proofs.«110207_j12077448037095_2_alg».proof.Proof.Consts
import proofs.«110207_j12077448037095_2_alg».proof.Proof.LibColumn
import proofs.«110207_j12077448037095_2_alg».proof.Proof.LibSoftmaxReal
import Idealize.ShloMosaic.PureOps.Ideal.Laws
import Idealize.ShloMosaic.Lib.Pipeline.Value
import Idealize.ShloMosaic.Lib.ValueLayout

set_option maxRecDepth 16384

noncomputable section

namespace Cert.KernelIdeal.Hand.V1

open Idealize.ShloMosaic Idealize.ShloMosaic.TcCoe
open Idealize.ShloMosaic.ValueIdx
open Cert.KernelIdeal Cert.KernelIdeal.Gen Cert.KernelIdeal.Hand
open Cert.Spec (col headOf)
open scoped BigOperators

/-- The scores' contraction (over a head's 64 columns) and the weighted sum's (over the block's 512 key rows). -/
abbrev D1 := dot_S16x256x64_S16x512x64_S16x256x512_2_2_1_1_0_0
abbrev D2 := dot_S16x256x512_S16x512x64_S16x256x64_2_1_1_2_0_0

/-! ## Layouts -/

/-- A block of 256 rows re-laid per head reads, at (h, r, w), the block at row r, column 64h + w. -/
theorem relaid256 (q : FVec Ideal S1x256x1024 .bf16) (h : Fin 16) (r : Fin 256) (w : Fin 64) :
    transpose S16x256x64 [1, 0, 2] (shapeCast S256x16x64 (shapeCast S256x1024 q shapeCasts_S1x256x1024_S256x1024) shapeCasts_S256x1024_S256x16x64) transposes_S256x16x64_p1_0_2_S16x256x64 (ix3 h r w)
      = q (ix3 0 r (col h w)) := by
  refine (transpose_apply _ _ _ (ix3 h r w) (ix3 r h w) ?_).trans ?_
  · intro b; match b with | ⟨0, _⟩ => rfl | ⟨1, _⟩ => rfl | ⟨2, _⟩ => rfl
  refine (shapeCast_apply _ _ (ix3 r h w) (ix2 r (col h w)) ?_).trans ?_
  · rw [Shape.rowMajor_val_two, Shape.rowMajor_val_three]
    show r.val * 1024 + (64 * h.val + w.val) = (r.val * 16 + h.val) * 64 + w.val
    omega
  refine (shapeCast_apply _ _ (ix2 r (col h w)) (ix3 0 r (col h w)) ?_).trans rfl
  rw [Shape.rowMajor_val_two, Shape.rowMajor_val_three]
  show (0 * 256 + r.val) * 1024 + (64 * h.val + w.val) = r.val * 1024 + (64 * h.val + w.val)
  omega

/-- The same for a block of 512 rows. -/
theorem relaid512 (k : FVec Ideal S1x512x1024 .bf16) (h : Fin 16) (j : Fin 512) (w : Fin 64) :
    transpose S16x512x64 [1, 0, 2] (shapeCast S512x16x64 (shapeCast S512x1024 k shapeCasts_S1x512x1024_S512x1024) shapeCasts_S512x1024_S512x16x64) transposes_S512x16x64_p1_0_2_S16x512x64 (ix3 h j w)
      = k (ix3 0 j (col h w)) := by
  refine (transpose_apply _ _ _ (ix3 h j w) (ix3 j h w) ?_).trans ?_
  · intro b; match b with | ⟨0, _⟩ => rfl | ⟨1, _⟩ => rfl | ⟨2, _⟩ => rfl
  refine (shapeCast_apply _ _ (ix3 j h w) (ix2 j (col h w)) ?_).trans ?_
  · rw [Shape.rowMajor_val_two, Shape.rowMajor_val_three]
    show j.val * 1024 + (64 * h.val + w.val) = (j.val * 16 + h.val) * 64 + w.val
    omega
  refine (shapeCast_apply _ _ (ix2 j (col h w)) (ix3 0 j (col h w)) ?_).trans rfl
  rw [Shape.rowMajor_val_two, Shape.rowMajor_val_three]
  show (0 * 512 + j.val) * 1024 + (64 * h.val + w.val) = j.val * 1024 + (64 * h.val + w.val)
  omega

/-- A [16, 256] array with a unit axis appended reads the array at (h, r). -/
theorem keepdims_apply (x : S16x256.Idx → EReal) (h : Fin 16) (r : Fin 256) (u : Fin 1) :
    shapeCast S16x256x1 x shapeCasts_S16x256_S16x256x1 (ix3 h r u) = x (ix2 h r) := by
  refine shapeCast_apply x _ (ix3 h r u) (ix2 h r) ?_
  have hu : u.val = 0 := by omega
  rw [Shape.rowMajor_val_two, Shape.rowMajor_val_three]
  show h.val * 256 + r.val = (h.val * 256 + r.val) * 1 + u.val
  omega

/-- A per-row column [16, 256, 1] spread over 512 lanes reads the column at (h, r). -/
theorem spread512_apply (x : S16x256x1.Idx → EReal) (h : Fin 16) (r : Fin 256) (j : Fin 512) :
    broadcastTo S16x256x512 x broadcasts_S16x256x1_S16x256x512 (ix3 h r j) = x (ix3 h r 0) := by
  refine broadcastTo_apply x _ (ix3 h r j) (ix3 h r 0) fun a => ?_
  match a with
  | ⟨0, _⟩ => rfl
  | ⟨1, _⟩ => rfl
  | ⟨2, _⟩ => rfl

/-- A per-row column [16, 256, 1] spread over 64 lanes reads the column at (h, r). -/
theorem spread64_apply (x : S16x256x1.Idx → EReal) (h : Fin 16) (r : Fin 256) (w : Fin 64) :
    broadcastTo S16x256x64 x broadcasts_S16x256x1_S16x256x64 (ix3 h r w) = x (ix3 h r 0) := by
  refine broadcastTo_apply x _ (ix3 h r w) (ix3 h r 0) fun a => ?_
  match a with
  | ⟨0, _⟩ => rfl
  | ⟨1, _⟩ => rfl
  | ⟨2, _⟩ => rfl

/-- The mask row [1, 1, 512] spread over heads and query rows reads the row at j. -/
theorem spreadMask_apply (x : S1x1x512.Idx → EReal) (h : Fin 16) (r : Fin 256) (j : Fin 512) :
    broadcastTo S16x256x512 x broadcasts_S1x1x512_S16x256x512 (ix3 h r j) = x (ix3 0 0 j) := by
  refine broadcastTo_apply x _ (ix3 h r j) (ix3 0 0 j) fun a => ?_
  match a with
  | ⟨0, _⟩ => rfl
  | ⟨1, _⟩ => rfl
  | ⟨2, _⟩ => rfl

/-! ## Lane reductions of a [16, 256, 512] array -/

theorem lift3 (hred : S16x256x512.Reduces [2] S16x256) (a : Fin 16) (r : Fin 256) (k : Fin (S16x256x512.size 2)) :
    hred.lift (ix2 a r) k = ix3 a r (⟨k.val, k.isLt⟩ : Fin 512) := by
  funext c; apply Fin.ext
  fin_cases c <;> rfl

/-- The lane maximum at (h, r) is the fold of max over the row's 512 entries. -/
theorem max_lane (z : FVec Ideal S16x256x512 .f32) (hred : S16x256x512.Reduces [2] S16x256) (hφ : FKind.Formats .f32)
    (hacc : (0xFF800000#32 : BitVec 32) = 0xFF800000#32) (a : Fin 16) (r : Fin 256) :
    multiReduction .maximumf [2] S16x256 z 0xFF800000#32 hred hφ hacc (ix2 a r)
      = (Finset.univ : Finset (Fin 512)).fold max (Ideal.ofBits .f32 0xFF800000#32) fun j => z (ix3 a r j) := by
  refine (Ideal.multiReduction_maximumf_single z 0xFF800000#32 hred hφ hacc (ix2 a r)).trans ?_
  have hf : (z ∘ hred.lift (ix2 a r)) = fun k : Fin 512 => z (ix3 a r k) := funext fun k => congrArg z (lift3 hred a r k)
  exact congrArg (fun f => Finset.fold max (Ideal.ofBits .f32 0xFF800000#32) f (Finset.univ : Finset (Fin 512))) hf

/-- The lane sum at (h, r) is the sum of the row's 512 entries. -/
theorem sum_lane (z : FVec Ideal S16x256x512 .f32) (hred : S16x256x512.Reduces [2] S16x256) (hφ : FKind.Formats .f32)
    (hacc : (0x00000000#32 : BitVec 32) = 0x00000000#32) (a : Fin 16) (r : Fin 256) :
    multiReduction .add [2] S16x256 z 0x00000000#32 hred hφ hacc (ix2 a r) = ∑ j : Fin 512, z (ix3 a r j) := by
  refine (Ideal.multiReduction_add_single z 0x00000000#32 hred hφ hacc (ix2 a r)).trans ?_
  exact Finset.sum_congr rfl fun k _ => congrArg z (lift3 hred a r k)

/-! ## The two contractions' operand indices -/

theorem D1_lhs (h : Fin 16) (r : Fin 256) (j : Fin 512) (w : Fin 64) :
    D1.lhsIdx (ix3 h r j) ((contrEquiv1 D1 64 rfl rfl).symm w) = ix3 h r w := by
  funext a; apply Fin.ext
  match a with
  | ⟨0, _⟩ => rfl
  | ⟨1, _⟩ => rfl
  | ⟨2, _⟩ => exact (D1.lhsIdx_val_of_single rfl _ _).trans (contrEquiv1_symm_val D1 64 rfl rfl w)

theorem D1_rhs (h : Fin 16) (r : Fin 256) (j : Fin 512) (w : Fin 64) :
    D1.rhsIdx (ix3 h r j) ((contrEquiv1 D1 64 rfl rfl).symm w) = ix3 h j w := by
  funext a; apply Fin.ext
  match a with
  | ⟨0, _⟩ => rfl
  | ⟨1, _⟩ => rfl
  | ⟨2, _⟩ => exact (D1.rhsIdx_val_of_single rfl _ _).trans (contrEquiv1_symm_val D1 64 rfl rfl w)

theorem D2_lhs (h : Fin 16) (r : Fin 256) (w : Fin 64) (j : Fin 512) :
    D2.lhsIdx (ix3 h r w) ((contrEquiv1 D2 512 rfl rfl).symm j) = ix3 h r j := by
  funext a; apply Fin.ext
  match a with
  | ⟨0, _⟩ => rfl
  | ⟨1, _⟩ => rfl
  | ⟨2, _⟩ => exact (D2.lhsIdx_val_of_single rfl _ _).trans (contrEquiv1_symm_val D2 512 rfl rfl j)

theorem D2_rhs (h : Fin 16) (r : Fin 256) (w : Fin 64) (j : Fin 512) :
    D2.rhsIdx (ix3 h r w) ((contrEquiv1 D2 512 rfl rfl).symm j) = ix3 h j w := by
  funext a; apply Fin.ext
  match a with
  | ⟨0, _⟩ => rfl
  | ⟨1, _⟩ => exact (D2.rhsIdx_val_of_single rfl _ _).trans (contrEquiv1_symm_val D2 512 rfl rfl j)
  | ⟨2, _⟩ => rfl

/-! ## The payloads at an index -/

/-- The value block re-laid per head. -/
theorem pay9_apply (v : FVec Ideal S1x512x1024 .bf16) (h : Fin 16) (j : Fin 512) (w : Fin 64) :
    k1_pay9 (F := Ideal) v (ix3 h j w) = v (ix3 0 j (col h w)) := relaid512 v h j w

/-- The score of query row r against key row j in head h. -/
theorem pay10_apply (q : FVec Ideal S1x256x1024 .bf16) (k : FVec Ideal S1x512x1024 .bf16) (msk : FVec Ideal S1x1x512 .f32)
    (h : Fin 16) (r : Fin 256) (j : Fin 512) :
    k1_pay10 (F := Ideal) q k msk (ix3 h r j)
      = (∑ w : Fin 64, q (ix3 0 r (col h w)) * k (ix3 0 j (col h w))) * Ideal.ofBits .f32 0x3E000000#32 + msk (ix3 0 0 j) := by
  unfold k1_pay10
  refine congrArg₂ (· + ·) (congrArg₂ (· * ·) ?_ rfl) ?_
  · refine (Ideal.matmul_constant_zero_apply D1 none _ _ (ix3 h r j)).trans ?_
    refine (Equiv.sum_comp (contrEquiv1 D1 64 rfl rfl).symm _).symm.trans ?_
    refine Finset.sum_congr rfl fun w _ => ?_
    refine congrArg₂ (· * ·) ?_ ?_
    · exact (congrArg _ (D1_lhs h r j w)).trans (relaid256 q h r w)
    · exact (congrArg _ (D1_rhs h r j w)).trans (relaid512 k h j w)
  · refine (spreadMask_apply _ h r j).trans ?_
    refine (congrFun (shapeCast_self _ _) _).trans ?_
    exact congrFun (shapeCast_shapeCast msk _ _) _

/-- The new running maximum: the larger of the old one and the row's greatest score. -/
theorem pay11_apply (q : FVec Ideal S1x256x1024 .bf16) (k : FVec Ideal S1x512x1024 .bf16) (msk : FVec Ideal S1x1x512 .f32)
    (m : FVec Ideal S16x256x1 .f32) (h : Fin 16) (r : Fin 256) :
    k1_pay11 (F := Ideal) q k msk m (ix3 h r 0)
      = max (m (ix3 h r 0)) ((Finset.univ : Finset (Fin 512)).fold max (Ideal.ofBits .f32 0xFF800000#32)
          fun j => k1_pay10 (F := Ideal) q k msk (ix3 h r j)) := by
  unfold k1_pay11
  refine congrArg (max (m (ix3 h r 0))) ?_
  exact (keepdims_apply _ h r 0).trans (max_lane _ _ _ _ h r)

/-- The rescaling factor: the exponential of the old maximum minus the new one. -/
theorem pay12_apply (q : FVec Ideal S1x256x1024 .bf16) (k : FVec Ideal S1x512x1024 .bf16) (msk : FVec Ideal S1x1x512 .f32)
    (m m2 : FVec Ideal S16x256x1 .f32) (i : S16x256x1.Idx) :
    k1_pay12 (F := Ideal) q k msk m m2 i = Ideal.exp (m2 i - k1_pay11 (F := Ideal) q k msk m i) := rfl

/-- The scores relative to the new maximum. -/
theorem pay13_apply (q : FVec Ideal S1x256x1024 .bf16) (k : FVec Ideal S1x512x1024 .bf16) (msk : FVec Ideal S1x1x512 .f32)
    (m : FVec Ideal S16x256x1 .f32) (h : Fin 16) (r : Fin 256) (j : Fin 512) :
    k1_pay13 (F := Ideal) q k msk m (ix3 h r j)
      = k1_pay10 (F := Ideal) q k msk (ix3 h r j) - k1_pay11 (F := Ideal) q k msk m (ix3 h r 0) := by
  unfold k1_pay13
  exact congrArg (k1_pay10 (F := Ideal) q k msk (ix3 h r j) - ·) (spread512_apply _ h r j)

/-- The new sum of exponentials: the old one rescaled, plus the block's exponentials. -/
theorem pay2_apply (a : FVec Ideal S16x256x1 .f32) (p : FVec Ideal S16x256x512 .f32) (l : FVec Ideal S16x256x1 .f32)
    (h : Fin 16) (r : Fin 256) :
    k1_pay2 (F := Ideal) a p l (ix3 h r 0) = a (ix3 h r 0) * l (ix3 h r 0) + ∑ j : Fin 512, Ideal.exp (p (ix3 h r j)) := by
  unfold k1_pay2
  refine (congrFun (shapeCast_self _ _) _).trans ?_
  refine congrArg (a (ix3 h r 0) * l (ix3 h r 0) + ·) ?_
  exact (keepdims_apply _ h r 0).trans (sum_lane _ _ _ _ h r)

/-- The new weighted sum of value rows: the old one rescaled, plus the block's exponentials times its value rows. -/
theorem pay3_apply (v14 : FVec Ideal S16x512x64 .bf16) (a : FVec Ideal S16x256x1 .f32) (p : FVec Ideal S16x256x512 .f32)
    (acc : FVec Ideal S16x256x64 .f32) (h : Fin 16) (r : Fin 256) (w : Fin 64) :
    k1_pay3 (F := Ideal) v14 a p acc (ix3 h r w)
      = a (ix3 h r 0) * acc (ix3 h r w) + ∑ j : Fin 512, Ideal.exp (p (ix3 h r j)) * v14 (ix3 h j w) := by
  unfold k1_pay3
  refine (congrFun (shapeCast_self _ _) _).trans ?_
  refine congrArg₂ (· + ·) (congrArg (· * acc (ix3 h r w)) (spread64_apply a h r w)) ?_
  refine (Ideal.matmul_constant_zero_apply D2 none _ _ (ix3 h r w)).trans ?_
  refine (Equiv.sum_comp (contrEquiv1 D2 512 rfl rfl).symm _).symm.trans ?_
  refine Finset.sum_congr rfl fun j _ => ?_
  refine congrArg₂ (· * ·) ?_ ?_
  · exact congrArg (fun i => Ideal.exp (p i)) (D2_lhs h r w j)
  · exact congrArg v14 (D2_rhs h r w j)

/-- The maximum is stored as it is. -/
theorem pay4_eq (m : FVec Ideal S16x256x1 .f32) : k1_pay4 (F := Ideal) m = m := shapeCast_self _ _

/-- The reset values: a large negative number for the maximum, zero for the two sums. -/
theorem pay6_apply (i : S16x256x1.Idx) : k1_pay6 (F := Ideal) i = Ideal.ofBits .f32 0xFF333332#32 := rfl
theorem pay7_apply (i : S16x256x1.Idx) : k1_pay7 (F := Ideal) i = Ideal.ofBits .f32 0x00000000#32 := rfl
theorem pay8_apply (i : S16x256x64.Idx) : k1_pay8 (F := Ideal) i = Ideal.ofBits .f32 0x00000000#32 := rfl

/-- The result block at row r, column 64h + w: the weighted sum over the sum of exponentials, plus the residual. -/
theorem pay5_apply (acc : FVec Ideal S16x256x64 .f32) (l : FVec Ideal S16x256x1 .f32) (x : FVec Ideal S1x256x1024 .f32)
    (h : Fin 16) (r : Fin 256) (w : Fin 64) :
    k1_pay5 (F := Ideal) acc l x (ix3 0 r (col h w))
      = Ideal.div (acc (ix3 h r w)) (l (ix3 h r 0)) + x (ix3 0 r (col h w)) := by
  unfold k1_pay5
  refine (shapeCast_apply _ _ (ix3 0 r (col h w)) (ix2 r (col h w)) ?_).trans ?_
  · rw [Shape.rowMajor_val_two, Shape.rowMajor_val_three]
    show r.val * 1024 + (64 * h.val + w.val) = (0 * 256 + r.val) * 1024 + (64 * h.val + w.val)
    omega
  refine congrArg₂ (· + ·) ?_ ?_
  · refine (shapeCast_apply _ _ (ix2 r (col h w)) (ix3 r h w) ?_).trans ?_
    · rw [Shape.rowMajor_val_two, Shape.rowMajor_val_three]
      show (r.val * 16 + h.val) * 64 + w.val = r.val * 1024 + (64 * h.val + w.val)
      omega
    refine (transpose_apply _ _ _ (ix3 r h w) (ix3 h r w) ?_).trans ?_
    · intro b; match b with | ⟨0, _⟩ => rfl | ⟨1, _⟩ => rfl | ⟨2, _⟩ => rfl
    exact congrArg (Ideal.div (acc (ix3 h r w))) (spread64_apply l h r w)
  · refine shapeCast_apply _ _ (ix2 r (col h w)) (ix3 0 r (col h w)) ?_
    rw [Shape.rowMajor_val_two, Shape.rowMajor_val_three]
    show (0 * 256 + r.val) * 1024 + (64 * h.val + w.val) = r.val * 1024 + (64 * h.val + w.val)
    omega

end Cert.KernelIdeal.Hand.V1

end
-- ==== Proof.KI.V1Real.lean ====
/-
  One key block of the attention region on real data.  When the blocks are real numbers read as extended reals and
  the three running quantities of a row are real, the quantities after the block are real again: the new maximum is
  the larger of the old one and the row's greatest score, the sum of exponentials and the weighted sum of value rows
  are the old ones times exp (old maximum − new maximum) plus the block's terms.  The reset values are a real and two
  zeros; the stored result is the quotient plus the residual when the sum of exponentials is not zero.
-/
import proofs.«110207_j12077448037095_2_alg».proof.Proof.KI.V1Pay

set_option maxRecDepth 16384

noncomputable section

namespace Cert.KernelIdeal.Hand.V1

open Idealize.ShloMosaic Idealize.ShloMosaic.TcCoe
open Idealize.ShloMosaic.ValueIdx
open Cert.KernelIdeal Cert.KernelIdeal.Gen Cert.KernelIdeal.Hand
open Cert.Spec (col headOf)
open scoped BigOperators

/-- A finite sum of reals read as extended reals is the real sum. -/
theorem coe_sum {ι : Type} (S : Finset ι) (f : ι → ℝ) : ∑ i ∈ S, ((f i : ℝ) : EReal) = ((∑ i ∈ S, f i : ℝ) : EReal) := by
  classical
  induction S using Finset.induction_on with
  | empty => simp
  | insert a S ha ih => rw [Finset.sum_insert ha, Finset.sum_insert ha, ih, EReal.coe_add]

/-- The score on real blocks: the head's inner product times one eighth plus the mask term. -/
theorem pay10_real (q : FVec Ideal S1x256x1024 .bf16) (k : FVec Ideal S1x512x1024 .bf16) (msk : FVec Ideal S1x1x512 .f32)
    (qr : Fin 256 → Fin 1024 → ℝ) (kr : Fin 512 → Fin 1024 → ℝ) (mr : Fin 512 → ℝ)
    (hq : ∀ r e, q (ix3 0 r e) = ((qr r e : ℝ) : EReal)) (hk : ∀ j e, k (ix3 0 j e) = ((kr j e : ℝ) : EReal))
    (hm : ∀ j, msk (ix3 0 0 j) = ((mr j : ℝ) : EReal)) (h : Fin 16) (r : Fin 256) (j : Fin 512) :
    k1_pay10 (F := Ideal) q k msk (ix3 h r j)
      = (((∑ w : Fin 64, qr r (col h w) * kr j (col h w)) * (1 / 8) + mr j : ℝ) : EReal) := by
  rw [pay10_apply, Cert.Consts.ofBits_eighth, hm, EReal.coe_add, EReal.coe_mul, ← coe_sum]
  refine congrArg (· + _) (congrArg (· * _) (Finset.sum_congr rfl fun w _ => ?_))
  rw [hq, hk, EReal.coe_mul]

/-- One key block on a row whose running quantities are real. -/
theorem step1_real (q : FVec Ideal S1x256x1024 .bf16) (k v : FVec Ideal S1x512x1024 .bf16) (msk : FVec Ideal S1x1x512 .f32)
    (m l : FVec Ideal S16x256x1 .f32) (acc : FVec Ideal S16x256x64 .f32)
    (h : Fin 16) (r : Fin 256) (s : Fin 512 → ℝ) (vv : Fin 512 → Fin 64 → ℝ)
    (hs : ∀ j, k1_pay10 (F := Ideal) q k msk (ix3 h r j) = ((s j : ℝ) : EReal))
    (hv : ∀ j w, v (ix3 0 j (col h w)) = ((vv j w : ℝ) : EReal))
    (μ L : ℝ) (A : Fin 64 → ℝ) (h1 : m (ix3 h r 0) = ((μ : ℝ) : EReal)) (h2 : l (ix3 h r 0) = ((L : ℝ) : EReal))
    (h3 : ∀ w, acc (ix3 h r w) = ((A w : ℝ) : EReal)) :
    ∃ μ' : ℝ, (step1 (F := Ideal) (m, l, acc) q k v msk).1 (ix3 h r 0) = ((μ' : ℝ) : EReal)
      ∧ (step1 (F := Ideal) (m, l, acc) q k v msk).2.1 (ix3 h r 0)
          = ((Real.exp (μ - μ') * L + ∑ j : Fin 512, Real.exp (s j - μ') : ℝ) : EReal)
      ∧ ∀ w, (step1 (F := Ideal) (m, l, acc) q k v msk).2.2 (ix3 h r w)
          = ((Real.exp (μ - μ') * A w + ∑ j : Fin 512, Real.exp (s j - μ') * vv j w : ℝ) : EReal) := by
  obtain ⟨ρ, hρ⟩ := Cert.Lib.SoftmaxReal.fold_max_real (Finset.univ : Finset (Fin 512)) ⟨0, Finset.mem_univ _⟩
    (Ideal.ofBits .f32 0xFF800000#32) (by rw [Cert.Consts.ofBits_negInf]; exact bot_lt_top)
    (fun j => k1_pay10 (F := Ideal) q k msk (ix3 h r j)) (fun j _ => ⟨s j, hs j⟩)
  have h11 : k1_pay11 (F := Ideal) q k msk m (ix3 h r 0) = ((max μ ρ : ℝ) : EReal) := by
    rw [pay11_apply, h1, hρ]; exact (EReal.coe_strictMono.monotone.map_max).symm
  have h12 : k1_pay12 (F := Ideal) q k msk m m (ix3 h r 0) = ((Real.exp (μ - max μ ρ) : ℝ) : EReal) := by
    rw [pay12_apply, h1, h11, ← EReal.coe_sub]; exact Ideal.exp_coe _
  have h13 : ∀ j, Ideal.exp (k1_pay13 (F := Ideal) q k msk m (ix3 h r j)) = ((Real.exp (s j - max μ ρ) : ℝ) : EReal) := by
    intro j; rw [pay13_apply, hs, h11, ← EReal.coe_sub]; exact Ideal.exp_coe _
  refine ⟨max μ ρ, ?_, ?_, ?_⟩
  · show k1_pay4 (F := Ideal) (k1_pay11 (F := Ideal) q k msk m) (ix3 h r 0) = _
    rw [pay4_eq]; exact h11
  · show k1_pay2 (F := Ideal) (k1_pay12 (F := Ideal) q k msk m m) (k1_pay13 (F := Ideal) q k msk m) l (ix3 h r 0) = _
    rw [pay2_apply, h12, h2, EReal.coe_add, EReal.coe_mul, ← coe_sum]
    exact congrArg (_ + ·) (Finset.sum_congr rfl fun j _ => h13 j)
  · intro w
    show k1_pay3 (F := Ideal) (k1_pay9 (F := Ideal) v) (k1_pay12 (F := Ideal) q k msk m m) (k1_pay13 (F := Ideal) q k msk m) acc (ix3 h r w) = _
    rw [pay3_apply, h12, h3, EReal.coe_add, EReal.coe_mul, ← coe_sum]
    refine congrArg (_ + ·) (Finset.sum_congr rfl fun j _ => ?_)
    rw [h13, pay9_apply, hv, EReal.coe_mul]

/-- The reset values. -/
theorem init1_fst (i : S16x256x1.Idx) : (init1 (F := Ideal)).1 i = ((Cert.Consts.negBig : ℝ) : EReal) := by
  show k1_pay6 (F := Ideal) i = _
  rw [pay6_apply, Cert.Consts.ofBits_negBig]
theorem init1_snd (i : S16x256x1.Idx) : (init1 (F := Ideal)).2.1 i = ((0 : ℝ) : EReal) := by
  show k1_pay7 (F := Ideal) i = _
  rw [pay7_apply, Cert.Consts.ofBits_zero]; rfl
theorem init1_thd (i : S16x256x64.Idx) : (init1 (F := Ideal)).2.2 i = ((0 : ℝ) : EReal) := by
  show k1_pay8 (F := Ideal) i = _
  rw [pay8_apply, Cert.Consts.ofBits_zero]; rfl

/-- The stored result on real quantities with a nonzero sum of exponentials. -/
theorem pay5_real (acc : FVec Ideal S16x256x64 .f32) (l : FVec Ideal S16x256x1 .f32) (x : FVec Ideal S1x256x1024 .f32)
    (h : Fin 16) (r : Fin 256) (w : Fin 64) (A L X : ℝ) (hL : L ≠ 0)
    (ha : acc (ix3 h r w) = ((A : ℝ) : EReal)) (hl : l (ix3 h r 0) = ((L : ℝ) : EReal))
    (hx : x (ix3 0 r (col h w)) = ((X : ℝ) : EReal)) :
    k1_pay5 (F := Ideal) acc l x (ix3 0 r (col h w)) = ((A / L + X : ℝ) : EReal) := by
  rw [pay5_apply, ha, hl, hx, Ideal.div_coe hL, ← EReal.coe_mul, ← EReal.coe_add, mul_one_div]

end Cert.KernelIdeal.Hand.V1

end
-- ==== Proof.LibOnlineSoftmax.lean ====
/-
  Online softmax over the reals (Mathlib only).

  A softmax-weighted sum  ∑ₖ (exp (sₖ - M) / ∑ⱼ exp (sⱼ - M)) · vₖ  can be accumulated tile by tile, keeping a
  reference point μ, a denominator l and a numerator acc: on a new tile T with a new reference point μ',

      l'   = exp (μ - μ') · l   + ∑_{k ∈ T} exp (sₖ - μ')
      acc' = exp (μ - μ') · acc + ∑_{k ∈ T} exp (sₖ - μ') · vₖ ,

  the first tile entered with coefficient 0 (the reference point starts at -∞). The invariant is that after the
  tiles covering a set S, l and acc are the sums over S of exp (sₖ - μ) and exp (sₖ - μ) · vₖ. It holds for ANY
  reference points — that μ is the running maximum only matters for rounding — because moving the reference point
  from μ to μ' multiplies every term by exp (μ - μ'). At the end acc / l is the softmax-weighted sum, whatever
  point M the softmax itself is taken relative to.
-/
import Mathlib.Analysis.SpecialFunctions.Exp
import Mathlib.Algebra.BigOperators.Field
import Mathlib.Algebra.Order.BigOperators.Ring.Finset

namespace OnlineSoftmax

open Finset

variable {K : Type*} [DecidableEq K]

/-- The denominator over the keys of `S`, relative to the reference point `μ`. -/
noncomputable def den (s : K → ℝ) (S : Finset K) (μ : ℝ) : ℝ := ∑ k ∈ S, Real.exp (s k - μ)

/-- The numerator over the keys of `S`, relative to the reference point `μ`. -/
noncomputable def num (s v : K → ℝ) (S : Finset K) (μ : ℝ) : ℝ := ∑ k ∈ S, Real.exp (s k - μ) * v k

/-- Moving the reference point from `μ` to `μ'` multiplies a weighted sum of exponentials by `exp (μ - μ')`. -/
theorem rescale (s w : K → ℝ) (S : Finset K) (μ μ' : ℝ) :
    Real.exp (μ - μ') * ∑ k ∈ S, Real.exp (s k - μ) * w k = ∑ k ∈ S, Real.exp (s k - μ') * w k := by
  rw [Finset.mul_sum]
  refine Finset.sum_congr rfl fun k _ => ?_
  rw [← mul_assoc, ← Real.exp_add]
  congr 2
  ring

theorem den_rescale (s : K → ℝ) (S : Finset K) (μ μ' : ℝ) : Real.exp (μ - μ') * den s S μ = den s S μ' := by
  have h := rescale s (fun _ => (1 : ℝ)) S μ μ'
  simpa only [den, mul_one] using h

theorem num_rescale (s v : K → ℝ) (S : Finset K) (μ μ' : ℝ) : Real.exp (μ - μ') * num s v S μ = num s v S μ' :=
  rescale s v S μ μ'

/-- One step on the denominator: the keys of a new tile `T`, disjoint from those seen, at a new reference point. -/
theorem den_step (s : K → ℝ) {S T : Finset K} (h : Disjoint S T) (μ μ' : ℝ) :
    Real.exp (μ - μ') * den s S μ + den s T μ' = den s (S ∪ T) μ' := by
  rw [den_rescale]; unfold den; rw [Finset.sum_union h]

/-- One step on the numerator. -/
theorem num_step (s v : K → ℝ) {S T : Finset K} (h : Disjoint S T) (μ μ' : ℝ) :
    Real.exp (μ - μ') * num s v S μ + num s v T μ' = num s v (S ∪ T) μ' := by
  rw [num_rescale]; unfold num; rw [Finset.sum_union h]

/-- The denominator over a nonempty set is positive. -/
theorem den_pos (s : K → ℝ) {S : Finset K} (hS : S.Nonempty) (μ : ℝ) : 0 < den s S μ :=
  Finset.sum_pos (fun _ _ => Real.exp_pos _) hS

/-- The ratio does not depend on the reference point, and is the softmax-weighted sum relative to any `M`. -/
theorem num_div_den (s v : K → ℝ) {S : Finset K} (hS : S.Nonempty) (μ M : ℝ) :
    num s v S μ / den s S μ = ∑ k ∈ S, Real.exp (s k - M) / (∑ j ∈ S, Real.exp (s j - M)) * v k := by
  have he : Real.exp (μ - M) ≠ 0 := (Real.exp_pos _).ne'
  have h1 : num s v S μ / den s S μ = num s v S M / den s S M := by
    rw [← num_rescale s v S μ M, ← den_rescale s S μ M, mul_div_mul_left _ _ he]
  rw [h1]; unfold num; rw [Finset.sum_div]
  refine Finset.sum_congr rfl fun k _ => ?_
  unfold den; ring

/-! ## The whole run, tile by tile -/

/-- The keys of the first `j` tiles. -/
def seen (tile : ℕ → Finset K) (j : ℕ) : Finset K := (Finset.range j).biUnion tile

theorem seen_succ (tile : ℕ → Finset K) (j : ℕ) : seen tile (j + 1) = seen tile j ∪ tile j := by
  unfold seen; rw [Finset.range_add_one, Finset.biUnion_insert, Finset.union_comm]

theorem seen_disjoint (tile : ℕ → Finset K) (hd : ∀ i j, i ≠ j → Disjoint (tile i) (tile j)) (j : ℕ) :
    Disjoint (seen tile j) (tile j) := by
  unfold seen; rw [Finset.disjoint_biUnion_left]
  intro i hi; exact hd i j (Finset.mem_range.mp hi).ne

/-- THE RUN. Tiles pairwise disjoint; reference points `μ j` used on tile `j` (any reals); the first tile entered
    with coefficient `0`, every later tile `j` with `exp (μ (j-1) - μ j)`. After `j + 1` tiles the two accumulators are
    the sums over the keys seen, relative to `μ j`. -/
theorem run (s v : K → ℝ) (tile : ℕ → Finset K) (hd : ∀ i j, i ≠ j → Disjoint (tile i) (tile j)) (μ a l acc : ℕ → ℝ)
    (ha0 : a 0 = 0) (ha : ∀ j, a (j + 1) = Real.exp (μ j - μ (j + 1)))
    (hl : ∀ j, l (j + 1) = a j * l j + den s (tile j) (μ j))
    (hacc : ∀ j, acc (j + 1) = a j * acc j + num s v (tile j) (μ j)) (j : ℕ) :
    l (j + 1) = den s (seen tile (j + 1)) (μ j) ∧ acc (j + 1) = num s v (seen tile (j + 1)) (μ j) := by
  induction j with
  | zero =>
    have hs : seen tile 1 = tile 0 := by
      have h := seen_succ tile 0
      unfold seen at h ⊢
      rw [Finset.range_zero, Finset.biUnion_empty, Finset.empty_union] at h
      exact h
    have hl0 : l 1 = a 0 * l 0 + den s (tile 0) (μ 0) := hl 0
    have hacc0 : acc 1 = a 0 * acc 0 + num s v (tile 0) (μ 0) := hacc 0
    show l 1 = den s (seen tile 1) (μ 0) ∧ acc 1 = num s v (seen tile 1) (μ 0)
    rw [hl0, hacc0, ha0, hs, zero_mul, zero_mul, zero_add, zero_add]
    exact ⟨rfl, rfl⟩
  | succ j ih =>
    rw [hl (j + 1), hacc (j + 1), ha j, ih.1, ih.2, seen_succ tile (j + 1),
      den_step s (seen_disjoint tile hd (j + 1)), num_step s v (seen_disjoint tile hd (j + 1))]
    exact ⟨rfl, rfl⟩

/-- THE RESULT. If the first `n + 1` tiles cover a nonempty key set `S`, the final ratio is the softmax-weighted sum
    over `S`, the softmax taken relative to any point `M` (the maximum, in practice). -/
theorem run_result (s v : K → ℝ) (tile : ℕ → Finset K) (hd : ∀ i j, i ≠ j → Disjoint (tile i) (tile j)) (μ a l acc : ℕ → ℝ)
    (ha0 : a 0 = 0) (ha : ∀ j, a (j + 1) = Real.exp (μ j - μ (j + 1)))
    (hl : ∀ j, l (j + 1) = a j * l j + den s (tile j) (μ j))
    (hacc : ∀ j, acc (j + 1) = a j * acc j + num s v (tile j) (μ j))
    (n : ℕ) {S : Finset K} (hS : S.Nonempty) (hcover : seen tile (n + 1) = S) (M : ℝ) :
    acc (n + 1) / l (n + 1) = ∑ k ∈ S, Real.exp (s k - M) / (∑ j ∈ S, Real.exp (s j - M)) * v k := by
  obtain ⟨h1, h2⟩ := run s v tile hd μ a l acc ha0 ha hl hacc n
  rw [h1, h2, hcover]
  exact num_div_den s v hS (μ n) M

end OnlineSoftmax
-- ==== Proof.KI.V1Alg.lean ====
/-
  The online softmax over four consecutive blocks of 512 keys, over the reals, with the keys numbered by naturals.
  Relative to a reference point μ the denominator over the first 512·n keys is the sum of exp (s t − μ) and the
  numerator the sum of exp (s t − μ) · v t.  Moving the reference point from μ to μ' multiplies both by exp (μ − μ'),
  so one more block extends them by that block's terms; after four blocks the quotient is the softmax-weighted
  average written with the plain exponentials.
-/
import Mathlib.Analysis.SpecialFunctions.Exp
import Mathlib.Algebra.BigOperators.Field
import Mathlib.Algebra.BigOperators.Intervals
import proofs.«110207_j12077448037095_2_alg».proof.Proof.LibOnlineSoftmax

noncomputable section

namespace Cert.KernelIdeal.Hand.V1

open Finset
open scoped BigOperators

/-- The denominator over the first 512·n keys, relative to μ. -/
def Den (s : ℕ → ℝ) (n : ℕ) (μ : ℝ) : ℝ := ∑ t ∈ range (512 * n), Real.exp (s t - μ)

/-- The numerator over the first 512·n keys, relative to μ. -/
def Num (s v : ℕ → ℝ) (n : ℕ) (μ : ℝ) : ℝ := ∑ t ∈ range (512 * n), Real.exp (s t - μ) * v t

theorem Den_zero (s : ℕ → ℝ) (μ : ℝ) : Den s 0 μ = 0 := by
  unfold Den; rw [Nat.mul_zero, Finset.range_zero, Finset.sum_empty]

theorem Num_zero (s v : ℕ → ℝ) (μ : ℝ) : Num s v 0 μ = 0 := by
  unfold Num; rw [Nat.mul_zero, Finset.range_zero, Finset.sum_empty]

/-- One more block on the numerator (the denominator is the case v = 1). -/
theorem Num_step (s v : ℕ → ℝ) (n : ℕ) (μ μ' : ℝ) :
    Real.exp (μ - μ') * Num s v n μ + ∑ j : Fin 512, Real.exp (s (512 * n + j.val) - μ') * v (512 * n + j.val)
      = Num s v (n + 1) μ' := by
  have h1 : Real.exp (μ - μ') * Num s v n μ = ∑ t ∈ range (512 * n), Real.exp (s t - μ') * v t :=
    OnlineSoftmax.rescale s v (range (512 * n)) μ μ'
  have h2 : ∑ j : Fin 512, Real.exp (s (512 * n + j.val) - μ') * v (512 * n + j.val)
      = ∑ x ∈ range 512, Real.exp (s (512 * n + x) - μ') * v (512 * n + x) :=
    (Finset.sum_range fun x => Real.exp (s (512 * n + x) - μ') * v (512 * n + x)).symm
  rw [h1, h2]
  unfold Num
  rw [show 512 * (n + 1) = 512 * n + 512 from by ring, Finset.sum_range_add]

theorem Den_step (s : ℕ → ℝ) (n : ℕ) (μ μ' : ℝ) :
    Real.exp (μ - μ') * Den s n μ + ∑ j : Fin 512, Real.exp (s (512 * n + j.val) - μ') = Den s (n + 1) μ' := by
  have h := Num_step s (fun _ => 1) n μ μ'
  simpa only [Num, Den, mul_one] using h

theorem Den_pos (s : ℕ → ℝ) (n : ℕ) (μ : ℝ) : 0 < Den s (n + 1) μ :=
  Finset.sum_pos (fun _ _ => Real.exp_pos _) ⟨0, Finset.mem_range.mpr (by omega)⟩

/-- After four blocks the quotient is the softmax-weighted average with the plain exponentials. -/
theorem ratio (s v : ℕ → ℝ) (μ : ℝ) :
    Num s v 4 μ / Den s 4 μ
      = (∑ t : Fin 2048, Real.exp (s t.val) * v t.val) / (∑ t : Fin 2048, Real.exp (s t.val)) := by
  have he : Real.exp (μ - 0) ≠ 0 := (Real.exp_pos _).ne'
  have hn : Real.exp (μ - 0) * Num s v 4 μ = ∑ t ∈ range (512 * 4), Real.exp (s t - 0) * v t :=
    OnlineSoftmax.rescale s v (range (512 * 4)) μ 0
  have hd : Real.exp (μ - 0) * Den s 4 μ = ∑ t ∈ range (512 * 4), Real.exp (s t - 0) := by
    have h := OnlineSoftmax.rescale s (fun _ => (1 : ℝ)) (range (512 * 4)) μ 0
    simpa only [Den, mul_one] using h
  rw [← mul_div_mul_left _ _ he, hn, hd]
  simp only [sub_zero]
  rw [show 512 * 4 = 2048 from rfl, Finset.sum_range, Finset.sum_range]

end Cert.KernelIdeal.Hand.V1

end
-- ==== Proof.KI.V1Blk.lean ====
/-
  The blocks the attention region reads at a grid point, index by index.  Point t of the 2 × 8 × 4 grid is batch
  t / 32, query block t / 4 % 8 and key block t % 4.  The query and residual blocks are rows 256·(query block) … of
  the batch's [2048, 1024] slab, the key and value blocks rows 512·(key block) …, and the mask block columns
  512·(key block) … of the batch's mask row.
-/
import proofs.«110207_j12077448037095_2_alg».proof.Proof.KI.Data
import Idealize.ShloMosaic.Lib.ValueIdx
import Idealize.ShloMosaic.Lib.Pipeline.Value

set_option maxRecDepth 16384

noncomputable section

namespace Cert.KernelIdeal.Hand.V1

open Idealize.ShloMosaic Idealize.ShloMosaic.TcCoe
open Idealize.ShloMosaic.ValueIdx
open Idealize.ShloMosaic.Pipeline (Dat Cfg Window)
open Cert.KernelIdeal Cert.KernelIdeal.Gen Cert.KernelIdeal.Hand

variable {F : FTy → Type} [FloatOps F]

/-- The block index maps over the grid: point t is (batch, query block, key block) = (t / 32, t / 4 % 8, t % 4). -/
theorem idx_facts1 : ∀ t : Fin cfg1.N,
    (win1_0.index t (0 : Fin 3) = t.val / 32 ∧ win1_0.index t (1 : Fin 3) = t.val / 4 % 8 ∧ win1_0.index t (2 : Fin 3) = 0)
  ∧ (win1_1.index t (0 : Fin 3) = t.val / 32 ∧ win1_1.index t (1 : Fin 3) = t.val % 4 ∧ win1_1.index t (2 : Fin 3) = 0)
  ∧ (win1_2.index t (0 : Fin 3) = t.val / 32 ∧ win1_2.index t (1 : Fin 3) = t.val % 4 ∧ win1_2.index t (2 : Fin 3) = 0)
  ∧ (win1_3.index t (0 : Fin 3) = t.val / 32 ∧ win1_3.index t (1 : Fin 3) = 0 ∧ win1_3.index t (2 : Fin 3) = t.val % 4)
  ∧ (win1_4.index t (0 : Fin 3) = t.val / 32 ∧ win1_4.index t (1 : Fin 3) = t.val / 4 % 8 ∧ win1_4.index t (2 : Fin 3) = 0)
  ∧ (win1_5.index t (0 : Fin 3) = t.val / 32 ∧ win1_5.index t (1 : Fin 3) = t.val / 4 % 8 ∧ win1_5.index t (2 : Fin 3) = 0) :=
  (by decide +kernel : ∀ t : Fin grid1.N, _)

theorem lt64 (t : Fin cfg1.N) : t.val < 64 := by have := t.isLt; have h : cfg1.N = 64 := N_1; omega

/-- The batch, the first query row and the first key row of a point, as naturals. -/
abbrev bOf (n : ℕ) : ℕ := n / 32
abbrev qOf (n : ℕ) : ℕ := 256 * (n / 4 % 8)
abbrev kOf (n : ℕ) : ℕ := 512 * (n % 4)

theorem bOf_lt {n : ℕ} (h : n < 64) : bOf n < 2 := by show n / 32 < 2; omega
theorem qOf_lt (n : ℕ) (r : Fin 256) : qOf n + r.val < 2048 := by show 256 * (n / 4 % 8) + r.val < 2048; omega
theorem kOf_lt (n : ℕ) (j : Fin 512) : kOf n + j.val < 2048 := by show 512 * (n % 4) + j.val < 2048; omega

variable (V : (c : Dev nD) → (b : Ref sig .tc) → Buf (Elt F) ((c : Thread nD τ).loc b))

/-- The query block. -/
theorem iblk1_0_apply (c : Dev nD) (t : Fin cfg1.N) (r : Fin 256) (e : Fin 1024) :
    (iblk1 V c 0 t : Vec F S1x256x1024 .bf16) (ix3 0 r e)
      = (V c main_v3_0 : S2x2048x1024.Idx → F .bf16)
          (ix3 (⟨bOf t.val, bOf_lt (lt64 t)⟩ : Fin 2) (⟨qOf t.val + r.val, qOf_lt t.val r⟩ : Fin 2048) e) := by
  obtain ⟨⟨e0, e1, e2⟩, -⟩ := idx_facts1 t
  unfold iblk1
  rw [View.read_apply]
  show V c main_v3_0 _ = V c main_v3_0 _
  congr 1
  funext a
  apply Fin.ext
  match a with
  | ⟨0, _⟩ => show win1_0.index t (0 : Fin 3) * 1 + 1 * 0 = t.val / 32; omega
  | ⟨1, _⟩ => show win1_0.index t (1 : Fin 3) * 256 + 1 * r.val = 256 * (t.val / 4 % 8) + r.val; omega
  | ⟨2, _⟩ => show win1_0.index t (2 : Fin 3) * 1024 + 1 * e.val = e.val; omega

/-- The key block. -/
theorem iblk1_1_apply (c : Dev nD) (t : Fin cfg1.N) (j : Fin 512) (e : Fin 1024) :
    (iblk1 V c 1 t : Vec F S1x512x1024 .bf16) (ix3 0 j e)
      = (V c main_v3_1 : S2x2048x1024.Idx → F .bf16)
          (ix3 (⟨bOf t.val, bOf_lt (lt64 t)⟩ : Fin 2) (⟨kOf t.val + j.val, kOf_lt t.val j⟩ : Fin 2048) e) := by
  obtain ⟨-, ⟨e0, e1, e2⟩, -⟩ := idx_facts1 t
  unfold iblk1
  rw [View.read_apply]
  show V c main_v3_1 _ = V c main_v3_1 _
  congr 1
  funext a
  apply Fin.ext
  match a with
  | ⟨0, _⟩ => show win1_1.index t (0 : Fin 3) * 1 + 1 * 0 = t.val / 32; omega
  | ⟨1, _⟩ => show win1_1.index t (1 : Fin 3) * 512 + 1 * j.val = 512 * (t.val % 4) + j.val; omega
  | ⟨2, _⟩ => show win1_1.index t (2 : Fin 3) * 1024 + 1 * e.val = e.val; omega

/-- The value block. -/
theorem iblk1_2_apply (c : Dev nD) (t : Fin cfg1.N) (j : Fin 512) (e : Fin 1024) :
    (iblk1 V c 2 t : Vec F S1x512x1024 .bf16) (ix3 0 j e)
      = (V c main_v3_2 : S2x2048x1024.Idx → F .bf16)
          (ix3 (⟨bOf t.val, bOf_lt (lt64 t)⟩ : Fin 2) (⟨kOf t.val + j.val, kOf_lt t.val j⟩ : Fin 2048) e) := by
  obtain ⟨-, -, ⟨e0, e1, e2⟩, -⟩ := idx_facts1 t
  unfold iblk1
  rw [View.read_apply]
  show V c main_v3_2 _ = V c main_v3_2 _
  congr 1
  funext a
  apply Fin.ext
  match a with
  | ⟨0, _⟩ => show win1_2.index t (0 : Fin 3) * 1 + 1 * 0 = t.val / 32; omega
  | ⟨1, _⟩ => show win1_2.index t (1 : Fin 3) * 512 + 1 * j.val = 512 * (t.val % 4) + j.val; omega
  | ⟨2, _⟩ => show win1_2.index t (2 : Fin 3) * 1024 + 1 * e.val = e.val; omega

/-- The mask block. -/
theorem iblk1_3_apply (c : Dev nD) (t : Fin cfg1.N) (j : Fin 512) :
    (iblk1 V c 3 t : Vec F S1x1x512 .f32) (ix3 0 0 j)
      = (V c main_v9 : S2x1x2048.Idx → F .f32)
          (ix3 (⟨bOf t.val, bOf_lt (lt64 t)⟩ : Fin 2) 0 (⟨kOf t.val + j.val, kOf_lt t.val j⟩ : Fin 2048)) := by
  obtain ⟨-, -, -, ⟨e0, e1, e2⟩, -⟩ := idx_facts1 t
  unfold iblk1
  rw [View.read_apply]
  show V c main_v9 _ = V c main_v9 _
  congr 1
  funext a
  apply Fin.ext
  match a with
  | ⟨0, _⟩ => show win1_3.index t (0 : Fin 3) * 1 + 1 * 0 = t.val / 32; omega
  | ⟨1, _⟩ => show win1_3.index t (1 : Fin 3) * 1 + 1 * 0 = 0; omega
  | ⟨2, _⟩ => show win1_3.index t (2 : Fin 3) * 512 + 1 * j.val = 512 * (t.val % 4) + j.val; omega

/-- The residual block. -/
theorem iblk1_4_apply (c : Dev nD) (t : Fin cfg1.N) (r : Fin 256) (e : Fin 1024) :
    (iblk1 V c 4 t : Vec F S1x256x1024 .f32) (ix3 0 r e)
      = (V c main_arg0 : S2x2048x1024.Idx → F .f32)
          (ix3 (⟨bOf t.val, bOf_lt (lt64 t)⟩ : Fin 2) (⟨qOf t.val + r.val, qOf_lt t.val r⟩ : Fin 2048) e) := by
  obtain ⟨-, -, -, -, ⟨e0, e1, e2⟩, -⟩ := idx_facts1 t
  unfold iblk1
  rw [View.read_apply]
  show V c main_arg0 _ = V c main_arg0 _
  congr 1
  funext a
  apply Fin.ext
  match a with
  | ⟨0, _⟩ => show win1_4.index t (0 : Fin 3) * 1 + 1 * 0 = t.val / 32; omega
  | ⟨1, _⟩ => show win1_4.index t (1 : Fin 3) * 256 + 1 * r.val = 256 * (t.val / 4 % 8) + r.val; omega
  | ⟨2, _⟩ => show win1_4.index t (2 : Fin 3) * 1024 + 1 * e.val = e.val; omega

/-- The result window's block at a point, read off any contents of its array. -/
theorem blk5_read_apply (c : Dev nD) (G : Buf (Elt F) ((c : Thread nD τ).loc (Pipeline.arrRef spec1 5))) (t : Fin cfg1.N)
    (r : Fin 256) (e : Fin 1024) :
    (((cfg1.win 5).blk t).view.read (Elt F) G : Vec F S1x256x1024 .f32) (ix3 0 r e)
      = (G : S2x2048x1024.Idx → F .f32)
          (ix3 (⟨bOf t.val, bOf_lt (lt64 t)⟩ : Fin 2) (⟨qOf t.val + r.val, qOf_lt t.val r⟩ : Fin 2048) e) := by
  obtain ⟨-, -, -, -, -, ⟨e0, e1, e2⟩⟩ := idx_facts1 t
  rw [View.read_apply]
  show G _ = G _
  congr 1
  funext a
  apply Fin.ext
  match a with
  | ⟨0, _⟩ => show win1_5.index t (0 : Fin 3) * 1 + 1 * 0 = t.val / 32; omega
  | ⟨1, _⟩ => show win1_5.index t (1 : Fin 3) * 256 + 1 * r.val = 256 * (t.val / 4 % 8) + r.val; omega
  | ⟨2, _⟩ => show win1_5.index t (2 : Fin 3) * 1024 + 1 * e.val = e.val; omega

/-- An index of the result array is in point t's block iff each coordinate is in the block's range on its axis. -/
theorem mem_blk5 (t : Fin cfg1.N) (i : S2x2048x1024.Idx) :
    i ∈ ((cfg1.win 5).blk t).view.set ↔ ∀ a : Fin 3, win1_5.index t a * S1x256x1024.size a ≤ (i a).val ∧ (i a).val < win1_5.index t a * S1x256x1024.size a + S1x256x1024.size a := by
  show i ∈ ((View.whole main_v10).slice (win1_5.rect t)).set ↔ _
  rw [View.set_slice_whole, Rect.mem_set_unit]
  exact Iff.rfl

/-- Every index of the result array is in the block of a point at a last key block. -/
theorem cover5 (i : S2x2048x1024.Idx) :
    ∃ t : Fin cfg1.N, (cfg1.win 5).flush t = true ∧ i ∈ ((cfg1.win 5).blk t).view.set := by
  have h0 : (i 0).val < 2 := (i 0).isLt
  have h1 : (i 1).val < 2048 := (i 1).isLt
  have h2 : (i 2).val < 1024 := (i 2).isLt
  have hN : cfg1.N = 64 := N_1
  let t : Fin cfg1.N := ⟨32 * (i 0).val + 4 * ((i 1).val / 256) + 3, by omega⟩
  have ht : t.val = 32 * (i 0).val + 4 * ((i 1).val / 256) + 3 := rfl
  obtain ⟨-, -, -, -, -, ⟨e0, e1, e2⟩⟩ := idx_facts1 t
  refine ⟨t, (flush1_5 t).mpr (by omega), ?_⟩
  rw [mem_blk5]
  intro a
  match a with
  | ⟨0, _⟩ => show win1_5.index t (0 : Fin 3) * 1 ≤ (i 0).val ∧ (i 0).val < win1_5.index t (0 : Fin 3) * 1 + 1; omega
  | ⟨1, _⟩ => show win1_5.index t (1 : Fin 3) * 256 ≤ (i 1).val ∧ (i 1).val < win1_5.index t (1 : Fin 3) * 256 + 256; omega
  | ⟨2, _⟩ => show win1_5.index t (2 : Fin 3) * 1024 ≤ (i 2).val ∧ (i 2).val < win1_5.index t (2 : Fin 3) * 1024 + 1024; omega

end Cert.KernelIdeal.Hand.V1

end
-- ==== Proof.KI.V1Inv.lean ====
/-
  The three running quantities of the attention region after every grid point, on real data.  With the query, key,
  value, mask and residual arrays real, after the point of batch b, query block qb and key block kb the quantities of
  head h and query row s = 256·qb + r are: a real reference point μ, the sum over the first 512·(kb + 1) key rows of
  exp (score − μ), and the sum over those rows of exp (score − μ) times the value row — by induction on the point,
  each step moving the reference point and adding one block of 512 keys.  At a last key block the stored result is
  therefore the softmax-weighted average of the value rows plus the residual.
-/
import proofs.«110207_j12077448037095_2_alg».proof.Proof.KI.V1Real
import proofs.«110207_j12077448037095_2_alg».proof.Proof.KI.V1Alg
import proofs.«110207_j12077448037095_2_alg».proof.Proof.KI.V1Blk

set_option maxRecDepth 16384

noncomputable section

namespace Cert.KernelIdeal.Hand.V1

open Idealize.ShloMosaic Idealize.ShloMosaic.TcCoe
open Idealize.ShloMosaic.ValueIdx
open Idealize.ShloMosaic.Pipeline (Dat Cfg Window)
open Cert.KernelIdeal Cert.KernelIdeal.Gen Cert.KernelIdeal.Hand
open Cert.Spec (col headOf)
open scoped BigOperators

/-- The score of query row s against key row t in batch b, head h, the rows numbered by naturals (0 out of range). -/
def sN (qR kR : Cert.Spec.I3 → ℝ) (mR : Cert.Spec.IM → ℝ) (b s : ℕ) (h : Fin 16) (t : ℕ) : ℝ :=
  if hb : b < 2 ∧ s < 2048 ∧ t < 2048 then Cert.Spec.score qR kR mR ⟨b, hb.1⟩ h ⟨s, hb.2.1⟩ ⟨t, hb.2.2⟩ else 0

/-- Column 64h + w of value row t in batch b (0 out of range). -/
def vN (vR : Cert.Spec.I3 → ℝ) (b : ℕ) (h : Fin 16) (w : Fin 64) (t : ℕ) : ℝ :=
  if hb : b < 2 ∧ t < 2048 then vR (ix3 (⟨b, hb.1⟩ : Fin 2) (⟨t, hb.2⟩ : Fin 2048) (col h w)) else 0

section
variable (qR kR vR : Cert.Spec.I3 → ℝ) (mR : Cert.Spec.IM → ℝ) (xR : Cert.Spec.I3 → ℝ)

/-- The running quantities of the 256 query rows from s0 on, in batch b, after kk key blocks. -/
def RowInv (b s0 kk : ℕ) (st : St1 Ideal) : Prop := ∀ (h : Fin 16) (r : Fin 256), ∃ μ : ℝ,
    st.1 (ix3 h r 0) = ((μ : ℝ) : EReal)
  ∧ st.2.1 (ix3 h r 0) = ((Den (sN qR kR mR b (s0 + r.val) h) kk μ : ℝ) : EReal)
  ∧ ∀ w : Fin 64, st.2.2 (ix3 h r w) = ((Num (sN qR kR mR b (s0 + r.val) h) (vN vR b h w) kk μ : ℝ) : EReal)

/-- The reset values are the quantities after no key block. -/
theorem rowInv_init (b s0 : ℕ) : RowInv qR kR vR mR b s0 0 (init1 (F := Ideal)) := by
  intro h r
  refine ⟨Cert.Consts.negBig, init1_fst _, ?_, fun w => ?_⟩
  · rw [Den_zero]; exact init1_snd _
  · rw [Num_zero]; exact init1_thd _

/-- One key block: block kk of 512 key rows, on real blocks. -/
theorem rowInv_step (q : FVec Ideal S1x256x1024 .bf16) (k v : FVec Ideal S1x512x1024 .bf16) (msk : FVec Ideal S1x1x512 .f32)
    (b s0 kk : ℕ) (hb : b < 2) (hs0 : ∀ r : Fin 256, s0 + r.val < 2048) (hk0 : ∀ j : Fin 512, 512 * kk + j.val < 2048)
    (hq : ∀ (r : Fin 256) (e : Fin 1024), q (ix3 0 r e) = ((qR (ix3 (⟨b, hb⟩ : Fin 2) (⟨s0 + r.val, hs0 r⟩ : Fin 2048) e) : ℝ) : EReal))
    (hk : ∀ (j : Fin 512) (e : Fin 1024), k (ix3 0 j e) = ((kR (ix3 (⟨b, hb⟩ : Fin 2) (⟨512 * kk + j.val, hk0 j⟩ : Fin 2048) e) : ℝ) : EReal))
    (hv : ∀ (j : Fin 512) (e : Fin 1024), v (ix3 0 j e) = ((vR (ix3 (⟨b, hb⟩ : Fin 2) (⟨512 * kk + j.val, hk0 j⟩ : Fin 2048) e) : ℝ) : EReal))
    (hm : ∀ j : Fin 512, msk (ix3 0 0 j) = ((mR (ix3 (⟨b, hb⟩ : Fin 2) (0 : Fin 1) (⟨512 * kk + j.val, hk0 j⟩ : Fin 2048)) : ℝ) : EReal))
    (st : St1 Ideal) (hst : RowInv qR kR vR mR b s0 kk st) :
    RowInv qR kR vR mR b s0 (kk + 1) (step1 (F := Ideal) st q k v msk) := by
  intro h r
  obtain ⟨μ, h1, h2, h3⟩ := hst h r
  have hs : ∀ j : Fin 512, k1_pay10 (F := Ideal) q k msk (ix3 h r j)
      = ((sN qR kR mR b (s0 + r.val) h (512 * kk + j.val) : ℝ) : EReal) := by
    intro j
    refine (pay10_real q k msk _ _ _ hq hk hm h r j).trans ?_
    unfold sN
    rw [dif_pos ⟨hb, hs0 r, hk0 j⟩]
    rfl
  have hvv : ∀ (j : Fin 512) (w : Fin 64), v (ix3 0 j (col h w)) = ((vN vR b h w (512 * kk + j.val) : ℝ) : EReal) := by
    intro j w
    refine (hv j (col h w)).trans ?_
    unfold vN
    rw [dif_pos ⟨hb, hk0 j⟩]
  obtain ⟨μ', g1, g2, g3⟩ := step1_real q k v msk st.1 st.2.1 st.2.2 h r _ _ hs hvv μ _ _ h1 h2 h3
  refine ⟨μ', g1, g2.trans ?_, fun w => (g3 w).trans ?_⟩
  · exact congrArg _ (Den_step (sN qR kR mR b (s0 + r.val) h) kk μ μ')
  · exact congrArg _ (Num_step (sN qR kR mR b (s0 + r.val) h) (vN vR b h w) kk μ μ')

/-- The specification at row s of batch b, column 64h + w, with the keys numbered by naturals. -/
theorem att_eq (b : ℕ) (hb : b < 2) (s : ℕ) (hs : s < 2048) (h : Fin 16) (w : Fin 64) :
    Cert.Spec.att qR kR vR mR xR (ix3 (⟨b, hb⟩ : Fin 2) (⟨s, hs⟩ : Fin 2048) (col h w))
      = (∑ t : Fin 2048, Real.exp (sN qR kR mR b s h t.val) * vN vR b h w t.val)
          / (∑ t : Fin 2048, Real.exp (sN qR kR mR b s h t.val))
        + xR (ix3 (⟨b, hb⟩ : Fin 2) (⟨s, hs⟩ : Fin 2048) (col h w)) := by
  have hh : headOf (col h w) = h := Fin.ext (by show (64 * h.val + w.val) / 64 = h.val; omega)
  have e1 : ∀ t : Fin 2048, sN qR kR mR b s h t.val = Cert.Spec.score qR kR mR ⟨b, hb⟩ h ⟨s, hs⟩ t := fun t => by
    unfold sN; rw [dif_pos ⟨hb, hs, t.isLt⟩]
  have e2 : ∀ t : Fin 2048, vN vR b h w t.val = vR (ix3 (⟨b, hb⟩ : Fin 2) t (col h w)) := fun t => by
    unfold vN; rw [dif_pos ⟨hb, t.isLt⟩]
  simp only [e1, e2]
  unfold Cert.Spec.att
  show (∑ t : Fin 2048, Real.exp (Cert.Spec.score qR kR mR ⟨b, hb⟩ (headOf (col h w)) ⟨s, hs⟩ t) * vR (ix3 (⟨b, hb⟩ : Fin 2) t (col h w)))
      / (∑ t : Fin 2048, Real.exp (Cert.Spec.score qR kR mR ⟨b, hb⟩ (headOf (col h w)) ⟨s, hs⟩ t)) + _ = _
  rw [hh]

end

end Cert.KernelIdeal.Hand.V1

end
-- ==== Proof.KI.V1Run.lean ====
/-
  The attention region's running quantities at every grid point, and the block stored at a last key block, with the
  five arrays the region reads real: by induction on the point, a first key block starting from the reset values and
  every other one from what the point before left; the stored block of batch b and query block qb is the
  specification's rows 256·qb … of batch b.
-/
import proofs.«110207_j12077448037095_2_alg».proof.Proof.KI.V1Inv

set_option maxRecDepth 16384

noncomputable section

namespace Cert.KernelIdeal.Hand.V1

open Idealize.ShloMosaic Idealize.ShloMosaic.TcCoe
open Idealize.ShloMosaic.ValueIdx
open Idealize.ShloMosaic.Pipeline (Dat Cfg Window)
open Cert.KernelIdeal Cert.KernelIdeal.Gen Cert.KernelIdeal.Hand
open Cert.Spec (col headOf)
open scoped BigOperators

variable (V : (c : Dev nD) → (b : Ref sig .tc) → Buf (Elt Ideal) ((c : Thread nD τ).loc b)) (c : Dev nD)
variable (qR kR vR : Cert.Spec.I3 → ℝ) (mR : Cert.Spec.IM → ℝ) (xR : Cert.Spec.I3 → ℝ)

/-- One point's key block, from any quantities that are the first kk blocks' sums. -/
theorem inv_point (hq : V c main_v3_0 = fun i => ((qR i : ℝ) : EReal)) (hk : V c main_v3_1 = fun i => ((kR i : ℝ) : EReal))
    (hv : V c main_v3_2 = fun i => ((vR i : ℝ) : EReal)) (hm : V c main_v9 = fun i => ((mR i : ℝ) : EReal))
    (t : Fin cfg1.N) (st : St1 Ideal) (kk : ℕ) (hkk : kk = t.val % 4)
    (hst : RowInv qR kR vR mR (bOf t.val) (qOf t.val) kk st) :
    RowInv qR kR vR mR (bOf t.val) (qOf t.val) (kk + 1)
      (step1 (F := Ideal) st (iblk1 V c 0 t) (iblk1 V c 1 t) (iblk1 V c 2 t) (iblk1 V c 3 t)) := by
  subst hkk
  exact rowInv_step qR kR vR mR (iblk1 V c 0 t) (iblk1 V c 1 t) (iblk1 V c 2 t) (iblk1 V c 3 t) (bOf t.val) (qOf t.val) (t.val % 4)
    (bOf_lt (lt64 t)) (qOf_lt t.val) (kOf_lt t.val)
    (fun r e => (iblk1_0_apply V c t r e).trans (congrFun hq _))
    (fun j e => (iblk1_1_apply V c t j e).trans (congrFun hk _))
    (fun j e => (iblk1_2_apply V c t j e).trans (congrFun hv _))
    (fun j => (iblk1_3_apply V c t j).trans (congrFun hm _))
    st hst

/-- After point n the quantities are the sums over the first 512·(n % 4 + 1) key rows. -/
theorem inv_st1 (hq : V c main_v3_0 = fun i => ((qR i : ℝ) : EReal)) (hk : V c main_v3_1 = fun i => ((kR i : ℝ) : EReal))
    (hv : V c main_v3_2 = fun i => ((vR i : ℝ) : EReal)) (hm : V c main_v9 = fun i => ((mR i : ℝ) : EReal)) :
    ∀ (n : ℕ) (hn : n < cfg1.N), RowInv qR kR vR mR (bOf n) (qOf n) (n % 4 + 1) (st1 V c n hn)
  | 0, hn => inv_point V c qR kR vR mR hq hk hv hm ⟨0, hn⟩ (init1 (F := Ideal)) 0 rfl (rowInv_init qR kR vR mR _ _)
  | n + 1, hn => by
    show RowInv qR kR vR mR (bOf (n + 1)) (qOf (n + 1)) ((n + 1) % 4 + 1)
      (step1 (F := Ideal) (if (n + 1) % 4 = 0 then init1 (F := Ideal) else st1 V c n (Nat.lt_of_succ_lt hn))
        (iblk1 V c 0 ⟨n + 1, hn⟩) (iblk1 V c 1 ⟨n + 1, hn⟩) (iblk1 V c 2 ⟨n + 1, hn⟩) (iblk1 V c 3 ⟨n + 1, hn⟩))
    by_cases h4 : (n + 1) % 4 = 0
    · have key := inv_point V c qR kR vR mR hq hk hv hm ⟨n + 1, hn⟩ (init1 (F := Ideal)) 0 h4.symm (rowInv_init qR kR vR mR _ _)
      rw [if_pos h4, show (n + 1) % 4 + 1 = 0 + 1 from by omega]
      exact key
    · have ih := inv_st1 hq hk hv hm n (Nat.lt_of_succ_lt hn)
      have e1 : bOf (n + 1) = bOf n := by show (n + 1) / 32 = n / 32; omega
      have e2 : qOf (n + 1) = qOf n := by show 256 * ((n + 1) / 4 % 8) = 256 * (n / 4 % 8); omega
      have e3 : (n + 1) % 4 = n % 4 + 1 := by omega
      have hst : RowInv qR kR vR mR (bOf (n + 1)) (qOf (n + 1)) (n % 4 + 1) (st1 V c n (Nat.lt_of_succ_lt hn)) := by
        rw [e1, e2]; exact ih
      have key := inv_point V c qR kR vR mR hq hk hv hm ⟨n + 1, hn⟩ (st1 V c n (Nat.lt_of_succ_lt hn)) (n % 4 + 1) e3.symm hst
      rw [if_neg h4, e3]
      exact key

/-- The block a last key block stores: the specification's rows of the point's batch and query block. -/
theorem oOut1_apply (hq : V c main_v3_0 = fun i => ((qR i : ℝ) : EReal)) (hk : V c main_v3_1 = fun i => ((kR i : ℝ) : EReal))
    (hv : V c main_v3_2 = fun i => ((vR i : ℝ) : EReal)) (hm : V c main_v9 = fun i => ((mR i : ℝ) : EReal))
    (hx : V c main_arg0 = fun i => ((xR i : ℝ) : EReal))
    (t : Fin cfg1.N) (h3 : t.val % 4 = 3) (r : Fin 256) (e : Fin 1024) :
    (oOut1 V c t : Vec Ideal S1x256x1024 .f32) (ix3 0 r e)
      = ((Cert.Spec.att qR kR vR mR xR
            (ix3 (⟨bOf t.val, bOf_lt (lt64 t)⟩ : Fin 2) (⟨qOf t.val + r.val, qOf_lt t.val r⟩ : Fin 2048) e) : ℝ) : EReal) := by
  obtain ⟨h, w, rfl⟩ : ∃ (h : Fin 16) (w : Fin 64), e = col h w :=
    ⟨headOf e, ⟨e.val % 64, Nat.mod_lt _ (by decide)⟩, Fin.ext (by show e.val = 64 * (e.val / 64) + e.val % 64; omega)⟩
  obtain ⟨μ, h1, h2, h3'⟩ := inv_st1 V c qR kR vR mR hq hk hv hm t.val t.isLt h r
  have e4 : t.val % 4 + 1 = 4 := by omega
  rw [e4] at h2 h3'
  show k1_pay5 (F := Ideal) (st1 V c t.val t.isLt).2.2 (st1 V c t.val t.isLt).2.1 (iblk1 V c 4 t) (ix3 0 r (col h w)) = _
  refine (pay5_real (st1 V c t.val t.isLt).2.2 (st1 V c t.val t.isLt).2.1 (iblk1 V c 4 t) h r w _ _ _
    (Den_pos _ 3 μ).ne' (h3' w) h2 ((iblk1_4_apply V c t r (col h w)).trans (congrFun hx _))).trans ?_
  rw [att_eq qR kR vR mR xR _ (bOf_lt (lt64 t)) _ (qOf_lt t.val r) h w, ← ratio _ _ μ]

end Cert.KernelIdeal.Hand.V1

end
-- ==== Proof.KI.Val1.lean ====
/-
  The value of the attention region.  Whatever the TensorCore's buffers hold when the region is entered, if the
  query, key and value arrays, the additive mask and the residual array are real numbers read as extended reals, the
  array the region leaves in its result window is the specification's attention plus residual, index by index: each
  index lies in the block of exactly the points of its batch and query block, the block is written back at the last
  key block only, and what is written there is the specification's rows.
-/
import proofs.«110207_j12077448037095_2_alg».proof.Proof.KI.V1Run

set_option maxRecDepth 16384

noncomputable section

namespace Cert.KernelIdeal.Hand

open Idealize.ShloMosaic Idealize.ShloMosaic.TcCoe
open Idealize.ShloMosaic.ValueIdx
open Idealize.ShloMosaic.Pipeline (Dat Cfg Window)
open Cert.KernelIdeal Cert.KernelIdeal.Gen

/-- The result array of the attention region is the specification's attention plus residual. -/
theorem arr1_out (V : (c : Dev nD) → (b : Ref sig .tc) → Buf (Elt Ideal) ((c : Thread nD τ).loc b)) (c : Dev nD)
    (qR kR vR : Cert.Spec.I3 → ℝ) (mR : Cert.Spec.IM → ℝ) (xR : Cert.Spec.I3 → ℝ)
    (hq : V c main_v3_0 = fun i => ((qR i : ℝ) : EReal)) (hk : V c main_v3_1 = fun i => ((kR i : ℝ) : EReal))
    (hv : V c main_v3_2 = fun i => ((vR i : ℝ) : EReal)) (hm : V c main_v9 = fun i => ((mR i : ℝ) : EReal))
    (hx : V c main_arg0 = fun i => ((xR i : ℝ) : EReal)) :
    (dat1 (F := Ideal) V c).arrAt 5 cfg1.N = fun i => ((Cert.Spec.att qR kR vR mR xR i : ℝ) : EReal) := by
  refine (dat1 (F := Ideal) V c).arrAt_eq_of_cover 5 (fun i => ((Cert.Spec.att qR kR vR mR xR i : ℝ) : EReal))
    (fun t hf => ?_) (fun i => V1.cover5 i)
  have h3 : t.val % 4 = 3 := (flush1_5 t).mp hf
  show (cfg1.win 5).cut (grid1.coords t) ((dat1 (F := Ideal) V c).after 5 t) = _
  rw [after1_5]
  funext y
  have hy : y = ix3 (0 : Fin 1) (y 1) (y 2) := by
    funext a
    match a with
    | ⟨0, _⟩ => exact Fin.ext (by have h0 : (y 0).val < 1 := (y 0).isLt; show (y 0).val = 0; omega)
    | ⟨1, _⟩ => rfl
    | ⟨2, _⟩ => rfl
  rw [hy]
  exact (V1.oOut1_apply V c qR kR vR mR xR hq hk hv hm hx t h3 (y 1) (y 2)).trans
    (V1.blk5_read_apply (F := Ideal) c (fun i => ((Cert.Spec.att qR kR vR mR xR i : ℝ) : EReal)) t (y 1) (y 2)).symm

end Cert.KernelIdeal.Hand

end
-- ==== Proof.KI.HostVal.lean ====
/-
  What the two stretches of operations before the regions compute, read at F = the extended reals.  The three
  conversions of the weight matrices round to a narrower format, which is the identity on exact numbers: region 0
  finds each converted matrix equal to the launched one.  The eight operations before region 1 make the additive mask:
  the integer mask converted to a number, subtracted from one, times minus ten thousand, and given a unit middle axis;
  read at an index it is that arithmetic on the launched integer mask's entry.
-/
import proofs.«110207_j12077448037095_2_alg».proof.Proof.KI.Run
import proofs.«110207_j12077448037095_2_alg».proof.Proof.Consts
import Idealize.ShloMosaic.Lib.IdealHost
import Idealize.ShloMosaic.Lib.ValueIdx
import Idealize.ShloMosaic.Lib.Pipeline.Value

set_option maxRecDepth 16384

noncomputable section

namespace Cert.KernelIdeal.Hand

open Idealize.ShloMosaic Idealize.ShloMosaic.TcCoe Idealize.ShloMosaic.Tactic Idealize.ShloMosaic.ValueIdx
open Idealize.SL Idealize.SL.Sem
open Cert.KernelIdeal Cert.KernelIdeal.Gen

variable (m : (ℓ : Loc nD τ sig) → Buf (Elt Ideal) ℓ) (ρ : Dev nD → PrngReg)

/-! ## The converted weight matrices -/

/-- Region 0 finds the first converted weight matrix equal to the launched one. -/
theorem V1_v0_eq (c : Dev nD) : (V1 m ρ c main_v0 : S1024x1024.Idx → EReal) = m ((c : Thread nD τ).loc main_arg4) := by
  show StableHlo.after hostOps0 (W0 m ρ c) (Proc.devRef .tc main_v0) = _
  dsimp only [hostOps0]
  after_results
  rfl

/-- Region 0 finds the second converted weight matrix equal to the launched one. -/
theorem V1_v1_eq (c : Dev nD) : (V1 m ρ c main_v1 : S1024x1024.Idx → EReal) = m ((c : Thread nD τ).loc main_arg6) := by
  show StableHlo.after hostOps0 (W0 m ρ c) (Proc.devRef .tc main_v1) = _
  dsimp only [hostOps0]
  after_results
  rfl

/-- Region 0 finds the third converted weight matrix equal to the launched one. -/
theorem V1_v2_eq (c : Dev nD) : (V1 m ρ c main_v2 : S1024x1024.Idx → EReal) = m ((c : Thread nD τ).loc main_arg8) := by
  show StableHlo.after hostOps0 (W0 m ρ c) (Proc.devRef .tc main_v2) = _
  dsimp only [hostOps0]
  after_results
  rfl

/-! ## The additive mask -/

/-- Minus ten thousand times a difference of reals, read in the extended reals. -/
theorem mask_arith (z : ℤ) :
    ((-10000 : ℝ) : EReal) * (((1 : ℝ) : EReal) - (((z : ℤ) : ℝ) : EReal)) = (((-10000 : ℝ) * (1 - ((z : ℤ) : ℝ)) : ℝ) : EReal) := by
  rw [← EReal.coe_sub, ← EReal.coe_mul]

/-- The additive mask region 1 finds, at batch `b` and key row `t`: minus ten thousand times one minus the launched
    integer mask's entry. -/
theorem V3_mask_apply (c : Dev nD) (b : Fin 2) (t : Fin 2048) :
    (V3 m ρ c main_v9 : S2x1x2048.Idx → EReal) (ix3 b (0 : Fin 1) t)
      = (((-10000 : ℝ) * (1 - (((m ((c : Thread nD τ).loc main_arg1) (ix2 b t) : BitVec 32).toInt : ℤ) : ℝ)) : ℝ) : EReal) := by
  show StableHlo.after hostOps1 (W2 m ρ c) (Proc.devRef .tc main_v9) (ix3 b (0 : Fin 1) t) = _
  dsimp only [hostOps1]
  after_results
  -- the unit middle axis: entry (b, 0, t) of the result is entry (b, t) of the product
  have hsc := shapeCast_apply (mulf (broadcastInDim S2x2048 ![] bcast_S_S2x2048 (constant (F := Ideal) S_ .f32 0xC61C4000#32))
      (subf (broadcastInDim S2x2048 ![] bcast_S_S2x2048 (constant (F := Ideal) S_ .f32 0x3F800000#32))
        (sitofp .f32 (W2 m ρ c (Proc.devRef .tc main_arg1)))))
    shapeCasts_S2x2048_S2x1x2048 (ix3 b (0 : Fin 1) t) (ix2 b t) (by
      rw [Shape.rowMajor_val_two, Shape.rowMajor_val_three]
      show b.val * 2048 + t.val = (b.val * 1 + 0) * 2048 + t.val
      omega)
  refine Eq.trans hsc ?_
  -- the two constants, broadcast, and the integer mask's entry as a number
  have e1 : broadcastInDim S2x2048 ![] bcast_S_S2x2048 (constant (F := Ideal) S_ .f32 0xC61C4000#32) (ix2 b t) = ((-10000 : ℝ) : EReal) :=
    (broadcastInDim_scalar_apply _ _ _).trans Cert.Consts.ofBits_neg1e4
  have e2 : broadcastInDim S2x2048 ![] bcast_S_S2x2048 (constant (F := Ideal) S_ .f32 0x3F800000#32) (ix2 b t) = ((1 : ℝ) : EReal) :=
    (broadcastInDim_scalar_apply _ _ _).trans Cert.Consts.ofBits_one
  have e3 : sitofp (F := Ideal) .f32 (W2 m ρ c (Proc.devRef .tc main_arg1)) (ix2 b t)
      = ((((m ((c : Thread nD τ).loc main_arg1) (ix2 b t) : BitVec 32).toInt : ℤ) : ℝ) : EReal) :=
    congrArg (fun X : IVec S2x2048 32 => sitofp (F := Ideal) .f32 X (ix2 b t)) (W2_main_arg1 m ρ c)
  show (broadcastInDim S2x2048 ![] bcast_S_S2x2048 (constant (F := Ideal) S_ .f32 0xC61C4000#32) (ix2 b t) : EReal)
      * ((broadcastInDim S2x2048 ![] bcast_S_S2x2048 (constant (F := Ideal) S_ .f32 0x3F800000#32) (ix2 b t) : EReal)
        - (sitofp (F := Ideal) .f32 (W2 m ρ c (Proc.devRef .tc main_arg1)) (ix2 b t) : EReal)) = _
  rw [e1, e2, e3]
  exact mask_arith _

end Cert.KernelIdeal.Hand

end
-- ==== Proof.lean ====
/-
  The certificate's five claims.

  The kernel is two regions with host operations around them.  Region 0 normalises each row of x (mean, variance,
  reciprocal square root of the variance plus a positive offset, scale and shift) and multiplies the normalised rows
  by three weight matrices, adding a bias each time: queries, keys and values.  Region 1, per batch, head and block
  of 256 query rows, walks over four blocks of 512 key rows keeping a running maximum of the scores, the sum of the
  exponentials relative to it and the exponential-weighted sum of the value rows; after the fourth block the quotient
  of the last two plus the residual x is stored.  The reference computes the same layer normalisation and
  projections, the full score matrix divided by the square root of 64, a softmax over each row and the weighted sum
  of the value rows, plus x.

  Frames: each kernel program's frame is its run over four segments (a host stretch, a region, a host stretch, a
  region), every unscoped buffer read back at the end; the reference's is its run with the result dropped.
  Preservation: the idealization rewrote nothing, so there is nothing to preserve.
  Equality of the results at exact arithmetic: a change of float format is the identity, the factor 0.125 is the
  division by the square root of 64, adding minus ten thousand times (1 − mask) is subtracting ten thousand times
  it, and — every score being a real under the precondition — the quotient of the two running sums is the
  softmax-weighted average whatever number the exponentials were taken relative to, so the kernel's finite starting
  value for the running maximum and the reference's negative infinity give the same result.
-/
import proofs.«110207_j12077448037095_2_alg».proof.Defs
import proofs.«110207_j12077448037095_2_alg».proof.Proof.Gen.Kernel
import proofs.«110207_j12077448037095_2_alg».proof.Proof.Gen.KernelIdeal
import proofs.«110207_j12077448037095_2_alg».proof.Proof.Gen.ReferenceIdeal
import proofs.«110207_j12077448037095_2_alg».proof.Proof.Gen.Pre_finite_inputs
import proofs.«110207_j12077448037095_2_alg».proof.Proof.Frames
import proofs.«110207_j12077448037095_2_alg».proof.Proof.Alg
import proofs.«110207_j12077448037095_2_alg».proof.Proof.KI.Val0
import proofs.«110207_j12077448037095_2_alg».proof.Proof.KI.Val1
import proofs.«110207_j12077448037095_2_alg».proof.Proof.KI.HostVal

noncomputable section

namespace Cert.Proof

open Idealize.ShloMosaic Idealize.SL.Sem

/-- What the kernel's parts compute: the three projections, the attention, and the host operations' values. -/
theorem parts : Cert.Proof.Alg.Parts where
  arr0_q := Cert.KernelIdeal.Hand.arr0_q
  arr0_k := Cert.KernelIdeal.Hand.arr0_k
  arr0_v := Cert.KernelIdeal.Hand.arr0_v
  arr1_out := Cert.KernelIdeal.Hand.arr1_out
  host_w0 := Cert.KernelIdeal.Hand.V1_v0_eq
  host_w1 := Cert.KernelIdeal.Hand.V1_v1_eq
  host_w2 := Cert.KernelIdeal.Hand.V1_v2_eq
  host_mask := Cert.KernelIdeal.Hand.V3_mask_apply

/-- The reference runs to the end and leaves its arguments unchanged: its run with the result dropped. -/
theorem frame_ri : Cert.frame_ReferenceIdeal (hReferenceIdeal := Cert.ReferenceIdeal.Gen.facts)
    (hPre_finite_inputs := Cert.Pre_finite_inputs.Gen.facts) := fun m ρ _ =>
  (θ_run Cert.ReferenceIdeal.defs _ _).mono (fun _ h c => (h c).2) (Cert.ReferenceIdeal.Value.run (F := Ideal) m ρ)

theorem claim : Cert.Claim :=
  ⟨Cert.Kernel.Gen.facts, Cert.KernelIdeal.Gen.facts, Cert.ReferenceIdeal.Gen.facts, Cert.Pre_finite_inputs.Gen.facts,
    Cert.Proof.Frames.frame_k, Cert.Proof.Frames.frame_ki, frame_ri, trivial, Cert.Proof.Alg.algebraic parts⟩

end Cert.Proof

end
